-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.named_const.Statement Cert.KernelIdeal.κ "inv_temp" .f32 0x41A00000#32 ((268435456 / 13421773 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2x128 : Shape := ⟨3, ![4096, 2, 128]⟩
abbrev S4096 : Shape := ⟨1, ![4096]⟩
abbrev S_ : Shape := ⟨0, ![]⟩

class Facts : Prop where
  bcast_S_S4096x2x128 : S_.BroadcastsInDim S4096x2x128 (![] : Fin 0 → Fin S4096x2x128.rank)
  reducesTo_S4096x2x128_S_d0_1_2 : S4096x2x128.ReducesTo [0, 1, 2] S_
  h_S_ : 0 < S_.numel

variable [Facts]

def fn {F : FTy → Type} [FloatOps F] (main_arg0 : FVec F S4096x2x128 .f32) (main_arg1 : IVec S4096 32) : IVec S_ 1 :=
  let main_v0 : FVec F S4096x2x128 .f32 := Host.absf main_arg0
  let main_cst : FVec F S_ .f32 := constant S_ .f32 0x7F800000#32
  let main_v1 : FVec F S4096x2x128 .f32 := broadcastInDim S4096x2x128 ![] bcast_S_S4096x2x128 main_cst
  let main_v2 : IVec S4096x2x128 1 := cmpf .olt main_v0 main_v1
  let main_c : IVec S_ 1 := constantI S_ 1 1#1
  let main_v3 : IVec S_ 1 := (fun x v => Host.reduce IntOp.andi x v reducesTo_S4096x2x128_S_d0_1_2 h_S_) main_v2 main_c
  main_v3
-- ==== Kernel.lean ====
abbrev S4096x2x128 : Shape := ⟨3, ![4096, 2, 128]⟩
abbrev S4096 : Shape := ⟨1, ![4096]⟩
abbrev S2x4096x128 : Shape := ⟨3, ![2, 4096, 128]⟩
abbrev S8192x128 : Shape := ⟨2, ![8192, 128]⟩
abbrev S1x4096 : Shape := ⟨2, ![1, 4096]⟩
abbrev S2x4096 : Shape := ⟨2, ![2, 4096]⟩
abbrev S8192 : Shape := ⟨1, ![8192]⟩
abbrev S8192x1 : Shape := ⟨2, ![8192, 1]⟩
abbrev S1x8192 : Shape := ⟨2, ![1, 8192]⟩
abbrev S1024x128 : Shape := ⟨2, ![1024, 128]⟩
abbrev S1024x1 : Shape := ⟨2, ![1024, 1]⟩
abbrev S1x1024 : Shape := ⟨2, ![1, 1024]⟩
abbrev S128x1024 : Shape := ⟨2, ![128, 1024]⟩
abbrev S1024x1024 : Shape := ⟨2, ![1024, 1024]⟩
abbrev S1024 : Shape := ⟨1, ![1024]⟩
abbrev S_ : Shape := ⟨0, ![]⟩

abbrev nBuf : Space → Nat
  | .hbm => 61
  | .vmem => 15
  | .smem => 0
  | _ => 0

abbrev bufTy : (tb : Table) → Fin (tcTables nBuf tb) → BufTy
  | .hbm, ⟨0, _⟩ => ⟨S4096x2x128, .f32⟩
  | .hbm, ⟨1, _⟩ => ⟨S4096, .i32⟩
  | .hbm, ⟨2, _⟩ => ⟨S2x4096x128, .f32⟩
  | .hbm, ⟨3, _⟩ => ⟨S8192x128, .f32⟩
  | .hbm, ⟨4, _⟩ => ⟨S1x4096, .i32⟩
  | .hbm, ⟨5, _⟩ => ⟨S2x4096, .i32⟩
  | .hbm, ⟨6, _⟩ => ⟨S8192, .i32⟩
  | .hbm, ⟨7, _⟩ => ⟨S8192x1, .i32⟩
  | .hbm, ⟨8, _⟩ => ⟨S1x8192, .i32⟩
  | .hbm, ⟨9, _⟩ => ⟨S8192x1, .f32⟩
  | .hbm, ⟨10, _⟩ => ⟨S8192x1, .f32⟩
  | .hbm, ⟨11, _⟩ => ⟨S8192, .f32⟩
  | .hbm, ⟨12, _⟩ => ⟨S8192, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S8192, .f32⟩
  | .hbm, ⟨19, _⟩ => ⟨S8192, .i1⟩
  | .hbm, ⟨20, _⟩ => ⟨S_, .f32⟩
  | .hbm, ⟨21, _⟩ => ⟨S8192, .f32⟩
  | .hbm, ⟨22, _⟩ => ⟨S8192, .f32⟩
  | .hbm, ⟨23, _⟩ => ⟨S_, .f32⟩
  | .hbm, ⟨24, _⟩ => ⟨S_, .i1⟩
  | .hbm, ⟨25, _⟩ => ⟨S_, .f32⟩
  | .hbm, ⟨26, _⟩ => ⟨S_, .f32⟩
  | .hbm, ⟨27, _⟩ => ⟨S8192, .f32⟩
  | .hbm, ⟨28, _⟩ => ⟨S8192, .f32⟩
  | .hbm, ⟨29, _⟩ => ⟨S8192, .f32⟩
  | .hbm, ⟨30, _⟩ => ⟨S_, .f32⟩
  | .hbm, ⟨31, _⟩ => ⟨S_, .f32⟩
  | .hbm, ⟨32, _⟩ => ⟨S8192, .f32⟩
  | .hbm, ⟨33, _⟩ => ⟨S8192, .f32⟩
  | .hbm, ⟨34, _⟩ => ⟨S8192, .f32⟩
  | .hbm, ⟨35, _⟩ => ⟨S_, .f32⟩
  | .hbm, ⟨36, _⟩ => ⟨S8192, .f32⟩
  | .hbm, ⟨37, _⟩ => ⟨S8192, .i1⟩
  | .hbm, ⟨38, _⟩ => ⟨S_, .f32⟩
  | .hbm, ⟨39, _⟩ => ⟨S_, .f32⟩
  | .hbm, ⟨40, _⟩ => ⟨S8192, .f32⟩
  | .hbm, ⟨41, _⟩ => ⟨S8192, .f32⟩
  | .hbm, ⟨42, _⟩ => ⟨S8192, .f32⟩
  | .hbm, ⟨43, _⟩ => ⟨S8192, .f32⟩
  | .hbm, ⟨44, _⟩ => ⟨S_, .f32⟩
  | .hbm, ⟨45, _⟩ => ⟨S8192, .f32⟩
  | .hbm, ⟨46, _⟩ => ⟨S8192, .f32⟩
  | .hbm, ⟨47, _⟩ => ⟨S8192, .f32⟩
  | .hbm, ⟨48, _⟩ => ⟨S8192, .f32⟩
  | .hbm, ⟨49, _⟩ => ⟨S_, .f32⟩
  | .hbm, ⟨50, _⟩ => ⟨S8192, .f32⟩
  | .hbm, ⟨51, _⟩ => ⟨S8192, .i1⟩
  | .hbm, ⟨52, _⟩ => ⟨S8192, .f32⟩
  | .hbm, ⟨53, _⟩ => ⟨S_, .f32⟩
  | .hbm, ⟨54, _⟩ => ⟨S_, .f32⟩
  | .hbm, ⟨55, _⟩ => ⟨S8192, .f32⟩
  | .hbm, ⟨56, _⟩ => ⟨S8192, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S1024x1, .i32⟩
  | .local _ .vmem, ⟨5, _⟩ => ⟨S1024x1, .i32⟩
  | .local _ .vmem, ⟨6, _⟩ => ⟨S1x1024, .i32⟩
  | .local _ .vmem, ⟨7, _⟩ => ⟨S1x1024, .i32⟩
  | .local _ .vmem, ⟨8, _⟩ => ⟨S1024x1, .f32⟩
  | .local _ .vmem, ⟨9, _⟩ => ⟨S1024x1, .f32⟩
  | .local _ .vmem, ⟨10, _⟩ => ⟨S1024x1, .f32⟩
  | .local _ .vmem, ⟨11, _⟩ => ⟨S1024x1, .f32⟩
  | .local _ .vmem, ⟨12, _⟩ => ⟨S1024x1, .f32⟩
  | .local _ .vmem, ⟨13, _⟩ => ⟨S1024x1, .f32⟩
  | .local _ .vmem, ⟨14, _⟩ => ⟨S1024x1, .f32⟩
  | _, _ => ⟨S4096x2x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7_0 : Ref sig .tc := ⟨.hbm, 9, rfl⟩
abbrev main_v7_1 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_cst_4 : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_v17 : Ref sig .tc := ⟨.hbm, 29, rfl⟩
abbrev main_cst_5 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_v18 : Ref sig .tc := ⟨.hbm, 34, rfl⟩
abbrev main_cst_6 : Ref sig .tc := ⟨.hbm, 35, rfl⟩
abbrev main_v19 : Ref sig .tc := ⟨.hbm, 36, rfl⟩
abbrev main_v20 : Ref sig .tc := ⟨.hbm, 37, rfl⟩
abbrev main_cst_7 : Ref sig .tc := ⟨.hbm, 38, rfl⟩
abbrev main_call2_v0 : Ref sig .tc := ⟨.hbm, 39, rfl⟩
abbrev main_call2_v1 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_cst_8 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_cst_9 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_cst_10 : Ref sig .tc := ⟨.hbm, 53, rfl⟩
abbrev main_call4_v0 : Ref sig .tc := ⟨.hbm, 54, rfl⟩
abbrev main_call4_v1 : Ref sig .tc := ⟨.hbm, 55, rfl⟩
abbrev main_v31 : Ref sig .tc := ⟨.hbm, 56, rfl⟩
abbrev main_cst_11 : Ref sig .tc := ⟨.hbm, 57, rfl⟩
abbrev main_v32 : Ref sig .tc := ⟨.hbm, 58, rfl⟩
abbrev main_cst_12 : Ref sig .tc := ⟨.hbm, 59, rfl⟩
abbrev main_v33 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v51 : BitVec 1 := Scalar.cmpi .eq arg1 c7_i32
  let v52 : BitVec 32 := Scalar.extui v51
  let c0_i32_26 : BitVec 32 := 0#32
  let v53 : BitVec 1 := Scalar.cmpi .ne v52 c0_i32_26
  v53

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  transposes_S4096x2x128_S2x4096x128_1_0_2 : S4096x2x128.Transposes [1, 0, 2] S2x4096x128
  shapeCasts_S2x4096x128_S8192x128 : S2x4096x128.ShapeCasts S8192x128
  shapeCasts_S4096_S1x4096 : S4096.ShapeCasts S1x4096
  bcast_S1x4096_S2x4096_0_1 : S1x4096.BroadcastsInDim S2x4096 (![0, 1] : Fin 2 → Fin S2x4096.rank)
  shapeCasts_S2x4096_S8192 : S2x4096.ShapeCasts S8192
  shapeCasts_S8192_S8192x1 : S8192.ShapeCasts S8192x1
  shapeCasts_S8192_S1x8192 : S8192.ShapeCasts S1x8192
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  bitsLt_bf16_f32 : FTy.bits .bf16 < FTy.bits .f32
  transposes_S1024x128_p1_0_S128x1024 : S1024x128.Transposes [1, 0] S128x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1024x1_S1024x1024 : S1024x1.Broadcasts S1024x1024
  broadcasts_S1x1024_S1024x1024 : S1x1024.Broadcasts S1024x1024
  natLt_1_32 : 1 < 32
  reduces_S1024x1024_S1024 : S1024x1024.Reduces [1] S1024
  shapeCasts_S1024_S1024x1 : S1024.ShapeCasts S1024x1
  shapeCasts_S8192x1_S8192 : S8192x1.ShapeCasts S8192
  reducesTo_S8192_S_d0 : S8192.ReducesTo [0] S_
  h_S_ : 0 < S_.numel
  bcast_S_S8192 : S_.BroadcastsInDim S8192 (![] : Fin 0 → Fin S8192.rank)
  dot_S1024x128_S128x1024_S1024x1024_1_0_0_1_n_n_wf : DotDims.WF S1024x128 S128x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S8192x128.size a
  hwx0_0 : ∀ i : grid0.Coords, EltTy.bits .f32 = 32 ∨ (Rect.block (s := S8192x128) S1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S8192x128.size a
  hwx0_1 : ∀ i : grid0.Coords, EltTy.bits .f32 = 32 ∨ (Rect.block (s := S8192x128) S1024x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .i32 = 32 ∨ (Rect.block (s := S8192x1) S1024x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x8192.size a
  hwx0_3 : ∀ i : grid0.Coords, EltTy.bits .i32 = 32 ∨ (Rect.block (s := S1x8192) S1x1024.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S8192x1.size a
  hwx0_4 : ∀ i : grid0.Coords, EltTy.bits .f32 = 32 ∨ (Rect.block (s := S8192x1) S1024x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1.size a ≤ S8192x1.size a
  hwx0_5 : ∀ i : grid0.Coords, EltTy.bits .f32 = 32 ∨ (Rect.block (s := S8192x1) S1024x1.size (cc0_transform_5 i) (hinb0_5 i)).WholeWords (EltTy.packing .f32)

variable [Facts₀]

def dot_S1024x128_S128x1024_S1024x1024_1_0_0_1_n_n : DotDims S1024x128 S128x1024 S1024x1024 where
  lhsContracting := [1]
  rhsContracting := [0]
  lhsNonContracting := [0]
  rhsNonContracting := [1]
  lhsBatch := []
  rhsBatch := []
  wf := dot_S1024x128_S128x1024_S1024x1024_1_0_0_1_n_n_wf

abbrev win0_0 : Pipeline.Window sig grid0 :=
  Pipeline.Window.ofSpec (Memref.whole main_v1) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v7_0) S1024x1.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v7_1) S1024x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun i => !(k0_cond2 i == 1#1) | 5 => fun i => !(k0_cond2 i == 1#1) | ⟨_ + 6, h⟩ => absurd h (Nat.not_lt.2 (Nat.le_add_left _ _))

class Facts : Prop extends Facts₀ where

variable [Facts]
-- ==== ReferenceIdeal.lean ====
abbrev S4096x2x128 : Shape := ⟨3, ![4096, 2, 128]⟩
abbrev S4096 : Shape := ⟨1, ![4096]⟩
abbrev S2x4096x128 : Shape := ⟨3, ![2, 4096, 128]⟩
abbrev S8192x128 : Shape := ⟨2, ![8192, 128]⟩
abbrev S4096x1 : Shape := ⟨2, ![4096, 1]⟩
abbrev S1x4096 : Shape := ⟨2, ![1, 4096]⟩
abbrev S4096x4096 : Shape := ⟨2, ![4096, 4096]⟩
abbrev S1x4096x1x4096 : Shape := ⟨4, ![1, 4096, 1, 4096]⟩
abbrev S2x4096x2x4096 : Shape := ⟨4, ![2, 4096, 2, 4096]⟩
abbrev S8192x8192 : Shape := ⟨2, ![8192, 8192]⟩
abbrev S_ : Shape := ⟨0, ![]⟩
abbrev S2x4096 : Shape := ⟨2, ![2, 4096]⟩
abbrev S8192 : Shape := ⟨1, ![8192]⟩
abbrev S8192x1 : Shape := ⟨2, ![8192, 1]⟩
abbrev S1x8192 : Shape := ⟨2, ![1, 8192]⟩
abbrev S128x8192 : Shape := ⟨2, ![128, 8192]⟩

abbrev nBuf : Space → Nat
  | .hbm => 108
  | .vmem => 0
  | .smem => 0
  | _ => 0

abbrev bufTy : (tb : Table) → Fin (tcTables nBuf tb) → BufTy
  | .hbm, ⟨0, _⟩ => ⟨S4096x2x128, .f32⟩
  | .hbm, ⟨1, _⟩ => ⟨S4096, .i32⟩
  | .hbm, ⟨2, _⟩ => ⟨S2x4096x128, .f32⟩
  | .hbm, ⟨3, _⟩ => ⟨S8192x128, .f32⟩
  | .hbm, ⟨4, _⟩ => ⟨S4096x1, .i32⟩
  | .hbm, ⟨5, _⟩ => ⟨S1x4096, .i32⟩
  | .hbm, ⟨6, _⟩ => ⟨S4096x4096, .i32⟩
  | .hbm, ⟨7, _⟩ => ⟨S4096x4096, .i32⟩
  | .hbm, ⟨8, _⟩ => ⟨S4096x4096, .i1⟩
  | .hbm, ⟨9, _⟩ => ⟨S4096x4096, .f32⟩
  | .hbm, ⟨10, _⟩ => ⟨S1x4096x1x4096, .f32⟩
  | .hbm, ⟨11, _⟩ => ⟨S2x4096x2x4096, .f32⟩
  | .hbm, ⟨12, _⟩ => ⟨S8192x8192, .f32⟩
  | .hbm, ⟨13, _⟩ => ⟨S8192x8192, .i32⟩
  | .hbm, ⟨14, _⟩ => ⟨S8192x8192, .i32⟩
  | .hbm, ⟨15, _⟩ => ⟨S_, .i32⟩
  | .hbm, ⟨16, _⟩ => ⟨S8192x8192, .i32⟩
  | .hbm, ⟨17, _⟩ => ⟨S8192x8192, .i32⟩
  | .hbm, ⟨18, _⟩ => ⟨S8192x8192, .i1⟩
  | .hbm, ⟨19, _⟩ => ⟨S8192x8192, .f32⟩
  | .hbm, ⟨20, _⟩ => ⟨S_, .f32⟩
  | .hbm, ⟨21, _⟩ => ⟨S8192x8192, .f32⟩
  | .hbm, ⟨22, _⟩ => ⟨S8192x8192, .f32⟩
  | .hbm, ⟨23, _⟩ => ⟨S8192x8192, .f32⟩
  | .hbm, ⟨24, _⟩ => ⟨S1x4096, .i32⟩
  | .hbm, ⟨25, _⟩ => ⟨S2x4096, .i32⟩
  | .hbm, ⟨26, _⟩ => ⟨S8192, .i32⟩
  | .hbm, ⟨27, _⟩ => ⟨S8192x1, .i32⟩
  | .hbm, ⟨28, _⟩ => ⟨S1x8192, .i32⟩
  | .hbm, ⟨29, _⟩ => ⟨S8192x8192, .i32⟩
  | .hbm, ⟨30, _⟩ => ⟨S8192x8192, .i32⟩
  | .hbm, ⟨31, _⟩ => ⟨S8192x8192, .i1⟩
  | .hbm, ⟨32, _⟩ => ⟨S8192x8192, .f32⟩
  | .hbm, ⟨33, _⟩ => ⟨S128x8192, .f32⟩
  | .hbm, ⟨34, _⟩ => ⟨S8192x8192, .f32⟩
  | .hbm, ⟨35, _⟩ => ⟨S_, .f32⟩
  | .hbm, ⟨36, _⟩ => ⟨S8192x8192, .f32⟩
  | .hbm, ⟨37, _⟩ => ⟨S8192x8192, .f32⟩
  | .hbm, ⟨38, _⟩ => ⟨S8192x8192, .f32⟩
  | .hbm, ⟨39, _⟩ => ⟨S_, .f32⟩
  | .hbm, ⟨40, _⟩ => ⟨S8192, .f32⟩
  | .hbm, ⟨41, _⟩ => ⟨S8192x1, .f32⟩
  | .hbm, ⟨42, _⟩ => ⟨S8192x8192, .f32⟩
  | .hbm, ⟨43, _⟩ => ⟨S8192x8192, .f32⟩
  | .hbm, ⟨44, _⟩ => ⟨S8192x8192, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S1x4096, .i32⟩
  | .hbm, ⟨50, _⟩ => ⟨S4096x1, .i32⟩
  | .hbm, ⟨51, _⟩ => ⟨S4096x4096, .i32⟩
  | .hbm, ⟨52, _⟩ => ⟨S4096x4096, .i32⟩
  | .hbm, ⟨53, _⟩ => ⟨S4096x4096, .i1⟩
  | .hbm, ⟨54, _⟩ => ⟨S_, .i1⟩
  | .hbm, ⟨55, _⟩ => ⟨S4096, .i1⟩
  | .hbm, ⟨56, _⟩ => ⟨S1x4096, .i1⟩
  | .hbm, ⟨57, _⟩ => ⟨S2x4096, .i1⟩
  | .hbm, ⟨58, _⟩ => ⟨S8192, .i1⟩
  | .hbm, ⟨59, _⟩ => ⟨S_, .f32⟩
  | .hbm, ⟨60, _⟩ => ⟨S_, .f32⟩
  | .hbm, ⟨61, _⟩ => ⟨S8192, .f32⟩
  | .hbm, ⟨62, _⟩ => ⟨S8192, .f32⟩
  | .hbm, ⟨63, _⟩ => ⟨S8192, .f32⟩
  | .hbm, ⟨64, _⟩ => ⟨S_, .f32⟩
  | .hbm, ⟨65, _⟩ => ⟨S_, .f32⟩
  | .hbm, ⟨66, _⟩ => ⟨S8192, .f32⟩
  | .hbm, ⟨67, _⟩ => ⟨S8192, .f32⟩
  | .hbm, ⟨68, _⟩ => ⟨S8192, .f32⟩
  | .hbm, ⟨69, _⟩ => ⟨S_, .f32⟩
  | .hbm, ⟨70, _⟩ => ⟨S8192, .f32⟩
  | .hbm, ⟨71, _⟩ => ⟨S8192, .i1⟩
  | .hbm, ⟨72, _⟩ => ⟨S_, .i1⟩
  | .hbm, ⟨73, _⟩ => ⟨S_, .i1⟩
  | .hbm, ⟨74, _⟩ => ⟨S_, .f32⟩
  | .hbm, ⟨75, _⟩ => ⟨S8192, .f32⟩
  | .hbm, ⟨76, _⟩ => ⟨S8192, .i1⟩
  | .hbm, ⟨77, _⟩ => ⟨S_, .f32⟩
  | .hbm, ⟨78, _⟩ => ⟨S_, .f32⟩
  | .hbm, ⟨79, _⟩ => ⟨S8192, .f32⟩
  | .hbm, ⟨80, _⟩ => ⟨S8192, .f32⟩
  | .hbm, ⟨81, _⟩ => ⟨S8192, .f32⟩
  | .hbm, ⟨82, _⟩ => ⟨S8192, .f32⟩
  | .hbm, ⟨83, _⟩ => ⟨S8192x1, .f32⟩
  | .hbm, ⟨84, _⟩ => ⟨S_, .f32⟩
  | .hbm, ⟨85, _⟩ => ⟨S8192x1, .f32⟩
  | .hbm, ⟨86, _⟩ => ⟨S8192x1, .f32⟩
  | .hbm, ⟨87, _⟩ => ⟨S8192x1, .f32⟩
  | .hbm, ⟨88, _⟩ => ⟨S8192x1, .f32⟩
  | .hbm, ⟨89, _⟩ => ⟨S_, .f32⟩
  | .hbm, ⟨90, _⟩ => ⟨S8192, .f32⟩
  | .hbm, ⟨91, _⟩ => ⟨S_, .f32⟩
  | .hbm, ⟨92, _⟩ => ⟨S8192, .f32⟩
  | .hbm, ⟨93, _⟩ => ⟨S8192, .i1⟩
  | .hbm, ⟨94, _⟩ => ⟨S_, .f32⟩
  | .hbm, ⟨95, _⟩ => ⟨S_, .f32⟩
  | .hbm, ⟨96, _⟩ => ⟨S8192, .f32⟩
  | .hbm, ⟨97, _⟩ => ⟨S8192, .f32⟩
  | .hbm, ⟨98, _⟩ => ⟨S8192x8192, .f32⟩
  | .hbm, ⟨99, _⟩ => ⟨S8192x8192, .f32⟩
  | .hbm, ⟨100, _⟩ => ⟨S_, .f32⟩
  | .hbm, ⟨101, _⟩ => ⟨S8192, .f32⟩
  | .hbm, ⟨102, _⟩ => ⟨S8192, .f32⟩
  | .hbm, ⟨103, _⟩ => ⟨S8192, .f32⟩
  | .hbm, ⟨104, _⟩ => ⟨S_, .f32⟩
  | .hbm, ⟨105, _⟩ => ⟨S_, .f32⟩
  | .hbm, ⟨106, _⟩ => ⟨S_, .f32⟩
  | .hbm, ⟨107, _⟩ => ⟨S_, .f32⟩
  | _, _ => ⟨S4096x2x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_c : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_cst : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_cst_0 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_cst_1 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_cst_2 : Ref sig .tc := ⟨.hbm, 45, rfl⟩
abbrev main_v39 : Ref sig .tc := ⟨.hbm, 46, rfl⟩
abbrev main_cst_3 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_c_4 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_cst_5 : Ref sig .tc := ⟨.hbm, 59, rfl⟩
abbrev main_call0_v0 : Ref sig .tc := ⟨.hbm, 60, rfl⟩
abbrev main_call0_v1 : Ref sig .tc := ⟨.hbm, 61, rfl⟩
abbrev main_call0_v2 : Ref sig .tc := ⟨.hbm, 62, rfl⟩
abbrev main_v50 : Ref sig .tc := ⟨.hbm, 63, rfl⟩
abbrev main_cst_6 : Ref sig .tc := ⟨.hbm, 64, rfl⟩
abbrev main_call1_v0 : Ref sig .tc := ⟨.hbm, 65, rfl⟩
abbrev main_call1_v1 : Ref sig .tc := ⟨.hbm, 66, rfl⟩
abbrev main_call1_v2 : Ref sig .tc := ⟨.hbm, 67, rfl⟩
abbrev main_v51 : Ref sig .tc := ⟨.hbm, 68, rfl⟩
abbrev main_cst_7 : Ref sig .tc := ⟨.hbm, 69, rfl⟩
abbrev main_v52 : Ref sig .tc := ⟨.hbm, 70, rfl⟩
abbrev main_v53 : Ref sig .tc := ⟨.hbm, 71, rfl⟩
abbrev main_c_8 : Ref sig .tc := ⟨.hbm, 72, rfl⟩
abbrev main_v54 : Ref sig .tc := ⟨.hbm, 73, rfl⟩
abbrev main_cst_9 : Ref sig .tc := ⟨.hbm, 74, rfl⟩
abbrev main_v55 : Ref sig .tc := ⟨.hbm, 75, rfl⟩
abbrev main_v56 : Ref sig .tc := ⟨.hbm, 76, rfl⟩
abbrev main_cst_10 : Ref sig .tc := ⟨.hbm, 77, rfl⟩
abbrev main_call2_v0 : Ref sig .tc := ⟨.hbm, 78, rfl⟩
abbrev main_call2_v1 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_cst_11 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_cst_12 : Ref sig .tc := ⟨.hbm, 89, rfl⟩
abbrev main_v65 : Ref sig .tc := ⟨.hbm, 90, rfl⟩
abbrev main_cst_13 : Ref sig .tc := ⟨.hbm, 91, rfl⟩
abbrev main_v66 : Ref sig .tc := ⟨.hbm, 92, rfl⟩
abbrev main_v67 : Ref sig .tc := ⟨.hbm, 93, rfl⟩
abbrev main_cst_14 : Ref sig .tc := ⟨.hbm, 94, rfl⟩
abbrev main_call4_v0 : Ref sig .tc := ⟨.hbm, 95, rfl⟩
abbrev main_call4_v1 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_cst_15 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_cst_16 : Ref sig .tc := ⟨.hbm, 104, rfl⟩
abbrev main_v74 : Ref sig .tc := ⟨.hbm, 105, rfl⟩
abbrev main_cst_17 : Ref sig .tc := ⟨.hbm, 106, rfl⟩
abbrev main_v75 : Ref sig .tc := ⟨.hbm, 107, rfl⟩

abbrev nD : Nat := 1
abbrev τ : Topo := Topo.v7x

variable {F : FTy → Type} [FloatOps F]

class Facts₀ : Prop where
  transposes_S4096x2x128_S2x4096x128_1_0_2 : S4096x2x128.Transposes [1, 0, 2] S2x4096x128
  shapeCasts_S2x4096x128_S8192x128 : S2x4096x128.ShapeCasts S8192x128
  bcast_S4096_S4096x1_0 : S4096.BroadcastsInDim S4096x1 (![0] : Fin 1 → Fin S4096x1.rank)
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  shapeCasts_S4096x4096_S1x4096x1x4096 : S4096x4096.ShapeCasts S1x4096x1x4096
  bcast_S1x4096x1x4096_S2x4096x2x4096_0_1_2_3 : S1x4096x1x4096.BroadcastsInDim S2x4096x2x4096 (![0, 1, 2, 3] : Fin 4 → Fin S2x4096x2x4096.rank)
  shapeCasts_S2x4096x2x4096_S8192x8192 : S2x4096x2x4096.ShapeCasts S8192x8192
  bcast_S_S8192x8192 : S_.BroadcastsInDim S8192x8192 (![] : Fin 0 → Fin S8192x8192.rank)
  shapeCasts_S4096_S1x4096 : S4096.ShapeCasts S1x4096
  bcast_S1x4096_S2x4096_0_1 : S1x4096.BroadcastsInDim S2x4096 (![0, 1] : Fin 2 → Fin S2x4096.rank)
  shapeCasts_S2x4096_S8192 : S2x4096.ShapeCasts S8192
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S8192x128_S128x8192_1_0 : S8192x128.Transposes [1, 0] S128x8192
  reducesTo_S8192x8192_S8192_d1 : S8192x8192.ReducesTo [1] S8192
  h_S_ : 0 < S_.numel
  reducesTo_S8192x8192_S_d0_1 : S8192x8192.ReducesTo [0, 1] S_
  reducesTo_S4096x4096_S4096_d1 : S4096x4096.ReducesTo [1] S4096
  bcast_S_S8192 : S_.BroadcastsInDim S8192 (![] : Fin 0 → Fin S8192.rank)
  reducesTo_S8192_S_d0 : S8192.ReducesTo [0] S_
  bcast_S_S8192x1 : S_.BroadcastsInDim S8192x1 (![] : Fin 0 → Fin S8192x1.rank)
  dot_S8192x128_S128x8192_S8192x8192_1_0_0_1_n_n_wf : DotDims.WF S8192x128 S128x8192 S8192x8192 [1] [0] [0] [1] [] []

variable [Facts₀]

def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf

class Facts : Prop extends Facts₀ where

variable [Facts]
-- ==== Proof.ReferenceFrame.lean ====
/-
  The reference's run, as far as the frame needs it: @main of the reference is a straight line of host operations (the
  list `ops`), so every weakly fair execution terminates, faults nowhere, and no operation writes an argument array:
  both end as they were launched.
-/
import proofs.«127721_j16621523436335_1_alg».proof.Proof.ReferenceRun

noncomputable section

namespace Cert.ReferenceIdeal.RefFrame

open Cert.ReferenceIdeal Cert.ReferenceIdeal.Gen Cert.ReferenceIdeal.Value Idealize.ShloMosaic Idealize.ShloMosaic.TcCoe Idealize.SL.Sem Idealize.ShloMosaic.StableHlo

variable {F : FTy → Type} [FloatOps F]

set_option maxRecDepth 8192 in
/-- Every weakly fair execution of the reference terminates with both argument arrays unchanged. -/
theorem run_args (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_arg0).trans (by after_results_simp <;> rfl),
      (h c main_arg1).trans (by after_results_simp <;> rfl)⟩)
    (run_seq scopedRefs_eq scopedSems_eq defs main (fun _ => ops) main_eq (fun _ => ops_sub) m ρ)

end Cert.ReferenceIdeal.RefFrame

end
-- ==== Proof.LibOnlineSoftmax.lean ====
/-
  A sum of exponentials shifted by the maximum, accumulated chunk by chunk, on the extended reals.

  For finitely many real scores `x j`, a pass over pairwise disjoint chunks keeps two numbers:
    `m` — the maximum of the scores seen so far, `−∞` before the first chunk;
    `l` — the sum over the scores seen so far of `exp (x j − m)`, `0` before the first chunk;
  and at a new, non-empty chunk `T` it replaces them by
    `m' = max m (max over T of x j)`,   `l' = l · exp (m − m') + Σ over T of exp (x j − m')`.
  The update keeps both descriptions: `m'` is the maximum over the scores seen including `T`, and `l'` the sum
  over them of `exp (x j − m')`. Before the first chunk `l = 0`, so the rescaled old sum vanishes whatever
  `exp (−∞ − m')` is; afterwards every quantity is a real number and the identity is
  `exp (x − m) · exp (m − m') = exp (x − m')`, summed. After the last chunk `l` is therefore the two-pass value
  `Σ over all j of exp (x j − max over all j of x j)`.
-/
import Idealize.ShloMosaic.PureOps.Ideal

noncomputable section

namespace OnlineSoftmax

open Idealize.ShloMosaic

variable {ι : Type} [DecidableEq ι]

/-- The maximum of the scores over `S` as an extended real; `−∞` over the empty set. -/
def runMax (x : ι → ℝ) (S : Finset ι) : EReal := S.sup fun j => (x j : EReal)

/-- The sum over `S` of `exp (x j − m)`. -/
def runSum (x : ι → ℝ) (S : Finset ι) (m : EReal) : EReal := ∑ j ∈ S, Ideal.exp ((x j : EReal) - m)

theorem runMax_empty (x : ι → ℝ) : runMax x ∅ = ⊥ := Finset.sup_empty

theorem runSum_empty (x : ι → ℝ) (m : EReal) : runSum x ∅ m = 0 := Finset.sum_empty

/-- The maximum over a union is the larger of the two maxima. -/
theorem runMax_union (x : ι → ℝ) (S T : Finset ι) : max (runMax x S) (runMax x T) = runMax x (S ∪ T) := by
  unfold runMax
  rw [Finset.sup_union]

/-- Over a non-empty set the maximum of real scores is a real number. -/
theorem runMax_real (x : ι → ℝ) {S : Finset ι} (hS : S.Nonempty) : ∃ a : ℝ, runMax x S = (a : EReal) := by
  obtain ⟨j, hj⟩ := hS
  have hbot : runMax x S ≠ ⊥ := by
    intro h
    have hle : ((x j : ℝ) : EReal) ≤ runMax x S := Finset.le_sup (f := fun j => (x j : EReal)) hj
    rw [h] at hle
    exact EReal.coe_ne_bot _ (le_bot_iff.mp hle)
  have htop : runMax x S ≠ ⊤ := by
    apply ne_of_lt
    unfold runMax
    rw [Finset.sup_lt_iff (by exact bot_lt_top)]
    intro b _
    exact EReal.coe_lt_top _
  exact ⟨(runMax x S).toReal, (EReal.coe_toReal htop hbot).symm⟩

/-- A real sum read as an extended real is the sum of the terms read as extended reals. -/
theorem coe_sum (S : Finset ι) (f : ι → ℝ) : ((∑ j ∈ S, f j : ℝ) : EReal) = ∑ j ∈ S, (f j : EReal) := by
  induction S using Finset.induction_on with
  | empty => simp
  | insert j S hj ih => rw [Finset.sum_insert hj, Finset.sum_insert hj, EReal.coe_add, ih]

/-- With a real shift, the shifted sum of exponentials is a real number. -/
theorem runSum_coe (x : ι → ℝ) (S : Finset ι) (a : ℝ) :
    runSum x S (a : EReal) = ((∑ j ∈ S, Real.exp (x j - a) : ℝ) : EReal) := by
  unfold runSum
  rw [coe_sum]
  refine Finset.sum_congr rfl fun j _ => ?_
  rw [← EReal.coe_sub]
  rfl

/-- The update at a new non-empty chunk `T` disjoint from the scores `S` seen so far: the old sum rescaled from
    the old maximum to the new one, plus the chunk's terms at the new maximum, is the sum over `S ∪ T` at the new
    maximum. `S` may be empty: then the old maximum is `−∞`, the old sum `0`, and the product is `0`. -/
theorem step (x : ι → ℝ) (S T : Finset ι) (hd : Disjoint S T) (hT : T.Nonempty) :
    runSum x S (runMax x S) * Ideal.exp (runMax x S - runMax x (S ∪ T)) + runSum x T (runMax x (S ∪ T))
      = runSum x (S ∪ T) (runMax x (S ∪ T)) := by
  obtain ⟨b, hb⟩ := runMax_real x (hT.mono (Finset.subset_union_right (s₁ := S)))
  rcases S.eq_empty_or_nonempty with rfl | hS
  · rw [runSum_empty, zero_mul, zero_add, Finset.empty_union]
  · obtain ⟨a, ha⟩ := runMax_real x hS
    rw [hb, ha, runSum_coe, runSum_coe, runSum_coe, ← EReal.coe_sub]
    show ((_ : ℝ) : EReal) * ((Real.exp (a - b) : ℝ) : EReal) + _ = _
    rw [← EReal.coe_mul, ← EReal.coe_add, Finset.sum_union hd, Finset.sum_mul]
    congr 2
    refine Finset.sum_congr rfl fun j _ => ?_
    rw [← Real.exp_add]
    congr 1
    ring

end OnlineSoftmax

end
-- ==== Proof.KData.lean ====
/-
  The proof data of the kernel region, for any float carrier.

  The grid is 8 × 8: point `t` works on row tile `t / 8` (1024 rows of the [8192, 128] matrix) against column tile `t % 8`.
  Three whole [1024, 1] accumulators are kept in scratch between the points of a row tile: the running row maximum, the
  rescaled running row sum of exponentials, and the running row count of differing labels. At column tile 0 they are reset
  (to −∞, 0, 0) before use; at every column tile they are updated from the two feature blocks and the two label blocks; at
  column tile 7 the sum and the count are stored into the two output blocks, which are written back there and nowhere else.
  `accAt n` is what the three accumulators hold after the first `n` points, by recursion on `n`.
-/
import proofs.«127721_j16621523436335_1_alg».proof.Proof.Gen.KernelIdeal.Launch
import proofs.«127721_j16621523436335_1_alg».proof.Proof.Gen.KernelIdeal.Skeleton
import proofs.«127721_j16621523436335_1_alg».proof.Proof.Gen.KernelIdeal.Points
import Idealize.ShloMosaic.Lib.Pipeline.FrameBody
import Idealize.ShloMosaic.Lib.Pipeline.FrameSuffix
import Idealize.ShloMosaic.Lib.Pipeline.Regions
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

/-! ## The buffers when the region is entered -/

/-- Core `c`'s buffers at launch, -/
abbrev W0 (c : Dev nD) : Valuation τ sig (Elt F) := fun b => m (c, b)
/-- after the seven host operations before the region (the views stacked into one matrix, the labels repeated and laid out
    as a column and as a row), -/
abbrev W1 (c : Dev nD) : Valuation τ sig (Elt F) := StableHlo.after hostOps0 (W0 m c)
/-- and the same read at a TensorCore reference. -/
abbrev V (c : Dev nD) (b : Ref sig .tc) : Buf (Elt F) ((c : Thread nD τ).loc b) := W1 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The three accumulators -/

/-- The running maximum, the rescaled running sum and the running count of one row tile. -/
structure Acc (F : FTy → Type) where
  mx : Vec F S1024x1 .f32
  sm : Vec F S1024x1 .f32
  ct : Vec F S1024x1 .f32

/-- The reset at column tile 0: −∞, 0, 0. -/
def accReset : Acc F := ⟨k0_pay4, k0_pay5, k0_pay6⟩

/-- One point's update from the row tile's features `xq`, the column tile's features `xk`, and their labels. -/
def accStep (xq xk : Vec F S1024x128 .f32) (lq : Vec F S1024x1 .i32) (lk : Vec F S1x1024 .i32) (a : Acc F) : Acc F :=
  ⟨k0_pay3 (k0_pay9 xq xk lq lk a.mx),
   k0_pay1 (k0_pay10 xq xk lq lk a.mx a.mx a.sm) (k0_pay11 xq xk lq lk a.mx),
   k0_pay2 (k0_pay7 lq lk) a.ct⟩

/-- What the accumulators hold after the first `n` points. -/
def accAt (c : Dev nD) : ℕ → Acc F
  | 0 => accReset
  | n + 1 =>
    if h : n < cfg0.N then
      accStep (iblk m c 0 ⟨n, h⟩) (iblk m c 1 ⟨n, h⟩) (iblk m c 2 ⟨n, h⟩) (iblk m c 3 ⟨n, h⟩)
        (if n % 8 = 0 then accReset else accAt c n)
    else accAt c n

end Cert.KernelIdeal.Hand

end
-- ==== Proof.KHost.lean ====
/-
  The host side of the program, as a frame conditional on the kernel region's record.

  The program is thirteen items in order: the seven host operations before the region, the region, and eleven
  stretches of host operations after it. Between two items a core holds every unscoped buffer whole at a valuation:
  the launch contents, then what each host stretch computes, the region changing exactly its two output arrays, whose
  contents after it are unknowns here. No host stretch allocates and none writes an argument, so the two arguments
  reach the end as launched; the result buffer ends at the last valuation.
-/
import proofs.«127721_j16621523436335_1_alg».proof.Proof.KData
import Idealize.ShloMosaic.Lib.Pipeline.Frame
import Idealize.ShloMosaic.Lib.Pipeline.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F] [Named F]

/-! ## The buffers' contents between items -/

/-- What the region leaves in the two arrays it may change, per core: `outs 2 main_v7_0 c` and `outs 2 main_v7_1 c`,
    the contents of the two output arrays on core `c` after item 1. Read only at these two points. -/
abbrev Outs : Type := ℕ → (r : Ref sig .tc) → (c : Dev nD) → Buf (Elt F) ((c : Thread nD τ).loc r)

variable (m : (ℓ : Loc nD τ sig) → Buf (Elt F) ℓ) (outs : Outs (F := F))

/-- Core `c`'s unscoped buffers at launch. -/
abbrev U0 (c : Dev nD) : Valuation τ sig (Elt F) := fun b => m (c, b)
/-- After item 0, the host stretch `hostOps0`. -/
abbrev U1 (c : Dev nD) : Valuation τ sig (Elt F) := StableHlo.after hostOps0 (U0 m c)
/-- After item 1, the region, which may change `main_v7_0` and `main_v7_1`. -/
abbrev U2 (c : Dev nD) : Valuation τ sig (Elt F) :=
  Function.update (Function.update (U1 m c) main_v7_0 (outs 2 main_v7_0 c)) main_v7_1 (outs 2 main_v7_1 c)
/-- After item 2, the host stretch `hostOps1`. -/
abbrev U3 (c : Dev nD) : Valuation τ sig (Elt F) := StableHlo.after hostOps1 (U2 m outs c)
/-- After item 3, the host stretch `hostOps1_1`. -/
abbrev U4 (c : Dev nD) : Valuation τ sig (Elt F) := StableHlo.after hostOps1_1 (U3 m outs c)
/-- After item 4, the host stretch `hostOps1_2`. -/
abbrev U5 (c : Dev nD) : Valuation τ sig (Elt F) := StableHlo.after hostOps1_2 (U4 m outs c)
/-- After item 5, the host stretch `hostOps1_3`. -/
abbrev U6 (c : Dev nD) : Valuation τ sig (Elt F) := StableHlo.after hostOps1_3 (U5 m outs c)
/-- After item 6, the host stretch `hostOps1_4`. -/
abbrev U7 (c : Dev nD) : Valuation τ sig (Elt F) := StableHlo.after hostOps1_4 (U6 m outs c)
/-- After item 7, the host stretch `hostOps1_5`. -/
abbrev U8 (c : Dev nD) : Valuation τ sig (Elt F) := StableHlo.after hostOps1_5 (U7 m outs c)
/-- After item 8, the host stretch `hostOps1_6`. -/
abbrev U9 (c : Dev nD) : Valuation τ sig (Elt F) := StableHlo.after hostOps1_6 (U8 m outs c)
/-- After item 9, the host stretch `hostOps1_7`. -/
abbrev U10 (c : Dev nD) : Valuation τ sig (Elt F) := StableHlo.after hostOps1_7 (U9 m outs c)
/-- After item 10, the host stretch `hostOps1_8`. -/
abbrev U11 (c : Dev nD) : Valuation τ sig (Elt F) := StableHlo.after hostOps1_8 (U10 m outs c)
/-- After item 11, the host stretch `hostOps1_9`. -/
abbrev U12 (c : Dev nD) : Valuation τ sig (Elt F) := StableHlo.after hostOps1_9 (U11 m outs c)
/-- After item 12, the host stretch `hostOps1_10`. -/
abbrev U13 (c : Dev nD) : Valuation τ sig (Elt F) := StableHlo.after hostOps1_10 (U12 m outs c)

/-- The first two valuations are the ones the region's data is written over. -/
theorem U1_eq_W1 (c : Dev nD) : U1 m c = W1 m c := rfl

/-! ## What the host stretches write -/

theorem hostOps0_fresh : (hostOps0 : List (HloOp τ sig (Elt F))).Forall fun op => op.fresh = ∅ := by
  simp only [List.Forall]; repeat' constructor
/-- The references `hostOps0`'s operations write. -/
abbrev hostOps0_W : List (Ref sig .tc) := [main_v0, main_v1, main_v2, main_v3, main_v4, main_v5, main_v6]
theorem hostOps0_writes : (hostOps0 : List (HloOp τ sig (Elt F))).Forall fun op => op.writes ⊆ (hostOps0_W.map (Proc.devRef (τ := τ) .tc)).toFinset := by
  simp only [List.Forall]
  refine ⟨?_, ?_, ?_, ?_, ?_, ?_, ?_⟩ <;> exact Finset.singleton_subset_iff.2 (List.mem_toFinset.2 (List.mem_map_of_mem (by decide)))
theorem hostOps1_fresh : (hostOps1 : List (HloOp τ sig (Elt F))).Forall fun op => op.fresh = ∅ := by
  simp only [List.Forall]; repeat' constructor
/-- The references `hostOps1`'s operations write. -/
abbrev hostOps1_W : List (Ref sig .tc) := [main_v8, main_v9, main_cst, main_v10, main_cst_0, main_v11, main_cst_1, main_v12, main_v13, main_cst_2, main_v14, main_v15, main_cst_3, main_v16, main_cst_4]
theorem hostOps1_writes : (hostOps1 : List (HloOp τ sig (Elt F))).Forall fun op => op.writes ⊆ (hostOps1_W.map (Proc.devRef (τ := τ) .tc)).toFinset := by
  simp only [List.Forall]
  refine ⟨?_, ?_, ?_, ?_, ?_, ?_, ?_, ?_, ?_, ?_, ?_, ?_, ?_, ?_, ?_⟩ <;> exact Finset.singleton_subset_iff.2 (List.mem_toFinset.2 (List.mem_map_of_mem (by decide)))
theorem hostOps1_1_fresh : (hostOps1_1 : List (HloOp τ sig (Elt F))).Forall fun op => op.fresh = ∅ := by
  simp only [List.Forall]; repeat' constructor
/-- The references `hostOps1_1`'s operations write. -/
abbrev hostOps1_1_W : List (Ref sig .tc) := [main_call0_v0, main_call0_v1, main_call0_v2, main_v17]
theorem hostOps1_1_writes : (hostOps1_1 : List (HloOp τ sig (Elt F))).Forall fun op => op.writes ⊆ (hostOps1_1_W.map (Proc.devRef (τ := τ) .tc)).toFinset := by
  simp only [List.Forall]
  refine ⟨?_, ?_, ?_, ?_⟩ <;> exact Finset.singleton_subset_iff.2 (List.mem_toFinset.2 (List.mem_map_of_mem (by decide)))
theorem hostOps1_2_fresh : (hostOps1_2 : List (HloOp τ sig (Elt F))).Forall fun op => op.fresh = ∅ := by
  simp only [List.Forall]; repeat' constructor
/-- The references `hostOps1_2`'s operations write. -/
abbrev hostOps1_2_W : List (Ref sig .tc) := [main_cst_5]
theorem hostOps1_2_writes : (hostOps1_2 : List (HloOp τ sig (Elt F))).Forall fun op => op.writes ⊆ (hostOps1_2_W.map (Proc.devRef (τ := τ) .tc)).toFinset := by
  simp only [List.Forall]
  exact Finset.singleton_subset_iff.2 (List.mem_toFinset.2 (List.mem_map_of_mem (by decide)))
theorem hostOps1_3_fresh : (hostOps1_3 : List (HloOp τ sig (Elt F))).Forall fun op => op.fresh = ∅ := by
  simp only [List.Forall]; repeat' constructor
/-- The references `hostOps1_3`'s operations write. -/
abbrev hostOps1_3_W : List (Ref sig .tc) := [main_call1_v0, main_call1_v1, main_call1_v2, main_v18]
theorem hostOps1_3_writes : (hostOps1_3 : List (HloOp τ sig (Elt F))).Forall fun op => op.writes ⊆ (hostOps1_3_W.map (Proc.devRef (τ := τ) .tc)).toFinset := by
  simp only [List.Forall]
  refine ⟨?_, ?_, ?_, ?_⟩ <;> exact Finset.singleton_subset_iff.2 (List.mem_toFinset.2 (List.mem_map_of_mem (by decide)))
theorem hostOps1_4_fresh : (hostOps1_4 : List (HloOp τ sig (Elt F))).Forall fun op => op.fresh = ∅ := by
  simp only [List.Forall]; repeat' constructor
/-- The references `hostOps1_4`'s operations write. -/
abbrev hostOps1_4_W : List (Ref sig .tc) := [main_cst_6, main_v19, main_v20, main_cst_7]
theorem hostOps1_4_writes : (hostOps1_4 : List (HloOp τ sig (Elt F))).Forall fun op => op.writes ⊆ (hostOps1_4_W.map (Proc.devRef (τ := τ) .tc)).toFinset := by
  simp only [List.Forall]
  refine ⟨?_, ?_, ?_, ?_⟩ <;> exact Finset.singleton_subset_iff.2 (List.mem_toFinset.2 (List.mem_map_of_mem (by decide)))
theorem hostOps1_5_fresh : (hostOps1_5 : List (HloOp τ sig (Elt F))).Forall fun op => op.fresh = ∅ := by
  simp only [List.Forall]; repeat' constructor
/-- The references `hostOps1_5`'s operations write. -/
abbrev hostOps1_5_W : List (Ref sig .tc) := [main_call2_v0, main_call2_v1, main_v21]
theorem hostOps1_5_writes : (hostOps1_5 : List (HloOp τ sig (Elt F))).Forall fun op => op.writes ⊆ (hostOps1_5_W.map (Proc.devRef (τ := τ) .tc)).toFinset := by
  simp only [List.Forall]
  refine ⟨?_, ?_, ?_⟩ <;> exact Finset.singleton_subset_iff.2 (List.mem_toFinset.2 (List.mem_map_of_mem (by decide)))
theorem hostOps1_6_fresh : (hostOps1_6 : List (HloOp τ sig (Elt F))).Forall fun op => op.fresh = ∅ := by
  simp only [List.Forall]; repeat' constructor
/-- The references `hostOps1_6`'s operations write. -/
abbrev hostOps1_6_W : List (Ref sig .tc) := [main_v22]
theorem hostOps1_6_writes : (hostOps1_6 : List (HloOp τ sig (Elt F))).Forall fun op => op.writes ⊆ (hostOps1_6_W.map (Proc.devRef (τ := τ) .tc)).toFinset := by
  simp only [List.Forall]
  exact Finset.singleton_subset_iff.2 (List.mem_toFinset.2 (List.mem_map_of_mem (by decide)))
theorem hostOps1_7_fresh : (hostOps1_7 : List (HloOp τ sig (Elt F))).Forall fun op => op.fresh = ∅ := by
  simp only [List.Forall]; repeat' constructor
/-- The references `hostOps1_7`'s operations write. -/
abbrev hostOps1_7_W : List (Ref sig .tc) := [main_v23]
theorem hostOps1_7_writes : (hostOps1_7 : List (HloOp τ sig (Elt F))).Forall fun op => op.writes ⊆ (hostOps1_7_W.map (Proc.devRef (τ := τ) .tc)).toFinset := by
  simp only [List.Forall]
  exact Finset.singleton_subset_iff.2 (List.mem_toFinset.2 (List.mem_map_of_mem (by decide)))
theorem hostOps1_8_fresh : (hostOps1_8 : List (HloOp τ sig (Elt F))).Forall fun op => op.fresh = ∅ := by
  simp only [List.Forall]; repeat' constructor
/-- The references `hostOps1_8`'s operations write. -/
abbrev hostOps1_8_W : List (Ref sig .tc) := [main_cst_8, main_v24, main_v25, main_v26, main_v27, main_cst_9, main_v28, main_v29, main_v30, main_cst_10]
theorem hostOps1_8_writes : (hostOps1_8 : List (HloOp τ sig (Elt F))).Forall fun op => op.writes ⊆ (hostOps1_8_W.map (Proc.devRef (τ := τ) .tc)).toFinset := by
  simp only [List.Forall]
  refine ⟨?_, ?_, ?_, ?_, ?_, ?_, ?_, ?_, ?_, ?_⟩ <;> exact Finset.singleton_subset_iff.2 (List.mem_toFinset.2 (List.mem_map_of_mem (by decide)))
theorem hostOps1_9_fresh : (hostOps1_9 : List (HloOp τ sig (Elt F))).Forall fun op => op.fresh = ∅ := by
  simp only [List.Forall]; repeat' constructor
/-- The references `hostOps1_9`'s operations write. -/
abbrev hostOps1_9_W : List (Ref sig .tc) := [main_call4_v0, main_call4_v1, main_v31]
theorem hostOps1_9_writes : (hostOps1_9 : List (HloOp τ sig (Elt F))).Forall fun op => op.writes ⊆ (hostOps1_9_W.map (Proc.devRef (τ := τ) .tc)).toFinset := by
  simp only [List.Forall]
  refine ⟨?_, ?_, ?_⟩ <;> exact Finset.singleton_subset_iff.2 (List.mem_toFinset.2 (List.mem_map_of_mem (by decide)))
theorem hostOps1_10_fresh : (hostOps1_10 : List (HloOp τ sig (Elt F))).Forall fun op => op.fresh = ∅ := by
  simp only [List.Forall]; repeat' constructor
/-- The references `hostOps1_10`'s operations write. -/
abbrev hostOps1_10_W : List (Ref sig .tc) := [main_cst_11, main_v32, main_cst_12, main_v33]
theorem hostOps1_10_writes : (hostOps1_10 : List (HloOp τ sig (Elt F))).Forall fun op => op.writes ⊆ (hostOps1_10_W.map (Proc.devRef (τ := τ) .tc)).toFinset := by
  simp only [List.Forall]
  refine ⟨?_, ?_, ?_, ?_⟩ <;> exact Finset.singleton_subset_iff.2 (List.mem_toFinset.2 (List.mem_map_of_mem (by decide)))

/-! ## What each item leaves unchanged -/

theorem U1_of (c : Dev nD) (r : Ref sig .tc) (h : r ∉ hostOps0_W) : U1 m c r = U0 m c r :=
  StableHlo.after_of_writes_sub hostOps0 _ hostOps0_writes h
theorem U2_of (c : Dev nD) (r : Ref sig .tc) (h : r ∉ ([main_v7_1, main_v7_0] : List (Ref sig .tc))) : U2 m outs c r = U1 m c r := by
  have h1 : r ≠ main_v7_1 := List.ne_of_not_mem_cons h
  have h0 : r ≠ main_v7_0 := List.ne_of_not_mem_cons (List.not_mem_of_not_mem_cons h)
  simp only [U2, Function.update_of_ne (StableHlo.devRef_ne_of_ne h1 : (Proc.devRef .tc r : DevRef τ sig) ≠ Proc.devRef .tc main_v7_1),
    Function.update_of_ne (StableHlo.devRef_ne_of_ne h0 : (Proc.devRef .tc r : DevRef τ sig) ≠ Proc.devRef .tc main_v7_0)]
theorem U3_of (c : Dev nD) (r : Ref sig .tc) (h : r ∉ hostOps1_W) : U3 m outs c r = U2 m outs c r :=
  StableHlo.after_of_writes_sub hostOps1 _ hostOps1_writes h
theorem U4_of (c : Dev nD) (r : Ref sig .tc) (h : r ∉ hostOps1_1_W) : U4 m outs c r = U3 m outs c r :=
  StableHlo.after_of_writes_sub hostOps1_1 _ hostOps1_1_writes h
theorem U5_of (c : Dev nD) (r : Ref sig .tc) (h : r ∉ hostOps1_2_W) : U5 m outs c r = U4 m outs c r :=
  StableHlo.after_of_writes_sub hostOps1_2 _ hostOps1_2_writes h
theorem U6_of (c : Dev nD) (r : Ref sig .tc) (h : r ∉ hostOps1_3_W) : U6 m outs c r = U5 m outs c r :=
  StableHlo.after_of_writes_sub hostOps1_3 _ hostOps1_3_writes h
theorem U7_of (c : Dev nD) (r : Ref sig .tc) (h : r ∉ hostOps1_4_W) : U7 m outs c r = U6 m outs c r :=
  StableHlo.after_of_writes_sub hostOps1_4 _ hostOps1_4_writes h
theorem U8_of (c : Dev nD) (r : Ref sig .tc) (h : r ∉ hostOps1_5_W) : U8 m outs c r = U7 m outs c r :=
  StableHlo.after_of_writes_sub hostOps1_5 _ hostOps1_5_writes h
theorem U9_of (c : Dev nD) (r : Ref sig .tc) (h : r ∉ hostOps1_6_W) : U9 m outs c r = U8 m outs c r :=
  StableHlo.after_of_writes_sub hostOps1_6 _ hostOps1_6_writes h
theorem U10_of (c : Dev nD) (r : Ref sig .tc) (h : r ∉ hostOps1_7_W) : U10 m outs c r = U9 m outs c r :=
  StableHlo.after_of_writes_sub hostOps1_7 _ hostOps1_7_writes h
theorem U11_of (c : Dev nD) (r : Ref sig .tc) (h : r ∉ hostOps1_8_W) : U11 m outs c r = U10 m outs c r :=
  StableHlo.after_of_writes_sub hostOps1_8 _ hostOps1_8_writes h
theorem U12_of (c : Dev nD) (r : Ref sig .tc) (h : r ∉ hostOps1_9_W) : U12 m outs c r = U11 m outs c r :=
  StableHlo.after_of_writes_sub hostOps1_9 _ hostOps1_9_writes h
theorem U13_of (c : Dev nD) (r : Ref sig .tc) (h : r ∉ hostOps1_10_W) : U13 m outs c r = U12 m outs c r :=
  StableHlo.after_of_writes_sub hostOps1_10 _ hostOps1_10_writes h

/-! ## No item writes an argument -/

/-- `main_arg0` reaches the end as launched: no host stretch writes it, the region may not change it. -/
theorem U13_main_arg0 (c : Dev nD) : U13 m outs c main_arg0 = m ((c : Thread nD τ).loc main_arg0) :=
  (U13_of m outs c main_arg0 (by decide)).trans <| (U12_of m outs c main_arg0 (by decide)).trans <| (U11_of m outs c main_arg0 (by decide)).trans <| (U10_of m outs c main_arg0 (by decide)).trans <| (U9_of m outs c main_arg0 (by decide)).trans <| (U8_of m outs c main_arg0 (by decide)).trans <| (U7_of m outs c main_arg0 (by decide)).trans <| (U6_of m outs c main_arg0 (by decide)).trans <| (U5_of m outs c main_arg0 (by decide)).trans <| (U4_of m outs c main_arg0 (by decide)).trans <| (U3_of m outs c main_arg0 (by decide)).trans <| (U2_of m outs c main_arg0 (by decide)).trans <| (U1_of m c main_arg0 (by decide)).trans rfl
/-- `main_arg1` reaches the end as launched: no host stretch writes it, the region may not change it. -/
theorem U13_main_arg1 (c : Dev nD) : U13 m outs c main_arg1 = m ((c : Thread nD τ).loc main_arg1) :=
  (U13_of m outs c main_arg1 (by decide)).trans <| (U12_of m outs c main_arg1 (by decide)).trans <| (U11_of m outs c main_arg1 (by decide)).trans <| (U10_of m outs c main_arg1 (by decide)).trans <| (U9_of m outs c main_arg1 (by decide)).trans <| (U8_of m outs c main_arg1 (by decide)).trans <| (U7_of m outs c main_arg1 (by decide)).trans <| (U6_of m outs c main_arg1 (by decide)).trans <| (U5_of m outs c main_arg1 (by decide)).trans <| (U4_of m outs c main_arg1 (by decide)).trans <| (U3_of m outs c main_arg1 (by decide)).trans <| (U2_of m outs c main_arg1 (by decide)).trans <| (U1_of m c main_arg1 (by decide)).trans rfl

/-! ## The items as segments -/

section Segs

variable {Ix : Type} [DecidableEq Ix] {U : Type} [URA U] {Lvl : Type} [Preorder Lvl]
variable (𝒱₀ : Variants) (L : GSem nD τ sig → Finset Ix) (lv : GSem nD τ sig → Ix → Lvl)
variable (E : Fin 2 → Dev nD → sProp (MT nD τ sig Ix (Elt F) ℕ U Lvl))

/-- Item 0: the host stretch `hostOps0` over the unscoped buffers from `U0`, the rest `E 0` riding along. -/
def seg0 : HostSeg (Ix := Ix) (Name := ℕ) (U := U) (Lvl := Lvl) (pcfgs (F := F)) defs₀ 𝒱₀ L lv :=
  HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (U0 m) (E 0)
/-- Item 2: the host stretch `hostOps1` over the unscoped buffers from `U2`, the rest `E 1` riding along. -/
def seg2 : HostSeg (Ix := Ix) (Name := ℕ) (U := U) (Lvl := Lvl) (pcfgs (F := F)) defs₀ 𝒱₀ L lv :=
  HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (U2 m outs) (E 1)
/-- Item 3: the host stretch `hostOps1_1` over the unscoped buffers from `U3`, the rest `E 1` riding along. -/
def seg3 : HostSeg (Ix := Ix) (Name := ℕ) (U := U) (Lvl := Lvl) (pcfgs (F := F)) defs₀ 𝒱₀ L lv :=
  HostSeg.ofOps _ _ _ _ _ (Pipeline.ucRefs τ sig) hostOps1_1
    (fun op h => Pipeline.sub_ucRefs op ((List.forall_iff_forall_mem.mp hostOps1_1_sub) op h))
    (fun op h => (List.forall_iff_forall_mem.mp hostOps1_1_fresh) op h) (U3 m outs) (E 1)
/-- Item 4: the host stretch `hostOps1_2` over the unscoped buffers from `U4`, the rest `E 1` riding along. -/
def seg4 : HostSeg (Ix := Ix) (Name := ℕ) (U := U) (Lvl := Lvl) (pcfgs (F := F)) defs₀ 𝒱₀ L lv :=
  HostSeg.ofOps _ _ _ _ _ (Pipeline.ucRefs τ sig) hostOps1_2
    (fun op h => Pipeline.sub_ucRefs op ((List.forall_iff_forall_mem.mp hostOps1_2_sub) op h))
    (fun op h => (List.forall_iff_forall_mem.mp hostOps1_2_fresh) op h) (U4 m outs) (E 1)
/-- Item 5: the host stretch `hostOps1_3` over the unscoped buffers from `U5`, the rest `E 1` riding along. -/
def seg5 : HostSeg (Ix := Ix) (Name := ℕ) (U := U) (Lvl := Lvl) (pcfgs (F := F)) defs₀ 𝒱₀ L lv :=
  HostSeg.ofOps _ _ _ _ _ (Pipeline.ucRefs τ sig) hostOps1_3
    (fun op h => Pipeline.sub_ucRefs op ((List.forall_iff_forall_mem.mp hostOps1_3_sub) op h))
    (fun op h => (List.forall_iff_forall_mem.mp hostOps1_3_fresh) op h) (U5 m outs) (E 1)
/-- Item 6: the host stretch `hostOps1_4` over the unscoped buffers from `U6`, the rest `E 1` riding along. -/
def seg6 : HostSeg (Ix := Ix) (Name := ℕ) (U := U) (Lvl := Lvl) (pcfgs (F := F)) defs₀ 𝒱₀ L lv :=
  HostSeg.ofOps _ _ _ _ _ (Pipeline.ucRefs τ sig) hostOps1_4
    (fun op h => Pipeline.sub_ucRefs op ((List.forall_iff_forall_mem.mp hostOps1_4_sub) op h))
    (fun op h => (List.forall_iff_forall_mem.mp hostOps1_4_fresh) op h) (U6 m outs) (E 1)
/-- Item 7: the host stretch `hostOps1_5` over the unscoped buffers from `U7`, the rest `E 1` riding along. -/
def seg7 : HostSeg (Ix := Ix) (Name := ℕ) (U := U) (Lvl := Lvl) (pcfgs (F := F)) defs₀ 𝒱₀ L lv :=
  HostSeg.ofOps _ _ _ _ _ (Pipeline.ucRefs τ sig) hostOps1_5
    (fun op h => Pipeline.sub_ucRefs op ((List.forall_iff_forall_mem.mp hostOps1_5_sub) op h))
    (fun op h => (List.forall_iff_forall_mem.mp hostOps1_5_fresh) op h) (U7 m outs) (E 1)
/-- Item 8: the host stretch `hostOps1_6` over the unscoped buffers from `U8`, the rest `E 1` riding along. -/
def seg8 : HostSeg (Ix := Ix) (Name := ℕ) (U := U) (Lvl := Lvl) (pcfgs (F := F)) defs₀ 𝒱₀ L lv :=
  HostSeg.ofOps _ _ _ _ _ (Pipeline.ucRefs τ sig) hostOps1_6
    (fun op h => Pipeline.sub_ucRefs op ((List.forall_iff_forall_mem.mp hostOps1_6_sub) op h))
    (fun op h => (List.forall_iff_forall_mem.mp hostOps1_6_fresh) op h) (U8 m outs) (E 1)
/-- Item 9: the host stretch `hostOps1_7` over the unscoped buffers from `U9`, the rest `E 1` riding along. -/
def seg9 : HostSeg (Ix := Ix) (Name := ℕ) (U := U) (Lvl := Lvl) (pcfgs (F := F)) defs₀ 𝒱₀ L lv :=
  HostSeg.ofOps _ _ _ _ _ (Pipeline.ucRefs τ sig) hostOps1_7
    (fun op h => Pipeline.sub_ucRefs op ((List.forall_iff_forall_mem.mp hostOps1_7_sub) op h))
    (fun op h => (List.forall_iff_forall_mem.mp hostOps1_7_fresh) op h) (U9 m outs) (E 1)
/-- Item 10: the host stretch `hostOps1_8` over the unscoped buffers from `U10`, the rest `E 1` riding along. -/
def seg10 : HostSeg (Ix := Ix) (Name := ℕ) (U := U) (Lvl := Lvl) (pcfgs (F := F)) defs₀ 𝒱₀ L lv :=
  HostSeg.ofOps _ _ _ _ _ (Pipeline.ucRefs τ sig) hostOps1_8
    (fun op h => Pipeline.sub_ucRefs op ((List.forall_iff_forall_mem.mp hostOps1_8_sub) op h))
    (fun op h => (List.forall_iff_forall_mem.mp hostOps1_8_fresh) op h) (U10 m outs) (E 1)
/-- Item 11: the host stretch `hostOps1_9` over the unscoped buffers from `U11`, the rest `E 1` riding along. -/
def seg11 : HostSeg (Ix := Ix) (Name := ℕ) (U := U) (Lvl := Lvl) (pcfgs (F := F)) defs₀ 𝒱₀ L lv :=
  HostSeg.ofOps _ _ _ _ _ (Pipeline.ucRefs τ sig) hostOps1_9
    (fun op h => Pipeline.sub_ucRefs op ((List.forall_iff_forall_mem.mp hostOps1_9_sub) op h))
    (fun op h => (List.forall_iff_forall_mem.mp hostOps1_9_fresh) op h) (U11 m outs) (E 1)
/-- Item 12: the host stretch `hostOps1_10` over the unscoped buffers from `U12`, the rest `E 1` riding along. -/
def seg12 : HostSeg (Ix := Ix) (Name := ℕ) (U := U) (Lvl := Lvl) (pcfgs (F := F)) defs₀ 𝒱₀ L lv :=
  HostSeg.ofOps _ _ _ _ _ (Pipeline.ucRefs τ sig) hostOps1_10
    (fun op h => Pipeline.sub_ucRefs op ((List.forall_iff_forall_mem.mp hostOps1_10_sub) op h))
    (fun op h => (List.forall_iff_forall_mem.mp hostOps1_10_fresh) op h) (U12 m outs) (E 1)

end Segs

section

variable {Ix : Type} [DecidableEq Ix] {U : Type} [URA U] {Lvl : Type} [Preorder Lvl]

/-- The prefetched tables' admissible contents: the pallas_call has no table. -/
abbrev adm : (p : Fin 1) → (pcfgs (F := F) p).Adm := fun p => (cfgs p).toPCfg_adm

/-- The program's thirteen items as segments on core `c` (the same list on every core): the host stretches', and the
    region's, which is the given record. -/
abbrev segs (𝒱₀ : Variants) (L : GSem nD τ sig → Finset Ix) (lv : GSem nD τ sig → Ix → Lvl) (E : Fin 2 → Dev nD → sProp (MT nD τ sig Ix (Elt F) ℕ U Lvl)) (ι : Ix)
    (pdats : (p : Fin 1) → (c : Dev nD) → Dat τ (Elt F) Ix ℕ U Lvl (cfgs p) c) (R0 : RegionSeg (pcfgs (F := F)) adm pdats ι defs₀ 𝒱₀ L lv 0) (c : Dev nD) :
    List (Seg (pcfgs (F := F)) adm pdats ι defs₀ 𝒱₀ L lv) :=
  [.host (seg0 m 𝒱₀ L lv E),
   .region R0,
   .host (seg2 m outs 𝒱₀ L lv E),
   .host (seg3 m outs 𝒱₀ L lv E),
   .host (seg4 m outs 𝒱₀ L lv E),
   .host (seg5 m outs 𝒱₀ L lv E),
   .host (seg6 m outs 𝒱₀ L lv E),
   .host (seg7 m outs 𝒱₀ L lv E),
   .host (seg8 m outs 𝒱₀ L lv E),
   .host (seg9 m outs 𝒱₀ L lv E),
   .host (seg10 m outs 𝒱₀ L lv E),
   .host (seg11 m outs 𝒱₀ L lv E),
   .host (seg12 m outs 𝒱₀ L lv E)]

end

/-! ## The frame, given the region's record -/

set_option backward.isDefEq.respectTransparency.types false in
/-- THE CONDITIONAL FRAME. For any user algebra, level assignment, launch dues and ghost resources, any two rest states
    `E` — the first made by the launch on every core at once (`hE0`), the second owing nothing (`hE1`) — any contents
    the region leaves in its two output arrays (`outs`) and any proof data: GIVEN the region's segment record entered
    from the thread state before it and left at the one after it (`R0`, `hpre0`, `hpost0`), every weakly fair execution
    of the program from memory `m` with zero counters terminates, and in every final memory the result buffer holds the
    last valuation's contents and each argument holds what it was launched with. -/
theorem frame_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 1) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 2 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE1 : ∀ c : Dev nD, E 1 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (U1 m c) ∗ E 0 c) ⊢ R0.pre c)
    (hpost0 : ∀ c : Dev nD, R0.post c ⊢ iprop(StableHlo.held (c : Thread nD τ) (Pipeline.ucRefs τ sig) (U2 m outs c) ∗ E 1 c)) :
    θ_run defs (onTc (τ := τ) (main (F := F))) ⟨m, fun _ => 0, ρ⟩ (fun r => ∀ c : Dev nD,
      r.2.mem ((c.tc : Thread nD τ).loc main_v33) = U13 m outs c (Proc.devRef .tc main_v33)
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine Pipeline.θ_run_regions_kit_dev (pcfgs (F := F)) adm pdats ι cellOf_inj EP defs₀ 𝒱₀ L lv m ρ main
    (segs m outs 𝒱₀ L lv E ι pdats R0)
    (fun c Q => by
      rewrite [main_chain c, Seg.run_eq_chain,
        show (segs m outs 𝒱₀ L lv E ι pdats R0 c).map Seg.prog = [
          StableHlo.seq hostOps0,
          Prog.lift (.customCall (Pipeline.entry 0) ()),
          StableHlo.seq hostOps1,
          StableHlo.seq hostOps1_1,
          StableHlo.seq hostOps1_2,
          StableHlo.seq hostOps1_3,
          StableHlo.seq hostOps1_4,
          StableHlo.seq hostOps1_5,
          StableHlo.seq hostOps1_6,
          StableHlo.seq hostOps1_7,
          StableHlo.seq hostOps1_8,
          StableHlo.seq hostOps1_9,
          StableHlo.seq hostOps1_10 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (U0 m c) ∗ E 0 c))
    (Tₙ := fun c => StableHlo.held (c : Thread nD τ) (Pipeline.ucRefs τ sig) (U13 m outs c))
    (hch := fun c => ⟨.rfl, hpre0 c, hpost0 c, .rfl, .rfl, .rfl, .rfl, .rfl, .rfl, .rfl, .rfl, .rfl, .rfl, sep_mono .rfl (hE1 c)⟩)
    (hinit := ?_)
    (QY := fun c s => s.mem ((c.tc : Thread nD τ).loc main_v33) = U13 m outs c (Proc.devRef .tc main_v33)
      ∧ s.mem ((c.tc : Thread nD τ).loc main_arg0) = m ((c.tc : Thread nD τ).loc main_arg0)
      ∧ s.mem ((c.tc : Thread nD τ).loc main_arg1) = m ((c.tc : Thread nD τ).loc main_arg1))
    (hfin := fun c s' => ?_) (hQ := fun _ h => h)
  · -- the launch: the unscoped buffers are held at `U0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (U0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (U0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: the result buffer and each argument's read off the last valuation
    unfold StableHlo.held
    iintro ⟨Hh, HSI⟩
    ihave Hr := (pointsTo_read_all (Pipeline.ucRefs τ sig) (fun b => ((c : Thread nD τ).1, b)) (U13 m outs c) s') $$ [Hh HSI]
    · isplitl [Hh] <;> iassumption
    icases Hr with ⟨%h, HSI⟩
    imodintro
    isplitr
    · ipureintro
      exact ⟨h (Proc.devRef .tc main_v33) (Finset.mem_filter.mpr ⟨StableHlo.devRef_mem_tcRefs main_v33, by decide⟩),
        (h (Proc.devRef .tc main_arg0) (Finset.mem_filter.mpr ⟨StableHlo.devRef_mem_tcRefs main_arg0, by decide⟩)).trans (U13_main_arg0 m outs c),
        (h (Proc.devRef .tc main_arg1) (Finset.mem_filter.mpr ⟨StableHlo.devRef_mem_tcRefs main_arg1, by decide⟩)).trans (U13_main_arg1 m outs c)⟩
    · iexact HSI

end Cert.KernelIdeal.Hand

end
-- ==== Proof.KCond.lean ====
/-
  The body's two branch conditions over the 8 × 8 grid, in closed form, and where the two output windows are idle.

  Point `t` has column tile `t % 8`. The accumulators are reset under the first condition, which holds exactly at column tile 0;
  the two outputs are stored under the second, which holds exactly at column tile 7, and there only are their blocks written back.
-/
import proofs.«127721_j16621523436335_1_alg».proof.Proof.KData

set_option maxRecDepth 16384

noncomputable section

namespace Cert.KernelIdeal.Hand

open Cert.KernelIdeal Cert.KernelIdeal.Gen
open Idealize.ShloMosaic Idealize.ShloMosaic.TcCoe
open Idealize.SL Idealize.SL.Sem

/-- The reset's condition: the column-tile coordinate is 0. -/
abbrev condReset (i : grid0.Coords) : Prop :=
  (Scalar.cmpi .ne (Scalar.extui (Scalar.cmpi .eq (BitVec.ofNat 32 (i 1).val) 0#32)) 0#32) = 1#1
/-- It holds at the points ≡ 0 (mod 8). -/
theorem hcondReset : ∀ t : Fin cfg0.N, condReset (grid0.coords t) ↔ t.val % 8 = 0 :=
  (by decide +kernel : ∀ t : Fin grid0.N, condReset (grid0.coords t) ↔ t.val % 8 = 0)

/-- The condition under which the outputs are stored: the column-tile coordinate is 7. -/
abbrev condFlush (i : grid0.Coords) : Prop := k0_cond2 i = 1#1
/-- It holds at the points ≡ 7 (mod 8). -/
theorem hcondFlush : ∀ t : Fin cfg0.N, condFlush (grid0.coords t) ↔ t.val % 8 = 7 :=
  (by decide +kernel : ∀ t : Fin grid0.N, condFlush (grid0.coords t) ↔ t.val % 8 = 7)

/-- The four input windows are never idle. -/
theorem liveAt_0 : ∀ t : Fin cfg0.N, cfg0.idle 0 (grid0.coords t) = false := by decide +kernel
theorem liveAt_1 : ∀ t : Fin cfg0.N, cfg0.idle 1 (grid0.coords t) = false := by decide +kernel
theorem liveAt_2 : ∀ t : Fin cfg0.N, cfg0.idle 2 (grid0.coords t) = false := by decide +kernel
theorem liveAt_3 : ∀ t : Fin cfg0.N, cfg0.idle 3 (grid0.coords t) = false := by decide +kernel
/-- Away from column tile 7 the two output windows are idle and their blocks are not written back; -/
theorem idleAt_4 : ∀ t : Fin cfg0.N, ¬condFlush (grid0.coords t) → cfg0.idle 4 (grid0.coords t) = true := by decide +kernel
theorem idleAt_5 : ∀ t : Fin cfg0.N, ¬condFlush (grid0.coords t) → cfg0.idle 5 (grid0.coords t) = true := by decide +kernel
theorem noFlush_4 : ∀ t : Fin cfg0.N, ¬condFlush (grid0.coords t) → (cfg0.win 4).flush t = false := by decide +kernel
theorem noFlush_5 : ∀ t : Fin cfg0.N, ¬condFlush (grid0.coords t) → (cfg0.win 5).flush t = false := by decide +kernel
/-- at column tile 7 they are live. -/
theorem liveAt_4 : ∀ t : Fin cfg0.N, condFlush (grid0.coords t) → cfg0.idle 4 (grid0.coords t) = false := by decide +kernel
theorem liveAt_5 : ∀ t : Fin cfg0.N, condFlush (grid0.coords t) → cfg0.idle 5 (grid0.coords t) = false := by decide +kernel

end Cert.KernelIdeal.Hand

end
-- ==== Proof.KDats.lean ====
/-
  The pipeline's proof data: what every staging buffer and the three scratch accumulators hold, point by point.

  An input window's buffer holds its array's block at every point (fetched there, or left in place since the fetch). The two
  output windows are stored only at column tile 7, with the row tile's finished sum and count: after point `t` they hold the
  second and third accumulator after `t + 1` points. Between points the region's invariant holds the three scratch buffers at
  `accAt` of the points done so far (at anything before the first point) beside the generator register.
-/
import proofs.«127721_j16621523436335_1_alg».proof.Proof.KCond

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

/-! ## The accumulators, one point at a time -/

/-- After point `t`: the point's update of what was there before it — the reset values at column tile 0. -/
theorem accAt_succ (c : Dev nD) (t : Fin cfg0.N) :
    accAt m c (t.val + 1)
      = accStep (iblk m c 0 t) (iblk m c 1 t) (iblk m c 2 t) (iblk m c 3 t) (if t.val % 8 = 0 then accReset else accAt m c t.val) := by
  rw [accAt, dif_pos t.isLt]

theorem accAt_succ_reset (c : Dev nD) (t : Fin cfg0.N) (h : t.val % 8 = 0) :
    accAt m c (t.val + 1) = accStep (iblk m c 0 t) (iblk m c 1 t) (iblk m c 2 t) (iblk m c 3 t) accReset := by
  rw [accAt_succ, if_pos h]

theorem accAt_succ_carry (c : Dev nD) (t : Fin cfg0.N) (h : ¬t.val % 8 = 0) :
    accAt m c (t.val + 1) = accStep (iblk m c 0 t) (iblk m c 1 t) (iblk m c 2 t) (iblk m c 3 t) (accAt m c t.val) := by
  rw [accAt_succ, if_neg h]

/-! ## The scratch operands and the invariant -/

/-- The three scratch accumulators: whole scoped buffers of the kernel's own. -/
abbrev scM0 : Memref sig .tc .vmem S1024x1 .f32 := Memref.whole cc0_scratch0
abbrev scM1 : Memref sig .tc .vmem S1024x1 .f32 := Memref.whole cc0_scratch1
abbrev scM2 : Memref sig .tc .vmem S1024x1 .f32 := Memref.whole cc0_scratch2

/-- What the launch hands the region: each scratch buffer at some contents, and the generator register. -/
theorem PhiA_eq (c : Dev nD) :
    (Pipeline.ΦA spec0 c : sProp 𝕄)
      = iprop(iprop((∃ d, owns (c : Thread nD τ) scM0 fullShare d) ∗ (∃ d, owns (c : Thread nD τ) scM1 fullShare d) ∗ (∃ d, owns (c : Thread nD τ) scM2 fullShare d)) ∗ (∃ r, prngReg c r)) := by
  unfold Pipeline.ΦA; rw [scopedRest0_eq]; simp only [scM0, scM1, scM2, owns_whole]; try rfl

/-- The invariant before position `n`: before the first point the scratch at anything; afterwards at the accumulators'
    values after `n` points. -/
def PhiS (c : Dev nD) : ℕ → sProp 𝕄
  | 0 => Pipeline.ΦA spec0 c
  | n + 1 => iprop(iprop(owns (c : Thread nD τ) scM0 fullShare (accAt m c (n + 1)).mx ∗ owns (c : Thread nD τ) scM1 fullShare (accAt m c (n + 1)).sm
      ∗ owns (c : Thread nD τ) scM2 fullShare (accAt m c (n + 1)).ct) ∗ (∃ r, prngReg c r))

theorem PhiS_zero (c : Dev nD) : PhiS m c 0 = Pipeline.ΦA spec0 c := rfl

theorem PhiS_succ (c : Dev nD) (n : ℕ) :
    PhiS m c (n + 1) = iprop(iprop(owns (c : Thread nD τ) scM0 fullShare (accAt m c (n + 1)).mx ∗ owns (c : Thread nD τ) scM1 fullShare (accAt m c (n + 1)).sm
      ∗ owns (c : Thread nD τ) scM2 fullShare (accAt m c (n + 1)).ct) ∗ (∃ r, prngReg c r)) := rfl

theorem PhiS_pos (c : Dev nD) (n : ℕ) (hz : n ≠ 0) :
    PhiS m c n = iprop(iprop(owns (c : Thread nD τ) scM0 fullShare (accAt m c n).mx ∗ owns (c : Thread nD τ) scM1 fullShare (accAt m c n).sm
      ∗ owns (c : Thread nD τ) scM2 fullShare (accAt m c n).ct) ∗ (∃ r, prngReg c r)) := by
  cases n with
  | zero => exact absurd rfl hz
  | succ n => rfl

/-- Whatever the position, the invariant gives the scratch back at some contents. -/
theorem PhiS_out (c : Dev nD) (n : ℕ) : PhiS m c n ⊢ Pipeline.ΦA spec0 c := by
  cases n with
  | zero => exact Idealize.SL.BI.Entails.refl _
  | succ n =>
    rw [PhiS_succ, PhiA_eq]
    iintro ⟨⟨H0, H1, H2⟩, Hg⟩
    isplitl [H0 H1 H2]
    · isplitl [H0]; · iexists _; iexact H0
      isplitl [H1]; · iexists _; iexact H1
      iexists _; iexact H2
    iexact Hg

/-! ## The proof data -/

/-- On core `c`: the arrays as the region finds them; after the body at point `t` each input's buffer at its block, the two
    outputs' at the finished sum and count; the invariant `PhiS`; nothing owed; the shared feature array held by halves by
    its two windows, every other input array whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (accAt m c (t.val + 1)).sm
    | ⟨5, _⟩ => (accAt m c (t.val + 1)).ct
  Φ t := PhiS m c t.val
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
  owed _ := 0

theorem A_eq (c : Dev nD) (w : Fin cfg0.W) : (dats m 0 c).A w = V m c (Pipeline.arrRef spec0 w) := by
  dsimp only [dats]

theorem q_0 (c : Dev nD) : (dats m 0 c).q 0 = fullShare.left := by dsimp only [dats]
theorem q_1 (c : Dev nD) : (dats m 0 c).q 1 = fullShare.right := by dsimp only [dats]
theorem q_2 (c : Dev nD) : (dats m 0 c).q 2 = fullShare := by dsimp only [dats]
theorem q_3 (c : Dev nD) : (dats m 0 c).q 3 = fullShare := by dsimp only [dats]

theorem Phi_castSucc (c : Dev nD) (t : Fin cfg0.N) : (dats m 0 c).Φ t.castSucc = PhiS m c t.val := by
  dsimp only [dats]; simp only [Fin.coe_castSucc]
theorem Phi_succ (c : Dev nD) (t : Fin cfg0.N) : (dats m 0 c).Φ t.succ = PhiS m c (t.val + 1) := rfl

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = (accAt m c (t.val + 1)).sm := by dsimp only [dats]
theorem after_5 (c : Dev nD) (t : Fin cfg0.N) : (dats m 0 c).after 5 t = (accAt m c (t.val + 1)).ct := by dsimp only [dats]

/-! ## Each input's buffer holds its block when the body runs, fetched at that point or not -/

theorem before_0 (c : Dev nD) (t : Fin cfg0.N) (d) : (dats m 0 c).before 0 t d = iblk m c 0 t :=
  ((dats m 0 c).before_in_eq_fetched 0 rfl (fun _ => rfl) (fun _ _ _ => rfl)
      (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl)
      (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl)
      (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl)
      (fun t => by rw [after_3]; unfold Dat.blockOf iblk; rw [A_eq]; try rfl) t d).trans
    (by unfold Dat.fetched Dat.blockOf iblk; rw [A_eq]; try rfl)

end Cert.KernelIdeal.Hand

end
-- ==== Proof.KBody.lean ====
/-
  The body obligation: at every point of the grid the kernel body, handed the windows' current buffers and the region's
  invariant, hands them back as the proof data say.

  The point's column tile decides the case. At column tile 0 the accumulators are reset and updated, whatever the scratch held;
  at column tiles 1 to 6 they are updated from what the point before left; at column tile 7 they are updated and the finished sum
  and count stored into the two output buffers. In the first two cases the output windows are idle: their buffers come back as
  they were found. The three runs of the body are taken as hypotheses here, stated over arbitrary whole memrefs.
-/
import proofs.«127721_j16621523436335_1_alg».proof.Proof.KDats

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The body's three runs, as statements -/

/-- Column tile 0: the scratch at anything; the accumulators come back at the update of the reset values; the outputs untouched. -/
abbrev RunFirst : Prop :=
  ∀ (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole)
    (h0 : condReset i) (h1 : ¬condFlush i) (xq xk : Vec F S1024x128 .f32) (lq : Vec F S1024x1 .i32) (lk : Vec F S1x1024 .i32) (o6 o7 : Vec F S1024x1 .f32) (E : Set ℕ) (K : PUnit → sProp 𝕄),
    iprop(owns (c : Thread nD τ) arg2 fullShare xq ∗ owns (c : Thread nD τ) arg3 fullShare xk ∗ owns (c : Thread nD τ) arg4 fullShare lq ∗ owns (c : Thread nD τ) arg5 fullShare lk ∗ owns (c : Thread nD τ) arg6 fullShare o6 ∗ owns (c : Thread nD τ) arg7 fullShare o7
        ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg2 fullShare xq ∗ owns (c : Thread nD τ) arg3 fullShare xk ∗ owns (c : Thread nD τ) arg4 fullShare lq ∗ owns (c : Thread nD τ) arg5 fullShare lk ∗ owns (c : Thread nD τ) arg6 fullShare o6 ∗ owns (c : Thread nD τ) arg7 fullShare o7 ∗ owns (c : Thread nD τ) arg8 fullShare (accStep xq xk lq lk accReset).mx ∗ owns (c : Thread nD τ) arg9 fullShare (accStep xq xk lq lk accReset).sm ∗ owns (c : Thread nD τ) arg10 fullShare (accStep xq xk lq lk accReset).ct) -∗ K ⟨⟩))
      ⊢ wp frame (wpE (defs₀ (F := F)) Variants.none c none) E (cc0__fourdloss_kernel i arg2 harg2 arg3 harg3 arg4 harg4 arg5 harg5 arg6 harg6 arg7 harg7 arg8 harg8 arg9 harg9 arg10 harg10) K

/-- Column tiles 1 to 6: the accumulators handed in at `a` come back at its update; the outputs untouched. -/
abbrev RunMid : Prop :=
  ∀ (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole)
    (h0 : ¬condReset i) (h1 : ¬condFlush i) (xq xk : Vec F S1024x128 .f32) (lq : Vec F S1024x1 .i32) (lk : Vec F S1x1024 .i32) (a : Acc F) (o6 o7 : Vec F S1024x1 .f32) (E : Set ℕ) (K : PUnit → sProp 𝕄),
    iprop(owns (c : Thread nD τ) arg2 fullShare xq ∗ owns (c : Thread nD τ) arg3 fullShare xk ∗ owns (c : Thread nD τ) arg4 fullShare lq ∗ owns (c : Thread nD τ) arg5 fullShare lk ∗ owns (c : Thread nD τ) arg6 fullShare o6 ∗ owns (c : Thread nD τ) arg7 fullShare o7
        ∗ owns (c : Thread nD τ) arg8 fullShare a.mx ∗ owns (c : Thread nD τ) arg9 fullShare a.sm ∗ owns (c : Thread nD τ) arg10 fullShare a.ct
        ∗ (iprop(owns (c : Thread nD τ) arg2 fullShare xq ∗ owns (c : Thread nD τ) arg3 fullShare xk ∗ owns (c : Thread nD τ) arg4 fullShare lq ∗ owns (c : Thread nD τ) arg5 fullShare lk ∗ owns (c : Thread nD τ) arg6 fullShare o6 ∗ owns (c : Thread nD τ) arg7 fullShare o7 ∗ owns (c : Thread nD τ) arg8 fullShare (accStep xq xk lq lk a).mx ∗ owns (c : Thread nD τ) arg9 fullShare (accStep xq xk lq lk a).sm ∗ owns (c : Thread nD τ) arg10 fullShare (accStep xq xk lq lk a).ct) -∗ K ⟨⟩))
      ⊢ wp frame (wpE (defs₀ (F := F)) Variants.none c none) E (cc0__fourdloss_kernel i arg2 harg2 arg3 harg3 arg4 harg4 arg5 harg5 arg6 harg6 arg7 harg7 arg8 harg8 arg9 harg9 arg10 harg10) K

/-- Column tile 7: as the middle tiles, and the two outputs, handed in at anything, come back at the updated sum and count. -/
abbrev RunLast : Prop :=
  ∀ (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole)
    (h0 : ¬condReset i) (h1 : condFlush i) (xq xk : Vec F S1024x128 .f32) (lq : Vec F S1024x1 .i32) (lk : Vec F S1x1024 .i32) (a : Acc F) (E : Set ℕ) (K : PUnit → sProp 𝕄),
    iprop(owns (c : Thread nD τ) arg2 fullShare xq ∗ owns (c : Thread nD τ) arg3 fullShare xk ∗ owns (c : Thread nD τ) arg4 fullShare lq ∗ owns (c : Thread nD τ) arg5 fullShare lk ∗ (∃ d, owns (c : Thread nD τ) arg6 fullShare d) ∗ (∃ d, owns (c : Thread nD τ) arg7 fullShare d)
        ∗ owns (c : Thread nD τ) arg8 fullShare a.mx ∗ owns (c : Thread nD τ) arg9 fullShare a.sm ∗ owns (c : Thread nD τ) arg10 fullShare a.ct
        ∗ (iprop(owns (c : Thread nD τ) arg2 fullShare xq ∗ owns (c : Thread nD τ) arg3 fullShare xk ∗ owns (c : Thread nD τ) arg4 fullShare lq ∗ owns (c : Thread nD τ) arg5 fullShare lk ∗ owns (c : Thread nD τ) arg6 fullShare (accStep xq xk lq lk a).sm ∗ owns (c : Thread nD τ) arg7 fullShare (accStep xq xk lq lk a).ct ∗ owns (c : Thread nD τ) arg8 fullShare (accStep xq xk lq lk a).mx ∗ owns (c : Thread nD τ) arg9 fullShare (accStep xq xk lq lk a).sm ∗ owns (c : Thread nD τ) arg10 fullShare (accStep xq xk lq lk a).ct) -∗ K ⟨⟩))
      ⊢ wp frame (wpE (defs₀ (F := F)) Variants.none c none) E (cc0__fourdloss_kernel i arg2 harg2 arg3 harg3 arg4 harg4 arg5 harg5 arg6 harg6 arg7 harg7 arg8 harg8 arg9 harg9 arg10 harg10) K

variable (m : (ℓ : Loc nD τ sig) → Buf (Elt F) ℓ)

/-! ## The body obligation, at a generic point -/

/-- Each window's current staging memref at point `t`, spelled as the pipeline passes it. -/
abbrev ms_0 (t : Fin cfg0.N) : Memref sig .tc .vmem S1024x128 .f32 := win0_0.stage (cfg0.slots t 0)
abbrev ms_1 (t : Fin cfg0.N) : Memref sig .tc .vmem S1024x128 .f32 := win0_1.stage (cfg0.slots t 1)
abbrev ms_2 (t : Fin cfg0.N) : Memref sig .tc .vmem S1024x1 .i32 := win0_2.stage (cfg0.slots t 2)
abbrev ms_3 (t : Fin cfg0.N) : Memref sig .tc .vmem S1x1024 .i32 := win0_3.stage (cfg0.slots t 3)
abbrev ms_4 (t : Fin cfg0.N) : Memref sig .tc .vmem S1024x1 .f32 := win0_4.stage (cfg0.slots t 4)
abbrev ms_5 (t : Fin cfg0.N) : Memref sig .tc .vmem S1024x1 .f32 := win0_5.stage (cfg0.slots t 5)

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms_0 t) fullShare ((dats m 0 c).before 0 t d))
    ∗ (∃ d, owns (c : Thread nD τ) (ms_1 t) fullShare ((dats m 0 c).before 1 t d))
    ∗ (∃ d, owns (c : Thread nD τ) (ms_2 t) fullShare ((dats m 0 c).before 2 t d))
    ∗ (∃ d, owns (c : Thread nD τ) (ms_3 t) fullShare ((dats m 0 c).before 3 t d))
    ∗ (∃ d, owns (c : Thread nD τ) (ms_4 t) fullShare ((dats m 0 c).before 4 t d))
    ∗ (∃ d, owns (c : Thread nD τ) (ms_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t)

/-- Before any point the invariant yields each scratch buffer at some contents and the generator register. -/
theorem PhiS_open (c : Dev nD) (n : ℕ) :
    PhiS m c n ⊢ iprop(iprop((∃ d, owns (c : Thread nD τ) scM0 fullShare d) ∗ (∃ d, owns (c : Thread nD τ) scM1 fullShare d) ∗ (∃ d, owns (c : Thread nD τ) scM2 fullShare d)) ∗ (∃ r, prngReg c r)) := by
  rw [← PhiA_eq]; exact PhiS_out m c n

set_option maxHeartbeats 4800000 in
/-- The body at any point, by the column tile. -/
theorem sound_body (HF : RunFirst (F := F)) (HM : RunMid (F := F)) (HL : RunLast (F := F)) (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).owesAt () t.succ = (dats m 0 c).owesAt () t.castSucc from rfl, Phi_succ, Phi_castSucc, PhiS_succ]
  rw [show (dats m 0 c).leavesExact 0 t = owns (c : Thread nD τ) (ms_0 t) fullShare ((dats m 0 c).after 0 t) from by
        unfold Dat.leavesExact; rw [liveAt_0 t], after_0,
      show (dats m 0 c).leavesExact 1 t = owns (c : Thread nD τ) (ms_1 t) fullShare ((dats m 0 c).after 1 t) from by
        unfold Dat.leavesExact; rw [liveAt_1 t], after_1,
      show (dats m 0 c).leavesExact 2 t = owns (c : Thread nD τ) (ms_2 t) fullShare ((dats m 0 c).after 2 t) from by
        unfold Dat.leavesExact; rw [liveAt_2 t], after_2,
      show (dats m 0 c).leavesExact 3 t = owns (c : Thread nD τ) (ms_3 t) fullShare ((dats m 0 c).after 3 t) from by
        unfold Dat.leavesExact; rw [liveAt_3 t], after_3]
  by_cases h0 : t.val % 8 = 0
  · -- column tile 0
    have h1 : ¬t.val % 8 = 7 := by omega
    have hr : condReset (grid0.coords t) := (hcondReset t).mpr h0
    have hf : ¬condFlush (grid0.coords t) := fun h => h1 ((hcondFlush t).mp h)
    rw [Dat.leavesExact_idle (dats m 0 c) 4 t (idleAt_4 t hf) (noFlush_4 t hf),
      Dat.leavesExact_idle (dats m 0 c) 5 t (idleAt_5 t hf) (noFlush_5 t hf), accAt_succ_reset m c t h0]
    iintro ⟨HΦ, Ho, ⟨%d0, H0⟩, ⟨%d1, H1⟩, ⟨%d2, H2⟩, ⟨%d3, H3⟩, ⟨%d4, H4⟩, ⟨%d5, H5⟩⟩
    ihave HA := (PhiS_open m c t.val) $$ HΦ
    icases HA with ⟨⟨HS0, HS1, HS2⟩, Hg⟩
    iapply (HF c (grid0.coords t) _ _ _ _ _ _ _ _ _ _ _ _ _ _ _ _ _ _ hr hf (iblk m c 0 t) (iblk m c 1 t) (iblk m c 2 t) (iblk m c 3 t) _ _ Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    isplitl [HS2]; · iexact HS2
    iintro ⟨H0, H1, H2, H3, H4, H5, HS0, HS1, HS2⟩
    isplitl [HS0 HS1 HS2 Hg]
    · isplitl [HS0 HS1 HS2]
      · isplitl [HS0]; · iexact HS0
        isplitl [HS1]; · iexact HS1
        iexact HS2
      iexact Hg
    isplitl [Ho]; · iexact Ho
    isplitl [H0]; · iexact H0
    isplitl [H1]; · iexact H1
    isplitl [H2]; · iexact H2
    isplitl [H3]; · iexact H3
    isplitl [H4]; · iexists _; iexact H4
    iexists _; iexact H5
  · have hz : t.val ≠ 0 := fun h => h0 (by rw [h])
    have hr : ¬condReset (grid0.coords t) := fun h => h0 ((hcondReset t).mp h)
    rw [PhiS_pos m c t.val hz, accAt_succ_carry m c t h0]
    by_cases h1 : t.val % 8 = 7
    · -- column tile 7
      have hf : condFlush (grid0.coords t) := (hcondFlush t).mpr h1
      rw [show (dats m 0 c).leavesExact 4 t = owns (c : Thread nD τ) (ms_4 t) fullShare ((dats m 0 c).after 4 t) from by
            unfold Dat.leavesExact; rw [liveAt_4 t hf], after_4,
          show (dats m 0 c).leavesExact 5 t = owns (c : Thread nD τ) (ms_5 t) fullShare ((dats m 0 c).after 5 t) from by
            unfold Dat.leavesExact; rw [liveAt_5 t hf], after_5, accAt_succ_carry m c t h0]
      iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
      iapply (HL c (grid0.coords t) _ _ _ _ _ _ _ _ _ _ _ _ _ _ _ _ _ _ hr hf (iblk m c 0 t) (iblk m c 1 t) (iblk m c 2 t) (iblk m c 3 t) (accAt m c t.val) Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS0]; · iexact HS0
      isplitl [HS1]; · iexact HS1
      isplitl [HS2]; · iexact HS2
      iintro ⟨H0, H1, H2, H3, H4, H5, HS0, HS1, HS2⟩
      isplitl [HS0 HS1 HS2 Hg]
      · isplitl [HS0 HS1 HS2]
        · isplitl [HS0]; · iexact HS0
          isplitl [HS1]; · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      iexact H5
    · -- column tiles 1 to 6
      have hf : ¬condFlush (grid0.coords t) := fun h => h1 ((hcondFlush t).mp h)
      rw [Dat.leavesExact_idle (dats m 0 c) 4 t (idleAt_4 t hf) (noFlush_4 t hf),
        Dat.leavesExact_idle (dats m 0 c) 5 t (idleAt_5 t hf) (noFlush_5 t hf)]
      iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
      iapply (HM c (grid0.coords t) _ _ _ _ _ _ _ _ _ _ _ _ _ _ _ _ _ _ hr hf (iblk m c 0 t) (iblk m c 1 t) (iblk m c 2 t) (iblk m c 3 t) (accAt m c t.val) _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      iintro ⟨H0, H1, H2, H3, H4, H5, HS0, HS1, HS2⟩
      isplitl [HS0 HS1 HS2 Hg]
      · isplitl [HS0 HS1 HS2]
        · isplitl [HS0]; · iexact HS0
          isplitl [HS1]; · iexact HS1
          iexact HS2
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5

/-- The library's body obligation, at every point. -/
theorem body_obligation (HF : RunFirst (F := F)) (HM : RunMid (F := F)) (HL : RunLast (F := F)) (c : Dev nD) :
    BodyObligation (dats (F := F) m 0 c) (defs₀ (F := F)) Variants.none () Set.univ := fun t => by
  rw [bigSep_W0, bigSep_W0]
  exact sound_body m HF HM HL c t

end Cert.KernelIdeal.Hand

end
-- ==== Proof.KArrays.lean ====
/-
  The array shared by two windows, at the region's entry and exit.

  The region's six windows stage five distinct arrays: the feature matrix is read through two windows (the row tile's
  block and the column tile's block), the label column and the label row through one window each, and the two outputs are
  written through one window each. A pipeline's proof data hold one points-to per WINDOW, so the feature matrix is held
  twice, at the two halves of the full share; the other arrays are held whole. At entry the full share of the feature
  matrix is split into its halves at the same contents; at exit the halves, which hold the same contents, are joined.
-/
import proofs.«127721_j16621523436335_1_alg».proof.Proof.KData

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The buffers behind the six windows' arrays are five. -/
theorem arrRefs_eq : Finset.univ.image (Pipeline.arrRef spec0) = ([main_v1, main_v5, main_v6, main_v7_0, main_v7_1] : List (Ref sig .tc)).toFinset := by decide

/-- The share each window holds its array at: the two windows on the feature matrix a half each, the others the whole. -/
def shareOf : Fin 6 → PosShare TreeShare
  | 0 => fullShare.left
  | 1 => fullShare.right
  | _ => fullShare

variable {c : Dev nD} (dat : Dat τ (Elt F) Unit ℕ (UR sig nD τ) ℕ cfg0 c)
  (hq0 : dat.q 0 = fullShare.left) (hq1 : dat.q 1 = fullShare.right) (hq2 : dat.q 2 = fullShare) (hq3 : dat.q 3 = fullShare)

include hq0 hq1 hq2 hq3 in
theorem share_eq : ∀ w : Fin cfg0.W, dat.share w = shareOf w := fun
  | 0 => (if_neg Bool.false_ne_true).trans hq0
  | 1 => (if_neg Bool.false_ne_true).trans hq1
  | 2 => (if_neg Bool.false_ne_true).trans hq2
  | 3 => (if_neg Bool.false_ne_true).trans hq3
  | 4 => if_pos rfl
  | 5 => if_pos rfl
  | ⟨_ + 6, h⟩ => absurd h (Nat.not_lt.2 (Nat.le_add_left _ _))

include hq0 hq1 hq2 hq3 in
/-- The pipeline's arrays window by window, each a whole buffer at its share. -/
theorem arrays_eq6 (G : (w : Fin cfg0.W) → Buf (Elt F) ((cfg0.win w).arr.view.loc (c : Thread nD τ))) :
    (dat.arrays G : sProp 𝕄) = iprop(
      (((c : Thread nD τ).loc main_v1) ↦{fullShare.left} G 0) ∗ (((c : Thread nD τ).loc main_v1) ↦{fullShare.right} G 1)
      ∗ (((c : Thread nD τ).loc main_v5) ↦{fullShare} G 2) ∗ (((c : Thread nD τ).loc main_v6) ↦{fullShare} G 3)
      ∗ (((c : Thread nD τ).loc main_v7_0) ↦{fullShare} G 4) ∗ (((c : Thread nD τ).loc main_v7_1) ↦{fullShare} G 5)) := by
  unfold Dat.arrays
  rw [bigSep_congr fun w _ => by rw [(arr_whole0 w).set_eq_univ, share_eq dat hq0 hq1 hq2 hq3 w], bigSep_W0]
  rfl

/-- The distinct buffers behind the windows' arrays, each whole at the full share, one by one. -/
theorem arrBufs_eq5 (Vc : (b : Ref sig .tc) → Buf (Elt F) ((c : Thread nD τ).loc b)) :
    (Pipeline.arrBufs (Ix := Unit) (Name := ℕ) (U := UR sig nD τ) (Lvl := ℕ) spec0 c Vc : sProp 𝕄) = iprop(
      (((c : Thread nD τ).loc main_v1) ↦{fullShare} Vc main_v1) ∗ (((c : Thread nD τ).loc main_v5) ↦{fullShare} Vc main_v5)
      ∗ (((c : Thread nD τ).loc main_v6) ↦{fullShare} Vc main_v6) ∗ (((c : Thread nD τ).loc main_v7_0) ↦{fullShare} Vc main_v7_0)
      ∗ (((c : Thread nD τ).loc main_v7_1) ↦{fullShare} Vc main_v7_1)) := by
  unfold Pipeline.arrBufs; exact bigSep_eq_bigSepL_of_eq _ arrRefs_eq (by decide) _

include hq0 hq1 hq2 hq3 in
/-- ENTRY: a core's unscoped buffers at contents `Vc` are the pipeline's arrays at the same contents — the feature
    matrix's full share split into the halves the two windows on it hold — and the unscoped rest. -/
theorem arrays_in (Vc : (b : Ref sig .tc) → Buf (Elt F) ((c : Thread nD τ).loc b))
    (G : (w : Fin cfg0.W) → Buf (Elt F) ((cfg0.win w).arr.view.loc (c : Thread nD τ)))
    (hG : ∀ w, G w = Vc (Pipeline.arrRef spec0 w)) :
    (unscopedBufs c Vc : sProp 𝕄) ⊢ iprop(dat.arrays G ∗ Pipeline.unscopedRest (Ix := Unit) (Name := ℕ) (U := UR sig nD τ) (Lvl := ℕ) spec0 c Vc) := by
  obtain rfl : G = fun w => Vc (Pipeline.arrRef spec0 w) := funext hG
  rw [Pipeline.unscopedBufs_split₀ (fun _ : Fin 1 => cfg0) 0 winFacts₀0.arr_unscoped c Vc, arrays_eq6 dat hq0 hq1 hq2 hq3]
  refine sep_mono ?_ .rfl
  rw [arrBufs_eq5]
  iintro ⟨H1, H5, H6, H70, H71⟩
  ihave H1' := (pointsTo_share (PosShare.mem_left_op_right fullShare)).1 $$ H1
  icases H1' with ⟨Hl, Hr⟩
  isplitl [Hl]; · iexact Hl
  isplitl [Hr]; · iexact Hr
  isplitl [H5]; · iexact H5
  isplitl [H6]; · iexact H6
  isplitl [H70]; · iexact H70
  iexact H71

include hq0 hq1 hq2 hq3 in
/-- EXIT: the arrays at contents `G` and the rest at `Vc` are the core's unscoped buffers at any `Vc'` that is `G` at the
    arrays and `Vc` elsewhere — the two halves of the feature matrix, which hold the same contents, joined. -/
theorem arrays_out (Vc Vc' : (b : Ref sig .tc) → Buf (Elt F) ((c : Thread nD τ).loc b))
    (G : (w : Fin cfg0.W) → Buf (Elt F) ((cfg0.win w).arr.view.loc (c : Thread nD τ)))
    (hG : ∀ w, G w = Vc' (Pipeline.arrRef spec0 w)) (hrest : ∀ b, b ∉ Finset.univ.image (Pipeline.arrRef spec0) → Vc' b = Vc b) :
    iprop(dat.arrays G ∗ Pipeline.unscopedRest (Ix := Unit) (Name := ℕ) (U := UR sig nD τ) (Lvl := ℕ) spec0 c Vc) ⊢ (unscopedBufs c Vc' : sProp 𝕄) := by
  obtain rfl : G = fun w => Vc' (Pipeline.arrRef spec0 w) := funext hG
  rw [Pipeline.unscopedBufs_split₀ (fun _ : Fin 1 => cfg0) 0 winFacts₀0.arr_unscoped c Vc', arrays_eq6 dat hq0 hq1 hq2 hq3]
  refine sep_mono ?_ (Entails.of_eq ?_)
  · rw [arrBufs_eq5]
    iintro ⟨Hl, Hr, H5, H6, H70, H71⟩
    isplitl [Hl Hr]
    · iapply (pointsTo_share (PosShare.mem_left_op_right fullShare)).2
      isplitl [Hl]; · iexact Hl
      iexact Hr
    isplitl [H5]; · iexact H5
    isplitl [H6]; · iexact H6
    isplitl [H70]; · iexact H70
    iexact H71
  · unfold Pipeline.unscopedRest
    exact bigSep_congr fun b hb => by rw [hrest b (Finset.mem_sdiff.mp hb).2]

/-! ## The exit contents: only the two outputs change -/

/-- `Vc` with the two output arrays replaced by `o4` and `o5`. -/
def withOuts (Vc : (b : Ref sig .tc) → Buf (Elt F) ((c : Thread nD τ).loc b))
    (o4 : Buf (Elt F) ((c : Thread nD τ).loc main_v7_0)) (o5 : Buf (Elt F) ((c : Thread nD τ).loc main_v7_1)) :
    (b : Ref sig .tc) → Buf (Elt F) ((c : Thread nD τ).loc b) :=
  Function.update (Function.update Vc main_v7_0 o4) main_v7_1 o5

theorem withOuts_out0 (Vc : (b : Ref sig .tc) → Buf (Elt F) ((c : Thread nD τ).loc b))
    (o4 : Buf (Elt F) ((c : Thread nD τ).loc main_v7_0)) (o5 : Buf (Elt F) ((c : Thread nD τ).loc main_v7_1)) :
    withOuts Vc o4 o5 main_v7_0 = o4 := by
  unfold withOuts; rw [Function.update_of_ne (by decide), Function.update_self]

theorem withOuts_out1 (Vc : (b : Ref sig .tc) → Buf (Elt F) ((c : Thread nD τ).loc b))
    (o4 : Buf (Elt F) ((c : Thread nD τ).loc main_v7_0)) (o5 : Buf (Elt F) ((c : Thread nD τ).loc main_v7_1)) :
    withOuts Vc o4 o5 main_v7_1 = o5 := by
  unfold withOuts; rw [Function.update_self]

theorem withOuts_of_ne (Vc : (b : Ref sig .tc) → Buf (Elt F) ((c : Thread nD τ).loc b))
    (o4 : Buf (Elt F) ((c : Thread nD τ).loc main_v7_0)) (o5 : Buf (Elt F) ((c : Thread nD τ).loc main_v7_1))
    (b : Ref sig .tc) (h0 : b ≠ main_v7_0) (h1 : b ≠ main_v7_1) : withOuts Vc o4 o5 b = Vc b := by
  unfold withOuts; rw [Function.update_of_ne h1, Function.update_of_ne h0]

include hq0 hq1 hq2 hq3 in
/-- EXIT, at the contents the region leaves: the inputs as entered (`hG0` … `hG3`), the two outputs at what the proof data
    say, every other buffer as entered. -/
theorem arrays_out_withOuts (Vc : (b : Ref sig .tc) → Buf (Elt F) ((c : Thread nD τ).loc b))
    (G : (w : Fin cfg0.W) → Buf (Elt F) ((cfg0.win w).arr.view.loc (c : Thread nD τ)))
    (hG0 : G 0 = Vc main_v1) (hG1 : G 1 = Vc main_v1) (hG2 : G 2 = Vc main_v5) (hG3 : G 3 = Vc main_v6) :
    iprop(dat.arrays G ∗ Pipeline.unscopedRest (Ix := Unit) (Name := ℕ) (U := UR sig nD τ) (Lvl := ℕ) spec0 c Vc)
      ⊢ (unscopedBufs c (withOuts Vc (G 4) (G 5)) : sProp 𝕄) := by
  refine arrays_out dat hq0 hq1 hq2 hq3 Vc (withOuts Vc (G 4) (G 5)) G (fun
    | 0 => hG0.trans (withOuts_of_ne Vc _ _ main_v1 (by decide) (by decide)).symm
    | 1 => hG1.trans (withOuts_of_ne Vc _ _ main_v1 (by decide) (by decide)).symm
    | 2 => hG2.trans (withOuts_of_ne Vc _ _ main_v5 (by decide) (by decide)).symm
    | 3 => hG3.trans (withOuts_of_ne Vc _ _ main_v6 (by decide) (by decide)).symm
    | 4 => (withOuts_out0 Vc _ _).symm
    | 5 => (withOuts_out1 Vc _ _).symm
    | ⟨_ + 6, h⟩ => absurd h (Nat.not_lt.2 (Nat.le_add_left _ _))) fun b hb => ?_
  rw [arrRefs_eq] at hb
  refine withOuts_of_ne Vc _ _ b (fun e => hb ?_) (fun e => hb ?_) <;> subst e <;> decide

end Cert.KernelIdeal.Hand

end
-- ==== Proof.KFrame.lean ====
/-
  The kernel region's record over the host frame, and the run of the whole program.

  The region is entered with every unscoped buffer at the contents the first host stretch leaves, and left with the same
  contents except at its two output arrays, which hold what the write-backs of the sixty-four points leave. Its arrays are
  split out of the unscoped buffers at entry and put back at exit; the three scratch accumulators and the generator register
  go into the invariant and come back; nothing is owed. With that record the conditional frame gives the run: the result buffer
  ends at the last host valuation over those two output arrays, and the arguments end as launched.
-/
import proofs.«127721_j16621523436335_1_alg».proof.Proof.KHost
import proofs.«127721_j16621523436335_1_alg».proof.Proof.KBody
import proofs.«127721_j16621523436335_1_alg».proof.Proof.KArrays
import Idealize.ShloMosaic.Lib.Pipeline.RegionsLoop
import Idealize.ShloMosaic.Lib.Ring

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

/-! ## The buffers when the region is left -/

/-- Core `c`'s buffers when the region is left: as entered, the two output arrays at what the write-backs leave. -/
abbrev Wexit (c : Dev nD) : Valuation τ sig (Elt F) :=
  Function.update (Function.update (W1 m c) main_v7_0 ((dats m 0 c).arrAt 4 cfg0.N)) main_v7_1 ((dats m 0 c).arrAt 5 cfg0.N)
/-- The same read at a TensorCore reference. -/
abbrev Vexit (c : Dev nD) (b : Ref sig .tc) : Buf (Elt F) ((c : Thread nD τ).loc b) := Wexit m c (Proc.devRef .tc b)

/-- What the region leaves in the buffers it may change, for the host frame. -/
abbrev outsK : Outs (F := F) := fun _ r c => Wexit m c (Proc.devRef .tc r)

theorem Wexit_v7_1 (c : Dev nD) : Wexit m c (Proc.devRef .tc main_v7_1) = (dats m 0 c).arrAt 5 cfg0.N := by
  simp only [Wexit, Function.update_self]
theorem Wexit_v7_0 (c : Dev nD) : Wexit m c (Proc.devRef .tc main_v7_0) = (dats m 0 c).arrAt 4 cfg0.N := by
  simp only [Wexit]
  rw [Function.update_of_ne (StableHlo.devRef_ne_of_ne (by decide) : (Proc.devRef .tc main_v7_0 : DevRef τ sig) ≠ Proc.devRef .tc main_v7_1), Function.update_self]
theorem Wexit_of (c : Dev nD) (r : Ref sig .tc) (h0 : r ≠ main_v7_0) (h1 : r ≠ main_v7_1) : Wexit m c (Proc.devRef .tc r) = W1 m c (Proc.devRef .tc r) := by
  simp only [Wexit, Function.update_of_ne (StableHlo.devRef_ne_of_ne h1 : (Proc.devRef .tc r : DevRef τ sig) ≠ Proc.devRef .tc main_v7_1),
    Function.update_of_ne (StableHlo.devRef_ne_of_ne h0 : (Proc.devRef .tc r : DevRef τ sig) ≠ Proc.devRef .tc main_v7_0)]

/-- The host frame's valuation after the region, at these contents, is the exit valuation. -/
theorem U2_outsK (c : Dev nD) : U2 m (outsK m) c = Wexit m c := by
  show Function.update (Function.update (W1 m c) main_v7_0 (Wexit m c (Proc.devRef .tc main_v7_0))) main_v7_1 (Wexit m c (Proc.devRef .tc main_v7_1)) = _
  rw [Wexit_v7_0, Wexit_v7_1]

/-- When the region is left each of its arrays holds what the pipeline leaves, -/
theorem hF (c : Dev nD) : ∀ w : Fin cfg0.W, (dats m 0 c).arrAt w cfg0.N = Vexit m c (Pipeline.arrRef spec0 w)
  | ⟨0, _⟩ => (((dats m 0 c).arrAt_in 0 rfl _).trans (A_eq m c 0)).trans (Wexit_of m c main_v1 (by decide) (by decide)).symm
  | ⟨1, _⟩ => (((dats m 0 c).arrAt_in 1 rfl _).trans (A_eq m c 1)).trans (Wexit_of m c main_v1 (by decide) (by decide)).symm
  | ⟨2, _⟩ => (((dats m 0 c).arrAt_in 2 rfl _).trans (A_eq m c 2)).trans (Wexit_of m c main_v5 (by decide) (by decide)).symm
  | ⟨3, _⟩ => (((dats m 0 c).arrAt_in 3 rfl _).trans (A_eq m c 3)).trans (Wexit_of m c main_v6 (by decide) (by decide)).symm
  | ⟨4, _⟩ => (Wexit_v7_0 m c).symm
  | ⟨5, _⟩ => (Wexit_v7_1 m c).symm
/-- and every other buffer what it held when the region was entered. -/
theorem hrest (c : Dev nD) : ∀ b, b ∉ Finset.univ.image (Pipeline.arrRef spec0) → Vexit m c b = V m c b :=
  fun b hb => Wexit_of m c b
    (fun e => hb (Finset.mem_image.mpr ⟨4, Finset.mem_univ _, e.symm⟩))
    (fun e => hb (Finset.mem_image.mpr ⟨5, Finset.mem_univ _, e.symm⟩))

/-! ## The proof data family and the thread state -/

/-- The pipeline's proof data, as a family over the program's one pallas_call. -/
def pdats : (p : Fin 1) → (c : Dev nD) → Dat τ (Elt F) Unit ℕ (UR sig nD τ) ℕ (cfgs p) c
  | ⟨0, _⟩ => fun c => dats m 0 c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, at nothing. -/
abbrev R (c : Dev nD) : sProp 𝕄 := iprop((∃ r, prngReg c r) ∗ ∃ W, owes (c : Thread nD τ) (0 : CellTallies nD τ sig Unit) W)

/-! ## The region as a segment -/

set_option backward.isDefEq.respectTransparency.types false in
/-- The region over the thread state: entered from every unscoped buffer at `W1`, left at `Wexit`. Its arrays are split
    out of the unscoped buffers and put back at the exit contents; the generator register and the scratch go into the
    invariant and come back; nothing is owed; the kernel has no semaphore of its own. -/
def reg0 (HF : RunFirst (F := F)) (HM : RunMid (F := F)) (HL : RunLast (F := F)) :
    Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (body_obligation m HF HM HL c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (Wexit m c) ∗ R c)
  X c := iprop(∃ r, prngReg c r)
  Y c := iprop(∃ r, prngReg c r)
  Z c := Pipeline.unscopedRest (Ix := Unit) (Name := ℕ) (U := UR sig nD τ) (Lvl := ℕ) spec0 c (V m c)
  hentry c := by
    rw [Pipeline.ownSems0_none]
    have hsplit := arrays_in (dats m 0 c) (q_0 m c) (q_1 m c) (q_2 m c) (q_3 m c) (V m c) ((dats m 0 c).arrAt · 0) (fun w => A_eq m c w)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from PhiS_zero m c]; unfold Pipeline.ΦA
    iintro ⟨Hp, -, Hr⟩
    isplitl [Hr]; · iexact Hr
    iexact Hp
  hout c := by
    rw [Pipeline.ownSems0_none]
    refine (show (pdats m 0 c).Φ (Fin.last _) ⊢ Pipeline.ΦA spec0 c from PhiS_out m c (Fin.last cfg0.N).val).trans ?_
    unfold Pipeline.ΦA
    iintro ⟨Hr, Hp⟩
    isplitl [Hp]; · iexact Hp
    isplitr; · iempintro
    iexact Hr
  hexit c := by
    have hjoin := arrays_out (dats m 0 c) (q_0 m c) (q_1 m c) (q_2 m c) (q_3 m c) (V m c) (Vexit m c) ((dats m 0 c).arrAt · cfg0.N) (hF m c) (hrest m c)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-! ## The run -/

set_option backward.isDefEq.respectTransparency.types false in
/-- THE RUN. Given the kernel body's three runs, from any memory with zero counters every weakly fair execution of the
    program terminates, and in every final memory the result buffer holds the last host valuation over the region's
    two output arrays at what its write-backs leave, and each argument holds what it was launched with. -/
theorem run_main (HF : RunFirst (F := F)) (HM : RunMid (F := F)) (HL : RunLast (F := F)) (ρ : Dev nD → PrngReg) :
    θ_run defs (onTc (τ := τ) (main (F := F))) ⟨m, fun _ => 0, ρ⟩ (fun r => ∀ c : Dev nD,
      r.2.mem ((c.tc : Thread nD τ).loc main_v33) = U13 m (outsK m) c (Proc.devRef .tc main_v33)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  frame_cond m emb₁ () 𝒱₀ L lv (fun _ _ => rfl) ρ (outsK m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ => R)
    (hE0 := by
      refine Pipeline.initEach L lv fun c => ?_
      iintro ⟨⟨-, HO, -, Hp, -⟩, -⟩
      imodintro
      isplitl [Hp]; · iexists _; iexact Hp
      iexists ∅; iexact HO)
    (hE1 := fun c => by iintro ⟨-, HO⟩; iexact HO)
    (R0 := reg0 m HF HM HL)
    (hpre0 := fun c => .rfl)
    (hpost0 := fun c => by rw [U2_outsK]; exact .rfl)

end Cert.KernelIdeal.Hand

end
-- ==== Proof.KRun.lean ====
/-
  The kernel body's triple in each of its three control cases.

  The body reads the row tile's and the column tile's feature blocks and label blocks, updates the three [1024, 1]
  accumulators (running maximum, rescaled running sum, running count) held in scratch, and — at the last column tile —
  copies the sum and the count into the two output blocks. At the first column tile the accumulators are reset before
  use. Every load and store is of a whole buffer, so after the body each buffer holds the payload of its last store,
  and a load that follows a store reads that store's payload.
-/
import proofs.«127721_j16621523436335_1_alg».proof.Proof.KCond
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## Whole-buffer loads and stores -/

section whole

variable {Val : EltTy → Type} {κ : Kind} {sp : Space} {S : Shape} {e : EltTy}

/-- A load of the whole buffer through a whole memref held at the contents that read `X` reads `X`. -/
theorem readAt_whole_unread {m : Memref sig κ sp S e} (h : m.IsWhole) (X : S.Idx → Val e) {off : Fin S.rank → Nat}
    (hz : off = fun _ => 0) (inb : ∀ a, off a + S.size a ≤ S.size a) :
    View.readAt Val m.view (Rect.unit off S.size inb).toLoadRect (h.unread X) = X := by
  rw [View.readAt_eq_ld, h.read_unread, View.ld_unit_zero hz]

/-- After a last store of the whole buffer, the buffer reads that store's payload, whatever was stored before. -/
theorem read_writes_whole [∀ e, Nonempty (Val e)] (v : View sig κ sp S e) (f : v.ty.Contents Val) {off : Fin S.rank → Nat}
    (hz : off = fun _ => 0) (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon _ _ _ (fun y => ⟨_, List.mem_cons_self, View.mem_set_unit_zero hz inb y⟩),
    View.canon_cons_unit_zero hz]

end whole

/-- The offsets of every access of the body: zero along both axes. -/
theorem off_zero : (![0, 0] : Fin 2 → Nat) = fun _ => 0 := by
  funext a; fin_cases a <;> rfl

/-! ## The three runs -/

set_option maxHeartbeats 1000000 in
/-- A column tile that is neither the first nor the last: the accumulators go from `a` to `accStep … a`, and nothing
    else changes. -/
theorem exec_mid (c : Dev nD) (i : grid0.Coords)
    (arg2 : Memref sig .tc .vmem S1024x128 .f32) (harg2 : arg2.IsWhole) (arg3 : Memref sig .tc .vmem S1024x128 .f32) (harg3 : arg3.IsWhole)
    (arg4 : Memref sig .tc .vmem S1024x1 .i32) (harg4 : arg4.IsWhole) (arg5 : Memref sig .tc .vmem S1x1024 .i32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1 .f32) (harg8 : arg8.IsWhole) (arg9 : Memref sig .tc .vmem S1024x1 .f32) (harg9 : arg9.IsWhole)
    (arg10 : Memref sig .tc .vmem S1024x1 .f32) (harg10 : arg10.IsWhole)
    (h0 : ¬condReset i) (h1 : ¬condFlush i)
    (xq xk : Vec F S1024x128 .f32) (lq : Vec F S1024x1 .i32) (lk : Vec F S1x1024 .i32) (a : Acc F) (o6 o7 : Vec F S1024x1 .f32)
    (E : Set ℕ) (K : PUnit → sProp 𝕄) :
    iprop(owns (c : Thread nD τ) arg2 fullShare xq ∗ owns (c : Thread nD τ) arg3 fullShare xk ∗ owns (c : Thread nD τ) arg4 fullShare lq ∗ owns (c : Thread nD τ) arg5 fullShare lk
        ∗ owns (c : Thread nD τ) arg6 fullShare o6 ∗ owns (c : Thread nD τ) arg7 fullShare o7
        ∗ owns (c : Thread nD τ) arg8 fullShare a.mx ∗ owns (c : Thread nD τ) arg9 fullShare a.sm ∗ owns (c : Thread nD τ) arg10 fullShare a.ct
        ∗ (iprop(owns (c : Thread nD τ) arg2 fullShare xq ∗ owns (c : Thread nD τ) arg3 fullShare xk ∗ owns (c : Thread nD τ) arg4 fullShare lq ∗ owns (c : Thread nD τ) arg5 fullShare lk
              ∗ owns (c : Thread nD τ) arg6 fullShare o6 ∗ owns (c : Thread nD τ) arg7 fullShare o7
              ∗ owns (c : Thread nD τ) arg8 fullShare (accStep xq xk lq lk a).mx ∗ owns (c : Thread nD τ) arg9 fullShare (accStep xq xk lq lk a).sm
              ∗ owns (c : Thread nD τ) arg10 fullShare (accStep xq xk lq lk a).ct) -∗ K ⟨⟩))
      ⊢ wp frame (wpE (defs₀ (F := F)) Variants.none c none) E (cc0__fourdloss_kernel i arg2 harg2 arg3 harg3 arg4 harg4 arg5 harg5 arg6 harg6 arg7 harg7 arg8 harg8 arg9 harg9 arg10 harg10) K := by
  simp only [cc0__fourdloss_kernel_eq_skeleton]; unfold cc0__fourdloss_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  obtain rfl := harg2.eq_unread hf2; obtain rfl := harg3.eq_unread hf3; obtain rfl := harg4.eq_unread hf4; obtain rfl := harg5.eq_unread hf5
  obtain rfl := harg8.eq_unread hf8; obtain rfl := harg9.eq_unread hf9; obtain rfl := harg10.eq_unread hf10
  sl_exec (disch := first | exact h0 | exact h1)
  sl_step
  iapply Hk
  isplitl [H2]; · iexists _; isplitr; · ipureintro; exact hf2
                  iexact H2
  isplitl [H3]; · iexists _; isplitr; · ipureintro; exact hf3
                  iexact H3
  isplitl [H4]; · iexists _; isplitr; · ipureintro; exact hf4
                  iexact H4
  isplitl [H5]; · iexists _; isplitr; · ipureintro; exact hf5
                  iexact H5
  isplitl [H6]; · iexists _; isplitr; · ipureintro; exact hf6
                  iexact H6
  isplitl [H7]; · iexists _; isplitr; · ipureintro; exact hf7
                  iexact H7
  isplitl [H8]
  · iexists _; isplitr
    swap; · iexact H8
    ipureintro
    rw [read_writes_whole _ _ off_zero]
    unfold exec_mid.sl.r_1 accStep
    simp only [readAt_whole_unread harg2 xq off_zero, readAt_whole_unread harg3 xk off_zero, readAt_whole_unread harg4 lq off_zero, readAt_whole_unread harg5 lk off_zero, readAt_whole_unread harg8 a.mx off_zero]
  isplitl [H9]
  · iexists _; isplitr
    swap; · iexact H9
    ipureintro
    rw [read_writes_whole _ _ off_zero]
    unfold exec_mid.sl.r_2 exec_mid.sl.r_3 accStep
    simp only [readAt_whole_unread harg2 xq off_zero, readAt_whole_unread harg3 xk off_zero, readAt_whole_unread harg4 lq off_zero, readAt_whole_unread harg5 lk off_zero, readAt_whole_unread harg8 a.mx off_zero, readAt_whole_unread harg9 a.sm off_zero]
  iexists _; isplitr
  swap; · iexact H10
  ipureintro
  rw [read_writes_whole _ _ off_zero]
  unfold exec_mid.sl.r accStep
  simp only [readAt_whole_unread harg2 xq off_zero, readAt_whole_unread harg3 xk off_zero, readAt_whole_unread harg4 lq off_zero, readAt_whole_unread harg5 lk off_zero, readAt_whole_unread harg10 a.ct off_zero]

set_option maxHeartbeats 1000000 in
/-- The last column tile (not the first): the accumulators go from `a` to `accStep … a`, and the two output blocks,
    whatever they held, receive the new sum and the new count. -/
theorem exec_last (c : Dev nD) (i : grid0.Coords)
    (arg2 : Memref sig .tc .vmem S1024x128 .f32) (harg2 : arg2.IsWhole) (arg3 : Memref sig .tc .vmem S1024x128 .f32) (harg3 : arg3.IsWhole)
    (arg4 : Memref sig .tc .vmem S1024x1 .i32) (harg4 : arg4.IsWhole) (arg5 : Memref sig .tc .vmem S1x1024 .i32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1 .f32) (harg8 : arg8.IsWhole) (arg9 : Memref sig .tc .vmem S1024x1 .f32) (harg9 : arg9.IsWhole)
    (arg10 : Memref sig .tc .vmem S1024x1 .f32) (harg10 : arg10.IsWhole)
    (h0 : ¬condReset i) (h1 : condFlush i)
    (xq xk : Vec F S1024x128 .f32) (lq : Vec F S1024x1 .i32) (lk : Vec F S1x1024 .i32) (a : Acc F)
    (E : Set ℕ) (K : PUnit → sProp 𝕄) :
    iprop(owns (c : Thread nD τ) arg2 fullShare xq ∗ owns (c : Thread nD τ) arg3 fullShare xk ∗ owns (c : Thread nD τ) arg4 fullShare lq ∗ owns (c : Thread nD τ) arg5 fullShare lk
        ∗ (∃ d, owns (c : Thread nD τ) arg6 fullShare d) ∗ (∃ d, owns (c : Thread nD τ) arg7 fullShare d)
        ∗ owns (c : Thread nD τ) arg8 fullShare a.mx ∗ owns (c : Thread nD τ) arg9 fullShare a.sm ∗ owns (c : Thread nD τ) arg10 fullShare a.ct
        ∗ (iprop(owns (c : Thread nD τ) arg2 fullShare xq ∗ owns (c : Thread nD τ) arg3 fullShare xk ∗ owns (c : Thread nD τ) arg4 fullShare lq ∗ owns (c : Thread nD τ) arg5 fullShare lk
              ∗ owns (c : Thread nD τ) arg6 fullShare (accStep xq xk lq lk a).sm ∗ owns (c : Thread nD τ) arg7 fullShare (accStep xq xk lq lk a).ct
              ∗ owns (c : Thread nD τ) arg8 fullShare (accStep xq xk lq lk a).mx ∗ owns (c : Thread nD τ) arg9 fullShare (accStep xq xk lq lk a).sm
              ∗ owns (c : Thread nD τ) arg10 fullShare (accStep xq xk lq lk a).ct) -∗ K ⟨⟩))
      ⊢ wp frame (wpE (defs₀ (F := F)) Variants.none c none) E (cc0__fourdloss_kernel i arg2 harg2 arg3 harg3 arg4 harg4 arg5 harg5 arg6 harg6 arg7 harg7 arg8 harg8 arg9 harg9 arg10 harg10) K := by
  simp only [cc0__fourdloss_kernel_eq_skeleton]; unfold cc0__fourdloss_kernel_skel
  unfold owns
  iintro ⟨⟨%f2, %hf2, H2⟩, ⟨%f3, %hf3, H3⟩, ⟨%f4, %hf4, H4⟩, ⟨%f5, %hf5, H5⟩, ⟨%d6, %f6, -, H6⟩, ⟨%d7, %f7, -, H7⟩, ⟨%f8, %hf8, H8⟩, ⟨%f9, %hf9, H9⟩, ⟨%f10, %hf10, H10⟩, Hk⟩
  obtain rfl := harg2.eq_unread hf2; obtain rfl := harg3.eq_unread hf3; obtain rfl := harg4.eq_unread hf4; obtain rfl := harg5.eq_unread hf5
  obtain rfl := harg8.eq_unread hf8; obtain rfl := harg9.eq_unread hf9; obtain rfl := harg10.eq_unread hf10
  sl_exec (disch := first | exact h0 | exact h1)
  sl_step
  iapply Hk
  isplitl [H2]; · iexists _; isplitr; · ipureintro; exact hf2
                  iexact H2
  isplitl [H3]; · iexists _; isplitr; · ipureintro; exact hf3
                  iexact H3
  isplitl [H4]; · iexists _; isplitr; · ipureintro; exact hf4
                  iexact H4
  isplitl [H5]; · iexists _; isplitr; · ipureintro; exact hf5
                  iexact H5
  isplitl [H6]
  · iexists _; isplitr
    swap; · iexact H6
    ipureintro
    rw [read_writes_whole _ _ off_zero]
    unfold exec_last.sl.v54 exec_last.sl.H9_1
    rw [View.readCov_unit_zero _ off_zero]
    unfold exec_last.sl.r_2 exec_last.sl.r_3 accStep
    simp only [readAt_whole_unread harg2 xq off_zero, readAt_whole_unread harg3 xk off_zero, readAt_whole_unread harg4 lq off_zero, readAt_whole_unread harg5 lk off_zero, readAt_whole_unread harg8 a.mx off_zero, readAt_whole_unread harg9 a.sm off_zero]
  isplitl [H7]
  · iexists _; isplitr
    swap; · iexact H7
    ipureintro
    rw [read_writes_whole _ _ off_zero]
    unfold exec_last.sl.v56 exec_last.sl.H10_1
    rw [View.readCov_unit_zero _ off_zero]
    unfold exec_last.sl.r accStep
    simp only [readAt_whole_unread harg2 xq off_zero, readAt_whole_unread harg3 xk off_zero, readAt_whole_unread harg4 lq off_zero, readAt_whole_unread harg5 lk off_zero, readAt_whole_unread harg10 a.ct off_zero]
  isplitl [H8]
  · iexists _; isplitr
    swap; · iexact H8
    ipureintro
    rw [read_writes_whole _ _ off_zero]
    unfold exec_last.sl.r_1 accStep
    simp only [readAt_whole_unread harg2 xq off_zero, readAt_whole_unread harg3 xk off_zero, readAt_whole_unread harg4 lq off_zero, readAt_whole_unread harg5 lk off_zero, readAt_whole_unread harg8 a.mx off_zero]
  isplitl [H9]
  · iexists _; isplitr
    swap; · iexact H9
    ipureintro
    unfold exec_last.sl.H9_1
    rw [read_writes_whole _ _ off_zero]
    unfold exec_last.sl.r_2 exec_last.sl.r_3 accStep
    simp only [readAt_whole_unread harg2 xq off_zero, readAt_whole_unread harg3 xk off_zero, readAt_whole_unread harg4 lq off_zero, readAt_whole_unread harg5 lk off_zero, readAt_whole_unread harg8 a.mx off_zero, readAt_whole_unread harg9 a.sm off_zero]
  iexists _; isplitr
  swap; · iexact H10
  ipureintro
  unfold exec_last.sl.H10_1
  rw [read_writes_whole _ _ off_zero]
  unfold exec_last.sl.r accStep
  simp only [readAt_whole_unread harg2 xq off_zero, readAt_whole_unread harg3 xk off_zero, readAt_whole_unread harg4 lq off_zero, readAt_whole_unread harg5 lk off_zero, readAt_whole_unread harg10 a.ct off_zero]

set_option maxHeartbeats 1000000 in
/-- The first column tile (not the last): the accumulators, whatever the scratch held, are reset and come back at
    `accStep … accReset`; nothing else changes. -/
theorem exec_first (c : Dev nD) (i : grid0.Coords)
    (arg2 : Memref sig .tc .vmem S1024x128 .f32) (harg2 : arg2.IsWhole) (arg3 : Memref sig .tc .vmem S1024x128 .f32) (harg3 : arg3.IsWhole)
    (arg4 : Memref sig .tc .vmem S1024x1 .i32) (harg4 : arg4.IsWhole) (arg5 : Memref sig .tc .vmem S1x1024 .i32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1 .f32) (harg8 : arg8.IsWhole) (arg9 : Memref sig .tc .vmem S1024x1 .f32) (harg9 : arg9.IsWhole)
    (arg10 : Memref sig .tc .vmem S1024x1 .f32) (harg10 : arg10.IsWhole)
    (h0 : condReset i) (h1 : ¬condFlush i)
    (xq xk : Vec F S1024x128 .f32) (lq : Vec F S1024x1 .i32) (lk : Vec F S1x1024 .i32) (o6 o7 : Vec F S1024x1 .f32)
    (E : Set ℕ) (K : PUnit → sProp 𝕄) :
    iprop(owns (c : Thread nD τ) arg2 fullShare xq ∗ owns (c : Thread nD τ) arg3 fullShare xk ∗ owns (c : Thread nD τ) arg4 fullShare lq ∗ owns (c : Thread nD τ) arg5 fullShare lk
        ∗ owns (c : Thread nD τ) arg6 fullShare o6 ∗ owns (c : Thread nD τ) arg7 fullShare o7
        ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg2 fullShare xq ∗ owns (c : Thread nD τ) arg3 fullShare xk ∗ owns (c : Thread nD τ) arg4 fullShare lq ∗ owns (c : Thread nD τ) arg5 fullShare lk
              ∗ owns (c : Thread nD τ) arg6 fullShare o6 ∗ owns (c : Thread nD τ) arg7 fullShare o7
              ∗ owns (c : Thread nD τ) arg8 fullShare (accStep xq xk lq lk accReset).mx ∗ owns (c : Thread nD τ) arg9 fullShare (accStep xq xk lq lk accReset).sm
              ∗ owns (c : Thread nD τ) arg10 fullShare (accStep xq xk lq lk accReset).ct) -∗ K ⟨⟩))
      ⊢ wp frame (wpE (defs₀ (F := F)) Variants.none c none) E (cc0__fourdloss_kernel i arg2 harg2 arg3 harg3 arg4 harg4 arg5 harg5 arg6 harg6 arg7 harg7 arg8 harg8 arg9 harg9 arg10 harg10) K := by
  simp only [cc0__fourdloss_kernel_eq_skeleton]; unfold cc0__fourdloss_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, Hk⟩
  obtain rfl := harg2.eq_unread hf2; obtain rfl := harg3.eq_unread hf3; obtain rfl := harg4.eq_unread hf4; obtain rfl := harg5.eq_unread hf5
  sl_exec (disch := first | exact h0 | exact h1)
  sl_step
  -- the loads that follow the reset's stores read the reset values
  have e25 : exec_first.sl.v25 (F := F) c arg8 = k0_pay4 := by
    unfold exec_first.sl.v25 exec_first.sl.H8_1; exact View.readCov_unit_zero _ off_zero _ _
  have e33 : exec_first.sl.v33 (F := F) c arg9 = k0_pay5 := by
    unfold exec_first.sl.v33 exec_first.sl.H9_1; exact View.readCov_unit_zero _ off_zero _ _
  have e41 : exec_first.sl.v41 (F := F) c arg10 = k0_pay6 := by
    unfold exec_first.sl.v41 exec_first.sl.H10_1; exact View.readCov_unit_zero _ off_zero _ _
  iapply Hk
  isplitl [H2]; · iexists _; isplitr; · ipureintro; exact hf2
                  iexact H2
  isplitl [H3]; · iexists _; isplitr; · ipureintro; exact hf3
                  iexact H3
  isplitl [H4]; · iexists _; isplitr; · ipureintro; exact hf4
                  iexact H4
  isplitl [H5]; · iexists _; isplitr; · ipureintro; exact hf5
                  iexact H5
  isplitl [H6]; · iexists _; isplitr; · ipureintro; exact hf6
                  iexact H6
  isplitl [H7]; · iexists _; isplitr; · ipureintro; exact hf7
                  iexact H7
  isplitl [H8]
  · iexists _; isplitr
    swap; · iexact H8
    ipureintro
    rw [read_writes_whole _ _ off_zero]
    unfold exec_first.sl.r_1 accStep accReset
    simp only [readAt_whole_unread harg2 xq off_zero, readAt_whole_unread harg3 xk off_zero, readAt_whole_unread harg4 lq off_zero, readAt_whole_unread harg5 lk off_zero, e25]
  isplitl [H9]
  · iexists _; isplitr
    swap; · iexact H9
    ipureintro
    rw [read_writes_whole _ _ off_zero]
    unfold exec_first.sl.r_2 exec_first.sl.r_3 accStep accReset
    simp only [readAt_whole_unread harg2 xq off_zero, readAt_whole_unread harg3 xk off_zero, readAt_whole_unread harg4 lq off_zero, readAt_whole_unread harg5 lk off_zero, e25, e33]
  iexists _; isplitr
  swap; · iexact H10
  ipureintro
  rw [read_writes_whole _ _ off_zero]
  unfold exec_first.sl.r accStep accReset
  simp only [readAt_whole_unread harg2 xq off_zero, readAt_whole_unread harg3 xk off_zero, readAt_whole_unread harg4 lq off_zero, readAt_whole_unread harg5 lk off_zero, e41]

end Cert.KernelIdeal.Hand

end
-- ==== Proof.KRunClose.lean ====
/-
  The body's three runs, as the statements the body obligation takes as hypotheses.
-/
import proofs.«127721_j16621523436335_1_alg».proof.Proof.KBody
import proofs.«127721_j16621523436335_1_alg».proof.Proof.KRun

set_option maxRecDepth 16384

noncomputable section

namespace Cert.KernelIdeal.Hand

open Cert.KernelIdeal Cert.KernelIdeal.Gen
open Idealize.ShloMosaic Idealize.ShloMosaic.TcCoe
open Idealize.SL Idealize.SL.Sem

variable {F : FTy → Type} [FloatOps F] [Named F]

/-- The first column tile. -/
theorem run_first : RunFirst (F := F) :=
  fun c i arg2 harg2 arg3 harg3 arg4 harg4 arg5 harg5 arg6 harg6 arg7 harg7 arg8 harg8 arg9 harg9 arg10 harg10 h0 h1 xq xk lq lk o6 o7 E K =>
    exec_first c i arg2 harg2 arg3 harg3 arg4 harg4 arg5 harg5 arg6 harg6 arg7 harg7 arg8 harg8 arg9 harg9 arg10 harg10 h0 h1 xq xk lq lk o6 o7 E K

/-- The column tiles between the first and the last. -/
theorem run_mid : RunMid (F := F) :=
  fun c i arg2 harg2 arg3 harg3 arg4 harg4 arg5 harg5 arg6 harg6 arg7 harg7 arg8 harg8 arg9 harg9 arg10 harg10 h0 h1 xq xk lq lk a o6 o7 E K =>
    exec_mid c i arg2 harg2 arg3 harg3 arg4 harg4 arg5 harg5 arg6 harg6 arg7 harg7 arg8 harg8 arg9 harg9 arg10 harg10 h0 h1 xq xk lq lk a o6 o7 E K

/-- The last column tile. -/
theorem run_last : RunLast (F := F) :=
  fun c i arg2 harg2 arg3 harg3 arg4 harg4 arg5 harg5 arg6 harg6 arg7 harg7 arg8 harg8 arg9 harg9 arg10 harg10 h0 h1 xq xk lq lk a E K =>
    exec_last c i arg2 harg2 arg3 harg3 arg4 harg4 arg5 harg5 arg6 harg6 arg7 harg7 arg8 harg8 arg9 harg9 arg10 harg10 h0 h1 xq xk lq lk a E K

end Cert.KernelIdeal.Hand

end
-- ==== Proof.BData.lean ====
/-
  The proof data of the kernel region, for any float carrier.

  The grid is 8 × 8: point `t` works on row tile `t / 8` (1024 rows of the [8192, 128] matrix) against column tile `t % 8`.
  Three whole [1024, 1] accumulators are kept in scratch between the points of a row tile: the running row maximum, the
  rescaled running row sum of exponentials, and the running row count of differing labels. At column tile 0 they are reset
  (to −∞, 0, 0) before use; at every column tile they are updated from the two feature blocks and the two label blocks; at
  column tile 7 the sum and the count are stored into the two output blocks, which are written back there and nowhere else.
  `accAt n` is what the three accumulators hold after the first `n` points, by recursion on `n`.
-/
import proofs.«127721_j16621523436335_1_alg».proof.Proof.Gen.Kernel.Launch
import proofs.«127721_j16621523436335_1_alg».proof.Proof.Gen.Kernel.Skeleton
import proofs.«127721_j16621523436335_1_alg».proof.Proof.Gen.Kernel.Points
import Idealize.ShloMosaic.Lib.Pipeline.FrameBody
import Idealize.ShloMosaic.Lib.Pipeline.FrameSuffix
import Idealize.ShloMosaic.Lib.Pipeline.Regions
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers when the region is entered -/

/-- Core `c`'s buffers at launch, -/
abbrev W0 (c : Dev nD) : Valuation τ sig (Elt F) := fun b => m (c, b)
/-- after the seven host operations before the region (the views stacked into one matrix, the labels repeated and laid out
    as a column and as a row), -/
abbrev W1 (c : Dev nD) : Valuation τ sig (Elt F) := StableHlo.after hostOps0 (W0 m c)
/-- and the same read at a TensorCore reference. -/
abbrev V (c : Dev nD) (b : Ref sig .tc) : Buf (Elt F) ((c : Thread nD τ).loc b) := W1 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The three accumulators -/

/-- The running maximum, the rescaled running sum and the running count of one row tile. -/
structure Acc (F : FTy → Type) where
  mx : Vec F S1024x1 .f32
  sm : Vec F S1024x1 .f32
  ct : Vec F S1024x1 .f32

/-- The reset at column tile 0: −∞, 0, 0. -/
def accReset : Acc F := ⟨k0_pay4, k0_pay5, k0_pay6⟩

/-- One point's update from the row tile's features `xq`, the column tile's features `xk`, and their labels. -/
def accStep (xq xk : Vec F S1024x128 .f32) (lq : Vec F S1024x1 .i32) (lk : Vec F S1x1024 .i32) (a : Acc F) : Acc F :=
  ⟨k0_pay3 (k0_pay9 xq xk lq lk a.mx),
   k0_pay1 (k0_pay10 xq xk lq lk a.mx a.mx a.sm) (k0_pay11 xq xk lq lk a.mx),
   k0_pay2 (k0_pay7 lq lk) a.ct⟩

/-- What the accumulators hold after the first `n` points. -/
def accAt (c : Dev nD) : ℕ → Acc F
  | 0 => accReset
  | n + 1 =>
    if h : n < cfg0.N then
      accStep (iblk m c 0 ⟨n, h⟩) (iblk m c 1 ⟨n, h⟩) (iblk m c 2 ⟨n, h⟩) (iblk m c 3 ⟨n, h⟩)
        (if n % 8 = 0 then accReset else accAt c n)
    else accAt c n

end Cert.Kernel.Hand

end
-- ==== Proof.BHost.lean ====
/-
  The host side of the program, as a frame conditional on the kernel region's record.

  The program is thirteen items in order: the seven host operations before the region, the region, and eleven
  stretches of host operations after it. Between two items a core holds every unscoped buffer whole at a valuation:
  the launch contents, then what each host stretch computes, the region changing exactly its two output arrays, whose
  contents after it are unknowns here. No host stretch allocates and none writes an argument, so the two arguments
  reach the end as launched; the result buffer ends at the last valuation.
-/
import proofs.«127721_j16621523436335_1_alg».proof.Proof.BData
import Idealize.ShloMosaic.Lib.Pipeline.Frame
import Idealize.ShloMosaic.Lib.Pipeline.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

/-! ## The buffers' contents between items -/

/-- What the region leaves in the two arrays it may change, per core: `outs 2 main_v7_0 c` and `outs 2 main_v7_1 c`,
    the contents of the two output arrays on core `c` after item 1. Read only at these two points. -/
abbrev Outs : Type := ℕ → (r : Ref sig .tc) → (c : Dev nD) → Buf (Elt F) ((c : Thread nD τ).loc r)

variable (m : (ℓ : Loc nD τ sig) → Buf (Elt F) ℓ) (outs : Outs (F := F))

/-- Core `c`'s unscoped buffers at launch. -/
abbrev U0 (c : Dev nD) : Valuation τ sig (Elt F) := fun b => m (c, b)
/-- After item 0, the host stretch `hostOps0`. -/
abbrev U1 (c : Dev nD) : Valuation τ sig (Elt F) := StableHlo.after hostOps0 (U0 m c)
/-- After item 1, the region, which may change `main_v7_0` and `main_v7_1`. -/
abbrev U2 (c : Dev nD) : Valuation τ sig (Elt F) :=
  Function.update (Function.update (U1 m c) main_v7_0 (outs 2 main_v7_0 c)) main_v7_1 (outs 2 main_v7_1 c)
/-- After item 2, the host stretch `hostOps1`. -/
abbrev U3 (c : Dev nD) : Valuation τ sig (Elt F) := StableHlo.after hostOps1 (U2 m outs c)
/-- After item 3, the host stretch `hostOps1_1`. -/
abbrev U4 (c : Dev nD) : Valuation τ sig (Elt F) := StableHlo.after hostOps1_1 (U3 m outs c)
/-- After item 4, the host stretch `hostOps1_2`. -/
abbrev U5 (c : Dev nD) : Valuation τ sig (Elt F) := StableHlo.after hostOps1_2 (U4 m outs c)
/-- After item 5, the host stretch `hostOps1_3`. -/
abbrev U6 (c : Dev nD) : Valuation τ sig (Elt F) := StableHlo.after hostOps1_3 (U5 m outs c)
/-- After item 6, the host stretch `hostOps1_4`. -/
abbrev U7 (c : Dev nD) : Valuation τ sig (Elt F) := StableHlo.after hostOps1_4 (U6 m outs c)
/-- After item 7, the host stretch `hostOps1_5`. -/
abbrev U8 (c : Dev nD) : Valuation τ sig (Elt F) := StableHlo.after hostOps1_5 (U7 m outs c)
/-- After item 8, the host stretch `hostOps1_6`. -/
abbrev U9 (c : Dev nD) : Valuation τ sig (Elt F) := StableHlo.after hostOps1_6 (U8 m outs c)
/-- After item 9, the host stretch `hostOps1_7`. -/
abbrev U10 (c : Dev nD) : Valuation τ sig (Elt F) := StableHlo.after hostOps1_7 (U9 m outs c)
/-- After item 10, the host stretch `hostOps1_8`. -/
abbrev U11 (c : Dev nD) : Valuation τ sig (Elt F) := StableHlo.after hostOps1_8 (U10 m outs c)
/-- After item 11, the host stretch `hostOps1_9`. -/
abbrev U12 (c : Dev nD) : Valuation τ sig (Elt F) := StableHlo.after hostOps1_9 (U11 m outs c)
/-- After item 12, the host stretch `hostOps1_10`. -/
abbrev U13 (c : Dev nD) : Valuation τ sig (Elt F) := StableHlo.after hostOps1_10 (U12 m outs c)

/-- The first two valuations are the ones the region's data is written over. -/
theorem U1_eq_W1 (c : Dev nD) : U1 m c = W1 m c := rfl

/-! ## What the host stretches write -/

theorem hostOps0_fresh : (hostOps0 : List (HloOp τ sig (Elt F))).Forall fun op => op.fresh = ∅ := by
  simp only [List.Forall]; repeat' constructor
/-- The references `hostOps0`'s operations write. -/
abbrev hostOps0_W : List (Ref sig .tc) := [main_v0, main_v1, main_v2, main_v3, main_v4, main_v5, main_v6]
theorem hostOps0_writes : (hostOps0 : List (HloOp τ sig (Elt F))).Forall fun op => op.writes ⊆ (hostOps0_W.map (Proc.devRef (τ := τ) .tc)).toFinset := by
  simp only [List.Forall]
  refine ⟨?_, ?_, ?_, ?_, ?_, ?_, ?_⟩ <;> exact Finset.singleton_subset_iff.2 (List.mem_toFinset.2 (List.mem_map_of_mem (by decide)))
theorem hostOps1_fresh : (hostOps1 : List (HloOp τ sig (Elt F))).Forall fun op => op.fresh = ∅ := by
  simp only [List.Forall]; repeat' constructor
/-- The references `hostOps1`'s operations write. -/
abbrev hostOps1_W : List (Ref sig .tc) := [main_v8, main_v9, main_cst, main_v10, main_cst_0, main_v11, main_cst_1, main_v12, main_v13, main_cst_2, main_v14, main_v15, main_cst_3, main_v16, main_cst_4]
theorem hostOps1_writes : (hostOps1 : List (HloOp τ sig (Elt F))).Forall fun op => op.writes ⊆ (hostOps1_W.map (Proc.devRef (τ := τ) .tc)).toFinset := by
  simp only [List.Forall]
  refine ⟨?_, ?_, ?_, ?_, ?_, ?_, ?_, ?_, ?_, ?_, ?_, ?_, ?_, ?_, ?_⟩ <;> exact Finset.singleton_subset_iff.2 (List.mem_toFinset.2 (List.mem_map_of_mem (by decide)))
theorem hostOps1_1_fresh : (hostOps1_1 : List (HloOp τ sig (Elt F))).Forall fun op => op.fresh = ∅ := by
  simp only [List.Forall]; repeat' constructor
/-- The references `hostOps1_1`'s operations write. -/
abbrev hostOps1_1_W : List (Ref sig .tc) := [main_call0_v0, main_call0_v1, main_call0_v2, main_v17]
theorem hostOps1_1_writes : (hostOps1_1 : List (HloOp τ sig (Elt F))).Forall fun op => op.writes ⊆ (hostOps1_1_W.map (Proc.devRef (τ := τ) .tc)).toFinset := by
  simp only [List.Forall]
  refine ⟨?_, ?_, ?_, ?_⟩ <;> exact Finset.singleton_subset_iff.2 (List.mem_toFinset.2 (List.mem_map_of_mem (by decide)))
theorem hostOps1_2_fresh : (hostOps1_2 : List (HloOp τ sig (Elt F))).Forall fun op => op.fresh = ∅ := by
  simp only [List.Forall]; repeat' constructor
/-- The references `hostOps1_2`'s operations write. -/
abbrev hostOps1_2_W : List (Ref sig .tc) := [main_cst_5]
theorem hostOps1_2_writes : (hostOps1_2 : List (HloOp τ sig (Elt F))).Forall fun op => op.writes ⊆ (hostOps1_2_W.map (Proc.devRef (τ := τ) .tc)).toFinset := by
  simp only [List.Forall]
  exact Finset.singleton_subset_iff.2 (List.mem_toFinset.2 (List.mem_map_of_mem (by decide)))
theorem hostOps1_3_fresh : (hostOps1_3 : List (HloOp τ sig (Elt F))).Forall fun op => op.fresh = ∅ := by
  simp only [List.Forall]; repeat' constructor
/-- The references `hostOps1_3`'s operations write. -/
abbrev hostOps1_3_W : List (Ref sig .tc) := [main_call1_v0, main_call1_v1, main_call1_v2, main_v18]
theorem hostOps1_3_writes : (hostOps1_3 : List (HloOp τ sig (Elt F))).Forall fun op => op.writes ⊆ (hostOps1_3_W.map (Proc.devRef (τ := τ) .tc)).toFinset := by
  simp only [List.Forall]
  refine ⟨?_, ?_, ?_, ?_⟩ <;> exact Finset.singleton_subset_iff.2 (List.mem_toFinset.2 (List.mem_map_of_mem (by decide)))
theorem hostOps1_4_fresh : (hostOps1_4 : List (HloOp τ sig (Elt F))).Forall fun op => op.fresh = ∅ := by
  simp only [List.Forall]; repeat' constructor
/-- The references `hostOps1_4`'s operations write. -/
abbrev hostOps1_4_W : List (Ref sig .tc) := [main_cst_6, main_v19, main_v20, main_cst_7]
theorem hostOps1_4_writes : (hostOps1_4 : List (HloOp τ sig (Elt F))).Forall fun op => op.writes ⊆ (hostOps1_4_W.map (Proc.devRef (τ := τ) .tc)).toFinset := by
  simp only [List.Forall]
  refine ⟨?_, ?_, ?_, ?_⟩ <;> exact Finset.singleton_subset_iff.2 (List.mem_toFinset.2 (List.mem_map_of_mem (by decide)))
theorem hostOps1_5_fresh : (hostOps1_5 : List (HloOp τ sig (Elt F))).Forall fun op => op.fresh = ∅ := by
  simp only [List.Forall]; repeat' constructor
/-- The references `hostOps1_5`'s operations write. -/
abbrev hostOps1_5_W : List (Ref sig .tc) := [main_call2_v0, main_call2_v1, main_v21]
theorem hostOps1_5_writes : (hostOps1_5 : List (HloOp τ sig (Elt F))).Forall fun op => op.writes ⊆ (hostOps1_5_W.map (Proc.devRef (τ := τ) .tc)).toFinset := by
  simp only [List.Forall]
  refine ⟨?_, ?_, ?_⟩ <;> exact Finset.singleton_subset_iff.2 (List.mem_toFinset.2 (List.mem_map_of_mem (by decide)))
theorem hostOps1_6_fresh : (hostOps1_6 : List (HloOp τ sig (Elt F))).Forall fun op => op.fresh = ∅ := by
  simp only [List.Forall]; repeat' constructor
/-- The references `hostOps1_6`'s operations write. -/
abbrev hostOps1_6_W : List (Ref sig .tc) := [main_v22]
theorem hostOps1_6_writes : (hostOps1_6 : List (HloOp τ sig (Elt F))).Forall fun op => op.writes ⊆ (hostOps1_6_W.map (Proc.devRef (τ := τ) .tc)).toFinset := by
  simp only [List.Forall]
  exact Finset.singleton_subset_iff.2 (List.mem_toFinset.2 (List.mem_map_of_mem (by decide)))
theorem hostOps1_7_fresh : (hostOps1_7 : List (HloOp τ sig (Elt F))).Forall fun op => op.fresh = ∅ := by
  simp only [List.Forall]; repeat' constructor
/-- The references `hostOps1_7`'s operations write. -/
abbrev hostOps1_7_W : List (Ref sig .tc) := [main_v23]
theorem hostOps1_7_writes : (hostOps1_7 : List (HloOp τ sig (Elt F))).Forall fun op => op.writes ⊆ (hostOps1_7_W.map (Proc.devRef (τ := τ) .tc)).toFinset := by
  simp only [List.Forall]
  exact Finset.singleton_subset_iff.2 (List.mem_toFinset.2 (List.mem_map_of_mem (by decide)))
theorem hostOps1_8_fresh : (hostOps1_8 : List (HloOp τ sig (Elt F))).Forall fun op => op.fresh = ∅ := by
  simp only [List.Forall]; repeat' constructor
/-- The references `hostOps1_8`'s operations write. -/
abbrev hostOps1_8_W : List (Ref sig .tc) := [main_cst_8, main_v24, main_v25, main_v26, main_v27, main_cst_9, main_v28, main_v29, main_v30, main_cst_10]
theorem hostOps1_8_writes : (hostOps1_8 : List (HloOp τ sig (Elt F))).Forall fun op => op.writes ⊆ (hostOps1_8_W.map (Proc.devRef (τ := τ) .tc)).toFinset := by
  simp only [List.Forall]
  refine ⟨?_, ?_, ?_, ?_, ?_, ?_, ?_, ?_, ?_, ?_⟩ <;> exact Finset.singleton_subset_iff.2 (List.mem_toFinset.2 (List.mem_map_of_mem (by decide)))
theorem hostOps1_9_fresh : (hostOps1_9 : List (HloOp τ sig (Elt F))).Forall fun op => op.fresh = ∅ := by
  simp only [List.Forall]; repeat' constructor
/-- The references `hostOps1_9`'s operations write. -/
abbrev hostOps1_9_W : List (Ref sig .tc) := [main_call4_v0, main_call4_v1, main_v31]
theorem hostOps1_9_writes : (hostOps1_9 : List (HloOp τ sig (Elt F))).Forall fun op => op.writes ⊆ (hostOps1_9_W.map (Proc.devRef (τ := τ) .tc)).toFinset := by
  simp only [List.Forall]
  refine ⟨?_, ?_, ?_⟩ <;> exact Finset.singleton_subset_iff.2 (List.mem_toFinset.2 (List.mem_map_of_mem (by decide)))
theorem hostOps1_10_fresh : (hostOps1_10 : List (HloOp τ sig (Elt F))).Forall fun op => op.fresh = ∅ := by
  simp only [List.Forall]; repeat' constructor
/-- The references `hostOps1_10`'s operations write. -/
abbrev hostOps1_10_W : List (Ref sig .tc) := [main_cst_11, main_v32, main_cst_12, main_v33]
theorem hostOps1_10_writes : (hostOps1_10 : List (HloOp τ sig (Elt F))).Forall fun op => op.writes ⊆ (hostOps1_10_W.map (Proc.devRef (τ := τ) .tc)).toFinset := by
  simp only [List.Forall]
  refine ⟨?_, ?_, ?_, ?_⟩ <;> exact Finset.singleton_subset_iff.2 (List.mem_toFinset.2 (List.mem_map_of_mem (by decide)))

/-! ## What each item leaves unchanged -/

theorem U1_of (c : Dev nD) (r : Ref sig .tc) (h : r ∉ hostOps0_W) : U1 m c r = U0 m c r :=
  StableHlo.after_of_writes_sub hostOps0 _ hostOps0_writes h
theorem U2_of (c : Dev nD) (r : Ref sig .tc) (h : r ∉ ([main_v7_1, main_v7_0] : List (Ref sig .tc))) : U2 m outs c r = U1 m c r := by
  have h1 : r ≠ main_v7_1 := List.ne_of_not_mem_cons h
  have h0 : r ≠ main_v7_0 := List.ne_of_not_mem_cons (List.not_mem_of_not_mem_cons h)
  simp only [U2, Function.update_of_ne (StableHlo.devRef_ne_of_ne h1 : (Proc.devRef .tc r : DevRef τ sig) ≠ Proc.devRef .tc main_v7_1),
    Function.update_of_ne (StableHlo.devRef_ne_of_ne h0 : (Proc.devRef .tc r : DevRef τ sig) ≠ Proc.devRef .tc main_v7_0)]
theorem U3_of (c : Dev nD) (r : Ref sig .tc) (h : r ∉ hostOps1_W) : U3 m outs c r = U2 m outs c r :=
  StableHlo.after_of_writes_sub hostOps1 _ hostOps1_writes h
theorem U4_of (c : Dev nD) (r : Ref sig .tc) (h : r ∉ hostOps1_1_W) : U4 m outs c r = U3 m outs c r :=
  StableHlo.after_of_writes_sub hostOps1_1 _ hostOps1_1_writes h
theorem U5_of (c : Dev nD) (r : Ref sig .tc) (h : r ∉ hostOps1_2_W) : U5 m outs c r = U4 m outs c r :=
  StableHlo.after_of_writes_sub hostOps1_2 _ hostOps1_2_writes h
theorem U6_of (c : Dev nD) (r : Ref sig .tc) (h : r ∉ hostOps1_3_W) : U6 m outs c r = U5 m outs c r :=
  StableHlo.after_of_writes_sub hostOps1_3 _ hostOps1_3_writes h
theorem U7_of (c : Dev nD) (r : Ref sig .tc) (h : r ∉ hostOps1_4_W) : U7 m outs c r = U6 m outs c r :=
  StableHlo.after_of_writes_sub hostOps1_4 _ hostOps1_4_writes h
theorem U8_of (c : Dev nD) (r : Ref sig .tc) (h : r ∉ hostOps1_5_W) : U8 m outs c r = U7 m outs c r :=
  StableHlo.after_of_writes_sub hostOps1_5 _ hostOps1_5_writes h
theorem U9_of (c : Dev nD) (r : Ref sig .tc) (h : r ∉ hostOps1_6_W) : U9 m outs c r = U8 m outs c r :=
  StableHlo.after_of_writes_sub hostOps1_6 _ hostOps1_6_writes h
theorem U10_of (c : Dev nD) (r : Ref sig .tc) (h : r ∉ hostOps1_7_W) : U10 m outs c r = U9 m outs c r :=
  StableHlo.after_of_writes_sub hostOps1_7 _ hostOps1_7_writes h
theorem U11_of (c : Dev nD) (r : Ref sig .tc) (h : r ∉ hostOps1_8_W) : U11 m outs c r = U10 m outs c r :=
  StableHlo.after_of_writes_sub hostOps1_8 _ hostOps1_8_writes h
theorem U12_of (c : Dev nD) (r : Ref sig .tc) (h : r ∉ hostOps1_9_W) : U12 m outs c r = U11 m outs c r :=
  StableHlo.after_of_writes_sub hostOps1_9 _ hostOps1_9_writes h
theorem U13_of (c : Dev nD) (r : Ref sig .tc) (h : r ∉ hostOps1_10_W) : U13 m outs c r = U12 m outs c r :=
  StableHlo.after_of_writes_sub hostOps1_10 _ hostOps1_10_writes h

/-! ## No item writes an argument -/

/-- `main_arg0` reaches the end as launched: no host stretch writes it, the region may not change it. -/
theorem U13_main_arg0 (c : Dev nD) : U13 m outs c main_arg0 = m ((c : Thread nD τ).loc main_arg0) :=
  (U13_of m outs c main_arg0 (by decide)).trans <| (U12_of m outs c main_arg0 (by decide)).trans <| (U11_of m outs c main_arg0 (by decide)).trans <| (U10_of m outs c main_arg0 (by decide)).trans <| (U9_of m outs c main_arg0 (by decide)).trans <| (U8_of m outs c main_arg0 (by decide)).trans <| (U7_of m outs c main_arg0 (by decide)).trans <| (U6_of m outs c main_arg0 (by decide)).trans <| (U5_of m outs c main_arg0 (by decide)).trans <| (U4_of m outs c main_arg0 (by decide)).trans <| (U3_of m outs c main_arg0 (by decide)).trans <| (U2_of m outs c main_arg0 (by decide)).trans <| (U1_of m c main_arg0 (by decide)).trans rfl
/-- `main_arg1` reaches the end as launched: no host stretch writes it, the region may not change it. -/
theorem U13_main_arg1 (c : Dev nD) : U13 m outs c main_arg1 = m ((c : Thread nD τ).loc main_arg1) :=
  (U13_of m outs c main_arg1 (by decide)).trans <| (U12_of m outs c main_arg1 (by decide)).trans <| (U11_of m outs c main_arg1 (by decide)).trans <| (U10_of m outs c main_arg1 (by decide)).trans <| (U9_of m outs c main_arg1 (by decide)).trans <| (U8_of m outs c main_arg1 (by decide)).trans <| (U7_of m outs c main_arg1 (by decide)).trans <| (U6_of m outs c main_arg1 (by decide)).trans <| (U5_of m outs c main_arg1 (by decide)).trans <| (U4_of m outs c main_arg1 (by decide)).trans <| (U3_of m outs c main_arg1 (by decide)).trans <| (U2_of m outs c main_arg1 (by decide)).trans <| (U1_of m c main_arg1 (by decide)).trans rfl

/-! ## The items as segments -/

section Segs

variable {Ix : Type} [DecidableEq Ix] {U : Type} [URA U] {Lvl : Type} [Preorder Lvl]
variable (𝒱₀ : Variants) (L : GSem nD τ sig → Finset Ix) (lv : GSem nD τ sig → Ix → Lvl)
variable (E : Fin 2 → Dev nD → sProp (MT nD τ sig Ix (Elt F) ℕ U Lvl))

/-- Item 0: the host stretch `hostOps0` over the unscoped buffers from `U0`, the rest `E 0` riding along. -/
def seg0 : HostSeg (Ix := Ix) (Name := ℕ) (U := U) (Lvl := Lvl) (pcfgs (F := F)) defs₀ 𝒱₀ L lv :=
  HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (U0 m) (E 0)
/-- Item 2: the host stretch `hostOps1` over the unscoped buffers from `U2`, the rest `E 1` riding along. -/
def seg2 : HostSeg (Ix := Ix) (Name := ℕ) (U := U) (Lvl := Lvl) (pcfgs (F := F)) defs₀ 𝒱₀ L lv :=
  HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (U2 m outs) (E 1)
/-- Item 3: the host stretch `hostOps1_1` over the unscoped buffers from `U3`, the rest `E 1` riding along. -/
def seg3 : HostSeg (Ix := Ix) (Name := ℕ) (U := U) (Lvl := Lvl) (pcfgs (F := F)) defs₀ 𝒱₀ L lv :=
  HostSeg.ofOps _ _ _ _ _ (Pipeline.ucRefs τ sig) hostOps1_1
    (fun op h => Pipeline.sub_ucRefs op ((List.forall_iff_forall_mem.mp hostOps1_1_sub) op h))
    (fun op h => (List.forall_iff_forall_mem.mp hostOps1_1_fresh) op h) (U3 m outs) (E 1)
/-- Item 4: the host stretch `hostOps1_2` over the unscoped buffers from `U4`, the rest `E 1` riding along. -/
def seg4 : HostSeg (Ix := Ix) (Name := ℕ) (U := U) (Lvl := Lvl) (pcfgs (F := F)) defs₀ 𝒱₀ L lv :=
  HostSeg.ofOps _ _ _ _ _ (Pipeline.ucRefs τ sig) hostOps1_2
    (fun op h => Pipeline.sub_ucRefs op ((List.forall_iff_forall_mem.mp hostOps1_2_sub) op h))
    (fun op h => (List.forall_iff_forall_mem.mp hostOps1_2_fresh) op h) (U4 m outs) (E 1)
/-- Item 5: the host stretch `hostOps1_3` over the unscoped buffers from `U5`, the rest `E 1` riding along. -/
def seg5 : HostSeg (Ix := Ix) (Name := ℕ) (U := U) (Lvl := Lvl) (pcfgs (F := F)) defs₀ 𝒱₀ L lv :=
  HostSeg.ofOps _ _ _ _ _ (Pipeline.ucRefs τ sig) hostOps1_3
    (fun op h => Pipeline.sub_ucRefs op ((List.forall_iff_forall_mem.mp hostOps1_3_sub) op h))
    (fun op h => (List.forall_iff_forall_mem.mp hostOps1_3_fresh) op h) (U5 m outs) (E 1)
/-- Item 6: the host stretch `hostOps1_4` over the unscoped buffers from `U6`, the rest `E 1` riding along. -/
def seg6 : HostSeg (Ix := Ix) (Name := ℕ) (U := U) (Lvl := Lvl) (pcfgs (F := F)) defs₀ 𝒱₀ L lv :=
  HostSeg.ofOps _ _ _ _ _ (Pipeline.ucRefs τ sig) hostOps1_4
    (fun op h => Pipeline.sub_ucRefs op ((List.forall_iff_forall_mem.mp hostOps1_4_sub) op h))
    (fun op h => (List.forall_iff_forall_mem.mp hostOps1_4_fresh) op h) (U6 m outs) (E 1)
/-- Item 7: the host stretch `hostOps1_5` over the unscoped buffers from `U7`, the rest `E 1` riding along. -/
def seg7 : HostSeg (Ix := Ix) (Name := ℕ) (U := U) (Lvl := Lvl) (pcfgs (F := F)) defs₀ 𝒱₀ L lv :=
  HostSeg.ofOps _ _ _ _ _ (Pipeline.ucRefs τ sig) hostOps1_5
    (fun op h => Pipeline.sub_ucRefs op ((List.forall_iff_forall_mem.mp hostOps1_5_sub) op h))
    (fun op h => (List.forall_iff_forall_mem.mp hostOps1_5_fresh) op h) (U7 m outs) (E 1)
/-- Item 8: the host stretch `hostOps1_6` over the unscoped buffers from `U8`, the rest `E 1` riding along. -/
def seg8 : HostSeg (Ix := Ix) (Name := ℕ) (U := U) (Lvl := Lvl) (pcfgs (F := F)) defs₀ 𝒱₀ L lv :=
  HostSeg.ofOps _ _ _ _ _ (Pipeline.ucRefs τ sig) hostOps1_6
    (fun op h => Pipeline.sub_ucRefs op ((List.forall_iff_forall_mem.mp hostOps1_6_sub) op h))
    (fun op h => (List.forall_iff_forall_mem.mp hostOps1_6_fresh) op h) (U8 m outs) (E 1)
/-- Item 9: the host stretch `hostOps1_7` over the unscoped buffers from `U9`, the rest `E 1` riding along. -/
def seg9 : HostSeg (Ix := Ix) (Name := ℕ) (U := U) (Lvl := Lvl) (pcfgs (F := F)) defs₀ 𝒱₀ L lv :=
  HostSeg.ofOps _ _ _ _ _ (Pipeline.ucRefs τ sig) hostOps1_7
    (fun op h => Pipeline.sub_ucRefs op ((List.forall_iff_forall_mem.mp hostOps1_7_sub) op h))
    (fun op h => (List.forall_iff_forall_mem.mp hostOps1_7_fresh) op h) (U9 m outs) (E 1)
/-- Item 10: the host stretch `hostOps1_8` over the unscoped buffers from `U10`, the rest `E 1` riding along. -/
def seg10 : HostSeg (Ix := Ix) (Name := ℕ) (U := U) (Lvl := Lvl) (pcfgs (F := F)) defs₀ 𝒱₀ L lv :=
  HostSeg.ofOps _ _ _ _ _ (Pipeline.ucRefs τ sig) hostOps1_8
    (fun op h => Pipeline.sub_ucRefs op ((List.forall_iff_forall_mem.mp hostOps1_8_sub) op h))
    (fun op h => (List.forall_iff_forall_mem.mp hostOps1_8_fresh) op h) (U10 m outs) (E 1)
/-- Item 11: the host stretch `hostOps1_9` over the unscoped buffers from `U11`, the rest `E 1` riding along. -/
def seg11 : HostSeg (Ix := Ix) (Name := ℕ) (U := U) (Lvl := Lvl) (pcfgs (F := F)) defs₀ 𝒱₀ L lv :=
  HostSeg.ofOps _ _ _ _ _ (Pipeline.ucRefs τ sig) hostOps1_9
    (fun op h => Pipeline.sub_ucRefs op ((List.forall_iff_forall_mem.mp hostOps1_9_sub) op h))
    (fun op h => (List.forall_iff_forall_mem.mp hostOps1_9_fresh) op h) (U11 m outs) (E 1)
/-- Item 12: the host stretch `hostOps1_10` over the unscoped buffers from `U12`, the rest `E 1` riding along. -/
def seg12 : HostSeg (Ix := Ix) (Name := ℕ) (U := U) (Lvl := Lvl) (pcfgs (F := F)) defs₀ 𝒱₀ L lv :=
  HostSeg.ofOps _ _ _ _ _ (Pipeline.ucRefs τ sig) hostOps1_10
    (fun op h => Pipeline.sub_ucRefs op ((List.forall_iff_forall_mem.mp hostOps1_10_sub) op h))
    (fun op h => (List.forall_iff_forall_mem.mp hostOps1_10_fresh) op h) (U12 m outs) (E 1)

end Segs

section

variable {Ix : Type} [DecidableEq Ix] {U : Type} [URA U] {Lvl : Type} [Preorder Lvl]

/-- The prefetched tables' admissible contents: the pallas_call has no table. -/
abbrev adm : (p : Fin 1) → (pcfgs (F := F) p).Adm := fun p => (cfgs p).toPCfg_adm

/-- The program's thirteen items as segments on core `c` (the same list on every core): the host stretches', and the
    region's, which is the given record. -/
abbrev segs (𝒱₀ : Variants) (L : GSem nD τ sig → Finset Ix) (lv : GSem nD τ sig → Ix → Lvl) (E : Fin 2 → Dev nD → sProp (MT nD τ sig Ix (Elt F) ℕ U Lvl)) (ι : Ix)
    (pdats : (p : Fin 1) → (c : Dev nD) → Dat τ (Elt F) Ix ℕ U Lvl (cfgs p) c) (R0 : RegionSeg (pcfgs (F := F)) adm pdats ι defs₀ 𝒱₀ L lv 0) (c : Dev nD) :
    List (Seg (pcfgs (F := F)) adm pdats ι defs₀ 𝒱₀ L lv) :=
  [.host (seg0 m 𝒱₀ L lv E),
   .region R0,
   .host (seg2 m outs 𝒱₀ L lv E),
   .host (seg3 m outs 𝒱₀ L lv E),
   .host (seg4 m outs 𝒱₀ L lv E),
   .host (seg5 m outs 𝒱₀ L lv E),
   .host (seg6 m outs 𝒱₀ L lv E),
   .host (seg7 m outs 𝒱₀ L lv E),
   .host (seg8 m outs 𝒱₀ L lv E),
   .host (seg9 m outs 𝒱₀ L lv E),
   .host (seg10 m outs 𝒱₀ L lv E),
   .host (seg11 m outs 𝒱₀ L lv E),
   .host (seg12 m outs 𝒱₀ L lv E)]

end

/-! ## The frame, given the region's record -/

set_option backward.isDefEq.respectTransparency.types false in
/-- THE CONDITIONAL FRAME. For any user algebra, level assignment, launch dues and ghost resources, any two rest states
    `E` — the first made by the launch on every core at once (`hE0`), the second owing nothing (`hE1`) — any contents
    the region leaves in its two output arrays (`outs`) and any proof data: GIVEN the region's segment record entered
    from the thread state before it and left at the one after it (`R0`, `hpre0`, `hpost0`), every weakly fair execution
    of the program from memory `m` with zero counters terminates, and in every final memory the result buffer holds the
    last valuation's contents and each argument holds what it was launched with. -/
theorem frame_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 1) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 2 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE1 : ∀ c : Dev nD, E 1 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (U1 m c) ∗ E 0 c) ⊢ R0.pre c)
    (hpost0 : ∀ c : Dev nD, R0.post c ⊢ iprop(StableHlo.held (c : Thread nD τ) (Pipeline.ucRefs τ sig) (U2 m outs c) ∗ E 1 c)) :
    θ_run defs (onTc (τ := τ) (main (F := F))) ⟨m, fun _ => 0, ρ⟩ (fun r => ∀ c : Dev nD,
      r.2.mem ((c.tc : Thread nD τ).loc main_v33) = U13 m outs c (Proc.devRef .tc main_v33)
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine Pipeline.θ_run_regions_kit_dev (pcfgs (F := F)) adm pdats ι cellOf_inj EP defs₀ 𝒱₀ L lv m ρ main
    (segs m outs 𝒱₀ L lv E ι pdats R0)
    (fun c Q => by
      rewrite [main_chain c, Seg.run_eq_chain,
        show (segs m outs 𝒱₀ L lv E ι pdats R0 c).map Seg.prog = [
          StableHlo.seq hostOps0,
          Prog.lift (.customCall (Pipeline.entry 0) ()),
          StableHlo.seq hostOps1,
          StableHlo.seq hostOps1_1,
          StableHlo.seq hostOps1_2,
          StableHlo.seq hostOps1_3,
          StableHlo.seq hostOps1_4,
          StableHlo.seq hostOps1_5,
          StableHlo.seq hostOps1_6,
          StableHlo.seq hostOps1_7,
          StableHlo.seq hostOps1_8,
          StableHlo.seq hostOps1_9,
          StableHlo.seq hostOps1_10 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (U0 m c) ∗ E 0 c))
    (Tₙ := fun c => StableHlo.held (c : Thread nD τ) (Pipeline.ucRefs τ sig) (U13 m outs c))
    (hch := fun c => ⟨.rfl, hpre0 c, hpost0 c, .rfl, .rfl, .rfl, .rfl, .rfl, .rfl, .rfl, .rfl, .rfl, .rfl, sep_mono .rfl (hE1 c)⟩)
    (hinit := ?_)
    (QY := fun c s => s.mem ((c.tc : Thread nD τ).loc main_v33) = U13 m outs c (Proc.devRef .tc main_v33)
      ∧ s.mem ((c.tc : Thread nD τ).loc main_arg0) = m ((c.tc : Thread nD τ).loc main_arg0)
      ∧ s.mem ((c.tc : Thread nD τ).loc main_arg1) = m ((c.tc : Thread nD τ).loc main_arg1))
    (hfin := fun c s' => ?_) (hQ := fun _ h => h)
  · -- the launch: the unscoped buffers are held at `U0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (U0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (U0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: the result buffer and each argument's read off the last valuation
    unfold StableHlo.held
    iintro ⟨Hh, HSI⟩
    ihave Hr := (pointsTo_read_all (Pipeline.ucRefs τ sig) (fun b => ((c : Thread nD τ).1, b)) (U13 m outs c) s') $$ [Hh HSI]
    · isplitl [Hh] <;> iassumption
    icases Hr with ⟨%h, HSI⟩
    imodintro
    isplitr
    · ipureintro
      exact ⟨h (Proc.devRef .tc main_v33) (Finset.mem_filter.mpr ⟨StableHlo.devRef_mem_tcRefs main_v33, by decide⟩),
        (h (Proc.devRef .tc main_arg0) (Finset.mem_filter.mpr ⟨StableHlo.devRef_mem_tcRefs main_arg0, by decide⟩)).trans (U13_main_arg0 m outs c),
        (h (Proc.devRef .tc main_arg1) (Finset.mem_filter.mpr ⟨StableHlo.devRef_mem_tcRefs main_arg1, by decide⟩)).trans (U13_main_arg1 m outs c)⟩
    · iexact HSI

end Cert.Kernel.Hand

end
-- ==== Proof.BCond.lean ====
/-
  The body's two branch conditions over the 8 × 8 grid, in closed form, and where the two output windows are idle.

  Point `t` has column tile `t % 8`. The accumulators are reset under the first condition, which holds exactly at column tile 0;
  the two outputs are stored under the second, which holds exactly at column tile 7, and there only are their blocks written back.
-/
import proofs.«127721_j16621523436335_1_alg».proof.Proof.BData

set_option maxRecDepth 16384

noncomputable section

namespace Cert.Kernel.Hand

open Cert.Kernel Cert.Kernel.Gen
open Idealize.ShloMosaic Idealize.ShloMosaic.TcCoe
open Idealize.SL Idealize.SL.Sem

/-- The reset's condition: the column-tile coordinate is 0. -/
abbrev condReset (i : grid0.Coords) : Prop :=
  (Scalar.cmpi .ne (Scalar.extui (Scalar.cmpi .eq (BitVec.ofNat 32 (i 1).val) 0#32)) 0#32) = 1#1
/-- It holds at the points ≡ 0 (mod 8). -/
theorem hcondReset : ∀ t : Fin cfg0.N, condReset (grid0.coords t) ↔ t.val % 8 = 0 :=
  (by decide +kernel : ∀ t : Fin grid0.N, condReset (grid0.coords t) ↔ t.val % 8 = 0)

/-- The condition under which the outputs are stored: the column-tile coordinate is 7. -/
abbrev condFlush (i : grid0.Coords) : Prop := k0_cond2 i = 1#1
/-- It holds at the points ≡ 7 (mod 8). -/
theorem hcondFlush : ∀ t : Fin cfg0.N, condFlush (grid0.coords t) ↔ t.val % 8 = 7 :=
  (by decide +kernel : ∀ t : Fin grid0.N, condFlush (grid0.coords t) ↔ t.val % 8 = 7)

/-- The four input windows are never idle. -/
theorem liveAt_0 : ∀ t : Fin cfg0.N, cfg0.idle 0 (grid0.coords t) = false := by decide +kernel
theorem liveAt_1 : ∀ t : Fin cfg0.N, cfg0.idle 1 (grid0.coords t) = false := by decide +kernel
theorem liveAt_2 : ∀ t : Fin cfg0.N, cfg0.idle 2 (grid0.coords t) = false := by decide +kernel
theorem liveAt_3 : ∀ t : Fin cfg0.N, cfg0.idle 3 (grid0.coords t) = false := by decide +kernel
/-- Away from column tile 7 the two output windows are idle and their blocks are not written back; -/
theorem idleAt_4 : ∀ t : Fin cfg0.N, ¬condFlush (grid0.coords t) → cfg0.idle 4 (grid0.coords t) = true := by decide +kernel
theorem idleAt_5 : ∀ t : Fin cfg0.N, ¬condFlush (grid0.coords t) → cfg0.idle 5 (grid0.coords t) = true := by decide +kernel
theorem noFlush_4 : ∀ t : Fin cfg0.N, ¬condFlush (grid0.coords t) → (cfg0.win 4).flush t = false := by decide +kernel
theorem noFlush_5 : ∀ t : Fin cfg0.N, ¬condFlush (grid0.coords t) → (cfg0.win 5).flush t = false := by decide +kernel
/-- at column tile 7 they are live. -/
theorem liveAt_4 : ∀ t : Fin cfg0.N, condFlush (grid0.coords t) → cfg0.idle 4 (grid0.coords t) = false := by decide +kernel
theorem liveAt_5 : ∀ t : Fin cfg0.N, condFlush (grid0.coords t) → cfg0.idle 5 (grid0.coords t) = false := by decide +kernel

end Cert.Kernel.Hand

end
-- ==== Proof.BDats.lean ====
/-
  The pipeline's proof data: what every staging buffer and the three scratch accumulators hold, point by point.

  An input window's buffer holds its array's block at every point (fetched there, or left in place since the fetch). The two
  output windows are stored only at column tile 7, with the row tile's finished sum and count: after point `t` they hold the
  second and third accumulator after `t + 1` points. Between points the region's invariant holds the three scratch buffers at
  `accAt` of the points done so far (at anything before the first point) beside the generator register.
-/
import proofs.«127721_j16621523436335_1_alg».proof.Proof.BCond

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The accumulators, one point at a time -/

/-- After point `t`: the point's update of what was there before it — the reset values at column tile 0. -/
theorem accAt_succ (c : Dev nD) (t : Fin cfg0.N) :
    accAt m c (t.val + 1)
      = accStep (iblk m c 0 t) (iblk m c 1 t) (iblk m c 2 t) (iblk m c 3 t) (if t.val % 8 = 0 then accReset else accAt m c t.val) := by
  rw [accAt, dif_pos t.isLt]

theorem accAt_succ_reset (c : Dev nD) (t : Fin cfg0.N) (h : t.val % 8 = 0) :
    accAt m c (t.val + 1) = accStep (iblk m c 0 t) (iblk m c 1 t) (iblk m c 2 t) (iblk m c 3 t) accReset := by
  rw [accAt_succ, if_pos h]

theorem accAt_succ_carry (c : Dev nD) (t : Fin cfg0.N) (h : ¬t.val % 8 = 0) :
    accAt m c (t.val + 1) = accStep (iblk m c 0 t) (iblk m c 1 t) (iblk m c 2 t) (iblk m c 3 t) (accAt m c t.val) := by
  rw [accAt_succ, if_neg h]

/-! ## The scratch operands and the invariant -/

/-- The three scratch accumulators: whole scoped buffers of the kernel's own. -/
abbrev scM0 : Memref sig .tc .vmem S1024x1 .f32 := Memref.whole cc0_scratch0
abbrev scM1 : Memref sig .tc .vmem S1024x1 .f32 := Memref.whole cc0_scratch1
abbrev scM2 : Memref sig .tc .vmem S1024x1 .f32 := Memref.whole cc0_scratch2

/-- What the launch hands the region: each scratch buffer at some contents, and the generator register. -/
theorem PhiA_eq (c : Dev nD) :
    (Pipeline.ΦA spec0 c : sProp 𝕄)
      = iprop(iprop((∃ d, owns (c : Thread nD τ) scM0 fullShare d) ∗ (∃ d, owns (c : Thread nD τ) scM1 fullShare d) ∗ (∃ d, owns (c : Thread nD τ) scM2 fullShare d)) ∗ (∃ r, prngReg c r)) := by
  unfold Pipeline.ΦA; rw [scopedRest0_eq]; simp only [scM0, scM1, scM2, owns_whole]; try rfl

/-- The invariant before position `n`: before the first point the scratch at anything; afterwards at the accumulators'
    values after `n` points. -/
def PhiS (c : Dev nD) : ℕ → sProp 𝕄
  | 0 => Pipeline.ΦA spec0 c
  | n + 1 => iprop(iprop(owns (c : Thread nD τ) scM0 fullShare (accAt m c (n + 1)).mx ∗ owns (c : Thread nD τ) scM1 fullShare (accAt m c (n + 1)).sm
      ∗ owns (c : Thread nD τ) scM2 fullShare (accAt m c (n + 1)).ct) ∗ (∃ r, prngReg c r))

theorem PhiS_zero (c : Dev nD) : PhiS m c 0 = Pipeline.ΦA spec0 c := rfl

theorem PhiS_succ (c : Dev nD) (n : ℕ) :
    PhiS m c (n + 1) = iprop(iprop(owns (c : Thread nD τ) scM0 fullShare (accAt m c (n + 1)).mx ∗ owns (c : Thread nD τ) scM1 fullShare (accAt m c (n + 1)).sm
      ∗ owns (c : Thread nD τ) scM2 fullShare (accAt m c (n + 1)).ct) ∗ (∃ r, prngReg c r)) := rfl

theorem PhiS_pos (c : Dev nD) (n : ℕ) (hz : n ≠ 0) :
    PhiS m c n = iprop(iprop(owns (c : Thread nD τ) scM0 fullShare (accAt m c n).mx ∗ owns (c : Thread nD τ) scM1 fullShare (accAt m c n).sm
      ∗ owns (c : Thread nD τ) scM2 fullShare (accAt m c n).ct) ∗ (∃ r, prngReg c r)) := by
  cases n with
  | zero => exact absurd rfl hz
  | succ n => rfl

/-- Whatever the position, the invariant gives the scratch back at some contents. -/
theorem PhiS_out (c : Dev nD) (n : ℕ) : PhiS m c n ⊢ Pipeline.ΦA spec0 c := by
  cases n with
  | zero => exact Idealize.SL.BI.Entails.refl _
  | succ n =>
    rw [PhiS_succ, PhiA_eq]
    iintro ⟨⟨H0, H1, H2⟩, Hg⟩
    isplitl [H0 H1 H2]
    · isplitl [H0]; · iexists _; iexact H0
      isplitl [H1]; · iexists _; iexact H1
      iexists _; iexact H2
    iexact Hg

/-! ## The proof data -/

/-- On core `c`: the arrays as the region finds them; after the body at point `t` each input's buffer at its block, the two
    outputs' at the finished sum and count; the invariant `PhiS`; nothing owed; the shared feature array held by halves by
    its two windows, every other input array whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (accAt m c (t.val + 1)).sm
    | ⟨5, _⟩ => (accAt m c (t.val + 1)).ct
  Φ t := PhiS m c t.val
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
  owed _ := 0

theorem A_eq (c : Dev nD) (w : Fin cfg0.W) : (dats m 0 c).A w = V m c (Pipeline.arrRef spec0 w) := by
  dsimp only [dats]

theorem q_0 (c : Dev nD) : (dats m 0 c).q 0 = fullShare.left := by dsimp only [dats]
theorem q_1 (c : Dev nD) : (dats m 0 c).q 1 = fullShare.right := by dsimp only [dats]
theorem q_2 (c : Dev nD) : (dats m 0 c).q 2 = fullShare := by dsimp only [dats]
theorem q_3 (c : Dev nD) : (dats m 0 c).q 3 = fullShare := by dsimp only [dats]

theorem Phi_castSucc (c : Dev nD) (t : Fin cfg0.N) : (dats m 0 c).Φ t.castSucc = PhiS m c t.val := by
  dsimp only [dats]; simp only [Fin.coe_castSucc]
theorem Phi_succ (c : Dev nD) (t : Fin cfg0.N) : (dats m 0 c).Φ t.succ = PhiS m c (t.val + 1) := rfl

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = (accAt m c (t.val + 1)).sm := by dsimp only [dats]
theorem after_5 (c : Dev nD) (t : Fin cfg0.N) : (dats m 0 c).after 5 t = (accAt m c (t.val + 1)).ct := by dsimp only [dats]

/-! ## Each input's buffer holds its block when the body runs, fetched at that point or not -/

theorem before_0 (c : Dev nD) (t : Fin cfg0.N) (d) : (dats m 0 c).before 0 t d = iblk m c 0 t :=
  ((dats m 0 c).before_in_eq_fetched 0 rfl (fun _ => rfl) (fun _ _ _ => rfl)
      (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl)
      (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl)
      (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl)
      (fun t => by rw [after_3]; unfold Dat.blockOf iblk; rw [A_eq]; try rfl) t d).trans
    (by unfold Dat.fetched Dat.blockOf iblk; rw [A_eq]; try rfl)

end Cert.Kernel.Hand

end
-- ==== Proof.BBody.lean ====
/-
  The body obligation: at every point of the grid the kernel body, handed the windows' current buffers and the region's
  invariant, hands them back as the proof data say.

  The point's column tile decides the case. At column tile 0 the accumulators are reset and updated, whatever the scratch held;
  at column tiles 1 to 6 they are updated from what the point before left; at column tile 7 they are updated and the finished sum
  and count stored into the two output buffers. In the first two cases the output windows are idle: their buffers come back as
  they were found. The three runs of the body are taken as hypotheses here, stated over arbitrary whole memrefs.
-/
import proofs.«127721_j16621523436335_1_alg».proof.Proof.BDats

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's three runs, as statements -/

/-- Column tile 0: the scratch at anything; the accumulators come back at the update of the reset values; the outputs untouched. -/
abbrev RunFirst : Prop :=
  ∀ (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole)
    (h0 : condReset i) (h1 : ¬condFlush i) (xq xk : Vec F S1024x128 .f32) (lq : Vec F S1024x1 .i32) (lk : Vec F S1x1024 .i32) (o6 o7 : Vec F S1024x1 .f32) (E : Set ℕ) (K : PUnit → sProp 𝕄),
    iprop(owns (c : Thread nD τ) arg2 fullShare xq ∗ owns (c : Thread nD τ) arg3 fullShare xk ∗ owns (c : Thread nD τ) arg4 fullShare lq ∗ owns (c : Thread nD τ) arg5 fullShare lk ∗ owns (c : Thread nD τ) arg6 fullShare o6 ∗ owns (c : Thread nD τ) arg7 fullShare o7
        ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg2 fullShare xq ∗ owns (c : Thread nD τ) arg3 fullShare xk ∗ owns (c : Thread nD τ) arg4 fullShare lq ∗ owns (c : Thread nD τ) arg5 fullShare lk ∗ owns (c : Thread nD τ) arg6 fullShare o6 ∗ owns (c : Thread nD τ) arg7 fullShare o7 ∗ owns (c : Thread nD τ) arg8 fullShare (accStep xq xk lq lk accReset).mx ∗ owns (c : Thread nD τ) arg9 fullShare (accStep xq xk lq lk accReset).sm ∗ owns (c : Thread nD τ) arg10 fullShare (accStep xq xk lq lk accReset).ct) -∗ K ⟨⟩))
      ⊢ wp frame (wpE (defs₀ (F := F)) Variants.none c none) E (cc0__fourdloss_kernel i arg2 harg2 arg3 harg3 arg4 harg4 arg5 harg5 arg6 harg6 arg7 harg7 arg8 harg8 arg9 harg9 arg10 harg10) K

/-- Column tiles 1 to 6: the accumulators handed in at `a` come back at its update; the outputs untouched. -/
abbrev RunMid : Prop :=
  ∀ (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole)
    (h0 : ¬condReset i) (h1 : ¬condFlush i) (xq xk : Vec F S1024x128 .f32) (lq : Vec F S1024x1 .i32) (lk : Vec F S1x1024 .i32) (a : Acc F) (o6 o7 : Vec F S1024x1 .f32) (E : Set ℕ) (K : PUnit → sProp 𝕄),
    iprop(owns (c : Thread nD τ) arg2 fullShare xq ∗ owns (c : Thread nD τ) arg3 fullShare xk ∗ owns (c : Thread nD τ) arg4 fullShare lq ∗ owns (c : Thread nD τ) arg5 fullShare lk ∗ owns (c : Thread nD τ) arg6 fullShare o6 ∗ owns (c : Thread nD τ) arg7 fullShare o7
        ∗ owns (c : Thread nD τ) arg8 fullShare a.mx ∗ owns (c : Thread nD τ) arg9 fullShare a.sm ∗ owns (c : Thread nD τ) arg10 fullShare a.ct
        ∗ (iprop(owns (c : Thread nD τ) arg2 fullShare xq ∗ owns (c : Thread nD τ) arg3 fullShare xk ∗ owns (c : Thread nD τ) arg4 fullShare lq ∗ owns (c : Thread nD τ) arg5 fullShare lk ∗ owns (c : Thread nD τ) arg6 fullShare o6 ∗ owns (c : Thread nD τ) arg7 fullShare o7 ∗ owns (c : Thread nD τ) arg8 fullShare (accStep xq xk lq lk a).mx ∗ owns (c : Thread nD τ) arg9 fullShare (accStep xq xk lq lk a).sm ∗ owns (c : Thread nD τ) arg10 fullShare (accStep xq xk lq lk a).ct) -∗ K ⟨⟩))
      ⊢ wp frame (wpE (defs₀ (F := F)) Variants.none c none) E (cc0__fourdloss_kernel i arg2 harg2 arg3 harg3 arg4 harg4 arg5 harg5 arg6 harg6 arg7 harg7 arg8 harg8 arg9 harg9 arg10 harg10) K

/-- Column tile 7: as the middle tiles, and the two outputs, handed in at anything, come back at the updated sum and count. -/
abbrev RunLast : Prop :=
  ∀ (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole)
    (h0 : ¬condReset i) (h1 : condFlush i) (xq xk : Vec F S1024x128 .f32) (lq : Vec F S1024x1 .i32) (lk : Vec F S1x1024 .i32) (a : Acc F) (E : Set ℕ) (K : PUnit → sProp 𝕄),
    iprop(owns (c : Thread nD τ) arg2 fullShare xq ∗ owns (c : Thread nD τ) arg3 fullShare xk ∗ owns (c : Thread nD τ) arg4 fullShare lq ∗ owns (c : Thread nD τ) arg5 fullShare lk ∗ (∃ d, owns (c : Thread nD τ) arg6 fullShare d) ∗ (∃ d, owns (c : Thread nD τ) arg7 fullShare d)
        ∗ owns (c : Thread nD τ) arg8 fullShare a.mx ∗ owns (c : Thread nD τ) arg9 fullShare a.sm ∗ owns (c : Thread nD τ) arg10 fullShare a.ct
        ∗ (iprop(owns (c : Thread nD τ) arg2 fullShare xq ∗ owns (c : Thread nD τ) arg3 fullShare xk ∗ owns (c : Thread nD τ) arg4 fullShare lq ∗ owns (c : Thread nD τ) arg5 fullShare lk ∗ owns (c : Thread nD τ) arg6 fullShare (accStep xq xk lq lk a).sm ∗ owns (c : Thread nD τ) arg7 fullShare (accStep xq xk lq lk a).ct ∗ owns (c : Thread nD τ) arg8 fullShare (accStep xq xk lq lk a).mx ∗ owns (c : Thread nD τ) arg9 fullShare (accStep xq xk lq lk a).sm ∗ owns (c : Thread nD τ) arg10 fullShare (accStep xq xk lq lk a).ct) -∗ K ⟨⟩))
      ⊢ wp frame (wpE (defs₀ (F := F)) Variants.none c none) E (cc0__fourdloss_kernel i arg2 harg2 arg3 harg3 arg4 harg4 arg5 harg5 arg6 harg6 arg7 harg7 arg8 harg8 arg9 harg9 arg10 harg10) K

variable (m : (ℓ : Loc nD τ sig) → Buf (Elt F) ℓ)

/-! ## The body obligation, at a generic point -/

/-- Each window's current staging memref at point `t`, spelled as the pipeline passes it. -/
abbrev ms_0 (t : Fin cfg0.N) : Memref sig .tc .vmem S1024x128 .f32 := win0_0.stage (cfg0.slots t 0)
abbrev ms_1 (t : Fin cfg0.N) : Memref sig .tc .vmem S1024x128 .f32 := win0_1.stage (cfg0.slots t 1)
abbrev ms_2 (t : Fin cfg0.N) : Memref sig .tc .vmem S1024x1 .i32 := win0_2.stage (cfg0.slots t 2)
abbrev ms_3 (t : Fin cfg0.N) : Memref sig .tc .vmem S1x1024 .i32 := win0_3.stage (cfg0.slots t 3)
abbrev ms_4 (t : Fin cfg0.N) : Memref sig .tc .vmem S1024x1 .f32 := win0_4.stage (cfg0.slots t 4)
abbrev ms_5 (t : Fin cfg0.N) : Memref sig .tc .vmem S1024x1 .f32 := win0_5.stage (cfg0.slots t 5)

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms_0 t) fullShare ((dats m 0 c).before 0 t d))
    ∗ (∃ d, owns (c : Thread nD τ) (ms_1 t) fullShare ((dats m 0 c).before 1 t d))
    ∗ (∃ d, owns (c : Thread nD τ) (ms_2 t) fullShare ((dats m 0 c).before 2 t d))
    ∗ (∃ d, owns (c : Thread nD τ) (ms_3 t) fullShare ((dats m 0 c).before 3 t d))
    ∗ (∃ d, owns (c : Thread nD τ) (ms_4 t) fullShare ((dats m 0 c).before 4 t d))
    ∗ (∃ d, owns (c : Thread nD τ) (ms_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t)

/-- Before any point the invariant yields each scratch buffer at some contents and the generator register. -/
theorem PhiS_open (c : Dev nD) (n : ℕ) :
    PhiS m c n ⊢ iprop(iprop((∃ d, owns (c : Thread nD τ) scM0 fullShare d) ∗ (∃ d, owns (c : Thread nD τ) scM1 fullShare d) ∗ (∃ d, owns (c : Thread nD τ) scM2 fullShare d)) ∗ (∃ r, prngReg c r)) := by
  rw [← PhiA_eq]; exact PhiS_out m c n

set_option maxHeartbeats 4800000 in
/-- The body at any point, by the column tile. -/
theorem sound_body (HF : RunFirst (F := F)) (HM : RunMid (F := F)) (HL : RunLast (F := F)) (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).owesAt () t.succ = (dats m 0 c).owesAt () t.castSucc from rfl, Phi_succ, Phi_castSucc, PhiS_succ]
  rw [show (dats m 0 c).leavesExact 0 t = owns (c : Thread nD τ) (ms_0 t) fullShare ((dats m 0 c).after 0 t) from by
        unfold Dat.leavesExact; rw [liveAt_0 t], after_0,
      show (dats m 0 c).leavesExact 1 t = owns (c : Thread nD τ) (ms_1 t) fullShare ((dats m 0 c).after 1 t) from by
        unfold Dat.leavesExact; rw [liveAt_1 t], after_1,
      show (dats m 0 c).leavesExact 2 t = owns (c : Thread nD τ) (ms_2 t) fullShare ((dats m 0 c).after 2 t) from by
        unfold Dat.leavesExact; rw [liveAt_2 t], after_2,
      show (dats m 0 c).leavesExact 3 t = owns (c : Thread nD τ) (ms_3 t) fullShare ((dats m 0 c).after 3 t) from by
        unfold Dat.leavesExact; rw [liveAt_3 t], after_3]
  by_cases h0 : t.val % 8 = 0
  · -- column tile 0
    have h1 : ¬t.val % 8 = 7 := by omega
    have hr : condReset (grid0.coords t) := (hcondReset t).mpr h0
    have hf : ¬condFlush (grid0.coords t) := fun h => h1 ((hcondFlush t).mp h)
    rw [Dat.leavesExact_idle (dats m 0 c) 4 t (idleAt_4 t hf) (noFlush_4 t hf),
      Dat.leavesExact_idle (dats m 0 c) 5 t (idleAt_5 t hf) (noFlush_5 t hf), accAt_succ_reset m c t h0]
    iintro ⟨HΦ, Ho, ⟨%d0, H0⟩, ⟨%d1, H1⟩, ⟨%d2, H2⟩, ⟨%d3, H3⟩, ⟨%d4, H4⟩, ⟨%d5, H5⟩⟩
    ihave HA := (PhiS_open m c t.val) $$ HΦ
    icases HA with ⟨⟨HS0, HS1, HS2⟩, Hg⟩
    iapply (HF c (grid0.coords t) _ _ _ _ _ _ _ _ _ _ _ _ _ _ _ _ _ _ hr hf (iblk m c 0 t) (iblk m c 1 t) (iblk m c 2 t) (iblk m c 3 t) _ _ Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    isplitl [HS2]; · iexact HS2
    iintro ⟨H0, H1, H2, H3, H4, H5, HS0, HS1, HS2⟩
    isplitl [HS0 HS1 HS2 Hg]
    · isplitl [HS0 HS1 HS2]
      · isplitl [HS0]; · iexact HS0
        isplitl [HS1]; · iexact HS1
        iexact HS2
      iexact Hg
    isplitl [Ho]; · iexact Ho
    isplitl [H0]; · iexact H0
    isplitl [H1]; · iexact H1
    isplitl [H2]; · iexact H2
    isplitl [H3]; · iexact H3
    isplitl [H4]; · iexists _; iexact H4
    iexists _; iexact H5
  · have hz : t.val ≠ 0 := fun h => h0 (by rw [h])
    have hr : ¬condReset (grid0.coords t) := fun h => h0 ((hcondReset t).mp h)
    rw [PhiS_pos m c t.val hz, accAt_succ_carry m c t h0]
    by_cases h1 : t.val % 8 = 7
    · -- column tile 7
      have hf : condFlush (grid0.coords t) := (hcondFlush t).mpr h1
      rw [show (dats m 0 c).leavesExact 4 t = owns (c : Thread nD τ) (ms_4 t) fullShare ((dats m 0 c).after 4 t) from by
            unfold Dat.leavesExact; rw [liveAt_4 t hf], after_4,
          show (dats m 0 c).leavesExact 5 t = owns (c : Thread nD τ) (ms_5 t) fullShare ((dats m 0 c).after 5 t) from by
            unfold Dat.leavesExact; rw [liveAt_5 t hf], after_5, accAt_succ_carry m c t h0]
      iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
      iapply (HL c (grid0.coords t) _ _ _ _ _ _ _ _ _ _ _ _ _ _ _ _ _ _ hr hf (iblk m c 0 t) (iblk m c 1 t) (iblk m c 2 t) (iblk m c 3 t) (accAt m c t.val) Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS0]; · iexact HS0
      isplitl [HS1]; · iexact HS1
      isplitl [HS2]; · iexact HS2
      iintro ⟨H0, H1, H2, H3, H4, H5, HS0, HS1, HS2⟩
      isplitl [HS0 HS1 HS2 Hg]
      · isplitl [HS0 HS1 HS2]
        · isplitl [HS0]; · iexact HS0
          isplitl [HS1]; · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      iexact H5
    · -- column tiles 1 to 6
      have hf : ¬condFlush (grid0.coords t) := fun h => h1 ((hcondFlush t).mp h)
      rw [Dat.leavesExact_idle (dats m 0 c) 4 t (idleAt_4 t hf) (noFlush_4 t hf),
        Dat.leavesExact_idle (dats m 0 c) 5 t (idleAt_5 t hf) (noFlush_5 t hf)]
      iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
      iapply (HM c (grid0.coords t) _ _ _ _ _ _ _ _ _ _ _ _ _ _ _ _ _ _ hr hf (iblk m c 0 t) (iblk m c 1 t) (iblk m c 2 t) (iblk m c 3 t) (accAt m c t.val) _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      iintro ⟨H0, H1, H2, H3, H4, H5, HS0, HS1, HS2⟩
      isplitl [HS0 HS1 HS2 Hg]
      · isplitl [HS0 HS1 HS2]
        · isplitl [HS0]; · iexact HS0
          isplitl [HS1]; · iexact HS1
          iexact HS2
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5

/-- The library's body obligation, at every point. -/
theorem body_obligation (HF : RunFirst (F := F)) (HM : RunMid (F := F)) (HL : RunLast (F := F)) (c : Dev nD) :
    BodyObligation (dats (F := F) m 0 c) (defs₀ (F := F)) Variants.none () Set.univ := fun t => by
  rw [bigSep_W0, bigSep_W0]
  exact sound_body m HF HM HL c t

end Cert.Kernel.Hand

end
-- ==== Proof.BArrays.lean ====
/-
  The array shared by two windows, at the region's entry and exit.

  The region's six windows stage five distinct arrays: the feature matrix is read through two windows (the row tile's
  block and the column tile's block), the label column and the label row through one window each, and the two outputs are
  written through one window each. A pipeline's proof data hold one points-to per WINDOW, so the feature matrix is held
  twice, at the two halves of the full share; the other arrays are held whole. At entry the full share of the feature
  matrix is split into its halves at the same contents; at exit the halves, which hold the same contents, are joined.
-/
import proofs.«127721_j16621523436335_1_alg».proof.Proof.BData

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The buffers behind the six windows' arrays are five. -/
theorem arrRefs_eq : Finset.univ.image (Pipeline.arrRef spec0) = ([main_v1, main_v5, main_v6, main_v7_0, main_v7_1] : List (Ref sig .tc)).toFinset := by decide

/-- The share each window holds its array at: the two windows on the feature matrix a half each, the others the whole. -/
def shareOf : Fin 6 → PosShare TreeShare
  | 0 => fullShare.left
  | 1 => fullShare.right
  | _ => fullShare

variable {c : Dev nD} (dat : Dat τ (Elt F) Unit ℕ (UR sig nD τ) ℕ cfg0 c)
  (hq0 : dat.q 0 = fullShare.left) (hq1 : dat.q 1 = fullShare.right) (hq2 : dat.q 2 = fullShare) (hq3 : dat.q 3 = fullShare)

include hq0 hq1 hq2 hq3 in
theorem share_eq : ∀ w : Fin cfg0.W, dat.share w = shareOf w := fun
  | 0 => (if_neg Bool.false_ne_true).trans hq0
  | 1 => (if_neg Bool.false_ne_true).trans hq1
  | 2 => (if_neg Bool.false_ne_true).trans hq2
  | 3 => (if_neg Bool.false_ne_true).trans hq3
  | 4 => if_pos rfl
  | 5 => if_pos rfl
  | ⟨_ + 6, h⟩ => absurd h (Nat.not_lt.2 (Nat.le_add_left _ _))

include hq0 hq1 hq2 hq3 in
/-- The pipeline's arrays window by window, each a whole buffer at its share. -/
theorem arrays_eq6 (G : (w : Fin cfg0.W) → Buf (Elt F) ((cfg0.win w).arr.view.loc (c : Thread nD τ))) :
    (dat.arrays G : sProp 𝕄) = iprop(
      (((c : Thread nD τ).loc main_v1) ↦{fullShare.left} G 0) ∗ (((c : Thread nD τ).loc main_v1) ↦{fullShare.right} G 1)
      ∗ (((c : Thread nD τ).loc main_v5) ↦{fullShare} G 2) ∗ (((c : Thread nD τ).loc main_v6) ↦{fullShare} G 3)
      ∗ (((c : Thread nD τ).loc main_v7_0) ↦{fullShare} G 4) ∗ (((c : Thread nD τ).loc main_v7_1) ↦{fullShare} G 5)) := by
  unfold Dat.arrays
  rw [bigSep_congr fun w _ => by rw [(arr_whole0 w).set_eq_univ, share_eq dat hq0 hq1 hq2 hq3 w], bigSep_W0]
  rfl

/-- The distinct buffers behind the windows' arrays, each whole at the full share, one by one. -/
theorem arrBufs_eq5 (Vc : (b : Ref sig .tc) → Buf (Elt F) ((c : Thread nD τ).loc b)) :
    (Pipeline.arrBufs (Ix := Unit) (Name := ℕ) (U := UR sig nD τ) (Lvl := ℕ) spec0 c Vc : sProp 𝕄) = iprop(
      (((c : Thread nD τ).loc main_v1) ↦{fullShare} Vc main_v1) ∗ (((c : Thread nD τ).loc main_v5) ↦{fullShare} Vc main_v5)
      ∗ (((c : Thread nD τ).loc main_v6) ↦{fullShare} Vc main_v6) ∗ (((c : Thread nD τ).loc main_v7_0) ↦{fullShare} Vc main_v7_0)
      ∗ (((c : Thread nD τ).loc main_v7_1) ↦{fullShare} Vc main_v7_1)) := by
  unfold Pipeline.arrBufs; exact bigSep_eq_bigSepL_of_eq _ arrRefs_eq (by decide) _

include hq0 hq1 hq2 hq3 in
/-- ENTRY: a core's unscoped buffers at contents `Vc` are the pipeline's arrays at the same contents — the feature
    matrix's full share split into the halves the two windows on it hold — and the unscoped rest. -/
theorem arrays_in (Vc : (b : Ref sig .tc) → Buf (Elt F) ((c : Thread nD τ).loc b))
    (G : (w : Fin cfg0.W) → Buf (Elt F) ((cfg0.win w).arr.view.loc (c : Thread nD τ)))
    (hG : ∀ w, G w = Vc (Pipeline.arrRef spec0 w)) :
    (unscopedBufs c Vc : sProp 𝕄) ⊢ iprop(dat.arrays G ∗ Pipeline.unscopedRest (Ix := Unit) (Name := ℕ) (U := UR sig nD τ) (Lvl := ℕ) spec0 c Vc) := by
  obtain rfl : G = fun w => Vc (Pipeline.arrRef spec0 w) := funext hG
  rw [Pipeline.unscopedBufs_split₀ (fun _ : Fin 1 => cfg0) 0 winFacts₀0.arr_unscoped c Vc, arrays_eq6 dat hq0 hq1 hq2 hq3]
  refine sep_mono ?_ .rfl
  rw [arrBufs_eq5]
  iintro ⟨H1, H5, H6, H70, H71⟩
  ihave H1' := (pointsTo_share (PosShare.mem_left_op_right fullShare)).1 $$ H1
  icases H1' with ⟨Hl, Hr⟩
  isplitl [Hl]; · iexact Hl
  isplitl [Hr]; · iexact Hr
  isplitl [H5]; · iexact H5
  isplitl [H6]; · iexact H6
  isplitl [H70]; · iexact H70
  iexact H71

include hq0 hq1 hq2 hq3 in
/-- EXIT: the arrays at contents `G` and the rest at `Vc` are the core's unscoped buffers at any `Vc'` that is `G` at the
    arrays and `Vc` elsewhere — the two halves of the feature matrix, which hold the same contents, joined. -/
theorem arrays_out (Vc Vc' : (b : Ref sig .tc) → Buf (Elt F) ((c : Thread nD τ).loc b))
    (G : (w : Fin cfg0.W) → Buf (Elt F) ((cfg0.win w).arr.view.loc (c : Thread nD τ)))
    (hG : ∀ w, G w = Vc' (Pipeline.arrRef spec0 w)) (hrest : ∀ b, b ∉ Finset.univ.image (Pipeline.arrRef spec0) → Vc' b = Vc b) :
    iprop(dat.arrays G ∗ Pipeline.unscopedRest (Ix := Unit) (Name := ℕ) (U := UR sig nD τ) (Lvl := ℕ) spec0 c Vc) ⊢ (unscopedBufs c Vc' : sProp 𝕄) := by
  obtain rfl : G = fun w => Vc' (Pipeline.arrRef spec0 w) := funext hG
  rw [Pipeline.unscopedBufs_split₀ (fun _ : Fin 1 => cfg0) 0 winFacts₀0.arr_unscoped c Vc', arrays_eq6 dat hq0 hq1 hq2 hq3]
  refine sep_mono ?_ (Entails.of_eq ?_)
  · rw [arrBufs_eq5]
    iintro ⟨Hl, Hr, H5, H6, H70, H71⟩
    isplitl [Hl Hr]
    · iapply (pointsTo_share (PosShare.mem_left_op_right fullShare)).2
      isplitl [Hl]; · iexact Hl
      iexact Hr
    isplitl [H5]; · iexact H5
    isplitl [H6]; · iexact H6
    isplitl [H70]; · iexact H70
    iexact H71
  · unfold Pipeline.unscopedRest
    exact bigSep_congr fun b hb => by rw [hrest b (Finset.mem_sdiff.mp hb).2]

/-! ## The exit contents: only the two outputs change -/

/-- `Vc` with the two output arrays replaced by `o4` and `o5`. -/
def withOuts (Vc : (b : Ref sig .tc) → Buf (Elt F) ((c : Thread nD τ).loc b))
    (o4 : Buf (Elt F) ((c : Thread nD τ).loc main_v7_0)) (o5 : Buf (Elt F) ((c : Thread nD τ).loc main_v7_1)) :
    (b : Ref sig .tc) → Buf (Elt F) ((c : Thread nD τ).loc b) :=
  Function.update (Function.update Vc main_v7_0 o4) main_v7_1 o5

theorem withOuts_out0 (Vc : (b : Ref sig .tc) → Buf (Elt F) ((c : Thread nD τ).loc b))
    (o4 : Buf (Elt F) ((c : Thread nD τ).loc main_v7_0)) (o5 : Buf (Elt F) ((c : Thread nD τ).loc main_v7_1)) :
    withOuts Vc o4 o5 main_v7_0 = o4 := by
  unfold withOuts; rw [Function.update_of_ne (by decide), Function.update_self]

theorem withOuts_out1 (Vc : (b : Ref sig .tc) → Buf (Elt F) ((c : Thread nD τ).loc b))
    (o4 : Buf (Elt F) ((c : Thread nD τ).loc main_v7_0)) (o5 : Buf (Elt F) ((c : Thread nD τ).loc main_v7_1)) :
    withOuts Vc o4 o5 main_v7_1 = o5 := by
  unfold withOuts; rw [Function.update_self]

theorem withOuts_of_ne (Vc : (b : Ref sig .tc) → Buf (Elt F) ((c : Thread nD τ).loc b))
    (o4 : Buf (Elt F) ((c : Thread nD τ).loc main_v7_0)) (o5 : Buf (Elt F) ((c : Thread nD τ).loc main_v7_1))
    (b : Ref sig .tc) (h0 : b ≠ main_v7_0) (h1 : b ≠ main_v7_1) : withOuts Vc o4 o5 b = Vc b := by
  unfold withOuts; rw [Function.update_of_ne h1, Function.update_of_ne h0]

include hq0 hq1 hq2 hq3 in
/-- EXIT, at the contents the region leaves: the inputs as entered (`hG0` … `hG3`), the two outputs at what the proof data
    say, every other buffer as entered. -/
theorem arrays_out_withOuts (Vc : (b : Ref sig .tc) → Buf (Elt F) ((c : Thread nD τ).loc b))
    (G : (w : Fin cfg0.W) → Buf (Elt F) ((cfg0.win w).arr.view.loc (c : Thread nD τ)))
    (hG0 : G 0 = Vc main_v1) (hG1 : G 1 = Vc main_v1) (hG2 : G 2 = Vc main_v5) (hG3 : G 3 = Vc main_v6) :
    iprop(dat.arrays G ∗ Pipeline.unscopedRest (Ix := Unit) (Name := ℕ) (U := UR sig nD τ) (Lvl := ℕ) spec0 c Vc)
      ⊢ (unscopedBufs c (withOuts Vc (G 4) (G 5)) : sProp 𝕄) := by
  refine arrays_out dat hq0 hq1 hq2 hq3 Vc (withOuts Vc (G 4) (G 5)) G (fun
    | 0 => hG0.trans (withOuts_of_ne Vc _ _ main_v1 (by decide) (by decide)).symm
    | 1 => hG1.trans (withOuts_of_ne Vc _ _ main_v1 (by decide) (by decide)).symm
    | 2 => hG2.trans (withOuts_of_ne Vc _ _ main_v5 (by decide) (by decide)).symm
    | 3 => hG3.trans (withOuts_of_ne Vc _ _ main_v6 (by decide) (by decide)).symm
    | 4 => (withOuts_out0 Vc _ _).symm
    | 5 => (withOuts_out1 Vc _ _).symm
    | ⟨_ + 6, h⟩ => absurd h (Nat.not_lt.2 (Nat.le_add_left _ _))) fun b hb => ?_
  rw [arrRefs_eq] at hb
  refine withOuts_of_ne Vc _ _ b (fun e => hb ?_) (fun e => hb ?_) <;> subst e <;> decide

end Cert.Kernel.Hand

end
-- ==== Proof.BFrame.lean ====
/-
  The kernel region's record over the host frame, and the run of the whole program.

  The region is entered with every unscoped buffer at the contents the first host stretch leaves, and left with the same
  contents except at its two output arrays, which hold what the write-backs of the sixty-four points leave. Its arrays are
  split out of the unscoped buffers at entry and put back at exit; the three scratch accumulators and the generator register
  go into the invariant and come back; nothing is owed. With that record the conditional frame gives the run: the result buffer
  ends at the last host valuation over those two output arrays, and the arguments end as launched.
-/
import proofs.«127721_j16621523436335_1_alg».proof.Proof.BHost
import proofs.«127721_j16621523436335_1_alg».proof.Proof.BBody
import proofs.«127721_j16621523436335_1_alg».proof.Proof.BArrays
import Idealize.ShloMosaic.Lib.Pipeline.RegionsLoop
import Idealize.ShloMosaic.Lib.Ring

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers when the region is left -/

/-- Core `c`'s buffers when the region is left: as entered, the two output arrays at what the write-backs leave. -/
abbrev Wexit (c : Dev nD) : Valuation τ sig (Elt F) :=
  Function.update (Function.update (W1 m c) main_v7_0 ((dats m 0 c).arrAt 4 cfg0.N)) main_v7_1 ((dats m 0 c).arrAt 5 cfg0.N)
/-- The same read at a TensorCore reference. -/
abbrev Vexit (c : Dev nD) (b : Ref sig .tc) : Buf (Elt F) ((c : Thread nD τ).loc b) := Wexit m c (Proc.devRef .tc b)

/-- What the region leaves in the buffers it may change, for the host frame. -/
abbrev outsK : Outs (F := F) := fun _ r c => Wexit m c (Proc.devRef .tc r)

theorem Wexit_v7_1 (c : Dev nD) : Wexit m c (Proc.devRef .tc main_v7_1) = (dats m 0 c).arrAt 5 cfg0.N := by
  simp only [Wexit, Function.update_self]
theorem Wexit_v7_0 (c : Dev nD) : Wexit m c (Proc.devRef .tc main_v7_0) = (dats m 0 c).arrAt 4 cfg0.N := by
  simp only [Wexit]
  rw [Function.update_of_ne (StableHlo.devRef_ne_of_ne (by decide) : (Proc.devRef .tc main_v7_0 : DevRef τ sig) ≠ Proc.devRef .tc main_v7_1), Function.update_self]
theorem Wexit_of (c : Dev nD) (r : Ref sig .tc) (h0 : r ≠ main_v7_0) (h1 : r ≠ main_v7_1) : Wexit m c (Proc.devRef .tc r) = W1 m c (Proc.devRef .tc r) := by
  simp only [Wexit, Function.update_of_ne (StableHlo.devRef_ne_of_ne h1 : (Proc.devRef .tc r : DevRef τ sig) ≠ Proc.devRef .tc main_v7_1),
    Function.update_of_ne (StableHlo.devRef_ne_of_ne h0 : (Proc.devRef .tc r : DevRef τ sig) ≠ Proc.devRef .tc main_v7_0)]

/-- The host frame's valuation after the region, at these contents, is the exit valuation. -/
theorem U2_outsK (c : Dev nD) : U2 m (outsK m) c = Wexit m c := by
  show Function.update (Function.update (W1 m c) main_v7_0 (Wexit m c (Proc.devRef .tc main_v7_0))) main_v7_1 (Wexit m c (Proc.devRef .tc main_v7_1)) = _
  rw [Wexit_v7_0, Wexit_v7_1]

/-- When the region is left each of its arrays holds what the pipeline leaves, -/
theorem hF (c : Dev nD) : ∀ w : Fin cfg0.W, (dats m 0 c).arrAt w cfg0.N = Vexit m c (Pipeline.arrRef spec0 w)
  | ⟨0, _⟩ => (((dats m 0 c).arrAt_in 0 rfl _).trans (A_eq m c 0)).trans (Wexit_of m c main_v1 (by decide) (by decide)).symm
  | ⟨1, _⟩ => (((dats m 0 c).arrAt_in 1 rfl _).trans (A_eq m c 1)).trans (Wexit_of m c main_v1 (by decide) (by decide)).symm
  | ⟨2, _⟩ => (((dats m 0 c).arrAt_in 2 rfl _).trans (A_eq m c 2)).trans (Wexit_of m c main_v5 (by decide) (by decide)).symm
  | ⟨3, _⟩ => (((dats m 0 c).arrAt_in 3 rfl _).trans (A_eq m c 3)).trans (Wexit_of m c main_v6 (by decide) (by decide)).symm
  | ⟨4, _⟩ => (Wexit_v7_0 m c).symm
  | ⟨5, _⟩ => (Wexit_v7_1 m c).symm
/-- and every other buffer what it held when the region was entered. -/
theorem hrest (c : Dev nD) : ∀ b, b ∉ Finset.univ.image (Pipeline.arrRef spec0) → Vexit m c b = V m c b :=
  fun b hb => Wexit_of m c b
    (fun e => hb (Finset.mem_image.mpr ⟨4, Finset.mem_univ _, e.symm⟩))
    (fun e => hb (Finset.mem_image.mpr ⟨5, Finset.mem_univ _, e.symm⟩))

/-! ## The proof data family and the thread state -/

/-- The pipeline's proof data, as a family over the program's one pallas_call. -/
def pdats : (p : Fin 1) → (c : Dev nD) → Dat τ (Elt F) Unit ℕ (UR sig nD τ) ℕ (cfgs p) c
  | ⟨0, _⟩ => fun c => dats m 0 c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, at nothing. -/
abbrev R (c : Dev nD) : sProp 𝕄 := iprop((∃ r, prngReg c r) ∗ ∃ W, owes (c : Thread nD τ) (0 : CellTallies nD τ sig Unit) W)

/-! ## The region as a segment -/

set_option backward.isDefEq.respectTransparency.types false in
/-- The region over the thread state: entered from every unscoped buffer at `W1`, left at `Wexit`. Its arrays are split
    out of the unscoped buffers and put back at the exit contents; the generator register and the scratch go into the
    invariant and come back; nothing is owed; the kernel has no semaphore of its own. -/
def reg0 (HF : RunFirst (F := F)) (HM : RunMid (F := F)) (HL : RunLast (F := F)) :
    Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (body_obligation m HF HM HL c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (Wexit m c) ∗ R c)
  X c := iprop(∃ r, prngReg c r)
  Y c := iprop(∃ r, prngReg c r)
  Z c := Pipeline.unscopedRest (Ix := Unit) (Name := ℕ) (U := UR sig nD τ) (Lvl := ℕ) spec0 c (V m c)
  hentry c := by
    rw [Pipeline.ownSems0_none]
    have hsplit := arrays_in (dats m 0 c) (q_0 m c) (q_1 m c) (q_2 m c) (q_3 m c) (V m c) ((dats m 0 c).arrAt · 0) (fun w => A_eq m c w)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from PhiS_zero m c]; unfold Pipeline.ΦA
    iintro ⟨Hp, -, Hr⟩
    isplitl [Hr]; · iexact Hr
    iexact Hp
  hout c := by
    rw [Pipeline.ownSems0_none]
    refine (show (pdats m 0 c).Φ (Fin.last _) ⊢ Pipeline.ΦA spec0 c from PhiS_out m c (Fin.last cfg0.N).val).trans ?_
    unfold Pipeline.ΦA
    iintro ⟨Hr, Hp⟩
    isplitl [Hp]; · iexact Hp
    isplitr; · iempintro
    iexact Hr
  hexit c := by
    have hjoin := arrays_out (dats m 0 c) (q_0 m c) (q_1 m c) (q_2 m c) (q_3 m c) (V m c) (Vexit m c) ((dats m 0 c).arrAt · cfg0.N) (hF m c) (hrest m c)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-! ## The run -/

set_option backward.isDefEq.respectTransparency.types false in
/-- THE RUN. Given the kernel body's three runs, from any memory with zero counters every weakly fair execution of the
    program terminates, and in every final memory the result buffer holds the last host valuation over the region's
    two output arrays at what its write-backs leave, and each argument holds what it was launched with. -/
theorem run_main (HF : RunFirst (F := F)) (HM : RunMid (F := F)) (HL : RunLast (F := F)) (ρ : Dev nD → PrngReg) :
    θ_run defs (onTc (τ := τ) (main (F := F))) ⟨m, fun _ => 0, ρ⟩ (fun r => ∀ c : Dev nD,
      r.2.mem ((c.tc : Thread nD τ).loc main_v33) = U13 m (outsK m) c (Proc.devRef .tc main_v33)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  frame_cond m emb₁ () 𝒱₀ L lv (fun _ _ => rfl) ρ (outsK m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ => R)
    (hE0 := by
      refine Pipeline.initEach L lv fun c => ?_
      iintro ⟨⟨-, HO, -, Hp, -⟩, -⟩
      imodintro
      isplitl [Hp]; · iexists _; iexact Hp
      iexists ∅; iexact HO)
    (hE1 := fun c => by iintro ⟨-, HO⟩; iexact HO)
    (R0 := reg0 m HF HM HL)
    (hpre0 := fun c => .rfl)
    (hpost0 := fun c => by rw [U2_outsK]; exact .rfl)

end Cert.Kernel.Hand

end
-- ==== Proof.BRun.lean ====
/-
  The kernel body's triple in each of its three control cases.

  The body reads the row tile's and the column tile's feature blocks and label blocks, updates the three [1024, 1]
  accumulators (running maximum, rescaled running sum, running count) held in scratch, and — at the last column tile —
  copies the sum and the count into the two output blocks. At the first column tile the accumulators are reset before
  use. Every load and store is of a whole buffer, so after the body each buffer holds the payload of its last store,
  and a load that follows a store reads that store's payload.
-/
import proofs.«127721_j16621523436335_1_alg».proof.Proof.BCond
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Whole-buffer loads and stores -/

section whole

variable {Val : EltTy → Type} {κ : Kind} {sp : Space} {S : Shape} {e : EltTy}

/-- A load of the whole buffer through a whole memref held at the contents that read `X` reads `X`. -/
theorem readAt_whole_unread {m : Memref sig κ sp S e} (h : m.IsWhole) (X : S.Idx → Val e) {off : Fin S.rank → Nat}
    (hz : off = fun _ => 0) (inb : ∀ a, off a + S.size a ≤ S.size a) :
    View.readAt Val m.view (Rect.unit off S.size inb).toLoadRect (h.unread X) = X := by
  rw [View.readAt_eq_ld, h.read_unread, View.ld_unit_zero hz]

/-- After a last store of the whole buffer, the buffer reads that store's payload, whatever was stored before. -/
theorem read_writes_whole [∀ e, Nonempty (Val e)] (v : View sig κ sp S e) (f : v.ty.Contents Val) {off : Fin S.rank → Nat}
    (hz : off = fun _ => 0) (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon _ _ _ (fun y => ⟨_, List.mem_cons_self, View.mem_set_unit_zero hz inb y⟩),
    View.canon_cons_unit_zero hz]

end whole

/-- The offsets of every access of the body: zero along both axes. -/
theorem off_zero : (![0, 0] : Fin 2 → Nat) = fun _ => 0 := by
  funext a; fin_cases a <;> rfl

/-! ## The three runs -/

set_option maxHeartbeats 1000000 in
/-- A column tile that is neither the first nor the last: the accumulators go from `a` to `accStep … a`, and nothing
    else changes. -/
theorem exec_mid (c : Dev nD) (i : grid0.Coords)
    (arg2 : Memref sig .tc .vmem S1024x128 .f32) (harg2 : arg2.IsWhole) (arg3 : Memref sig .tc .vmem S1024x128 .f32) (harg3 : arg3.IsWhole)
    (arg4 : Memref sig .tc .vmem S1024x1 .i32) (harg4 : arg4.IsWhole) (arg5 : Memref sig .tc .vmem S1x1024 .i32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1 .f32) (harg8 : arg8.IsWhole) (arg9 : Memref sig .tc .vmem S1024x1 .f32) (harg9 : arg9.IsWhole)
    (arg10 : Memref sig .tc .vmem S1024x1 .f32) (harg10 : arg10.IsWhole)
    (h0 : ¬condReset i) (h1 : ¬condFlush i)
    (xq xk : Vec F S1024x128 .f32) (lq : Vec F S1024x1 .i32) (lk : Vec F S1x1024 .i32) (a : Acc F) (o6 o7 : Vec F S1024x1 .f32)
    (E : Set ℕ) (K : PUnit → sProp 𝕄) :
    iprop(owns (c : Thread nD τ) arg2 fullShare xq ∗ owns (c : Thread nD τ) arg3 fullShare xk ∗ owns (c : Thread nD τ) arg4 fullShare lq ∗ owns (c : Thread nD τ) arg5 fullShare lk
        ∗ owns (c : Thread nD τ) arg6 fullShare o6 ∗ owns (c : Thread nD τ) arg7 fullShare o7
        ∗ owns (c : Thread nD τ) arg8 fullShare a.mx ∗ owns (c : Thread nD τ) arg9 fullShare a.sm ∗ owns (c : Thread nD τ) arg10 fullShare a.ct
        ∗ (iprop(owns (c : Thread nD τ) arg2 fullShare xq ∗ owns (c : Thread nD τ) arg3 fullShare xk ∗ owns (c : Thread nD τ) arg4 fullShare lq ∗ owns (c : Thread nD τ) arg5 fullShare lk
              ∗ owns (c : Thread nD τ) arg6 fullShare o6 ∗ owns (c : Thread nD τ) arg7 fullShare o7
              ∗ owns (c : Thread nD τ) arg8 fullShare (accStep xq xk lq lk a).mx ∗ owns (c : Thread nD τ) arg9 fullShare (accStep xq xk lq lk a).sm
              ∗ owns (c : Thread nD τ) arg10 fullShare (accStep xq xk lq lk a).ct) -∗ K ⟨⟩))
      ⊢ wp frame (wpE (defs₀ (F := F)) Variants.none c none) E (cc0__fourdloss_kernel i arg2 harg2 arg3 harg3 arg4 harg4 arg5 harg5 arg6 harg6 arg7 harg7 arg8 harg8 arg9 harg9 arg10 harg10) K := by
  simp only [cc0__fourdloss_kernel_eq_skeleton]; unfold cc0__fourdloss_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  obtain rfl := harg2.eq_unread hf2; obtain rfl := harg3.eq_unread hf3; obtain rfl := harg4.eq_unread hf4; obtain rfl := harg5.eq_unread hf5
  obtain rfl := harg8.eq_unread hf8; obtain rfl := harg9.eq_unread hf9; obtain rfl := harg10.eq_unread hf10
  sl_exec (disch := first | exact h0 | exact h1)
  sl_step
  iapply Hk
  isplitl [H2]; · iexists _; isplitr; · ipureintro; exact hf2
                  iexact H2
  isplitl [H3]; · iexists _; isplitr; · ipureintro; exact hf3
                  iexact H3
  isplitl [H4]; · iexists _; isplitr; · ipureintro; exact hf4
                  iexact H4
  isplitl [H5]; · iexists _; isplitr; · ipureintro; exact hf5
                  iexact H5
  isplitl [H6]; · iexists _; isplitr; · ipureintro; exact hf6
                  iexact H6
  isplitl [H7]; · iexists _; isplitr; · ipureintro; exact hf7
                  iexact H7
  isplitl [H8]
  · iexists _; isplitr
    swap; · iexact H8
    ipureintro
    rw [read_writes_whole _ _ off_zero]
    unfold exec_mid.sl.r_1 accStep
    simp only [readAt_whole_unread harg2 xq off_zero, readAt_whole_unread harg3 xk off_zero, readAt_whole_unread harg4 lq off_zero, readAt_whole_unread harg5 lk off_zero, readAt_whole_unread harg8 a.mx off_zero]
  isplitl [H9]
  · iexists _; isplitr
    swap; · iexact H9
    ipureintro
    rw [read_writes_whole _ _ off_zero]
    unfold exec_mid.sl.r_2 exec_mid.sl.r_3 accStep
    simp only [readAt_whole_unread harg2 xq off_zero, readAt_whole_unread harg3 xk off_zero, readAt_whole_unread harg4 lq off_zero, readAt_whole_unread harg5 lk off_zero, readAt_whole_unread harg8 a.mx off_zero, readAt_whole_unread harg9 a.sm off_zero]
  iexists _; isplitr
  swap; · iexact H10
  ipureintro
  rw [read_writes_whole _ _ off_zero]
  unfold exec_mid.sl.r accStep
  simp only [readAt_whole_unread harg2 xq off_zero, readAt_whole_unread harg3 xk off_zero, readAt_whole_unread harg4 lq off_zero, readAt_whole_unread harg5 lk off_zero, readAt_whole_unread harg10 a.ct off_zero]

set_option maxHeartbeats 1000000 in
/-- The last column tile (not the first): the accumulators go from `a` to `accStep … a`, and the two output blocks,
    whatever they held, receive the new sum and the new count. -/
theorem exec_last (c : Dev nD) (i : grid0.Coords)
    (arg2 : Memref sig .tc .vmem S1024x128 .f32) (harg2 : arg2.IsWhole) (arg3 : Memref sig .tc .vmem S1024x128 .f32) (harg3 : arg3.IsWhole)
    (arg4 : Memref sig .tc .vmem S1024x1 .i32) (harg4 : arg4.IsWhole) (arg5 : Memref sig .tc .vmem S1x1024 .i32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1 .f32) (harg8 : arg8.IsWhole) (arg9 : Memref sig .tc .vmem S1024x1 .f32) (harg9 : arg9.IsWhole)
    (arg10 : Memref sig .tc .vmem S1024x1 .f32) (harg10 : arg10.IsWhole)
    (h0 : ¬condReset i) (h1 : condFlush i)
    (xq xk : Vec F S1024x128 .f32) (lq : Vec F S1024x1 .i32) (lk : Vec F S1x1024 .i32) (a : Acc F)
    (E : Set ℕ) (K : PUnit → sProp 𝕄) :
    iprop(owns (c : Thread nD τ) arg2 fullShare xq ∗ owns (c : Thread nD τ) arg3 fullShare xk ∗ owns (c : Thread nD τ) arg4 fullShare lq ∗ owns (c : Thread nD τ) arg5 fullShare lk
        ∗ (∃ d, owns (c : Thread nD τ) arg6 fullShare d) ∗ (∃ d, owns (c : Thread nD τ) arg7 fullShare d)
        ∗ owns (c : Thread nD τ) arg8 fullShare a.mx ∗ owns (c : Thread nD τ) arg9 fullShare a.sm ∗ owns (c : Thread nD τ) arg10 fullShare a.ct
        ∗ (iprop(owns (c : Thread nD τ) arg2 fullShare xq ∗ owns (c : Thread nD τ) arg3 fullShare xk ∗ owns (c : Thread nD τ) arg4 fullShare lq ∗ owns (c : Thread nD τ) arg5 fullShare lk
              ∗ owns (c : Thread nD τ) arg6 fullShare (accStep xq xk lq lk a).sm ∗ owns (c : Thread nD τ) arg7 fullShare (accStep xq xk lq lk a).ct
              ∗ owns (c : Thread nD τ) arg8 fullShare (accStep xq xk lq lk a).mx ∗ owns (c : Thread nD τ) arg9 fullShare (accStep xq xk lq lk a).sm
              ∗ owns (c : Thread nD τ) arg10 fullShare (accStep xq xk lq lk a).ct) -∗ K ⟨⟩))
      ⊢ wp frame (wpE (defs₀ (F := F)) Variants.none c none) E (cc0__fourdloss_kernel i arg2 harg2 arg3 harg3 arg4 harg4 arg5 harg5 arg6 harg6 arg7 harg7 arg8 harg8 arg9 harg9 arg10 harg10) K := by
  simp only [cc0__fourdloss_kernel_eq_skeleton]; unfold cc0__fourdloss_kernel_skel
  unfold owns
  iintro ⟨⟨%f2, %hf2, H2⟩, ⟨%f3, %hf3, H3⟩, ⟨%f4, %hf4, H4⟩, ⟨%f5, %hf5, H5⟩, ⟨%d6, %f6, -, H6⟩, ⟨%d7, %f7, -, H7⟩, ⟨%f8, %hf8, H8⟩, ⟨%f9, %hf9, H9⟩, ⟨%f10, %hf10, H10⟩, Hk⟩
  obtain rfl := harg2.eq_unread hf2; obtain rfl := harg3.eq_unread hf3; obtain rfl := harg4.eq_unread hf4; obtain rfl := harg5.eq_unread hf5
  obtain rfl := harg8.eq_unread hf8; obtain rfl := harg9.eq_unread hf9; obtain rfl := harg10.eq_unread hf10
  sl_exec (disch := first | exact h0 | exact h1)
  sl_step
  iapply Hk
  isplitl [H2]; · iexists _; isplitr; · ipureintro; exact hf2
                  iexact H2
  isplitl [H3]; · iexists _; isplitr; · ipureintro; exact hf3
                  iexact H3
  isplitl [H4]; · iexists _; isplitr; · ipureintro; exact hf4
                  iexact H4
  isplitl [H5]; · iexists _; isplitr; · ipureintro; exact hf5
                  iexact H5
  isplitl [H6]
  · iexists _; isplitr
    swap; · iexact H6
    ipureintro
    rw [read_writes_whole _ _ off_zero]
    unfold exec_last.sl.v54 exec_last.sl.H9_1
    rw [View.readCov_unit_zero _ off_zero]
    unfold exec_last.sl.r_2 exec_last.sl.r_3 accStep
    simp only [readAt_whole_unread harg2 xq off_zero, readAt_whole_unread harg3 xk off_zero, readAt_whole_unread harg4 lq off_zero, readAt_whole_unread harg5 lk off_zero, readAt_whole_unread harg8 a.mx off_zero, readAt_whole_unread harg9 a.sm off_zero]
  isplitl [H7]
  · iexists _; isplitr
    swap; · iexact H7
    ipureintro
    rw [read_writes_whole _ _ off_zero]
    unfold exec_last.sl.v56 exec_last.sl.H10_1
    rw [View.readCov_unit_zero _ off_zero]
    unfold exec_last.sl.r accStep
    simp only [readAt_whole_unread harg2 xq off_zero, readAt_whole_unread harg3 xk off_zero, readAt_whole_unread harg4 lq off_zero, readAt_whole_unread harg5 lk off_zero, readAt_whole_unread harg10 a.ct off_zero]
  isplitl [H8]
  · iexists _; isplitr
    swap; · iexact H8
    ipureintro
    rw [read_writes_whole _ _ off_zero]
    unfold exec_last.sl.r_1 accStep
    simp only [readAt_whole_unread harg2 xq off_zero, readAt_whole_unread harg3 xk off_zero, readAt_whole_unread harg4 lq off_zero, readAt_whole_unread harg5 lk off_zero, readAt_whole_unread harg8 a.mx off_zero]
  isplitl [H9]
  · iexists _; isplitr
    swap; · iexact H9
    ipureintro
    unfold exec_last.sl.H9_1
    rw [read_writes_whole _ _ off_zero]
    unfold exec_last.sl.r_2 exec_last.sl.r_3 accStep
    simp only [readAt_whole_unread harg2 xq off_zero, readAt_whole_unread harg3 xk off_zero, readAt_whole_unread harg4 lq off_zero, readAt_whole_unread harg5 lk off_zero, readAt_whole_unread harg8 a.mx off_zero, readAt_whole_unread harg9 a.sm off_zero]
  iexists _; isplitr
  swap; · iexact H10
  ipureintro
  unfold exec_last.sl.H10_1
  rw [read_writes_whole _ _ off_zero]
  unfold exec_last.sl.r accStep
  simp only [readAt_whole_unread harg2 xq off_zero, readAt_whole_unread harg3 xk off_zero, readAt_whole_unread harg4 lq off_zero, readAt_whole_unread harg5 lk off_zero, readAt_whole_unread harg10 a.ct off_zero]

set_option maxHeartbeats 1000000 in
/-- The first column tile (not the last): the accumulators, whatever the scratch held, are reset and come back at
    `accStep … accReset`; nothing else changes. -/
theorem exec_first (c : Dev nD) (i : grid0.Coords)
    (arg2 : Memref sig .tc .vmem S1024x128 .f32) (harg2 : arg2.IsWhole) (arg3 : Memref sig .tc .vmem S1024x128 .f32) (harg3 : arg3.IsWhole)
    (arg4 : Memref sig .tc .vmem S1024x1 .i32) (harg4 : arg4.IsWhole) (arg5 : Memref sig .tc .vmem S1x1024 .i32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1 .f32) (harg8 : arg8.IsWhole) (arg9 : Memref sig .tc .vmem S1024x1 .f32) (harg9 : arg9.IsWhole)
    (arg10 : Memref sig .tc .vmem S1024x1 .f32) (harg10 : arg10.IsWhole)
    (h0 : condReset i) (h1 : ¬condFlush i)
    (xq xk : Vec F S1024x128 .f32) (lq : Vec F S1024x1 .i32) (lk : Vec F S1x1024 .i32) (o6 o7 : Vec F S1024x1 .f32)
    (E : Set ℕ) (K : PUnit → sProp 𝕄) :
    iprop(owns (c : Thread nD τ) arg2 fullShare xq ∗ owns (c : Thread nD τ) arg3 fullShare xk ∗ owns (c : Thread nD τ) arg4 fullShare lq ∗ owns (c : Thread nD τ) arg5 fullShare lk
        ∗ owns (c : Thread nD τ) arg6 fullShare o6 ∗ owns (c : Thread nD τ) arg7 fullShare o7
        ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg2 fullShare xq ∗ owns (c : Thread nD τ) arg3 fullShare xk ∗ owns (c : Thread nD τ) arg4 fullShare lq ∗ owns (c : Thread nD τ) arg5 fullShare lk
              ∗ owns (c : Thread nD τ) arg6 fullShare o6 ∗ owns (c : Thread nD τ) arg7 fullShare o7
              ∗ owns (c : Thread nD τ) arg8 fullShare (accStep xq xk lq lk accReset).mx ∗ owns (c : Thread nD τ) arg9 fullShare (accStep xq xk lq lk accReset).sm
              ∗ owns (c : Thread nD τ) arg10 fullShare (accStep xq xk lq lk accReset).ct) -∗ K ⟨⟩))
      ⊢ wp frame (wpE (defs₀ (F := F)) Variants.none c none) E (cc0__fourdloss_kernel i arg2 harg2 arg3 harg3 arg4 harg4 arg5 harg5 arg6 harg6 arg7 harg7 arg8 harg8 arg9 harg9 arg10 harg10) K := by
  simp only [cc0__fourdloss_kernel_eq_skeleton]; unfold cc0__fourdloss_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, Hk⟩
  obtain rfl := harg2.eq_unread hf2; obtain rfl := harg3.eq_unread hf3; obtain rfl := harg4.eq_unread hf4; obtain rfl := harg5.eq_unread hf5
  sl_exec (disch := first | exact h0 | exact h1)
  sl_step
  -- the loads that follow the reset's stores read the reset values
  have e25 : exec_first.sl.v25 (F := F) c arg8 = k0_pay4 := by
    unfold exec_first.sl.v25 exec_first.sl.H8_1; exact View.readCov_unit_zero _ off_zero _ _
  have e33 : exec_first.sl.v33 (F := F) c arg9 = k0_pay5 := by
    unfold exec_first.sl.v33 exec_first.sl.H9_1; exact View.readCov_unit_zero _ off_zero _ _
  have e41 : exec_first.sl.v41 (F := F) c arg10 = k0_pay6 := by
    unfold exec_first.sl.v41 exec_first.sl.H10_1; exact View.readCov_unit_zero _ off_zero _ _
  iapply Hk
  isplitl [H2]; · iexists _; isplitr; · ipureintro; exact hf2
                  iexact H2
  isplitl [H3]; · iexists _; isplitr; · ipureintro; exact hf3
                  iexact H3
  isplitl [H4]; · iexists _; isplitr; · ipureintro; exact hf4
                  iexact H4
  isplitl [H5]; · iexists _; isplitr; · ipureintro; exact hf5
                  iexact H5
  isplitl [H6]; · iexists _; isplitr; · ipureintro; exact hf6
                  iexact H6
  isplitl [H7]; · iexists _; isplitr; · ipureintro; exact hf7
                  iexact H7
  isplitl [H8]
  · iexists _; isplitr
    swap; · iexact H8
    ipureintro
    rw [read_writes_whole _ _ off_zero]
    unfold exec_first.sl.r_1 accStep accReset
    simp only [readAt_whole_unread harg2 xq off_zero, readAt_whole_unread harg3 xk off_zero, readAt_whole_unread harg4 lq off_zero, readAt_whole_unread harg5 lk off_zero, e25]
  isplitl [H9]
  · iexists _; isplitr
    swap; · iexact H9
    ipureintro
    rw [read_writes_whole _ _ off_zero]
    unfold exec_first.sl.r_2 exec_first.sl.r_3 accStep accReset
    simp only [readAt_whole_unread harg2 xq off_zero, readAt_whole_unread harg3 xk off_zero, readAt_whole_unread harg4 lq off_zero, readAt_whole_unread harg5 lk off_zero, e25, e33]
  iexists _; isplitr
  swap; · iexact H10
  ipureintro
  rw [read_writes_whole _ _ off_zero]
  unfold exec_first.sl.r accStep accReset
  simp only [readAt_whole_unread harg2 xq off_zero, readAt_whole_unread harg3 xk off_zero, readAt_whole_unread harg4 lq off_zero, readAt_whole_unread harg5 lk off_zero, e41]

end Cert.Kernel.Hand

end
-- ==== Proof.BRunClose.lean ====
/-
  The body's three runs, as the statements the body obligation takes as hypotheses.
-/
import proofs.«127721_j16621523436335_1_alg».proof.Proof.BBody
import proofs.«127721_j16621523436335_1_alg».proof.Proof.BRun

set_option maxRecDepth 16384

noncomputable section

namespace Cert.Kernel.Hand

open Cert.Kernel Cert.Kernel.Gen
open Idealize.ShloMosaic Idealize.ShloMosaic.TcCoe
open Idealize.SL Idealize.SL.Sem

variable {F : FTy → Type} [FloatOps F]

/-- The first column tile. -/
theorem run_first : RunFirst (F := F) :=
  fun c i arg2 harg2 arg3 harg3 arg4 harg4 arg5 harg5 arg6 harg6 arg7 harg7 arg8 harg8 arg9 harg9 arg10 harg10 h0 h1 xq xk lq lk o6 o7 E K =>
    exec_first c i arg2 harg2 arg3 harg3 arg4 harg4 arg5 harg5 arg6 harg6 arg7 harg7 arg8 harg8 arg9 harg9 arg10 harg10 h0 h1 xq xk lq lk o6 o7 E K

/-- The column tiles between the first and the last. -/
theorem run_mid : RunMid (F := F) :=
  fun c i arg2 harg2 arg3 harg3 arg4 harg4 arg5 harg5 arg6 harg6 arg7 harg7 arg8 harg8 arg9 harg9 arg10 harg10 h0 h1 xq xk lq lk a o6 o7 E K =>
    exec_mid c i arg2 harg2 arg3 harg3 arg4 harg4 arg5 harg5 arg6 harg6 arg7 harg7 arg8 harg8 arg9 harg9 arg10 harg10 h0 h1 xq xk lq lk a o6 o7 E K

/-- The last column tile. -/
theorem run_last : RunLast (F := F) :=
  fun c i arg2 harg2 arg3 harg3 arg4 harg4 arg5 harg5 arg6 harg6 arg7 harg7 arg8 harg8 arg9 harg9 arg10 harg10 h0 h1 xq xk lq lk a E K =>
    exec_last c i arg2 harg2 arg3 harg3 arg4 harg4 arg5 harg5 arg6 harg6 arg7 harg7 arg8 harg8 arg9 harg9 arg10 harg10 h0 h1 xq xk lq lk a E K

end Cert.Kernel.Hand

end
-- ==== Proof.KTail.lean ====
/-
  The host operations after the kernel region, read as one function of the region's two output arrays.

  The eleven stretches after the region take the row sums and the row counts the region leaves, total them, and reduce them
  row by row to the program's scalar result. `kTail` is their composition, operation by operation; the result buffer at the end
  of the program holds `kTail` of what the region's write-backs leave in the two arrays.
-/
import proofs.«127721_j16621523436335_1_alg».proof.Proof.KFrame
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.StableHlo
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

/-! ## The host operations after the region, composed -/

/-- The eleven host stretches after the region as one function of the region's two output arrays, the row sums `rs` and the
    row counts `rn`: with `S` and `N` their totals, row `i` contributes nothing when its count is the full 8191, else
    `log` of `S` over `N` plus a small constant (of `S` itself when `N` is zero, the quotient taken over 1 where the row's
    count is zero); the result is the rows' total over 8192. Every operation as the program applies it. -/
def kTail (rs rn : (⟨S8192x1, .f32⟩ : BufTy).Contents (Elt F)) : (⟨S_, .f32⟩ : BufTy).Contents (Elt F) :=
  let v8 : (⟨S8192, .f32⟩ : BufTy).Contents (Elt F) := shapeCast S8192 rn shapeCasts_S8192x1_S8192
  let v9 : (⟨S8192, .f32⟩ : BufTy).Contents (Elt F) := shapeCast S8192 rs shapeCasts_S8192x1_S8192
  let v10 : (⟨S_, .f32⟩ : BufTy).Contents (Elt F) := Host.reduceAdd v9 (constant S_ .f32 0x00000000#32) reducesTo_S8192_S_d0 h_S_
  let v11 : (⟨S_, .f32⟩ : BufTy).Contents (Elt F) := Host.reduceAdd v8 (constant S_ .f32 0x00000000#32) reducesTo_S8192_S_d0 h_S_
  let v12 : (⟨S8192, .f32⟩ : BufTy).Contents (Elt F) := broadcastInDim S8192 ![] bcast_S_S8192 (constant S_ .f32 0x00000000#32)
  let v13 : (⟨S8192, .i1⟩ : BufTy).Contents (Elt F) := cmpf .ogt v8 v12
  let v14 : (⟨S8192, .f32⟩ : BufTy).Contents (Elt F) := broadcastInDim S8192 ![] bcast_S_S8192 (constant S_ .f32 0x45FFF800#32)
  let v15 : (⟨S8192, .f32⟩ : BufTy).Contents (Elt F) := subf v14 v8
  let v16 : (⟨S_, .i1⟩ : BufTy).Contents (Elt F) := cmpf .oeq v11 (constant S_ .f32 0x00000000#32)
  let v17 : (⟨S8192, .f32⟩ : BufTy).Contents (Elt F) :=
    select v13 (broadcastInDim S8192 ![] bcast_S_S8192 v10) (broadcastInDim S8192 ![] bcast_S_S8192 (id (constant S_ .f32 0x00000000#32)))
  let v18 : (⟨S8192, .f32⟩ : BufTy).Contents (Elt F) :=
    select v13 (broadcastInDim S8192 ![] bcast_S_S8192 v11) (broadcastInDim S8192 ![] bcast_S_S8192 (id (constant S_ .f32 0x00000000#32)))
  let v19 : (⟨S8192, .f32⟩ : BufTy).Contents (Elt F) := broadcastInDim S8192 ![] bcast_S_S8192 (constant S_ .f32 0x00000000#32)
  let v20 : (⟨S8192, .i1⟩ : BufTy).Contents (Elt F) := cmpf .oeq v18 v19
  let v21 : (⟨S8192, .f32⟩ : BufTy).Contents (Elt F) :=
    select v20 (broadcastInDim S8192 ![] bcast_S_S8192 (id (constant S_ .f32 0x3F800000#32))) v18
  let v22 : (⟨S8192, .f32⟩ : BufTy).Contents (Elt F) := Host.divf v17 v21
  let v23 : (⟨S8192, .f32⟩ : BufTy).Contents (Elt F) := select (broadcastInDim S8192 ![] bcast_S_S8192 v16) v17 v22
  let v24 : (⟨S8192, .f32⟩ : BufTy).Contents (Elt F) := broadcastInDim S8192 ![] bcast_S_S8192 (constant S_ .f32 0x358637BD#32)
  let v25 : (⟨S8192, .f32⟩ : BufTy).Contents (Elt F) := addf v23 v24
  let v26 : (⟨S8192, .f32⟩ : BufTy).Contents (Elt F) := Host.log v25
  let v27 : (⟨S8192, .f32⟩ : BufTy).Contents (Elt F) := Host.negf v26
  let v28 : (⟨S8192, .f32⟩ : BufTy).Contents (Elt F) := broadcastInDim S8192 ![] bcast_S_S8192 (constant S_ .f32 0x00000000#32)
  let v29 : (⟨S8192, .i1⟩ : BufTy).Contents (Elt F) := cmpf .oeq v15 v28
  let v30 : (⟨S8192, .f32⟩ : BufTy).Contents (Elt F) := Host.negf v27
  let v31 : (⟨S8192, .f32⟩ : BufTy).Contents (Elt F) :=
    select v29 (broadcastInDim S8192 ![] bcast_S_S8192 (id (constant S_ .f32 0x00000000#32))) v30
  let v32 : (⟨S_, .f32⟩ : BufTy).Contents (Elt F) := Host.reduceAdd v31 (constant S_ .f32 0x00000000#32) reducesTo_S8192_S_d0 h_S_
  Host.divf v32 (constant S_ .f32 0x46000000#32)

/-- The result buffer at the end of the program is the composed host operations at what the region's write-backs leave in
    its two output arrays. -/
theorem U13_main_v33 (c : Dev nD) :
    U13 m (outsK m) c (Proc.devRef .tc main_v33) = kTail ((dats m 0 c).arrAt 4 cfg0.N) ((dats m 0 c).arrAt 5 cfg0.N) := by
  show StableHlo.after hostOps1_10 (StableHlo.after hostOps1_9 (StableHlo.after hostOps1_8 (StableHlo.after hostOps1_7 (StableHlo.after hostOps1_6
      (StableHlo.after hostOps1_5 (StableHlo.after hostOps1_4 (StableHlo.after hostOps1_3 (StableHlo.after hostOps1_2 (StableHlo.after hostOps1_1
      (StableHlo.after hostOps1 (U2 m (outsK m) c))))))))))) (Proc.devRef .tc main_v33) = _
  rw [U2_outsK]
  after_results_simp
  rw [Wexit_v7_0, Wexit_v7_1]
  rfl

end Cert.KernelIdeal.Hand

end
-- ==== Proof.VTailRow.lean ====
/-
  The two programs' last steps, row by row, as arithmetic on the extended reals.

  Both programs end by turning, for each of the 8192 rows, the total `S` of the row sums, the total `N` of the row counts and
  something of the row's own into one number, and averaging those over the rows. `kTailRow` is the row's number as the kernel
  program's host operations compute it, from the row's count. `refRow` is the row's number as the reference computes it, from
  the labels: the row's mask over the columns (same label, not the same row), whether some label differs from the row's,
  the totals kept or zeroed by that, the logarithm, and the masked mean of it over the row.
-/
import Idealize.ShloMosaic.PureOps.Ideal

noncomputable section

namespace LossSpec

open Idealize.ShloMosaic

/-- The small constant added under the logarithm (the f32 nearest one millionth). -/
def kEps : EReal := Ideal.ofBits .f32 0x358637BD#32

/-- Row `k`'s number in the kernel program, from the totals `S` of the row sums and `N` of the row counts and the row's own count
    `nk`: nothing when the count is the full 8191; else the logarithm of `S` over `N` plus the small constant — `S` and `N` read as
    zero where the row's count is not positive, the quotient taken over 1 where that makes the divisor zero, and `S` itself when
    `N` is zero. -/
def kTailRow (S N nk : EReal) : EReal :=
  if 8191 - nk = 0 then 0
  else - -Ideal.log
    ((if N = 0 then (if 0 < nk then S else 0)
      else Ideal.div (if 0 < nk then S else 0) (if (if 0 < nk then N else 0) = 0 then 1 else if 0 < nk then N else 0)) + kEps)

/-- A selection on a one-bit word that is 1 exactly when `P` holds is the conditional on `P`. -/
theorem select_ite {α : Type} (P : Prop) [Decidable P] (a b : α) : Scalar.select (if P then 1#1 else 0#1) a b = if P then a else b := by
  unfold Scalar.select; by_cases h : P <;> simp [h]

variable (lab : Fin 4096 → BitVec 32) (L : Fin 8192 → BitVec 32) (S N : EReal)

/-- 1 where rows `i` and `j` carry the same label and are not the same row, else 0. -/
def mask (i j : Fin 8192) : EReal := (if L i = L j then 1 else 0) * (1 - (if i = j then 1 else 0))

/-- Some label among the 4096 differs from row `i`'s. -/
def refValid (i : Fin 8192) : Prop := ∃ b : Fin 4096, lab b ≠ L i
instance (i : Fin 8192) : Decidable (refValid lab L i) := by unfold refValid; infer_instance

/-- The totals, kept where the row is valid and zeroed elsewhere. -/
def refXv (i : Fin 8192) : EReal := if refValid lab L i then S else 0
def refNv (i : Fin 8192) : EReal := if refValid lab L i then N else 0
/-- Every row's kept count total is zero. -/
def refAllz : Prop := ∀ i : Fin 8192, refNv lab L N i = 0
instance : Decidable (refAllz lab L N) := by unfold refAllz; infer_instance
/-- The divisor: the kept count total, or 1 where that is zero. -/
def refNvs (i : Fin 8192) : EReal := if refNv lab L N i = 0 then 1 else refNv lab L N i
/-- The kept sum total over the divisor, or the kept sum total itself when every row's kept count total is zero. -/
def refXv' (i : Fin 8192) : EReal := if refAllz lab L N then refXv lab L S i else Ideal.div (refXv lab L S i) (refNvs lab L N i)
/-- Minus the logarithm of that plus the small constant. -/
def refLp (i : Fin 8192) : EReal := -Ideal.log (refXv' lab L S N i + kEps)
/-- The row's mask total. -/
def refMsum (i : Fin 8192) : EReal := ∑ j, mask L i j
/-- The row's number in the reference: minus the masked total of `refLp` over the row's mask total (over 1 where that is zero). -/
def refRow (i : Fin 8192) : EReal :=
  Ideal.div (-(∑ j, mask L i j * refLp lab L S N i)) (if refMsum L i = 0 then 1 else refMsum L i)

end LossSpec

end
-- ==== Proof.KTailRead.lean ====
/-
  The host operations after the kernel region, at the ideal values, as a formula over the rows.

  `kTail` composes the eleven host stretches after the region. Here each of its operations is read at an index — the casts of the
  [8192, 1] columns, the scalar broadcasts, the comparisons and selections lane by lane, the host's sums as sums over the 8192
  rows — so that the program's scalar result is the total over the rows of `kTailRow`, divided by 8192.
-/
import proofs.«127721_j16621523436335_1_alg».proof.Proof.KTail
import proofs.«127721_j16621523436335_1_alg».proof.Proof.VTailRow
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

set_option maxRecDepth 16384

noncomputable section

namespace Cert.KernelIdeal.Hand

open Cert.KernelIdeal Cert.KernelIdeal.Gen
open Idealize.ShloMosaic Idealize.ShloMosaic.ValueIdx
open scoped BigOperators

-- the row formula and its small constant are stated once, apart from any program
export LossSpec (kTailRow kEps)

/-! ## The operations of the tail read at an index, at the ideal values -/

theorem hostDivf_apply {s : Shape} (a b : FVec Ideal s .f32) (i : s.Idx) : Host.divf a b i = Ideal.div (a i) (b i) := rfl
theorem hostLog_apply {s : Shape} (a : FVec Ideal s .f32) (i : s.Idx) : Host.log a i = Ideal.log (a i) := rfl
theorem hostNegf_apply {s : Shape} (a : FVec Ideal s .f32) (i : s.Idx) : Host.negf a i = -(a i) := rfl

/-- A scalar broadcast to the 8192 rows reads the scalar at every row. -/
theorem bcast_S_apply {α : Type} (x : S_.Idx → α) (i : S8192.Idx) : broadcastInDim S8192 ![] bcast_S_S8192 x i = x ix0 :=
  broadcastInDim_apply _ _ x i ix0 fun a => a.elim0

/-- The same with the empty axis map's codomain written as the numeral it is. -/
theorem bcast_S_apply' {α : Type} (x : S_.Idx → α) (i : S8192.Idx) :
    @broadcastInDim S_ α S8192 (@Matrix.vecEmpty (Fin 1)) bcast_S_S8192 x i = x ix0 := bcast_S_apply x i

/-- The [8192, 1] column cast to a vector reads the column's row. -/
theorem cast_col_apply {α : Type} (x : S8192x1.Idx → α) (k : Fin 8192) :
    shapeCast S8192 x shapeCasts_S8192x1_S8192 (ix1 k) = x (ix2 k (0 : Fin 1)) :=
  shapeCast_apply x _ _ _ (by
    rw [Shape.rowMajor_val_two, Shape.rowMajor_val_one]
    show k.val * 1 + 0 = k.val
    omega)

/-- The host's sum of a vector of 8192 into a scalar: the initial value plus the sum over the rows. -/
theorem sum_rows {M : Type} [AddCommMonoid M] {n : Nat} (f : (⟨1, ![n]⟩ : Shape).Idx → M) : ∑ i : (⟨1, ![n]⟩ : Shape).Idx, f i = ∑ k : Fin n, f (ix1 k) :=
  (Fintype.sum_equiv ⟨fun k => ix1 k, fun j => j 0, fun k => rfl, fun j => (eq_ix1 j).symm⟩ _ _ (fun k => rfl)).symm

theorem reduce_rows_apply (x : FVec Ideal S8192 .f32) (init : S_.Idx → Ideal .f32) (j : S_.Idx) :
    Host.reduceAdd x init reducesTo_S8192_S_d0 h_S_ j = init ix0 + ∑ k : Fin 8192, x (ix1 k) := by
  unfold Host.reduceAdd
  refine (Ideal.hostReduceAdd_total reducesTo_S8192_S_d0 (fun b => b.elim0) x _ j).trans ?_
  rw [eq_ix0 (Shape.Idx.first h_S_), sum_rows]

theorem select_cmp_ogt {α : Type} (x y : EReal) (a b : α) : Scalar.select (Ideal.cmp .ogt x y) a b = if y < x then a else b := by
  unfold Scalar.select Ideal.cmp; by_cases h : y < x <;> simp [h]
theorem select_cmp_oeq {α : Type} (x y : EReal) (a b : α) : Scalar.select (Ideal.cmp .oeq x y) a b = if x = y then a else b := by
  unfold Scalar.select Ideal.cmp; by_cases h : x = y <;> simp [h]

/-! ## The constants -/

theorem ofBits_8191 : Ideal.ofBits .f32 0x45FFF800#32 = 8191 := by
  simp [Ideal.ofBits, Ideal.ieee, -EReal.coe_mul]; norm_num; first | norm_cast | rfl
theorem ofBits_8192 : Ideal.ofBits .f32 0x46000000#32 = 8192 := by
  simp [Ideal.ofBits, Ideal.ieee, -EReal.coe_mul]; norm_num; first | norm_cast | rfl

/-! ## The tail as a formula over the rows -/

/-- The composed host operations at the ideal values: the rows' contributions totalled, over 8192. -/
theorem kTail_read (rs rn : (⟨S8192x1, .f32⟩ : BufTy).Contents (Elt Ideal)) (j : S_.Idx) :
    kTail (F := Ideal) rs rn j
      = Ideal.div (∑ k : Fin 8192, kTailRow (∑ i : Fin 8192, rs (ix2 i (0 : Fin 1))) (∑ i : Fin 8192, rn (ix2 i (0 : Fin 1))) (rn (ix2 k (0 : Fin 1)))) 8192 := by
  simp only [kTail, hostDivf_apply, hostLog_apply, hostNegf_apply, reduce_rows_apply, bcast_S_apply, bcast_S_apply', cast_col_apply,
    select_apply, cmpf_apply, Ideal.cmpf_def, subf_apply, addf_apply, constant_apply, id_eq, select_cmp_ogt, select_cmp_oeq,
    Ideal.ofBits_zero_f32, Ideal.ofBits_one_f32, ofBits_8191, ofBits_8192, zero_add]
  rfl

/-- The program's result buffer at the end, at the ideal values, over what the region's write-backs leave in its two output
    arrays: the row sums `rs` and the row counts `rn`. -/
theorem result_read (m : (ℓ : Loc nD τ sig) → Buf (Elt Ideal) ℓ) (c : Dev nD) (j : S_.Idx) :
    U13 m (outsK m) c (Proc.devRef .tc main_v33) j
      = Ideal.div (∑ k : Fin 8192, kTailRow (∑ i : Fin 8192, (dats m 0 c).arrAt 4 cfg0.N (ix2 i (0 : Fin 1)))
          (∑ i : Fin 8192, (dats m 0 c).arrAt 5 cfg0.N (ix2 i (0 : Fin 1))) ((dats m 0 c).arrAt 5 cfg0.N (ix2 k (0 : Fin 1)))) 8192 := by
  rw [U13_main_v33]
  exact kTail_read _ _ j

end Cert.KernelIdeal.Hand

end
-- ==== Proof.KBlocks.lean ====
/-
  The input windows' blocks read at an index.

  The grid is 8 × 8, point `t` at row tile `t / 8` and column tile `t % 8`. The row-tile windows (the feature rows and the
  label column) read rows 1024 (t / 8) … of their arrays, the column-tile windows (the feature rows again and the label row)
  read rows, respectively columns, 1024 (t % 8) …: a block's coordinate is block index × block size + the coordinate inside
  the block.
-/
import proofs.«127721_j16621523436335_1_alg».proof.Proof.KData
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

/-! ## The input windows' blocks are slabs of their arrays -/

/-- The printed index maps, decided over the grid: the row-tile windows' block row is `t / 8`, the column-tile windows'
    block row (the label row's block column) is `t % 8`, every other block index 0. -/
theorem idx_facts0 : ∀ t : Fin cfg0.N, win0_0.index t (0 : Fin 2) = t.val / 8 ∧ win0_0.index t (1 : Fin 2) = 0 :=
  (by decide +kernel : ∀ t : Fin grid0.N, win0_0.index t (0 : Fin 2) = t.val / 8 ∧ win0_0.index t (1 : Fin 2) = 0)
theorem idx_facts1 : ∀ t : Fin cfg0.N, win0_1.index t (0 : Fin 2) = t.val % 8 ∧ win0_1.index t (1 : Fin 2) = 0 :=
  (by decide +kernel : ∀ t : Fin grid0.N, win0_1.index t (0 : Fin 2) = t.val % 8 ∧ win0_1.index t (1 : Fin 2) = 0)
theorem idx_facts2 : ∀ t : Fin cfg0.N, win0_2.index t (0 : Fin 2) = t.val / 8 ∧ win0_2.index t (1 : Fin 2) = 0 :=
  (by decide +kernel : ∀ t : Fin grid0.N, win0_2.index t (0 : Fin 2) = t.val / 8 ∧ win0_2.index t (1 : Fin 2) = 0)
theorem idx_facts3 : ∀ t : Fin cfg0.N, win0_3.index t (0 : Fin 2) = 0 ∧ win0_3.index t (1 : Fin 2) = t.val % 8 :=
  (by decide +kernel : ∀ t : Fin grid0.N, win0_3.index t (0 : Fin 2) = 0 ∧ win0_3.index t (1 : Fin 2) = t.val % 8)

/-- A row inside row tile `t / 8`, and inside column tile `t % 8`, is a row of the array. -/
theorem rowq_lt (t : Fin cfg0.N) (r : Fin 1024) : 1024 * (t.val / 8) + r.val < 8192 := by
  have h : t.val < 64 := lt_of_lt_of_eq t.isLt N_0; have := r.isLt; omega
theorem rowk_lt (t : Fin cfg0.N) (j : Fin 1024) : 1024 * (t.val % 8) + j.val < 8192 := by
  have := j.isLt; omega

/-- The row tile's feature block: rows 1024 (t / 8) … of the stacked matrix. -/
theorem iblk0_apply (c : Dev nD) (t : Fin cfg0.N) (r : Fin 1024) (k : Fin 128) :
    iblk m c 0 t (ix2 r k) = V m c main_v1 (ix2 (⟨1024 * (t.val / 8) + r.val, rowq_lt t r⟩ : Fin 8192) k) := by
  obtain ⟨e0, e1⟩ := idx_facts0 t
  show V m c main_v1 (((cfg0.win 0).blk t).view.emb (ix2 r k)) = V m c main_v1 _
  congr 1
  funext a
  apply Fin.ext
  match a with
  | ⟨0, _⟩ => show win0_0.index t (0 : Fin 2) * 1024 + 1 * r.val = 1024 * (t.val / 8) + r.val; rw [e0]; omega
  | ⟨1, _⟩ => show win0_0.index t (1 : Fin 2) * 128 + 1 * k.val = k.val; rw [e1]; omega

/-- The column tile's feature block: rows 1024 (t % 8) … of the stacked matrix. -/
theorem iblk1_apply (c : Dev nD) (t : Fin cfg0.N) (j : Fin 1024) (k : Fin 128) :
    iblk m c 1 t (ix2 j k) = V m c main_v1 (ix2 (⟨1024 * (t.val % 8) + j.val, rowk_lt t j⟩ : Fin 8192) k) := by
  obtain ⟨e0, e1⟩ := idx_facts1 t
  show V m c main_v1 (((cfg0.win 1).blk t).view.emb (ix2 j k)) = V m c main_v1 _
  congr 1
  funext a
  apply Fin.ext
  match a with
  | ⟨0, _⟩ => show win0_1.index t (0 : Fin 2) * 1024 + 1 * j.val = 1024 * (t.val % 8) + j.val; rw [e0]; omega
  | ⟨1, _⟩ => show win0_1.index t (1 : Fin 2) * 128 + 1 * k.val = k.val; rw [e1]; omega

/-- The row tile's label block: rows 1024 (t / 8) … of the label column. -/
theorem iblk2_apply (c : Dev nD) (t : Fin cfg0.N) (r : Fin 1024) :
    iblk m c 2 t (ix2 r (0 : Fin 1)) = V m c main_v5 (ix2 (⟨1024 * (t.val / 8) + r.val, rowq_lt t r⟩ : Fin 8192) (0 : Fin 1)) := by
  obtain ⟨e0, e1⟩ := idx_facts2 t
  show V m c main_v5 (((cfg0.win 2).blk t).view.emb (ix2 r (0 : Fin 1))) = V m c main_v5 _
  congr 1
  funext a
  apply Fin.ext
  match a with
  | ⟨0, _⟩ => show win0_2.index t (0 : Fin 2) * 1024 + 1 * r.val = 1024 * (t.val / 8) + r.val; rw [e0]; omega
  | ⟨1, _⟩ => show win0_2.index t (1 : Fin 2) * 1 + 1 * 0 = 0; rw [e1]

/-- The column tile's label block: columns 1024 (t % 8) … of the label row. -/
theorem iblk3_apply (c : Dev nD) (t : Fin cfg0.N) (j : Fin 1024) :
    iblk m c 3 t (ix2 (0 : Fin 1) j) = V m c main_v6 (ix2 (0 : Fin 1) (⟨1024 * (t.val % 8) + j.val, rowk_lt t j⟩ : Fin 8192)) := by
  obtain ⟨e0, e1⟩ := idx_facts3 t
  show V m c main_v6 (((cfg0.win 3).blk t).view.emb (ix2 (0 : Fin 1) j)) = V m c main_v6 _
  congr 1
  funext a
  apply Fin.ext
  match a with
  | ⟨0, _⟩ => show win0_3.index t (0 : Fin 2) * 1 + 1 * 0 = 0; rw [e0]
  | ⟨1, _⟩ => show win0_3.index t (1 : Fin 2) * 1024 + 1 * j.val = 1024 * (t.val % 8) + j.val; rw [e1]; omega

end Cert.KernelIdeal.Hand

end
-- ==== Proof.KEntry.lean ====
/-
  The arrays the region finds, read at an index.

  The host operations before the region make them of the two arguments: the feature argument [4096, 2, 128] (sample, view,
  feature) is transposed to [2, 4096, 128] and flattened to the stacked matrix [8192, 128], whose row R is view R / 4096 of
  sample R mod 4096; the label argument [4096] is repeated twice to [8192] and laid out as a column and as a row, which hold
  at R the label of sample R mod 4096.
-/
import proofs.«127721_j16621523436335_1_alg».proof.Proof.KData
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

/-! ## The arrays the region finds, from the two arguments -/

/-- The stacked feature matrix is the argument's two views, transposed to the front and flattened. -/
theorem V_v1_eq (c : Dev nD) : (V m c main_v1 : S8192x128.Idx → Elt F .f32)
    = shapeCast S8192x128 (transpose S2x4096x128 [1, 0, 2] (m ((c : Thread nD τ).loc main_arg0)) transposes_S4096x2x128_S2x4096x128_1_0_2)
        shapeCasts_S2x4096x128_S8192x128 := by
  dsimp only [V, W1, hostOps0]; after_results; rfl

/-- Row `R` of the stacked matrix is a sample's row of a view; these are in range. -/
theorem smp_lt (R : Fin 8192) : R.val % 4096 < 4096 := Nat.mod_lt _ (by decide)
theorem view_lt (R : Fin 8192) : R.val / 4096 < 2 := by have := R.isLt; omega

/-- ROW `R` OF THE STACKED MATRIX is view `R / 4096` of sample `R mod 4096`. -/
theorem V_v1_apply (c : Dev nD) (R : Fin 8192) (k : Fin 128) :
    V m c main_v1 (ix2 R k)
      = m ((c : Thread nD τ).loc main_arg0) (ix3 (⟨R.val % 4096, smp_lt R⟩ : Fin 4096) (⟨R.val / 4096, view_lt R⟩ : Fin 2) k) := by
  refine (congrFun (V_v1_eq m c) (ix2 R k)).trans ?_
  rw [shapeCast_apply _ shapeCasts_S2x4096x128_S8192x128 (ix2 R k)
    (ix3 (⟨R.val / 4096, view_lt R⟩ : Fin 2) (⟨R.val % 4096, smp_lt R⟩ : Fin 4096) k)
    (by rewrite [Shape.rowMajor_val_three, Shape.rowMajor_val_two]
        show (R.val / 4096 * 4096 + R.val % 4096) * 128 + k.val = R.val * 128 + k.val
        omega)]
  exact transpose_apply [1, 0, 2] _ transposes_S4096x2x128_S2x4096x128_1_0_2 _
    (ix3 (⟨R.val % 4096, smp_lt R⟩ : Fin 4096) (⟨R.val / 4096, view_lt R⟩ : Fin 2) k) (fun b => match b with
      | ⟨0, _⟩ => rfl
      | ⟨1, _⟩ => rfl
      | ⟨2, _⟩ => rfl)

/-- The labels repeated twice, flat: what the label column and the label row are laid out from. -/
def lab2 (c : Dev nD) : S8192.Idx → Elt F .i32 :=
  shapeCast S8192 (broadcastInDim S2x4096 ![0, 1] bcast_S1x4096_S2x4096_0_1
    (shapeCast S1x4096 (m ((c : Thread nD τ).loc main_arg1)) shapeCasts_S4096_S1x4096)) shapeCasts_S2x4096_S8192

/-- At `R` it is the label of sample `R mod 4096`. -/
theorem lab2_apply (c : Dev nD) (R : Fin 8192) :
    lab2 m c (ix1 R) = m ((c : Thread nD τ).loc main_arg1) (ix1 (⟨R.val % 4096, smp_lt R⟩ : Fin 4096)) := by
  unfold lab2
  rw [shapeCast_apply _ shapeCasts_S2x4096_S8192 (ix1 R) (ix2 (⟨R.val / 4096, view_lt R⟩ : Fin 2) (⟨R.val % 4096, smp_lt R⟩ : Fin 4096))
    (by rewrite [Shape.rowMajor_val_two, Shape.rowMajor_val_one]
        show R.val / 4096 * 4096 + R.val % 4096 = R.val
        omega)]
  rw [broadcastInDim_apply ![0, 1] bcast_S1x4096_S2x4096_0_1 _ (ix2 (⟨R.val / 4096, view_lt R⟩ : Fin 2) (⟨R.val % 4096, smp_lt R⟩ : Fin 4096))
    (ix2 (0 : Fin 1) (⟨R.val % 4096, smp_lt R⟩ : Fin 4096)) (fun a => match a with
      | ⟨0, _⟩ => by show 0 = if (1 : Nat) = 1 then 0 else R.val / 4096; rw [if_pos rfl]
      | ⟨1, _⟩ => by show R.val % 4096 = if (4096 : Nat) = 1 then 0 else R.val % 4096; rw [if_neg (by decide)])]
  exact shapeCast_apply _ shapeCasts_S4096_S1x4096 (ix2 (0 : Fin 1) (⟨R.val % 4096, smp_lt R⟩ : Fin 4096)) (ix1 (⟨R.val % 4096, smp_lt R⟩ : Fin 4096))
    (by rewrite [Shape.rowMajor_val_one, Shape.rowMajor_val_two]
        show R.val % 4096 = 0 * 4096 + R.val % 4096
        omega)

/-- The label column and the label row are the repeated labels laid out as [8192, 1] and as [1, 8192]. -/
theorem V_v5_eq (c : Dev nD) : (V m c main_v5 : S8192x1.Idx → Elt F .i32) = shapeCast S8192x1 (lab2 m c) shapeCasts_S8192_S8192x1 := by
  dsimp only [V, W1, hostOps0]; after_results; rfl
theorem V_v6_eq (c : Dev nD) : (V m c main_v6 : S1x8192.Idx → Elt F .i32) = shapeCast S1x8192 (lab2 m c) shapeCasts_S8192_S1x8192 := by
  dsimp only [V, W1, hostOps0]; after_results; rfl

/-- ROW `R` OF THE LABEL COLUMN is the label of sample `R mod 4096`. -/
theorem V_v5_apply (c : Dev nD) (R : Fin 8192) :
    V m c main_v5 (ix2 R (0 : Fin 1)) = m ((c : Thread nD τ).loc main_arg1) (ix1 (⟨R.val % 4096, smp_lt R⟩ : Fin 4096)) := by
  refine (congrFun (V_v5_eq m c) (ix2 R (0 : Fin 1))).trans ?_
  rw [shapeCast_apply _ shapeCasts_S8192_S8192x1 (ix2 R (0 : Fin 1)) (ix1 R)
    (by rewrite [Shape.rowMajor_val_one, Shape.rowMajor_val_two]
        show R.val = R.val * 1 + 0
        omega)]
  exact lab2_apply m c R

/-- COLUMN `R` OF THE LABEL ROW is the label of sample `R mod 4096`. -/
theorem V_v6_apply (c : Dev nD) (R : Fin 8192) :
    V m c main_v6 (ix2 (0 : Fin 1) R) = m ((c : Thread nD τ).loc main_arg1) (ix1 (⟨R.val % 4096, smp_lt R⟩ : Fin 4096)) := by
  refine (congrFun (V_v6_eq m c) (ix2 (0 : Fin 1) R)).trans ?_
  rw [shapeCast_apply _ shapeCasts_S8192_S1x8192 (ix2 (0 : Fin 1) R) (ix1 R)
    (by rewrite [Shape.rowMajor_val_one, Shape.rowMajor_val_two]
        show R.val = 0 * 8192 + R.val
        omega)]
  exact lab2_apply m c R

end Cert.KernelIdeal.Hand

end
-- ==== Proof.KFinal.lean ====
/-
  The two output arrays after the run, read off the accumulators.

  The outputs are [8192, 1] columns written in [1024, 1] blocks, block row = the point's row tile. A row tile's block is
  written back once, at its last column tile — point 8 I + 7 of row tile I — with the sum and count accumulators after
  8 I + 8 points. So row R of either output ends holding row R mod 1024 of the accumulator after 8 (R / 1024) + 8 points:
  that whole-array function is what every write-back writes its block of, and the eight write-backs cover the array.
-/
import proofs.«127721_j16621523436335_1_alg».proof.Proof.KDats
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

/-! ## The sum output (window 4) -/

/-- The printed index map, decided over the grid: the output's block row is the point's row tile, its block column 0. -/
theorem idx_facts4 : ∀ t : Fin cfg0.N, win0_4.index t (0 : Fin 2) = t.val / 8 ∧ win0_4.index t (1 : Fin 2) = 0 :=
  (by decide +kernel : ∀ t : Fin grid0.N, win0_4.index t (0 : Fin 2) = t.val / 8 ∧ win0_4.index t (1 : Fin 2) = 0)

/-- Row `y 0` of the finished sums: row `y 0 mod 1024` of the sum accumulator once its row tile's eight points are done. -/
def Gsum (c : Dev nD) : S8192x1.Idx → Elt F .f32 := fun y =>
  (accAt m c (8 * ((y 0).val / 1024) + 8)).sm (ix2 (⟨(y 0).val % 1024, Nat.mod_lt _ (by decide)⟩ : Fin 1024) (0 : Fin 1))

/-- `Gsum` at an index, by any spelling of the point count and of the row inside the block. -/
theorem Gsum_apply (c : Dev nD) (y : S8192x1.Idx) (n : ℕ) (r : S1024x1.Idx) (hn : n = 8 * ((y 0).val / 1024) + 8)
    (hr : (r 0).val = (y 0).val % 1024) : Gsum m c y = (accAt m c n).sm r := by
  subst hn
  unfold Gsum
  congr 1
  funext a
  match a with
  | ⟨0, _⟩ => exact Fin.ext hr.symm
  | ⟨1, _⟩ => exact Fin.ext (by have h1 : (r 1).val < 1 := (r 1).isLt; show 0 = (r 1).val; omega)

/-- WHAT A WRITING POINT WRITES BACK is its block of `Gsum`. -/
theorem flushed4_eq (c : Dev nD) (t : Fin cfg0.N) (hf : (cfg0.win 4).flush t = true) :
    (dats m 0 c).flushed 4 t = ((cfg0.win 4).blk t).view.read (Elt F) (Gsum m c) := by
  have h7 : t.val % 8 = 7 := (flush0_4 t).mp hf
  obtain ⟨e0, e1⟩ := idx_facts4 t
  show (cfg0.win 4).cut (grid0.coords t) ((dats m 0 c).after 4 t) = _
  rw [after_4]
  funext j
  have hj0 : (j 0).val < 1024 := (j 0).isLt
  have hemb : ((((cfg0.win 4).blk t).view.emb j) 0).val = win0_4.index t (0 : Fin 2) * 1024 + 1 * (j 0).val := rfl
  refine (Gsum_apply m c (((cfg0.win 4).blk t).view.emb j) (t.val + 1) ((cfg0.win 4).xinj (grid0.coords t) j) ?_ ?_).symm
  · rw [hemb, e0]; omega
  · show (j 0).val = _; rw [hemb, e0]; omega

/-- An index of the array is in point `t`'s block iff each coordinate is in the block's range on its axis. -/
theorem mem_blk4 (t : Fin cfg0.N) (i : S8192x1.Idx) :
    i ∈ ((cfg0.win 4).blk t).view.set ↔ ∀ a : Fin 2, win0_4.index t a * S1024x1.size a ≤ (i a).val ∧ (i a).val < win0_4.index t a * S1024x1.size a + S1024x1.size a := by
  show i ∈ ((View.whole main_v7_0).slice (win0_4.rect t)).set ↔ _
  rw [View.set_slice_whole, Rect.mem_set_unit]
  exact Iff.rfl

/-- THE COVER: row `i 0` is in the block written back at the last column tile of its row tile, point 8 (i 0 / 1024) + 7. -/
theorem cover4 (i : S8192x1.Idx) : ∃ t : Fin cfg0.N, (cfg0.win 4).flush t = true ∧ i ∈ ((cfg0.win 4).blk t).view.set := by
  have hi0 : (i 0).val < 8192 := (i 0).isLt
  have hi1 : (i 1).val < 1 := (i 1).isLt
  have hN : cfg0.N = 64 := N_0
  let t : Fin cfg0.N := ⟨8 * ((i 0).val / 1024) + 7, by rw [hN]; omega⟩
  have ht : t.val = 8 * ((i 0).val / 1024) + 7 := rfl
  obtain ⟨e0, e1⟩ := idx_facts4 t
  refine ⟨t, (flush0_4 t).mpr (by rw [ht]; omega), ?_⟩
  rw [mem_blk4]
  intro a
  match a with
  | ⟨0, _⟩ => show win0_4.index t (0 : Fin 2) * 1024 ≤ (i 0).val ∧ (i 0).val < win0_4.index t (0 : Fin 2) * 1024 + 1024; rw [e0, ht]; omega
  | ⟨1, _⟩ => show win0_4.index t (1 : Fin 2) * 1 ≤ (i 1).val ∧ (i 1).val < win0_4.index t (1 : Fin 2) * 1 + 1; rw [e1]; omega

/-- THE ARRAY after the run is `Gsum`. -/
theorem final4 (c : Dev nD) : (dats m 0 c).arrAt 4 cfg0.N = Gsum m c :=
  (dats m 0 c).arrAt_eq_of_cover 4 (Gsum m c) (flushed4_eq m c) cover4

/-- Row `R` of the sum output after the run. -/
theorem final_sum (c : Dev nD) (R : Fin 8192) :
    (dats m 0 c).arrAt 4 cfg0.N (ix2 R (0 : Fin 1))
      = (accAt m c (8 * (R.val / 1024) + 8)).sm (ix2 (⟨R.val % 1024, Nat.mod_lt _ (by decide)⟩ : Fin 1024) (0 : Fin 1)) := by
  rw [final4]; rfl

/-! ## The count output (window 5) -/

/-- The printed index map, decided over the grid: the output's block row is the point's row tile, its block column 0. -/
theorem idx_facts5 : ∀ t : Fin cfg0.N, win0_5.index t (0 : Fin 2) = t.val / 8 ∧ win0_5.index t (1 : Fin 2) = 0 :=
  (by decide +kernel : ∀ t : Fin grid0.N, win0_5.index t (0 : Fin 2) = t.val / 8 ∧ win0_5.index t (1 : Fin 2) = 0)

/-- Row `y 0` of the finished counts: row `y 0 mod 1024` of the count accumulator once its row tile's eight points are done. -/
def Gcnt (c : Dev nD) : S8192x1.Idx → Elt F .f32 := fun y =>
  (accAt m c (8 * ((y 0).val / 1024) + 8)).ct (ix2 (⟨(y 0).val % 1024, Nat.mod_lt _ (by decide)⟩ : Fin 1024) (0 : Fin 1))

/-- `Gcnt` at an index, by any spelling of the point count and of the row inside the block. -/
theorem Gcnt_apply (c : Dev nD) (y : S8192x1.Idx) (n : ℕ) (r : S1024x1.Idx) (hn : n = 8 * ((y 0).val / 1024) + 8)
    (hr : (r 0).val = (y 0).val % 1024) : Gcnt m c y = (accAt m c n).ct r := by
  subst hn
  unfold Gcnt
  congr 1
  funext a
  match a with
  | ⟨0, _⟩ => exact Fin.ext hr.symm
  | ⟨1, _⟩ => exact Fin.ext (by have h1 : (r 1).val < 1 := (r 1).isLt; show 0 = (r 1).val; omega)

/-- WHAT A WRITING POINT WRITES BACK is its block of `Gcnt`. -/
theorem flushed5_eq (c : Dev nD) (t : Fin cfg0.N) (hf : (cfg0.win 5).flush t = true) :
    (dats m 0 c).flushed 5 t = ((cfg0.win 5).blk t).view.read (Elt F) (Gcnt m c) := by
  have h7 : t.val % 8 = 7 := (flush0_5 t).mp hf
  obtain ⟨e0, e1⟩ := idx_facts5 t
  show (cfg0.win 5).cut (grid0.coords t) ((dats m 0 c).after 5 t) = _
  rw [after_5]
  funext j
  have hj0 : (j 0).val < 1024 := (j 0).isLt
  have hemb : ((((cfg0.win 5).blk t).view.emb j) 0).val = win0_5.index t (0 : Fin 2) * 1024 + 1 * (j 0).val := rfl
  refine (Gcnt_apply m c (((cfg0.win 5).blk t).view.emb j) (t.val + 1) ((cfg0.win 5).xinj (grid0.coords t) j) ?_ ?_).symm
  · rw [hemb, e0]; omega
  · show (j 0).val = _; rw [hemb, e0]; omega

/-- An index of the array is in point `t`'s block iff each coordinate is in the block's range on its axis. -/
theorem mem_blk5 (t : Fin cfg0.N) (i : S8192x1.Idx) :
    i ∈ ((cfg0.win 5).blk t).view.set ↔ ∀ a : Fin 2, win0_5.index t a * S1024x1.size a ≤ (i a).val ∧ (i a).val < win0_5.index t a * S1024x1.size a + S1024x1.size a := by
  show i ∈ ((View.whole main_v7_1).slice (win0_5.rect t)).set ↔ _
  rw [View.set_slice_whole, Rect.mem_set_unit]
  exact Iff.rfl

/-- THE COVER: row `i 0` is in the block written back at the last column tile of its row tile, point 8 (i 0 / 1024) + 7. -/
theorem cover5 (i : S8192x1.Idx) : ∃ t : Fin cfg0.N, (cfg0.win 5).flush t = true ∧ i ∈ ((cfg0.win 5).blk t).view.set := by
  have hi0 : (i 0).val < 8192 := (i 0).isLt
  have hi1 : (i 1).val < 1 := (i 1).isLt
  have hN : cfg0.N = 64 := N_0
  let t : Fin cfg0.N := ⟨8 * ((i 0).val / 1024) + 7, by rw [hN]; omega⟩
  have ht : t.val = 8 * ((i 0).val / 1024) + 7 := rfl
  obtain ⟨e0, e1⟩ := idx_facts5 t
  refine ⟨t, (flush0_5 t).mpr (by rw [ht]; omega), ?_⟩
  rw [mem_blk5]
  intro a
  match a with
  | ⟨0, _⟩ => show win0_5.index t (0 : Fin 2) * 1024 ≤ (i 0).val ∧ (i 0).val < win0_5.index t (0 : Fin 2) * 1024 + 1024; rw [e0, ht]; omega
  | ⟨1, _⟩ => show win0_5.index t (1 : Fin 2) * 1 ≤ (i 1).val ∧ (i 1).val < win0_5.index t (1 : Fin 2) * 1 + 1; rw [e1]; omega

/-- THE ARRAY after the run is `Gcnt`. -/
theorem final5 (c : Dev nD) : (dats m 0 c).arrAt 5 cfg0.N = Gcnt m c :=
  (dats m 0 c).arrAt_eq_of_cover 5 (Gcnt m c) (flushed5_eq m c) cover5

/-- Row `R` of the count output after the run. -/
theorem final_cnt (c : Dev nD) (R : Fin 8192) :
    (dats m 0 c).arrAt 5 cfg0.N (ix2 R (0 : Fin 1))
      = (accAt m c (8 * (R.val / 1024) + 8)).ct (ix2 (⟨R.val % 1024, Nat.mod_lt _ (by decide)⟩ : Fin 1024) (0 : Fin 1)) := by
  rw [final5]; rfl

end Cert.KernelIdeal.Hand

end
-- ==== Proof.VSpec.lean ====
/-
  One point of the grid, as arithmetic on the extended reals.

  A point works on a row tile of 1024 rows against a column tile of 1024 columns. With `xq` the row tile's features, `xk` the
  column tile's, `lq` and `lk` their labels, row `r` and column `j` of the tile meet in
    the indicator  d r j = 1 if the two labels differ, else 0,
    the score      s r j = (Σ_k xq r k · xk j k) · c · d r j,   c the reciprocal of the temperature, 268435456 / 13421773.
  The three accumulators of row `r` (running maximum `mx`, rescaled running sum `sm`, running count `ct`) are updated to
    mx' = max mx (max_j s r j),   sm' = sm · exp (mx − mx') + Σ_j exp (s r j − mx'),   ct' = ct + Σ_j d r j.
-/
import Idealize.ShloMosaic.PureOps.Ideal
import Idealize.ShloMosaic.Lib.ValueIdx

noncomputable section

namespace LossSpec

open Idealize.ShloMosaic Idealize.ShloMosaic.ValueIdx

/-- The reciprocal of the reference's temperature word, as an extended real. -/
def scale : EReal := ((268435456 / 13421773 : ℝ) : EReal)

/-- 1 where the row's label and the column's differ, 0 where they agree. -/
def tileDiff (lq : (⟨2, ![1024, 1]⟩ : Shape).Idx → BitVec 32) (lk : (⟨2, ![1, 1024]⟩ : Shape).Idx → BitVec 32) (r j : Fin 1024) : EReal :=
  if lq (ix2 r 0) ≠ lk (ix2 0 j) then 1 else 0

/-- The scaled, masked inner product of row `r` of the row tile with row `j` of the column tile. -/
def tileScore (xq xk : (⟨2, ![1024, 128]⟩ : Shape).Idx → EReal) (lq : (⟨2, ![1024, 1]⟩ : Shape).Idx → BitVec 32)
    (lk : (⟨2, ![1, 1024]⟩ : Shape).Idx → BitVec 32) (r j : Fin 1024) : EReal :=
  (∑ k : Fin 128, xq (ix2 r k) * xk (ix2 j k)) * scale * tileDiff lq lk r j

end LossSpec

end
-- ==== Proof.VLoss.lean ====
/-
  The loss's row quantities over the whole [8192, 8192] score matrix, on the extended reals.

  With `X` the [8192, 128] matrix of the two views stacked and `L` the labels repeated twice,
    d i j = 1 if L i ≠ L j else 0,   s i j = (Σ_k X i k · X j k) · c · d i j   (c the reciprocal of the temperature),
    rowMax i = max_j s i j,   rowSum i = Σ_j exp (s i j − rowMax i),   rowCnt i = Σ_j d i j.
  The kernel reaches `rowSum` and `rowCnt` one column tile at a time; the reference takes the maximum of each row first.
  `partMax`, `partSum`, `partCnt` are the same over the columns below a bound: what the accumulators hold part way.
-/
import proofs.«127721_j16621523436335_1_alg».proof.Proof.VSpec
import proofs.«127721_j16621523436335_1_alg».proof.Proof.LibOnlineSoftmax

noncomputable section

namespace LossSpec

open Idealize.ShloMosaic

variable (X : Fin 8192 → Fin 128 → EReal) (L : Fin 8192 → BitVec 32)

/-- 1 where the labels of rows `i` and `j` differ. -/
def diff (i j : Fin 8192) : EReal := if L i ≠ L j then 1 else 0

/-- The inner product of rows `i` and `j`. -/
def gram (i j : Fin 8192) : EReal := ∑ k : Fin 128, X i k * X j k

/-- The scaled, masked score. -/
def score (i j : Fin 8192) : EReal := gram X i j * scale * diff L i j

/-- The columns below `n`. -/
def colsBelow (n : ℕ) : Finset (Fin 8192) := Finset.univ.filter fun j => j.val < n

/-- Row `i`'s maximum, sum of shifted exponentials and count over the columns below `n`. -/
def partMax (i : Fin 8192) (n : ℕ) : EReal := (colsBelow n).sup fun j => score X L i j
def partSum (i : Fin 8192) (n : ℕ) : EReal := ∑ j ∈ colsBelow n, Ideal.exp (score X L i j - partMax X L i n)
def partCnt (i : Fin 8192) (n : ℕ) : EReal := ∑ j ∈ colsBelow n, diff L i j

/-- Over all columns. -/
def rowMax (i : Fin 8192) : EReal := Finset.univ.sup fun j => score X L i j
def rowSum (i : Fin 8192) : EReal := ∑ j, Ideal.exp (score X L i j - rowMax X L i)
def rowCnt (i : Fin 8192) : EReal := ∑ j, diff L i j

theorem colsBelow_all : colsBelow 8192 = Finset.univ := by
  ext j; simp [colsBelow, j.isLt]

theorem partMax_all (i : Fin 8192) : partMax X L i 8192 = rowMax X L i := by
  unfold partMax rowMax; rw [colsBelow_all]
theorem partSum_all (i : Fin 8192) : partSum X L i 8192 = rowSum X L i := by
  unfold partSum rowSum; rw [partMax_all, colsBelow_all]
theorem partCnt_all (i : Fin 8192) : partCnt L i 8192 = rowCnt L i := by
  unfold partCnt rowCnt; rw [colsBelow_all]

theorem colsBelow_zero : colsBelow 0 = ∅ := by
  ext j; simp [colsBelow]

end LossSpec

end
-- ==== Proof.VRows.lean ====
/-
  The row quantities one column tile at a time.

  The columns below `1024 (n + 1)` are those below `1024 n` and the 1024 columns of tile `n`. So for each row the partial
  maximum is the larger of the previous partial maximum and the tile's maximum; the partial count is the previous count plus the
  tile's; and, when the row's scores are real numbers, the partial sum of shifted exponentials is the previous partial sum rescaled
  from the old maximum to the new one plus the tile's terms at the new maximum (the running-maximum law). Before any tile the
  three are −∞, 0, 0.
-/
import proofs.«127721_j16621523436335_1_alg».proof.Proof.VLoss

noncomputable section

namespace LossSpec

open Idealize.ShloMosaic

variable (X : Fin 8192 → Fin 128 → EReal) (L : Fin 8192 → BitVec 32)

/-- The columns of tile `n`. -/
def tileCols (n : ℕ) : Finset (Fin 8192) := Finset.univ.filter fun j => 1024 * n ≤ j.val ∧ j.val < 1024 * (n + 1)

/-- Column `j` of tile `n`. -/
def tileCol (n : ℕ) (hn : n < 8) (j : Fin 1024) : Fin 8192 := ⟨1024 * n + j.val, by have := j.isLt; omega⟩

theorem colsBelow_succ (n : ℕ) : colsBelow (1024 * (n + 1)) = colsBelow (1024 * n) ∪ tileCols n := by
  ext j
  simp only [colsBelow, tileCols, Finset.mem_filter, Finset.mem_univ, true_and, Finset.mem_union]
  omega

theorem disjoint_cols (n : ℕ) : Disjoint (colsBelow (1024 * n)) (tileCols n) := by
  rw [Finset.disjoint_left]
  intro j hj hj'
  simp only [colsBelow, tileCols, Finset.mem_filter, Finset.mem_univ, true_and] at hj hj'
  omega

theorem tileCols_nonempty (n : ℕ) (hn : n < 8) : (tileCols n).Nonempty :=
  ⟨⟨1024 * n, by omega⟩, by simp only [tileCols, Finset.mem_filter, Finset.mem_univ, true_and]; omega⟩

/-- Tile `n`'s columns, as the image of `Fin 1024`. -/
def tileEmb (n : ℕ) (hn : n < 8) : Fin 1024 ↪ Fin 8192 :=
  ⟨tileCol n hn, fun a b h => by
    have h' := congrArg Fin.val h
    simp only [tileCol] at h'
    exact Fin.ext (by omega)⟩

theorem tileCols_eq_map (n : ℕ) (hn : n < 8) : tileCols n = Finset.univ.map (tileEmb n hn) := by
  ext j
  rw [Finset.mem_map]
  simp only [tileCols, Finset.mem_filter, Finset.mem_univ, true_and]
  constructor
  · rintro ⟨h1, h2⟩
    refine ⟨⟨j.val - 1024 * n, by omega⟩, ?_⟩
    apply Fin.ext
    show 1024 * n + (j.val - 1024 * n) = j.val
    omega
  · rintro ⟨a, rfl⟩
    have := a.isLt
    show 1024 * n ≤ 1024 * n + a.val ∧ 1024 * n + a.val < 1024 * (n + 1)
    omega

theorem sum_tileCols {M : Type} [AddCommMonoid M] (n : ℕ) (hn : n < 8) (f : Fin 8192 → M) :
    ∑ j ∈ tileCols n, f j = ∑ j : Fin 1024, f (tileCol n hn j) := by
  rw [tileCols_eq_map n hn, Finset.sum_map]; rfl

theorem sup_tileCols (n : ℕ) (hn : n < 8) (f : Fin 8192 → EReal) :
    (tileCols n).sup f = Finset.univ.sup fun j : Fin 1024 => f (tileCol n hn j) := by
  rw [tileCols_eq_map n hn, Finset.sup_map]; rfl

/-! ## Before any tile -/

theorem partMax_zero (i : Fin 8192) : partMax X L i 0 = ⊥ := by
  unfold partMax; rw [colsBelow_zero]; exact Finset.sup_empty
theorem partSum_zero (i : Fin 8192) : partSum X L i 0 = 0 := by
  unfold partSum; rw [colsBelow_zero]; exact Finset.sum_empty
theorem partCnt_zero (i : Fin 8192) : partCnt L i 0 = 0 := by
  unfold partCnt; rw [colsBelow_zero]; exact Finset.sum_empty

/-! ## One more tile -/

theorem partMax_succ (i : Fin 8192) (n : ℕ) (hn : n < 8) :
    partMax X L i (1024 * (n + 1))
      = max (partMax X L i (1024 * n)) (Finset.univ.sup fun j : Fin 1024 => score X L i (tileCol n hn j)) := by
  unfold partMax
  rw [colsBelow_succ, Finset.sup_union, sup_tileCols n hn]

theorem partCnt_succ (i : Fin 8192) (n : ℕ) (hn : n < 8) :
    partCnt L i (1024 * (n + 1)) = partCnt L i (1024 * n) + ∑ j : Fin 1024, diff L i (tileCol n hn j) := by
  unfold partCnt
  rw [colsBelow_succ, Finset.sum_union (disjoint_cols n), sum_tileCols n hn]

/-- The running-maximum law for the partial sums, for a row whose scores are real numbers. -/
theorem partSum_succ (i : Fin 8192) (hs : ∀ j, ∃ s : ℝ, score X L i j = (s : EReal)) (n : ℕ) (hn : n < 8) :
    partSum X L i (1024 * (n + 1))
      = partSum X L i (1024 * n) * Ideal.exp (partMax X L i (1024 * n) - partMax X L i (1024 * (n + 1)))
        + ∑ j : Fin 1024, Ideal.exp (score X L i (tileCol n hn j) - partMax X L i (1024 * (n + 1))) := by
  choose sR hsR using hs
  have hmax : ∀ S : Finset (Fin 8192), (S.sup fun j => score X L i j) = OnlineSoftmax.runMax sR S := fun S => by
    unfold OnlineSoftmax.runMax; exact Finset.sup_congr rfl fun j _ => hsR j
  have hsum : ∀ (S : Finset (Fin 8192)) (mx : EReal), (∑ j ∈ S, Ideal.exp (score X L i j - mx)) = OnlineSoftmax.runSum sR S mx := fun S mx => by
    unfold OnlineSoftmax.runSum; exact Finset.sum_congr rfl fun j _ => by rw [hsR j]
  unfold partSum partMax
  rw [← sum_tileCols n hn (fun j => Ideal.exp (score X L i j - (colsBelow (1024 * (n + 1))).sup fun j => score X L i j))]
  simp only [hmax, hsum]
  rw [colsBelow_succ]
  exact (OnlineSoftmax.step sR (colsBelow (1024 * n)) (tileCols n) (disjoint_cols n) (tileCols_nonempty n hn)).symm

/-- A tile's indicator and score are the whole matrix's, once the tile's rows and columns are located in it. -/
theorem tileDiff_congr (lq : (⟨2, ![1024, 1]⟩ : Shape).Idx → BitVec 32) (lk : (⟨2, ![1, 1024]⟩ : Shape).Idx → BitVec 32) (r j : Fin 1024)
    (R C : Fin 8192) (h1 : lq (ValueIdx.ix2 r 0) = L R) (h2 : lk (ValueIdx.ix2 0 j) = L C) :
    tileDiff lq lk r j = diff L R C := by
  unfold tileDiff diff
  rw [h1, h2]

theorem tileScore_congr (xq xk : (⟨2, ![1024, 128]⟩ : Shape).Idx → EReal) (lq : (⟨2, ![1024, 1]⟩ : Shape).Idx → BitVec 32)
    (lk : (⟨2, ![1, 1024]⟩ : Shape).Idx → BitVec 32) (r j : Fin 1024) (R C : Fin 8192)
    (hq : ∀ k : Fin 128, xq (ValueIdx.ix2 r k) = X R k) (hk : ∀ k : Fin 128, xk (ValueIdx.ix2 j k) = X C k)
    (h1 : lq (ValueIdx.ix2 r 0) = L R) (h2 : lk (ValueIdx.ix2 0 j) = L C) :
    tileScore xq xk lq lk r j = score X L R C := by
  unfold tileScore score gram
  rw [tileDiff_congr L lq lk r j R C h1 h2]
  congr 2
  exact Finset.sum_congr rfl fun k _ => by rw [hq, hk]

/-- When every entry of the matrix is a real number, so is every score. -/
theorem score_real (hX : ∀ R k, ∃ x : ℝ, X R k = (x : EReal)) (i j : Fin 8192) : ∃ s : ℝ, score X L i j = (s : EReal) := by
  choose xr hxr using hX
  refine ⟨(∑ k : Fin 128, xr i k * xr j k) * (268435456 / 13421773) * (if L i ≠ L j then 1 else 0), ?_⟩
  unfold score gram scale diff
  rw [EReal.coe_mul, EReal.coe_mul, OnlineSoftmax.coe_sum]
  congr 1
  · congr 1
    exact Finset.sum_congr rfl fun k _ => by rw [hxr, hxr, EReal.coe_mul]
  · split_ifs <;> simp

/-- A row's sum of shifted exponentials is a non-negative real number when the row's scores are real. -/
theorem rowSum_real (i : Fin 8192) (hs : ∀ j, ∃ s : ℝ, score X L i j = (s : EReal)) :
    ∃ s : ℝ, 0 ≤ s ∧ rowSum X L i = (s : EReal) := by
  choose sR hsR using hs
  have hmax : rowMax X L i = OnlineSoftmax.runMax sR Finset.univ := by
    unfold rowMax OnlineSoftmax.runMax; exact Finset.sup_congr rfl fun j _ => hsR j
  obtain ⟨a, ha⟩ := OnlineSoftmax.runMax_real sR (S := Finset.univ) ⟨i, Finset.mem_univ i⟩
  refine ⟨∑ j : Fin 8192, Real.exp (sR j - a), Finset.sum_nonneg fun j _ => (Real.exp_pos _).le, ?_⟩
  unfold rowSum
  rw [hmax, ha, ← OnlineSoftmax.runSum_coe sR Finset.univ a]
  unfold OnlineSoftmax.runSum
  exact Finset.sum_congr rfl fun j _ => by rw [hsR j]

/-- A finite sum of non-negative reals read as extended reals is one. -/
theorem total_real (f : Fin 8192 → EReal) (h : ∀ i, ∃ s : ℝ, 0 ≤ s ∧ f i = (s : EReal)) : ∃ s : ℝ, 0 ≤ s ∧ ∑ i, f i = (s : EReal) := by
  choose g hg0 hg using h
  refine ⟨∑ i, g i, Finset.sum_nonneg fun i _ => hg0 i, ?_⟩
  rw [OnlineSoftmax.coe_sum]
  exact Finset.sum_congr rfl fun i _ => hg i

end LossSpec

end
-- ==== Proof.KRows.lean ====
/-
  What the accumulators hold, in closed form, and so what the two outputs hold after the run (at the extended reals).

  With `Xk` the stacked [8192, 128] matrix and `Lk` the repeated labels as the region finds them: after point `t` (row tile
  `t / 8`, column tiles `0 … t % 8` done) the accumulators of row `r` of the tile hold the partial maximum, the partial sum of
  shifted exponentials and the partial count of row `1024 (t / 8) + r` over the columns below `1024 (t % 8 + 1)`: at column
  tile 0 from the reset values, afterwards from what the point before left, by the recursion of the partial quantities (the
  running-maximum law for the sum). After the last column tile these are the row's maximum, sum and count over all columns,
  which is what the two outputs hold at that row.
-/
import proofs.«127721_j16621523436335_1_alg».proof.Proof.KDats
import proofs.«127721_j16621523436335_1_alg».proof.Proof.KBlocks
import proofs.«127721_j16621523436335_1_alg».proof.Proof.KEntry
import proofs.«127721_j16621523436335_1_alg».proof.Proof.KFinal
import proofs.«127721_j16621523436335_1_alg».proof.Proof.VRows

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem

variable (m : (ℓ : Loc nD τ sig) → Buf (Elt Ideal) ℓ)

/-- The stacked matrix and the repeated labels as the region finds them. -/
def Xk (c : Dev nD) (R : Fin 8192) (k : Fin 128) : EReal := V m c main_v1 (ix2 R k)
def Lk (c : Dev nD) (R : Fin 8192) : BitVec 32 := V m c main_v5 (ix2 R (0 : Fin 1))

/-- The labels laid out as a row are the same labels. -/
theorem Lk_row (c : Dev nD) (R : Fin 8192) : V m c main_v6 (ix2 (0 : Fin 1) R) = Lk m c R := by
  unfold Lk; rw [V_v6_apply, V_v5_apply]

/-- The body's update at a row (proved in the module that reads the body's payloads at an index). -/
structure StepLaws : Prop where
  mx : ∀ (xq xk : Vec Ideal S1024x128 .f32) (lq : Vec Ideal S1024x1 .i32) (lk : Vec Ideal S1x1024 .i32) (a : Acc Ideal) (r : Fin 1024),
    (accStep xq xk lq lk a).mx (ix2 r (0 : Fin 1)) = max (a.mx (ix2 r (0 : Fin 1))) (Finset.univ.sup fun j : Fin 1024 => LossSpec.tileScore xq xk lq lk r j)
  sm : ∀ (xq xk : Vec Ideal S1024x128 .f32) (lq : Vec Ideal S1024x1 .i32) (lk : Vec Ideal S1x1024 .i32) (a : Acc Ideal) (r : Fin 1024),
    (accStep xq xk lq lk a).sm (ix2 r (0 : Fin 1))
      = a.sm (ix2 r (0 : Fin 1)) * Ideal.exp (a.mx (ix2 r (0 : Fin 1)) - (accStep xq xk lq lk a).mx (ix2 r (0 : Fin 1)))
        + ∑ j : Fin 1024, Ideal.exp (LossSpec.tileScore xq xk lq lk r j - (accStep xq xk lq lk a).mx (ix2 r (0 : Fin 1)))
  ct : ∀ (xq xk : Vec Ideal S1024x128 .f32) (lq : Vec Ideal S1024x1 .i32) (lk : Vec Ideal S1x1024 .i32) (a : Acc Ideal) (r : Fin 1024),
    (accStep xq xk lq lk a).ct (ix2 r (0 : Fin 1)) = a.ct (ix2 r (0 : Fin 1)) + ∑ j : Fin 1024, LossSpec.tileDiff lq lk r j
  rmx : ∀ r : Fin 1024, (accReset (F := Ideal)).mx (ix2 r (0 : Fin 1)) = ⊥
  rsm : ∀ r : Fin 1024, (accReset (F := Ideal)).sm (ix2 r (0 : Fin 1)) = 0
  rct : ∀ r : Fin 1024, (accReset (F := Ideal)).ct (ix2 r (0 : Fin 1)) = 0

theorem N64 : cfg0.N = 64 := N_0

/-- Row `r` of point `t`'s row tile, and column `j` of its column tile, in the whole matrix. -/
def rowOf (t : Fin cfg0.N) (r : Fin 1024) : Fin 8192 := ⟨1024 * (t.val / 8) + r.val, rowq_lt t r⟩

theorem colTile_lt (t : Fin cfg0.N) : t.val % 8 < 8 := Nat.mod_lt _ (by decide)

/-- The tile's indicator and score are the whole matrix's, at the tile's rows and columns. -/
theorem tileDiff_eq (c : Dev nD) (t : Fin cfg0.N) (r j : Fin 1024) :
    LossSpec.tileDiff (iblk m c 2 t) (iblk m c 3 t) r j = LossSpec.diff (Lk m c) (rowOf t r) (LossSpec.tileCol (t.val % 8) (colTile_lt t) j) :=
  LossSpec.tileDiff_congr (Lk m c) _ _ r j _ _ (iblk2_apply m c t r) ((iblk3_apply m c t j).trans (Lk_row m c _))

theorem tileScore_eq (c : Dev nD) (t : Fin cfg0.N) (r j : Fin 1024) :
    LossSpec.tileScore (iblk m c 0 t) (iblk m c 1 t) (iblk m c 2 t) (iblk m c 3 t) r j
      = LossSpec.score (Xk m c) (Lk m c) (rowOf t r) (LossSpec.tileCol (t.val % 8) (colTile_lt t) j) :=
  LossSpec.tileScore_congr (Xk m c) (Lk m c) _ _ _ _ r j _ _ (fun k => iblk0_apply m c t r k) (fun k => iblk1_apply m c t j k)
    (iblk2_apply m c t r) ((iblk3_apply m c t j).trans (Lk_row m c _))

/-! ## The accumulators point by point -/

/-- After point `t`, at every row of its row tile: the partial maximum, sum and count over the column tiles done. -/
def AccInv (c : Dev nD) (t : Fin cfg0.N) : Prop := ∀ r : Fin 1024,
  (accAt m c (t.val + 1)).mx (ix2 r (0 : Fin 1)) = LossSpec.partMax (Xk m c) (Lk m c) (rowOf t r) (1024 * (t.val % 8 + 1))
  ∧ (accAt m c (t.val + 1)).sm (ix2 r (0 : Fin 1)) = LossSpec.partSum (Xk m c) (Lk m c) (rowOf t r) (1024 * (t.val % 8 + 1))
  ∧ (accAt m c (t.val + 1)).ct (ix2 r (0 : Fin 1)) = LossSpec.partCnt (Lk m c) (rowOf t r) (1024 * (t.val % 8 + 1))

/-- One point: if the accumulators handed to the update hold the partial quantities over the column tiles before this one,
    the updated ones hold them over this tile too. -/
theorem step_inv (H : StepLaws) (c : Dev nD) (hX : ∀ R k, ∃ x : ℝ, Xk m c R k = (x : EReal)) (t : Fin cfg0.N) (a : Acc Ideal)
    (hacc : accAt m c (t.val + 1) = accStep (iblk m c 0 t) (iblk m c 1 t) (iblk m c 2 t) (iblk m c 3 t) a)
    (ha : ∀ r : Fin 1024,
      a.mx (ix2 r (0 : Fin 1)) = LossSpec.partMax (Xk m c) (Lk m c) (rowOf t r) (1024 * (t.val % 8))
      ∧ a.sm (ix2 r (0 : Fin 1)) = LossSpec.partSum (Xk m c) (Lk m c) (rowOf t r) (1024 * (t.val % 8))
      ∧ a.ct (ix2 r (0 : Fin 1)) = LossSpec.partCnt (Lk m c) (rowOf t r) (1024 * (t.val % 8))) :
    AccInv m c t := by
  intro r
  obtain ⟨h1, h2, h3⟩ := ha r
  have hn8 := colTile_lt t
  have hs := fun j => LossSpec.score_real (Xk m c) (Lk m c) hX (rowOf t r) j
  have hmx : (accAt m c (t.val + 1)).mx (ix2 r (0 : Fin 1))
      = LossSpec.partMax (Xk m c) (Lk m c) (rowOf t r) (1024 * (t.val % 8 + 1)) := by
    rw [hacc, H.mx, h1, LossSpec.partMax_succ _ _ _ _ hn8]
    simp only [tileScore_eq]
  refine ⟨hmx, ?_, ?_⟩
  · rw [LossSpec.partSum_succ _ _ _ hs _ hn8, ← hmx, hacc, H.sm, h1, h2]
    simp only [tileScore_eq]
  · rw [hacc, H.ct, h3, LossSpec.partCnt_succ _ _ _ hn8]
    simp only [tileDiff_eq]

/-- Every point. At column tile 0 the update starts from the reset values, which are the quantities over no column; at a later
    column tile from what the point before left, in the same row tile. -/
theorem acc_inv (H : StepLaws) (c : Dev nD) (hX : ∀ R k, ∃ x : ℝ, Xk m c R k = (x : EReal)) : ∀ t : Fin cfg0.N, AccInv m c t := by
  intro t
  obtain ⟨n, hn⟩ := t
  induction n with
  | zero =>
    refine step_inv m H c hX ⟨0, hn⟩ accReset (accAt_succ_reset m c ⟨0, hn⟩ rfl) fun r => ⟨?_, ?_, ?_⟩
    · rw [H.rmx]; exact (LossSpec.partMax_zero _ _ _).symm
    · rw [H.rsm]; exact (LossSpec.partSum_zero _ _ _).symm
    · rw [H.rct]; exact (LossSpec.partCnt_zero _ _).symm
  | succ n ih =>
    have hn' : n < cfg0.N := Nat.lt_of_succ_lt hn
    by_cases h0 : (n + 1) % 8 = 0
    · refine step_inv m H c hX ⟨n + 1, hn⟩ accReset (accAt_succ_reset m c ⟨n + 1, hn⟩ h0) fun r => ⟨?_, ?_, ?_⟩
      · rw [H.rmx, show 1024 * ((⟨n + 1, hn⟩ : Fin cfg0.N).val % 8) = 0 from by show 1024 * ((n + 1) % 8) = 0; rw [h0]]
        exact (LossSpec.partMax_zero _ _ _).symm
      · rw [H.rsm, show 1024 * ((⟨n + 1, hn⟩ : Fin cfg0.N).val % 8) = 0 from by show 1024 * ((n + 1) % 8) = 0; rw [h0]]
        exact (LossSpec.partSum_zero _ _ _).symm
      · rw [H.rct, show 1024 * ((⟨n + 1, hn⟩ : Fin cfg0.N).val % 8) = 0 from by show 1024 * ((n + 1) % 8) = 0; rw [h0]]
        exact (LossSpec.partCnt_zero _ _).symm
    · refine step_inv m H c hX ⟨n + 1, hn⟩ (accAt m c (n + 1)) (accAt_succ_carry m c ⟨n + 1, hn⟩ h0) fun r => ?_
      have e1 : rowOf (⟨n, hn'⟩ : Fin cfg0.N) r = rowOf (⟨n + 1, hn⟩ : Fin cfg0.N) r :=
        Fin.ext (by show 1024 * (n / 8) + r.val = 1024 * ((n + 1) / 8) + r.val; omega)
      have e2 : 1024 * (n % 8 + 1) = 1024 * ((n + 1) % 8) := by omega
      have h := ih hn' r
      rw [e1] at h
      rw [show 1024 * ((⟨n, hn'⟩ : Fin cfg0.N).val % 8 + 1) = 1024 * ((⟨n + 1, hn⟩ : Fin cfg0.N).val % 8) from e2] at h
      exact h

/-! ## The two outputs after the run -/

theorem out_sum (H : StepLaws) (c : Dev nD) (hX : ∀ R k, ∃ x : ℝ, Xk m c R k = (x : EReal)) (R : Fin 8192) :
    (dats m 0 c).arrAt 4 cfg0.N (ix2 R (0 : Fin 1)) = LossSpec.rowSum (Xk m c) (Lk m c) R := by
  have ht : 8 * (R.val / 1024) + 7 < cfg0.N := by rw [N64]; have := R.isLt; omega
  have h := (acc_inv m H c hX ⟨8 * (R.val / 1024) + 7, ht⟩ ⟨R.val % 1024, Nat.mod_lt _ (by decide)⟩).2.1
  have eR : rowOf (⟨8 * (R.val / 1024) + 7, ht⟩ : Fin cfg0.N) (⟨R.val % 1024, Nat.mod_lt _ (by decide)⟩ : Fin 1024) = R :=
    Fin.ext (by show 1024 * ((8 * (R.val / 1024) + 7) / 8) + R.val % 1024 = R.val; omega)
  rw [eR, show 1024 * ((⟨8 * (R.val / 1024) + 7, ht⟩ : Fin cfg0.N).val % 8 + 1) = 8192 from by show 1024 * ((8 * (R.val / 1024) + 7) % 8 + 1) = 8192; omega,
    LossSpec.partSum_all] at h
  rw [final_sum]
  exact h

theorem out_cnt (H : StepLaws) (c : Dev nD) (hX : ∀ R k, ∃ x : ℝ, Xk m c R k = (x : EReal)) (R : Fin 8192) :
    (dats m 0 c).arrAt 5 cfg0.N (ix2 R (0 : Fin 1)) = LossSpec.rowCnt (Lk m c) R := by
  have ht : 8 * (R.val / 1024) + 7 < cfg0.N := by rw [N64]; have := R.isLt; omega
  have h := (acc_inv m H c hX ⟨8 * (R.val / 1024) + 7, ht⟩ ⟨R.val % 1024, Nat.mod_lt _ (by decide)⟩).2.2
  have eR : rowOf (⟨8 * (R.val / 1024) + 7, ht⟩ : Fin cfg0.N) (⟨R.val % 1024, Nat.mod_lt _ (by decide)⟩ : Fin 1024) = R :=
    Fin.ext (by show 1024 * ((8 * (R.val / 1024) + 7) / 8) + R.val % 1024 = R.val; omega)
  rw [eR, show 1024 * ((⟨8 * (R.val / 1024) + 7, ht⟩ : Fin cfg0.N).val % 8 + 1) = 8192 from by show 1024 * ((8 * (R.val / 1024) + 7) % 8 + 1) = 8192; omega,
    LossSpec.partCnt_all] at h
  rw [final_cnt]
  exact h

end Cert.KernelIdeal.Hand

end
-- ==== Proof.KStepIdeal.lean ====
/-
  The body's update of the three accumulators, read at one row of the tile, at the ideal values.

  With `s r j` the scaled masked score of row `r` against column `j` and `d r j` the indicator that their labels differ,
  the update takes the running maximum `mx` to `max mx (max_j s r j)`, the running sum `sm` to
  `sm · exp (mx − mx') + Σ_j exp (s r j − mx')`, and the running count `ct` to `ct + Σ_j d r j`. Each payload of the
  body is read at an index in turn: the compare of the broadcast labels, the matrix product with the transposed column
  tile, the row reductions, and the elementwise arithmetic between them.
-/
import proofs.«127721_j16621523436335_1_alg».proof.Proof.KData
import proofs.«127721_j16621523436335_1_alg».proof.Proof.VSpec
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.ValueIdx
open scoped BigOperators

/-! ## Layout operations at an index -/

/-- A column `[a, 1]` broadcast to `[a, b]` reads, at `(p, c)`, the column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## Row reductions at an index -/

/-- The source index over row `r` with column `k` inserted is `(r, k)`. -/
theorem lift_row (h : S1024x1024.Reduces [1] S1024) (r k : Fin 1024) : h.lift (ix1 r) k = ix2 r k := by
  funext c
  match c with
  | ⟨0, _⟩ => exact Fin.ext rfl
  | ⟨1, _⟩ => exact Fin.ext rfl

/-- A `[1024]` vector cast to a `[1024, 1]` column reads, at `(r, 0)`, the vector at `r`. -/
theorem shapeCast_col_apply {α : Type} (x : S1024.Idx → α) (h : S1024.ShapeCasts S1024x1) (r : Fin 1024) :
    shapeCast S1024x1 x h (ix2 r (0 : Fin 1)) = x (ix1 r) :=
  shapeCast_apply x h _ _ (by
    rw [Shape.rowMajor_val_one, Shape.rowMajor_val_two]
    show r.val = r.val * 1 + 0
    omega)

/-- The bit pattern of −∞ reads `⊥`. -/
theorem ofBits_negInf_f32 : Ideal.ofBits .f32 0xFF800000#32 = ⊥ := by simp [Ideal.ofBits, Ideal.ieee]

/-- A row sum, as a column, at `(r, 0)`: the sum over the row's entries. -/
theorem rowSum_apply (x : FVec Ideal S1024x1024 .f32) (hφ : FKind.Formats .f32)
    (hacc : (0x00000000#32 : BitVec 32) = FKind.add.neutral .f32 hφ) (r : Fin 1024) :
    shapeCast S1024x1 (multiReduction (F := Ideal) .add [1] S1024 x 0x00000000#32 reduces_S1024x1024_S1024 hφ hacc)
        shapeCasts_S1024_S1024x1 (ix2 r (0 : Fin 1))
      = ∑ j : Fin 1024, x (ix2 r j) := by
  rw [shapeCast_col_apply, Ideal.multiReduction_add_single]
  exact Finset.sum_congr rfl fun k _ => congrArg x (lift_row _ r k)

/-- A row maximum from −∞, as a column, at `(r, 0)`: the supremum of the row's entries. -/
theorem rowMax_apply (x : FVec Ideal S1024x1024 .f32) (hφ : FKind.Formats .f32)
    (hacc : (0xFF800000#32 : BitVec 32) = FKind.maximumf.neutral .f32 hφ) (r : Fin 1024) :
    shapeCast S1024x1 (multiReduction (F := Ideal) .maximumf [1] S1024 x 0xFF800000#32 reduces_S1024x1024_S1024 hφ hacc)
        shapeCasts_S1024_S1024x1 (ix2 r (0 : Fin 1))
      = Finset.univ.sup fun j : Fin 1024 => x (ix2 r j) := by
  rw [shapeCast_col_apply, Ideal.multiReduction_maximumf_single]
  show (Finset.univ : Finset (Fin 1024)).fold max (Ideal.ofBits .f32 0xFF800000#32) (x ∘ reduces_S1024x1024_S1024.lift (ix1 r)) = _
  rw [ofBits_negInf_f32, show (x ∘ reduces_S1024x1024_S1024.lift (ix1 r)) = fun j : Fin 1024 => x (ix2 r j) from
    funext fun k => congrArg x (lift_row _ r k)]
  rfl

/-! ## The label indicator -/

/-- The compare-not-equal bit of two words, widened and converted, is 1 where they differ and 0 where they agree. -/
theorem sitofp_cmpi_ne (x y : BitVec 32) :
    FloatOps.sitofp (F := Ideal) .f32 (BitVec.setWidth 32 (IntOp.cmpi .ne x y)) = if x ≠ y then (1 : EReal) else 0 := by
  show (((BitVec.setWidth 32 (IntOp.cmpi .ne x y)).toInt : ℝ) : EReal) = _
  by_cases h : x = y
  · subst h; simp [IntOp.cmpi]
  · have hb : (x != y) = true := by simpa [bne_iff_ne] using h
    simp [IntOp.cmpi, hb, h]

/-- The indicator block at `(r, j)`: 1 if row `r`'s label and column `j`'s differ, else 0. -/
theorem pay7_apply (lq : Vec Ideal S1024x1 .i32) (lk : Vec Ideal S1x1024 .i32) (r j : Fin 1024) :
    k0_pay7 (F := Ideal) lq lk (ix2 r j) = LossSpec.tileDiff lq lk r j := by
  unfold k0_pay7
  simp only [shapeCast_self]
  rw [sitofp_apply, extui_apply]
  show FloatOps.sitofp .f32 (BitVec.setWidth 32 (IntOp.cmpi .ne
    (broadcastTo S1024x1024 lq broadcasts_S1024x1_S1024x1024 (ix2 r j))
    (broadcastTo S1024x1024 lk broadcasts_S1x1024_S1024x1024 (ix2 r j)))) = _
  rw [broadcastTo_a1_ab_apply, broadcastTo_1b_ab_apply, sitofp_cmpi_ne]
  rfl

/-! ## The count -/

/-- The count's payload at `(r, 0)`: the count so far plus the row sum of the block added. -/
theorem pay2_apply (v21 : FVec Ideal S1024x1024 .f32) (v41 : Vec Ideal S1024x1 .f32) (r : Fin 1024) :
    k0_pay2 (F := Ideal) v21 v41 (ix2 r (0 : Fin 1)) = v41 (ix2 r (0 : Fin 1)) + ∑ j : Fin 1024, v21 (ix2 r j) := by
  unfold k0_pay2
  simp only [shapeCast_self]
  rw [addf_apply]
  exact congrArg (v41 (ix2 r (0 : Fin 1)) + ·) (rowSum_apply v21 _ _ r)

/-- The updated count of row `r`: the count so far plus the number of columns whose label differs from the row's. -/
theorem accStep_ct (xq xk : Vec Ideal S1024x128 .f32) (lq : Vec Ideal S1024x1 .i32) (lk : Vec Ideal S1x1024 .i32) (a : Acc Ideal)
    (r : Fin 1024) :
    (accStep xq xk lq lk a).ct (ix2 r (0 : Fin 1)) = a.ct (ix2 r (0 : Fin 1)) + ∑ j : Fin 1024, LossSpec.tileDiff lq lk r j := by
  unfold accStep
  dsimp only
  rw [pay2_apply]
  simp only [pay7_apply]
/-! ## The scores -/

/-- The left operand's index at output `(r, j)` and contraction coordinate `k` is `(r, k)`. -/
theorem lhsIdx_eq (r j : Fin 1024) (k : Fin 128) :
    dot_S1024x128_S128x1024_S1024x1024_1_0_0_1_n_n.lhsIdx (ix2 r j) ((contrEquiv1 dot_S1024x128_S128x1024_S1024x1024_1_0_0_1_n_n 128 rfl rfl).symm k) = ix2 r k := by
  funext a
  match a with
  | ⟨0, _⟩ => exact Fin.ext rfl
  | ⟨1, _⟩ => exact Fin.ext ((DotDims.lhsIdx_val_of_single dot_S1024x128_S128x1024_S1024x1024_1_0_0_1_n_n (cl := 1) rfl _ _).trans (contrEquiv1_symm_val dot_S1024x128_S128x1024_S1024x1024_1_0_0_1_n_n 128 rfl rfl k))

/-- The right operand's index there is `(k, j)`. -/
theorem rhsIdx_eq (r j : Fin 1024) (k : Fin 128) :
    dot_S1024x128_S128x1024_S1024x1024_1_0_0_1_n_n.rhsIdx (ix2 r j) ((contrEquiv1 dot_S1024x128_S128x1024_S1024x1024_1_0_0_1_n_n 128 rfl rfl).symm k) = ix2 k j := by
  funext a
  match a with
  | ⟨0, _⟩ => exact Fin.ext ((DotDims.rhsIdx_val_of_single dot_S1024x128_S128x1024_S1024x1024_1_0_0_1_n_n (cr := 0) rfl _ _).trans (contrEquiv1_symm_val dot_S1024x128_S128x1024_S1024x1024_1_0_0_1_n_n 128 rfl rfl k))
  | ⟨1, _⟩ => exact Fin.ext rfl

/-- The product of a `[1024, 128]` block with a `[128, 1024]` block into the zero block, at `(r, j)`: the sum over the
    shared axis. -/
theorem matmul_rows_apply (A : FVec Ideal S1024x128 .bf16) (B : FVec Ideal S128x1024 .bf16) (r j : Fin 1024) :
    FloatOps.matmul dot_S1024x128_S128x1024_S1024x1024_1_0_0_1_n_n none A B (constant S1024x1024 .f32 0x00000000#32) (ix2 r j)
      = ∑ k : Fin 128, A (ix2 r k) * B (ix2 k j) := by
  rw [Ideal.matmul_constant_zero_apply, ← Equiv.sum_comp (contrEquiv1 dot_S1024x128_S128x1024_S1024x1024_1_0_0_1_n_n 128 rfl rfl).symm]
  refine Finset.sum_congr rfl fun k _ => ?_
  rw [lhsIdx_eq, rhsIdx_eq]

/-- The score block at `(r, j)`: the inner product of row `r` of the row tile with row `j` of the column tile, times
    the reciprocal temperature, times the label indicator. -/
theorem pay8_apply (xq xk : Vec Ideal S1024x128 .f32) (lq : Vec Ideal S1024x1 .i32) (lk : Vec Ideal S1x1024 .i32) (r j : Fin 1024) :
    k0_pay8 (F := Ideal) xq xk lq lk (ix2 r j) = LossSpec.tileScore xq xk lq lk r j := by
  unfold k0_pay8
  simp only [shapeCast_self]
  rw [mulf_apply, mulf_apply, pay7_apply, broadcast_apply]
  have hn : Named.named (F := Ideal) (φ := .f32) κ "inv_temp" 0x41A00000#32 = LossSpec.scale :=
    IdealRules.named_const.ideal_named_scalar _ _ _ _ rfl
  simp only [matmul]
  rw [matmul_rows_apply, hn]
  have hs : ∀ k : Fin 128, transpose S128x1024 [1, 0] (truncf (F := Ideal) FTy.bf16 xk bitsLt_bf16_f32)
      transposes_S1024x128_p1_0_S128x1024 (ix2 k j) = xk (ix2 j k) := fun k => by
    rw [transpose_ix2_apply, truncf_apply]
  simp only [hs, truncf_apply]
  rfl

/-! ## The maximum -/

/-- The exponential at an index is the exponential of the element. -/
theorem exp_apply {s : Shape} {φ : FTy} (x : FVec Ideal s φ) (i : s.Idx) : exp x i = Ideal.exp (x i) := rfl

/-- The maximum's payload at `(r, 0)`: the larger of the maximum so far and the row's largest score. -/
theorem pay9_apply (xq xk : Vec Ideal S1024x128 .f32) (lq : Vec Ideal S1024x1 .i32) (lk : Vec Ideal S1x1024 .i32)
    (mx : Vec Ideal S1024x1 .f32) (r : Fin 1024) :
    k0_pay9 (F := Ideal) xq xk lq lk mx (ix2 r (0 : Fin 1))
      = max (mx (ix2 r (0 : Fin 1))) (Finset.univ.sup fun j : Fin 1024 => LossSpec.tileScore xq xk lq lk r j) := by
  unfold k0_pay9
  rw [maximumf_apply]
  refine congrArg (max (mx (ix2 r (0 : Fin 1)))) ((rowMax_apply _ _ _ r).trans ?_)
  simp only [pay8_apply]

/-- The stored maximum is the maximum's payload. -/
theorem accStep_mx_eq (xq xk : Vec Ideal S1024x128 .f32) (lq : Vec Ideal S1024x1 .i32) (lk : Vec Ideal S1x1024 .i32) (a : Acc Ideal) :
    (accStep xq xk lq lk a).mx = k0_pay9 xq xk lq lk a.mx := by
  unfold accStep k0_pay3
  dsimp only
  rw [shapeCast_self]

/-- The updated maximum of row `r`. -/
theorem accStep_mx (xq xk : Vec Ideal S1024x128 .f32) (lq : Vec Ideal S1024x1 .i32) (lk : Vec Ideal S1x1024 .i32) (a : Acc Ideal)
    (r : Fin 1024) :
    (accStep xq xk lq lk a).mx (ix2 r (0 : Fin 1))
      = max (a.mx (ix2 r (0 : Fin 1))) (Finset.univ.sup fun j : Fin 1024 => LossSpec.tileScore xq xk lq lk r j) := by
  rw [accStep_mx_eq, pay9_apply]

/-! ## The sum -/

/-- The rescaled sum so far, at `(r, 0)`. -/
theorem pay10_apply (xq xk : Vec Ideal S1024x128 .f32) (lq : Vec Ideal S1024x1 .i32) (lk : Vec Ideal S1x1024 .i32)
    (v25 v27 v33 : Vec Ideal S1024x1 .f32) (r : Fin 1024) :
    k0_pay10 (F := Ideal) xq xk lq lk v25 v27 v33 (ix2 r (0 : Fin 1))
      = v33 (ix2 r (0 : Fin 1)) * Ideal.exp (v27 (ix2 r (0 : Fin 1)) - k0_pay9 xq xk lq lk v25 (ix2 r (0 : Fin 1))) := by
  unfold k0_pay10
  rw [mulf_apply, exp_apply, subf_apply]

/-- The row's sum of exponentials of the scores less the new maximum, at `(r, 0)`. -/
theorem pay11_apply (xq xk : Vec Ideal S1024x128 .f32) (lq : Vec Ideal S1024x1 .i32) (lk : Vec Ideal S1x1024 .i32)
    (v25 : Vec Ideal S1024x1 .f32) (r : Fin 1024) :
    k0_pay11 (F := Ideal) xq xk lq lk v25 (ix2 r (0 : Fin 1))
      = ∑ j : Fin 1024, Ideal.exp (LossSpec.tileScore xq xk lq lk r j - k0_pay9 xq xk lq lk v25 (ix2 r (0 : Fin 1))) := by
  unfold k0_pay11
  refine (rowSum_apply _ _ _ r).trans (Finset.sum_congr rfl fun j _ => ?_)
  rw [exp_apply, subf_apply, pay8_apply, broadcastTo_a1_ab_apply]

/-- The sum's payload at `(r, 0)`: the two summands added. -/
theorem pay1_apply (v34 v36 : FVec Ideal S1024x1 .f32) (r : Fin 1024) :
    k0_pay1 (F := Ideal) v34 v36 (ix2 r (0 : Fin 1)) = v34 (ix2 r (0 : Fin 1)) + v36 (ix2 r (0 : Fin 1)) := by
  unfold k0_pay1
  rw [shapeCast_self, addf_apply]

/-- The updated sum of row `r`: the sum so far rescaled to the new maximum, plus the row's exponentials. -/
theorem accStep_sm (xq xk : Vec Ideal S1024x128 .f32) (lq : Vec Ideal S1024x1 .i32) (lk : Vec Ideal S1x1024 .i32) (a : Acc Ideal)
    (r : Fin 1024) :
    (accStep xq xk lq lk a).sm (ix2 r (0 : Fin 1))
      = a.sm (ix2 r (0 : Fin 1)) * Ideal.exp (a.mx (ix2 r (0 : Fin 1)) - (accStep xq xk lq lk a).mx (ix2 r (0 : Fin 1)))
        + ∑ j : Fin 1024, Ideal.exp (LossSpec.tileScore xq xk lq lk r j - (accStep xq xk lq lk a).mx (ix2 r (0 : Fin 1))) := by
  rw [accStep_mx_eq]
  unfold accStep
  dsimp only
  rw [pay1_apply, pay10_apply, pay11_apply]

/-! ## The reset values -/

theorem accReset_mx (r : Fin 1024) : (accReset (F := Ideal)).mx (ix2 r (0 : Fin 1)) = ⊥ := by
  unfold accReset k0_pay4
  dsimp only
  rw [shapeCast_self, broadcast_apply]
  exact ofBits_negInf_f32

theorem accReset_sm (r : Fin 1024) : (accReset (F := Ideal)).sm (ix2 r (0 : Fin 1)) = 0 := by
  unfold accReset k0_pay5
  dsimp only
  rw [shapeCast_self, broadcast_apply]
  exact Ideal.ofBits_zero_f32

theorem accReset_ct (r : Fin 1024) : (accReset (F := Ideal)).ct (ix2 r (0 : Fin 1)) = 0 := by
  unfold accReset k0_pay6
  dsimp only
  rw [shapeCast_self, broadcast_apply]
  exact Ideal.ofBits_zero_f32

end Cert.KernelIdeal.Hand

end
-- ==== Proof.VConsts.lean ====
/-
  The float words the two programs spell, as the extended reals they denote, and the fold of `max` from −∞ as a supremum.

  Stated once, in one module: unfolding the word-to-value function declares its equation lemmas where it is done.
-/
import Idealize.ShloMosaic.PureOps.Ideal

noncomputable section

namespace LossConsts

open Idealize.ShloMosaic

/-- `+0.0` denotes `0`. -/
theorem ofBits_zero : Ideal.ofBits .f32 0x00000000#32 = 0 := by
  simp [Ideal.ofBits, Ideal.ieee]

/-- `1.0` denotes `1`. -/
theorem ofBits_one : Ideal.ofBits .f32 0x3F800000#32 = 1 := by
  simp [Ideal.ofBits, Ideal.ieee, -EReal.coe_mul]; norm_num

/-- The pattern of −∞ denotes `⊥`. -/
theorem ofBits_neg_inf : Ideal.ofBits .f32 0xFF800000#32 = ⊥ := by
  simp [Ideal.ofBits, Ideal.ieee]

/-- The reference's temperature word, f32 of 0.05, denotes the rational 13421773 / 268435456. -/
theorem ofBits_temp : Ideal.ofBits .f32 0x3D4CCCCD#32 = ((13421773 / 268435456 : ℝ) : EReal) := by
  simp [Ideal.ofBits, Ideal.ieee, -EReal.coe_mul]; norm_num

/-- `8191.0` and `8192.0`. -/
theorem ofBits_8191 : Ideal.ofBits .f32 0x45FFF800#32 = ((8191 : ℝ) : EReal) := by
  simp [Ideal.ofBits, Ideal.ieee, -EReal.coe_mul]; norm_num
theorem ofBits_8192 : Ideal.ofBits .f32 0x46000000#32 = ((8192 : ℝ) : EReal) := by
  simp [Ideal.ofBits, Ideal.ieee, -EReal.coe_mul]; norm_num

/-- The fold of `max` from −∞ over a finite set is the supremum over it. -/
theorem fold_max_bot_eq_sup {ι : Type} (s : Finset ι) (f : ι → EReal) : s.fold max ⊥ f = s.sup f := by
  classical
  induction s using Finset.induction_on with
  | empty => simp
  | insert a s ha ih => rw [Finset.fold_insert ha, Finset.sup_insert, ih]

end LossConsts

end
-- ==== Proof.RFront.lean ====
/-
  The reference's score matrix, its row maxima and its two totals, read at an index.

  The reference stacks the two views into the [8192, 128] matrix `Xr`, repeats the labels into `Lr`, and forms, for every pair of
  rows, the indicator that their labels differ and the inner product divided by the temperature and masked by the indicator:
  these are the specification's `diff` and `score` (dividing by the temperature word is multiplying by its reciprocal). It then
  takes each row's maximum, exponentiates the shifted scores, and sums everything: the sum over rows of `rowSum`; and it sums the
  indicator: the sum over rows of `rowCnt`.
-/
import proofs.«127721_j16621523436335_1_alg».proof.Proof.ReferenceRead
import proofs.«127721_j16621523436335_1_alg».proof.Proof.VLoss
import proofs.«127721_j16621523436335_1_alg».proof.Proof.VConsts
import Idealize.ShloMosaic.Lib.ValueIdx
import Idealize.ShloMosaic.PureOps.Ideal.Laws
import Idealize.ShloMosaic.PureOps.Reduce

noncomputable section

namespace Cert.ReferenceIdeal.RefValue

open Cert.ReferenceIdeal Cert.ReferenceIdeal.Gen Cert.ReferenceIdeal.Read Idealize.ShloMosaic Idealize.ShloMosaic.ValueIdx

variable (x0 : (⟨S4096x2x128, .f32⟩ : BufTy).Contents (Elt Ideal)) (x1 : (⟨S4096, .i32⟩ : BufTy).Contents (Elt Ideal))

/-- The two views stacked, and the labels repeated, as the reference computes them. -/
def Xr (R : Fin 8192) (k : Fin 128) : EReal := val_main_v1 (F := Ideal) x0 (ix2 R k)
def Lr (R : Fin 8192) : BitVec 32 := val_main_v22 (F := Ideal) x1 (ix1 R)

/-- A bit read as a float is 1 or 0: the test "the two words differ" as an extended real. -/
theorem uitofp_ne (a b : BitVec 32) :
    (FloatOps.uitofp (F := Ideal) .f32 (IntOp.cmpi .ne a b) : EReal) = if a ≠ b then 1 else 0 := by
  by_cases h : a = b
  · subst h
    rw [if_neg (by simp)]
    show (((IntOp.cmpi .ne a a).toNat : ℝ) : EReal) = 0
    simp [IntOp.cmpi]
  · rw [if_pos h]
    show (((IntOp.cmpi .ne a b).toNat : ℝ) : EReal) = 1
    simp [IntOp.cmpi, h]

/-- The indicator matrix at `(i, j)`. -/
theorem diff_apply (i j : Fin 8192) : val_main_v28 (F := Ideal) x1 (ix2 i j) = LossSpec.diff (Lr x1) i j := by
  rw [val_main_v28_apply, val_main_v27_apply, val_main_v25_apply, val_main_v26_apply, val_main_v23_apply, val_main_v24_apply]
  have e1 : idx_main_v23 (idx_main_v25 (ix2 i j)) = ix1 i := funext fun a => by match a with | ⟨0, _⟩ => rfl
  have e2 : idx_main_v24 (idx_main_v26 (ix2 i j)) = ix1 j := funext fun a => by match a with | ⟨0, _⟩ => rfl
  rw [e1, e2]
  exact uitofp_ne _ _

/-- The masked, scaled score at `(i, j)`: dividing by the temperature word is multiplying by its reciprocal. -/
theorem score_apply (i j : Fin 8192) : val_main_v33 (F := Ideal) x0 x1 (ix2 i j) = LossSpec.score (Xr x0) (Lr x1) i j := by
  rw [val_main_v33_apply, val_main_v32_apply, val_main_v30_apply, val_main_v31_apply, val_main_cst_0_apply, diff_apply]
  have e : ∀ k : Fin 128, val_main_v1 (F := Ideal) x0 (lidx_main_v30 (ix2 i j) k) * val_main_v29 (F := Ideal) x0 (ridx_main_v30 (ix2 i j) k)
      = Xr x0 i k * Xr x0 j k := by
    intro k
    rw [val_main_v29_apply]
    have el : lidx_main_v30 (ix2 i j) k = ix2 i k := funext fun a => by match a with | ⟨0, _⟩ => rfl | ⟨1, _⟩ => rfl
    have er : idx_main_v29 (ridx_main_v30 (ix2 i j) k) = ix2 j k := funext fun a => by match a with | ⟨0, _⟩ => rfl | ⟨1, _⟩ => rfl
    rw [el, er]; rfl
  simp only [e]
  show Ideal.div (∑ k : Fin 128, Xr x0 i k * Xr x0 j k) (Ideal.ofBits .f32 0x3D4CCCCD#32) * LossSpec.diff (Lr x1) i j = _
  rw [LossConsts.ofBits_temp, Ideal.div_coe (by norm_num : (13421773 / 268435456 : ℝ) ≠ 0)]
  unfold LossSpec.score LossSpec.gram LossSpec.scale
  congr 3
  norm_num

/-- The source index over row `i` with column `k` inserted is `(i, k)`. -/
theorem lift_row (h : S8192x8192.Reduces [1] S8192) (i k : Fin 8192) : h.lift (ix1 i) k = ix2 i k := by
  funext c
  match c with
  | ⟨0, _⟩ => exact Fin.ext rfl
  | ⟨1, _⟩ => exact Fin.ext rfl

/-- Each row's maximum, from −∞. -/
theorem rowMax_apply (i : Fin 8192) : val_main_v34 (F := Ideal) x0 x1 (ix1 i) = LossSpec.rowMax (Xr x0) (Lr x1) i := by
  unfold val_main_v34
  rw [Host.reduce_eq_fold_single FloatOps.maximumf _ _ reducesTo_S8192x8192_S8192_d1 (by decide : S8192x8192.Reduces [1] S8192) h_S_]
  show (Finset.univ : Finset (Fin 8192)).fold max (Ideal.ofBits .f32 0xFF800000#32) (val_main_v33 (F := Ideal) x0 x1 ∘ _) = _
  rw [LossConsts.ofBits_neg_inf, LossConsts.fold_max_bot_eq_sup]
  unfold LossSpec.rowMax
  refine Finset.sup_congr rfl fun k _ => ?_
  show val_main_v33 (F := Ideal) x0 x1 (_) = _
  rw [lift_row, score_apply]

/-- The exponential of the score shifted by its row's maximum, at `(i, j)`. -/
theorem exp_apply (i j : Fin 8192) :
    val_main_v38 (F := Ideal) x0 x1 (ix2 i j) = Ideal.exp (LossSpec.score (Xr x0) (Lr x1) i j - LossSpec.rowMax (Xr x0) (Lr x1) i) := by
  rw [val_main_v38_apply, val_main_v37_apply, val_main_v36_apply, val_main_v35_apply, score_apply]
  have e : idx_main_v35 (idx_main_v36 (ix2 i j)) = ix1 i := funext fun a => by match a with | ⟨0, _⟩ => rfl
  rw [e, rowMax_apply]
  rfl

/-- The total of the shifted exponentials is the sum over the rows of the row sums. -/
theorem S_apply : val_main_v39 (F := Ideal) x0 x1 ix0 = ∑ i : Fin 8192, LossSpec.rowSum (Xr x0) (Lr x1) i := by
  rw [val_main_v39_apply, val_main_cst_2_apply]
  show Ideal.ofBits .f32 0x00000000#32 + _ = _
  rw [LossConsts.ofBits_zero, zero_add, sum_idx2]
  refine Finset.sum_congr rfl fun i _ => ?_
  unfold LossSpec.rowSum
  exact Finset.sum_congr rfl fun j _ => exp_apply x0 x1 i j

/-- The total of the indicator is the sum over the rows of the row counts. -/
theorem N_apply : val_main_v40 (F := Ideal) x1 ix0 = ∑ i : Fin 8192, LossSpec.rowCnt (Lr x1) i := by
  rw [val_main_v40_apply, val_main_cst_3_apply]
  show Ideal.ofBits .f32 0x00000000#32 + _ = _
  rw [LossConsts.ofBits_zero, zero_add, sum_idx2]
  refine Finset.sum_congr rfl fun i _ => ?_
  unfold LossSpec.rowCnt
  exact Finset.sum_congr rfl fun j _ => diff_apply x1 i j

end Cert.ReferenceIdeal.RefValue

end
-- ==== Proof.VFinite.lean ====
/-
  The precondition, decoded: every entry of the feature array is a real number.

  The printed predicate is `all (|x| < +∞)`: a reduce by `and`, from 1, of the entrywise comparison of `max x (−x)` with the
  pattern of +∞. Where it is 1 every comparison is 1, so no entry is +∞ or −∞.
-/
import proofs.«127721_j16621523436335_1_alg».proof.Pre_finite_inputs
import proofs.«127721_j16621523436335_1_alg».proof.Proof.VConsts
import Idealize.ShloMosaic.Lib.ReduceAll
import Idealize.ShloMosaic.Lib.ValueIdx
import Idealize.ShloMosaic.Lib.Pipeline.Value
import Idealize.ShloMosaic.PureOps.Ideal.Laws

noncomputable section

namespace LossConsts

open Idealize.ShloMosaic

/-- The pattern of +∞ denotes `⊤`. -/
theorem ofBits_pos_inf : Ideal.ofBits .f32 0x7F800000#32 = ⊤ := by
  simp [Ideal.ofBits, Ideal.ieee]

/-- Where the printed precondition holds of a feature array, each of its entries is a real number. -/
theorem feat_real [Cert.Pre_finite_inputs.Facts] (x0 : FVec Ideal Cert.Pre_finite_inputs.S4096x2x128 .f32)
    (x1 : IVec Cert.Pre_finite_inputs.S4096 32)
    (h : Cert.Pre_finite_inputs.fn (F := Ideal) x0 x1 = fun _ => 1#1) (i : Cert.Pre_finite_inputs.S4096x2x128.Idx) :
    ∃ x : ℝ, x0 i = (x : EReal) := by
  have e := congrFun h ValueIdx.ix0
  dsimp only [Cert.Pre_finite_inputs.fn] at e
  haveI : Subsingleton Cert.Pre_finite_inputs.S_.Idx := ⟨fun a b => funext fun d => d.elim0⟩
  have hi := Host.reduce_andi_all _ _ _ _ _ e i
  have hb : broadcastInDim Cert.Pre_finite_inputs.S4096x2x128 ![] Cert.Pre_finite_inputs.Facts.bcast_S_S4096x2x128
      (constant (F := Ideal) Cert.Pre_finite_inputs.S_ .f32 0x7F800000#32) i = Ideal.ofBits .f32 0x7F800000#32 :=
    broadcastInDim_apply _ _ _ i ValueIdx.ix0 (fun a => a.elim0)
  have hc : Ideal.cmp .olt (max (x0 i) (-(x0 i))) ⊤ = 1#1 := by
    rw [← ofBits_pos_inf, ← hb]; exact hi
  have hlt : max (x0 i) (-(x0 i)) < ⊤ := by
    unfold Ideal.cmp at hc
    by_contra hn
    simp [hn] at hc
  have h1 : x0 i ≠ ⊤ := fun ht => by rw [ht] at hlt; simp at hlt
  have h2 : x0 i ≠ ⊥ := fun hbt => by rw [hbt] at hlt; simp at hlt
  exact ⟨(x0 i).toReal, (EReal.coe_toReal h1 h2).symm⟩

end LossConsts

end
-- ==== Proof.VLink.lean ====
/-
  The two programs see the same data.

  The kernel program's host prefix and the reference both stack the two views into one [8192, 128] matrix by the same two
  operations, and both repeat the labels twice: row `R` is view `R / 4096` of sample `R % 4096`, with that sample's label.
  Under the precondition every entry of the stacked matrix is a real number.
-/
import proofs.«127721_j16621523436335_1_alg».proof.Proof.KRows
import proofs.«127721_j16621523436335_1_alg».proof.Proof.KStepIdeal
import proofs.«127721_j16621523436335_1_alg».proof.Proof.RFront
import proofs.«127721_j16621523436335_1_alg».proof.Proof.VFinite

set_option maxRecDepth 16384

noncomputable section

namespace Cert.Proof.Link

open Idealize.ShloMosaic Idealize.ShloMosaic.TcCoe Idealize.ShloMosaic.ValueIdx Idealize.SL.Sem

variable (m : (ℓ : Loc Cert.KernelIdeal.nD Cert.KernelIdeal.τ Cert.KernelIdeal.sig) → Buf (Elt Ideal) ℓ) (c : Dev Cert.KernelIdeal.nD)

/-- The body's update at a row, bundled. -/
theorem stepLaws : Cert.KernelIdeal.Hand.StepLaws :=
  ⟨Cert.KernelIdeal.Hand.accStep_mx, Cert.KernelIdeal.Hand.accStep_sm, Cert.KernelIdeal.Hand.accStep_ct,
   Cert.KernelIdeal.Hand.accReset_mx, Cert.KernelIdeal.Hand.accReset_sm, Cert.KernelIdeal.Hand.accReset_ct⟩

/-- The stacked matrix is the reference's. -/
theorem Xk_eq_Xr : Cert.KernelIdeal.Hand.Xk m c
    = Cert.ReferenceIdeal.RefValue.Xr (m ((c.tc : Thread Cert.KernelIdeal.nD Cert.KernelIdeal.τ).loc Cert.KernelIdeal.main_arg0)) := by
  funext R k
  unfold Cert.KernelIdeal.Hand.Xk Cert.ReferenceIdeal.RefValue.Xr
  rw [Cert.KernelIdeal.Hand.V_v1_apply, Cert.ReferenceIdeal.Read.val_main_v1_apply, Cert.ReferenceIdeal.Read.val_main_v0_apply]
  congr 1
  funext a
  have hk := k.isLt
  have hR := R.isLt
  match a with
  | ⟨0, _⟩ => exact Fin.ext (by show R.val % 4096 = (R.val * 128 + k.val) / 128 % 4096; omega)
  | ⟨1, _⟩ => exact Fin.ext (by show R.val / 4096 = (R.val * 128 + k.val) / 524288; omega)
  | ⟨2, _⟩ => exact Fin.ext (by show k.val = (R.val * 128 + k.val) % 128; omega)

/-- The repeated labels are the reference's. -/
theorem Lk_eq_Lr : Cert.KernelIdeal.Hand.Lk m c
    = Cert.ReferenceIdeal.RefValue.Lr (m ((c.tc : Thread Cert.KernelIdeal.nD Cert.KernelIdeal.τ).loc Cert.KernelIdeal.main_arg1)) := by
  funext R
  unfold Cert.KernelIdeal.Hand.Lk Cert.ReferenceIdeal.RefValue.Lr
  rw [Cert.KernelIdeal.Hand.V_v5_apply, Cert.ReferenceIdeal.Read.val_main_v22_apply, Cert.ReferenceIdeal.Read.val_main_v21_apply,
    Cert.ReferenceIdeal.Read.val_main_v20_apply]
  congr 1
  funext a
  have hR := R.isLt
  match a with
  | ⟨0, _⟩ => exact Fin.ext (by show R.val % 4096 = 0 * 4096 + R.val % 4096; omega)

/-- Under the precondition the stacked matrix's entries are real numbers. -/
theorem Xk_real [Cert.Pre_finite_inputs.Facts]
    (hpre : Cert.Pre_finite_inputs.fn (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1)) = fun _ => 1#1)
    (R : Fin 8192) (k : Fin 128) : ∃ x : ℝ, Cert.KernelIdeal.Hand.Xk m c R k = (x : EReal) := by
  unfold Cert.KernelIdeal.Hand.Xk
  rw [Cert.KernelIdeal.Hand.V_v1_apply]
  exact LossConsts.feat_real _ _ hpre _

end Cert.Proof.Link

end
-- ==== Proof.VBridge.lean ====
/-
  The two programs' row numbers agree.

  For labels `L` that are 4096 labels repeated twice, with `S` a non-negative real and `N` the total of the row counts, row `i`'s
  number in the reference (`refRow`, from the labels) is its number in the kernel program (`kTailRow`, from the row's count). The
  row's mask total is 8191 minus its count; some label differs from the row's exactly when its count is positive; every kept
  count total vanishes exactly when `N` does; the logarithm's argument is a positive real, so the masked total of the logarithm
  is the mask total times it, and the masked mean is the logarithm itself unless the mask total is zero.
-/
import proofs.«127721_j16621523436335_1_alg».proof.Proof.VLoss
import proofs.«127721_j16621523436335_1_alg».proof.Proof.VTailRow

noncomputable section

namespace LossSpec

open Idealize.ShloMosaic

variable (lab : Fin 4096 → BitVec 32) (L : Fin 8192 → BitVec 32)

/-! ## The counts and the mask as real numbers -/

/-- Row `i`'s count of differing labels, as a real number. -/
def cntR (i : Fin 8192) : ℝ := ∑ j, (if L i ≠ L j then (1 : ℝ) else 0)

/-- The mask's entry as a real number. -/
def maskR (i j : Fin 8192) : ℝ := (if L i = L j then 1 else 0) * (1 - (if i = j then 1 else 0))

theorem coe_ite01 (c : Prop) [Decidable c] : (((if c then 1 else 0 : ℝ)) : EReal) = if c then 1 else 0 := by
  split_ifs <;> simp

theorem rowCnt_coe (i : Fin 8192) : rowCnt L i = ((cntR L i : ℝ) : EReal) := by
  unfold rowCnt cntR diff
  rw [OnlineSoftmax.coe_sum]
  exact Finset.sum_congr rfl fun j _ => (coe_ite01 _).symm

theorem cntR_nonneg (i : Fin 8192) : 0 ≤ cntR L i :=
  Finset.sum_nonneg fun j _ => by split_ifs <;> norm_num

theorem cntR_eq_card (i : Fin 8192) : cntR L i = ((Finset.univ.filter fun j => L i ≠ L j).card : ℝ) := by
  unfold cntR; rw [Finset.sum_boole]

theorem cntR_pos_iff (i : Fin 8192) : 0 < cntR L i ↔ ∃ j, L i ≠ L j := by
  rw [cntR_eq_card, Nat.cast_pos, Finset.card_pos]
  constructor
  · rintro ⟨j, hj⟩; exact ⟨j, (Finset.mem_filter.mp hj).2⟩
  · rintro ⟨j, hj⟩; exact ⟨j, Finset.mem_filter.mpr ⟨Finset.mem_univ _, hj⟩⟩

theorem mask_coe (i j : Fin 8192) : mask L i j = ((maskR L i j : ℝ) : EReal) := by
  unfold mask maskR
  rw [EReal.coe_mul, EReal.coe_sub, coe_ite01, coe_ite01, EReal.coe_one]

theorem maskR_eq (i j : Fin 8192) : maskR L i j = (1 - (if L i ≠ L j then (1 : ℝ) else 0)) - (if i = j then 1 else 0) := by
  unfold maskR
  by_cases hij : i = j
  · subst hij; simp
  · by_cases hl : L i = L j <;> simp [hij, hl]

/-- (α), over the reals: the mask's row total is 8191 minus the count. -/
theorem sum_maskR (i : Fin 8192) : ∑ j, maskR L i j = 8191 - cntR L i := by
  simp only [maskR_eq, Finset.sum_sub_distrib, Finset.sum_const, Finset.card_univ, Fintype.card_fin, nsmul_eq_mul, mul_one,
    Finset.sum_ite_eq, Finset.mem_univ, if_true]
  unfold cntR
  norm_num
  ring

/-- The row's mask total as a real. -/
theorem refMsum_coe (i : Fin 8192) : refMsum L i = (((8191 - cntR L i : ℝ)) : EReal) := by
  unfold refMsum
  simp only [mask_coe]
  rw [← OnlineSoftmax.coe_sum, sum_maskR]

/-- (α) The row's mask total is 8191 minus its count. -/
theorem refMsum_eq (i : Fin 8192) : refMsum L i = 8191 - rowCnt L i := by
  rw [refMsum_coe, rowCnt_coe, EReal.coe_sub]
  norm_cast

theorem sub_rowCnt_coe (i : Fin 8192) : (8191 : EReal) - rowCnt L i = (((8191 - cntR L i : ℝ)) : EReal) := by
  rw [← refMsum_eq, refMsum_coe]

variable (hL : ∀ R : Fin 8192, L R = lab ⟨R.val % 4096, Nat.mod_lt _ (by decide)⟩)

include hL in
/-- (β) Some label differs from row `i`'s exactly when the row's count is positive. -/
theorem refValid_iff (i : Fin 8192) : refValid lab L i ↔ 0 < rowCnt L i := by
  rw [rowCnt_coe, EReal.coe_pos, cntR_pos_iff]
  unfold refValid
  constructor
  · rintro ⟨b, hb⟩
    refine ⟨⟨b.val, by have := b.isLt; omega⟩, ?_⟩
    rw [hL ⟨b.val, _⟩]
    have : (⟨b.val % 4096, Nat.mod_lt _ (by decide)⟩ : Fin 4096) = b := Fin.ext (Nat.mod_eq_of_lt b.isLt)
    simp only [this]
    exact fun h => hb h.symm
  · rintro ⟨j, hj⟩
    exact ⟨⟨j.val % 4096, Nat.mod_lt _ (by decide)⟩, fun h => hj ((hL j).trans h).symm⟩

include hL in
/-- (γ) Every row's kept count total is zero exactly when the total of the counts is. -/
theorem refAllz_iff (N : EReal) (hN : N = ∑ i, rowCnt L i) : refAllz lab L N ↔ N = 0 := by
  unfold refAllz refNv
  constructor
  · intro h
    by_contra hN0
    have hsum : (∑ i, cntR L i) ≠ 0 := by
      intro h0
      apply hN0
      rw [hN]
      simp only [rowCnt_coe]
      rw [← OnlineSoftmax.coe_sum, h0, EReal.coe_zero]
    obtain ⟨i, -, hi⟩ := Finset.exists_ne_zero_of_sum_ne_zero hsum
    have hpos : 0 < cntR L i := lt_of_le_of_ne (cntR_nonneg L i) (Ne.symm hi)
    have hv : refValid lab L i := (refValid_iff lab L hL i).mpr (by rw [rowCnt_coe, EReal.coe_pos]; exact hpos)
    have := h i
    rw [if_pos hv] at this
    exact hN0 this
  · intro h i
    rw [h]; split_ifs <;> rfl

/-! ## The small constant, the logarithm's argument, and the masked mean -/

/-- The small constant is a positive real. -/
theorem kEps_pos : ∃ e : ℝ, 0 < e ∧ kEps = (e : EReal) := by
  refine ⟨8796093 / 8796093022208, by norm_num, ?_⟩
  unfold kEps
  simp [Ideal.ofBits, Ideal.ieee, -EReal.coe_mul]; norm_num

/-- A quotient of reals by a non-zero real is the real quotient. -/
theorem div_coe (x y : ℝ) (hy : y ≠ 0) : Ideal.div (x : EReal) (y : EReal) = ((x / y : ℝ) : EReal) := by
  unfold Ideal.div
  rw [if_neg (by rw [EReal.coe_eq_zero]; exact hy), ← EReal.coe_inv, ← EReal.coe_mul, div_eq_mul_inv]

include hL in
/-- The reference's quotient in the kernel program's form. -/
theorem refXv'_eq (S N : EReal) (hN : N = ∑ i, rowCnt L i) (i : Fin 8192) :
    refXv' lab L S N i
      = if N = 0 then (if 0 < rowCnt L i then S else 0)
        else Ideal.div (if 0 < rowCnt L i then S else 0)
          (if (if 0 < rowCnt L i then N else 0) = 0 then 1 else if 0 < rowCnt L i then N else 0) := by
  unfold refXv' refNvs refXv refNv
  simp only [refValid_iff lab L hL i, refAllz_iff lab L hL N hN]

include hL in
/-- (δ) The logarithm's argument is a positive real. -/
theorem refXv'_add_pos (S N : EReal) (hS : ∃ s : ℝ, 0 ≤ s ∧ S = (s : EReal)) (hN : N = ∑ i, rowCnt L i) (i : Fin 8192) :
    ∃ r : ℝ, 0 < r ∧ refXv' lab L S N i + kEps = (r : EReal) := by
  obtain ⟨s, hs0, rfl⟩ := hS
  obtain ⟨e, he0, he⟩ := kEps_pos
  have hNr : N = ((∑ i, cntR L i : ℝ) : EReal) := by
    rw [hN, OnlineSoftmax.coe_sum]; exact Finset.sum_congr rfl fun i _ => rowCnt_coe L i
  have hn0 : 0 ≤ ∑ i, cntR L i := Finset.sum_nonneg fun i _ => cntR_nonneg L i
  -- the quotient is a non-negative real
  have hx : ∃ x : ℝ, 0 ≤ x ∧ refXv' lab L (s : EReal) N i = (x : EReal) := by
    rw [refXv'_eq lab L hL _ N hN i]
    by_cases hv : 0 < rowCnt L i
    · simp only [if_pos hv]
      by_cases hz : N = 0
      · rw [if_pos hz]; exact ⟨s, hs0, rfl⟩
      · rw [if_neg hz, if_neg hz, hNr]
        have hne : (∑ i, cntR L i) ≠ 0 := fun h0 => hz (by rw [hNr, h0, EReal.coe_zero])
        rw [div_coe _ _ hne]
        exact ⟨_, div_nonneg hs0 hn0, rfl⟩
    · simp only [if_neg hv, if_true]
      by_cases hz : N = 0
      · rw [if_pos hz]; exact ⟨0, le_refl _, EReal.coe_zero.symm⟩
      · rw [if_neg hz]
        refine ⟨0, le_refl _, ?_⟩
        rw [show (0 : EReal) = ((0 : ℝ) : EReal) from EReal.coe_zero.symm, show (1 : EReal) = ((1 : ℝ) : EReal) from EReal.coe_one.symm,
          div_coe _ _ one_ne_zero, zero_div]
  obtain ⟨x, hx0, hx⟩ := hx
  exact ⟨x + e, by linarith, by rw [hx, he, EReal.coe_add]⟩

/-- (ε) With a real factor, the masked total is the mask total times it. -/
theorem sum_mask_mul (i : Fin 8192) (l : ℝ) : ∑ j, mask L i j * (l : EReal) = (((8191 - cntR L i) * l : ℝ) : EReal) := by
  simp only [mask_coe, ← EReal.coe_mul]
  rw [← OnlineSoftmax.coe_sum, ← Finset.sum_mul, sum_maskR]

/-- (ζ) The masked mean of a real: zero when the mask total is zero, else the real itself. -/
theorem masked_mean (M l : ℝ) :
    Ideal.div (-(((M * l : ℝ)) : EReal)) (if ((M : ℝ) : EReal) = 0 then 1 else (M : EReal)) = if ((M : ℝ) : EReal) = 0 then 0 else -(l : EReal) := by
  by_cases hM : M = 0
  · subst hM
    rw [if_pos EReal.coe_zero, if_pos EReal.coe_zero, zero_mul, EReal.coe_zero, neg_zero,
      show (0 : EReal) = ((0 : ℝ) : EReal) from EReal.coe_zero.symm, show (1 : EReal) = ((1 : ℝ) : EReal) from EReal.coe_one.symm,
      div_coe _ _ one_ne_zero, zero_div]
  · have hM' : ¬ ((M : ℝ) : EReal) = 0 := by rw [EReal.coe_eq_zero]; exact hM
    rw [if_neg hM', if_neg hM', ← EReal.coe_neg, div_coe _ _ hM, ← EReal.coe_neg]
    congr 1
    field_simp

/-! ## The bridge -/

include hL in
/-- Row `i`'s number in the reference is its number in the kernel program, at the row's count. -/
theorem tail_bridge (S N : EReal) (hS : ∃ s : ℝ, 0 ≤ s ∧ S = (s : EReal)) (hN : N = ∑ i, rowCnt L i) (i : Fin 8192) :
    refRow lab L S N i = kTailRow S N (rowCnt L i) := by
  obtain ⟨r, hr0, hr⟩ := refXv'_add_pos lab L hL S N hS hN i
  have hlog : Ideal.log (refXv' lab L S N i + kEps) = ((Real.log r : ℝ) : EReal) := by
    rw [hr, Ideal.log_coe, if_neg (not_le.mpr hr0)]
  have hlp : refLp lab L S N i = ((-Real.log r : ℝ) : EReal) := by
    unfold refLp; rw [hlog, EReal.coe_neg]
  unfold refRow kTailRow
  rw [hlp, sum_mask_mul, refMsum_coe, sub_rowCnt_coe, ← refXv'_eq lab L hL S N hN i, hlog, masked_mean, EReal.coe_neg]

end LossSpec

end
-- ==== Proof.RTail.lean ====
/-
  The reference's positive mask, its valid-row flag and its closing arithmetic, read at an index.

  The positive mask at `(i, j)` is 1 where the two rows carry the same label and `i ≠ j`, else 0: the label-equality matrix of
  the 4096 samples, repeated over the two views, times one minus the identity. A row is valid when some sample's label differs
  from its own. The loss is the mean over the rows of the masked mean of the negated logarithm of the row's normalized total.
-/
import proofs.«127721_j16621523436335_1_alg».proof.Proof.RFront
import proofs.«127721_j16621523436335_1_alg».proof.Proof.VTailRow
import Idealize.ShloMosaic.Lib.ReduceAll

set_option maxRecDepth 16384

noncomputable section

namespace Cert.ReferenceIdeal.RefValue

open Cert.ReferenceIdeal Cert.ReferenceIdeal.Gen Cert.ReferenceIdeal.Read Idealize.ShloMosaic Idealize.ShloMosaic.ValueIdx

variable (x0 : (⟨S4096x2x128, .f32⟩ : BufTy).Contents (Elt Ideal)) (x1 : (⟨S4096, .i32⟩ : BufTy).Contents (Elt Ideal))

/-! ## The positive mask -/

/-- A bit read as a float is 1 or 0: the test "the two words agree" as an extended real. -/
theorem uitofp_eq (a b : BitVec 32) :
    (FloatOps.uitofp (F := Ideal) .f32 (IntOp.cmpi .eq a b) : EReal) = if a = b then 1 else 0 := by
  by_cases h : a = b
  · subst h
    rw [if_pos rfl]
    show (((IntOp.cmpi .eq a a).toNat : ℝ) : EReal) = 1
    simp [IntOp.cmpi]
  · rw [if_neg h]
    show (((IntOp.cmpi .eq a b).toNat : ℝ) : EReal) = 0
    simp [IntOp.cmpi, h]

/-- The repeated labels at row `R` are the labels at `R mod 4096`. -/
theorem Lr_eq (R : Fin 8192) : Lr x1 R = x1 (ix1 (⟨R.val % 4096, Nat.mod_lt _ (by decide)⟩ : Fin 4096)) := by
  unfold Lr
  rw [val_main_v22_apply, val_main_v21_apply, val_main_v20_apply]
  refine congrArg x1 (funext fun a => ?_)
  match a with
  | ⟨0, _⟩ => exact Fin.ext (by show 0 * 4096 + R.val % 4096 = R.val % 4096; omega)

/-- The label-equality matrix repeated over the views, at `(i, j)`. -/
theorem tileEq_apply (i j : Fin 8192) :
    val_main_v10 (F := Ideal) x1 (ix2 i j) = if Lr x1 i = Lr x1 j then (1 : EReal) else 0 := by
  rw [val_main_v10_apply, val_main_v9_apply, val_main_v8_apply, val_main_v7_apply, val_main_v6_apply, val_main_v4_apply,
    val_main_v5_apply, val_main_v2_apply, val_main_v3_apply, uitofp_eq, Lr_eq, Lr_eq]
  have e1 : idx_main_v2 (idx_main_v4 (idx_main_v8 (idx_main_v9 (idx_main_v10 (ix2 i j)))))
      = ix1 (⟨i.val % 4096, Nat.mod_lt _ (by decide)⟩ : Fin 4096) := funext fun a => by
    match a with
    | ⟨0, _⟩ =>
      refine Fin.ext ?_
      show (((0 * 4096 + (i.val * 8192 + j.val) / 8192 % 4096) * 1 + 0) * 4096 + (i.val * 8192 + j.val) % 4096) / 4096 = i.val % 4096
      have := i.isLt; have := j.isLt; omega
  have e2 : idx_main_v3 (idx_main_v5 (idx_main_v8 (idx_main_v9 (idx_main_v10 (ix2 i j)))))
      = ix1 (⟨j.val % 4096, Nat.mod_lt _ (by decide)⟩ : Fin 4096) := funext fun a => by
    match a with
    | ⟨0, _⟩ =>
      refine Fin.ext ?_
      show (((0 * 4096 + (i.val * 8192 + j.val) / 8192 % 4096) * 1 + 0) * 4096 + (i.val * 8192 + j.val) % 4096) % 4096 = j.val % 4096
      have := i.isLt; have := j.isLt; omega
  rw [e1, e2]

/-- One minus the identity matrix, at `(i, j)`. -/
theorem offDiag_apply (i j : Fin 8192) :
    val_main_v18 (F := Ideal) (ix2 i j) = 1 - (if i = j then (1 : EReal) else 0) := by
  rw [val_main_v18_apply, val_main_v17_apply, val_main_cst_apply, val_main_v16_apply, val_main_v15_apply, val_main_v14_apply,
    val_main_v11_apply, val_main_v12_apply, val_main_v13_apply, val_main_c_apply, uitofp_eq]
  show Ideal.ofBits .f32 0x3F800000#32 - _ = _
  rw [LossConsts.ofBits_one]
  have hij : (IntOp.addi (BitVec.ofNat 32 i.val) 0#32 = BitVec.ofNat 32 j.val) ↔ i = j := by
    constructor
    · intro h
      have h' := congrArg BitVec.toNat h
      simp [IntOp.addi] at h'
      have := i.isLt; have := j.isLt
      exact Fin.ext (by omega)
    · rintro rfl; simp [IntOp.addi]
  simp only [show (ix2 i j 0).val = i.val from rfl, show (ix2 i j 1).val = j.val from rfl, hij]

/-- The positive mask at `(i, j)`: the labels agree and the rows differ. -/
theorem mask_apply (i j : Fin 8192) :
    val_main_v19 (F := Ideal) x1 (ix2 i j)
      = (if Lr x1 i = Lr x1 j then (1 : EReal) else 0) * (1 - (if i = j then (1 : EReal) else 0)) := by
  rw [val_main_v19_apply, tileEq_apply, offDiag_apply]
  rfl

/-! ## The valid-row flag -/

/-- A fold of `or` from 0 over one-bit words is 1 exactly when some word is 1. -/
theorem fold_ori_eq_one {ι : Type} [DecidableEq ι] (s : Finset ι) (f : ι → BitVec 1) :
    s.fold IntOp.ori 0#1 f = 1#1 ↔ ∃ b ∈ s, f b = 1#1 := by
  induction s using Finset.induction_on with
  | empty => simp
  | insert a s ha ih =>
    rw [Finset.fold_insert ha, IntOp.ori_eq_one, ih]
    constructor
    · rintro (h | ⟨b, hb, h⟩)
      · exact ⟨a, Finset.mem_insert_self a s, h⟩
      · exact ⟨b, Finset.mem_insert_of_mem hb, h⟩
    · rintro ⟨b, hb, h⟩
      rcases Finset.mem_insert.mp hb with rfl | hb
      · exact Or.inl h
      · exact Or.inr ⟨b, hb, h⟩

/-- The source index over sample `a` with sample `b` inserted is `(a, b)`. -/
theorem lift_row4096 (h : S4096x4096.Reduces [1] S4096) (a b : Fin 4096) : h.lift (ix1 a) b = ix2 a b := by
  funext c
  match c with
  | ⟨0, _⟩ => exact Fin.ext rfl
  | ⟨1, _⟩ => exact Fin.ext rfl

/-- The compared labels at `(a, b)`: sample `b`'s against sample `a`'s. -/
theorem neq_apply (a b : Fin 4096) :
    val_main_v45 (F := Ideal) x1 (ix2 a b) = IntOp.cmpi .ne (x1 (ix1 b)) (x1 (ix1 a)) := by
  rw [val_main_v45_apply, val_main_v43_apply, val_main_v44_apply, val_main_v41_apply, val_main_v42_apply]
  have e1 : idx_main_v41 (idx_main_v43 (ix2 a b)) = ix1 b := funext fun c => by match c with | ⟨0, _⟩ => rfl
  have e2 : idx_main_v42 (idx_main_v44 (ix2 a b)) = ix1 a := funext fun c => by match c with | ⟨0, _⟩ => rfl
  rw [e1, e2]

/-- Whether some sample's label differs from sample `a`'s. -/
theorem any_apply (a : Fin 4096) :
    val_main_v46 (F := Ideal) x1 (ix1 a) = if ∃ b : Fin 4096, x1 (ix1 b) ≠ x1 (ix1 a) then 1#1 else 0#1 := by
  have hR : S4096x4096.Reduces [1] S4096 := by decide
  unfold val_main_v46
  rw [Host.reduce_eq_fold_single IntOp.ori _ _ reducesTo_S4096x4096_S4096_d1 hR h_S_]
  show (Finset.univ : Finset (Fin 4096)).fold IntOp.ori 0#1 (fun b : Fin 4096 => val_main_v45 (F := Ideal) x1 (hR.lift (ix1 a) b)) = _
  have key : ((Finset.univ : Finset (Fin 4096)).fold IntOp.ori 0#1
        (fun b : Fin 4096 => val_main_v45 (F := Ideal) x1 (hR.lift (ix1 a) b)) = 1#1)
      ↔ ∃ b : Fin 4096, x1 (ix1 b) ≠ x1 (ix1 a) := by
    refine (fold_ori_eq_one _ _).trans ?_
    constructor
    · rintro ⟨b, -, hb⟩
      refine ⟨b, IntOp.cmpi_ne.mp ?_⟩
      rw [← neq_apply, ← lift_row4096 hR a b]; exact hb
    · rintro ⟨b, hb⟩
      refine ⟨b, Finset.mem_univ _, ?_⟩
      show val_main_v45 (F := Ideal) x1 (hR.lift (ix1 a) b) = 1#1
      rw [lift_row4096, neq_apply]; exact IntOp.cmpi_ne.mpr hb
  by_cases h : ∃ b : Fin 4096, x1 (ix1 b) ≠ x1 (ix1 a)
  · rw [if_pos h]; exact key.mpr h
  · rw [if_neg h]; exact eq_zero_of_ne_one fun e => h (key.mp e)

/-- The valid-row flag of row `i`: some sample's label differs from the row's. -/
theorem valid_apply (i : Fin 8192) :
    val_main_v49 (F := Ideal) x1 (ix1 i) = if ∃ b : Fin 4096, x1 (ix1 b) ≠ Lr x1 i then 1#1 else 0#1 := by
  rw [val_main_v49_apply, val_main_v48_apply, val_main_v47_apply, Lr_eq]
  have e : idx_main_v47 (idx_main_v48 (idx_main_v49 (ix1 i))) = ix1 (⟨i.val % 4096, Nat.mod_lt _ (by decide)⟩ : Fin 4096) :=
    funext fun c => by
      match c with
      | ⟨0, _⟩ => exact Fin.ext (by show 0 * 4096 + i.val % 4096 = i.val % 4096; omega)
  rw [e, any_apply]

/-! ## The closing arithmetic

The labels as a function of the sample, and the two totals kept as the reference computes them. -/

/-- The labels. -/
abbrev labOf : Fin 4096 → BitVec 32 := fun b => x1 (ix1 b)
/-- The total of the shifted exponentials, -/
abbrev Stot : EReal := val_main_v39 (F := Ideal) x0 x1 ix0
/-- and the total of the differing-label indicator. -/
abbrev Ntot : EReal := val_main_v40 (F := Ideal) x1 ix0

/-- A selection on the compare-equal bit of two extended reals is the conditional on their equality. -/
theorem select_oeq {α : Type} (x y : EReal) (a b : α) : Scalar.select (Ideal.cmp .oeq x y) a b = if x = y then a else b := by
  unfold Scalar.select Ideal.cmp
  by_cases h : x = y <;> simp [h]

/-- The compare-equal bit is 1 exactly at equality. -/
theorem cmp_oeq_eq_one (x y : EReal) : Ideal.cmp .oeq x y = 1#1 ↔ x = y := by
  unfold Ideal.cmp
  by_cases h : x = y <;> simp [h]

/-- A fold of `and` from 1 over one-bit words is 1 exactly when every word is 1. -/
theorem fold_andi_eq_one {ι : Type} [DecidableEq ι] (s : Finset ι) (f : ι → BitVec 1) :
    s.fold IntOp.andi 1#1 f = 1#1 ↔ ∀ b ∈ s, f b = 1#1 := by
  induction s using Finset.induction_on with
  | empty => simp
  | insert a s ha ih =>
    rw [Finset.fold_insert ha, IntOp.andi_eq_one, ih]
    constructor
    · rintro ⟨h1, h2⟩ b hb
      rcases Finset.mem_insert.mp hb with rfl | hb
      · exact h1
      · exact h2 b hb
    · intro h
      exact ⟨h a (Finset.mem_insert_self a s), fun b hb => h b (Finset.mem_insert_of_mem hb)⟩

/-- The valid-row flag, in the specification's words. -/
theorem valid_apply' (i : Fin 8192) :
    val_main_v49 (F := Ideal) x1 (ix1 i) = if LossSpec.refValid (labOf x1) (Lr x1) i then 1#1 else 0#1 := by
  rw [valid_apply]
  exact if_congr Iff.rfl rfl rfl

theorem xv_apply (i : Fin 8192) :
    val_main_v50 (F := Ideal) x0 x1 (ix1 i) = LossSpec.refXv (labOf x1) (Lr x1) (Stot x0 x1) i := by
  rw [val_main_v50_apply, valid_apply', val_main_call0_v1_apply, val_main_call0_v2_apply, val_main_call0_v0_apply, val_main_cst_5_apply,
    show idx_main_call0_v1 (ix1 i) = ix0 from funext fun a => a.elim0, Ideal.ofBits_def, LossConsts.ofBits_zero, LossSpec.select_ite]
  rfl

theorem nv_apply (i : Fin 8192) :
    val_main_v51 (F := Ideal) x1 (ix1 i) = LossSpec.refNv (labOf x1) (Lr x1) (Ntot x1) i := by
  rw [val_main_v51_apply, valid_apply', val_main_call1_v1_apply, val_main_call1_v2_apply, val_main_call1_v0_apply, val_main_cst_6_apply,
    show idx_main_call1_v1 (ix1 i) = ix0 from funext fun a => a.elim0, Ideal.ofBits_def, LossConsts.ofBits_zero, LossSpec.select_ite]
  rfl

theorem nvz_apply (i : Fin 8192) :
    val_main_v53 (F := Ideal) x1 (ix1 i) = Ideal.cmp .oeq (LossSpec.refNv (labOf x1) (Lr x1) (Ntot x1) i) 0 := by
  rw [val_main_v53_apply, val_main_v52_apply, val_main_cst_7_apply, nv_apply, Ideal.ofBits_def, LossConsts.ofBits_zero, Ideal.cmpf_def]

/-- Whether every row's kept count is zero. -/
theorem allz_apply :
    val_main_v54 (F := Ideal) x1 ix0 = if LossSpec.refAllz (labOf x1) (Lr x1) (Ntot x1) then 1#1 else 0#1 := by
  have key : val_main_v54 (F := Ideal) x1 ix0 = 1#1 ↔ LossSpec.refAllz (labOf x1) (Lr x1) (Ntot x1) := by
    unfold val_main_v54 LossSpec.refAllz
    rw [Host.reduce_eq_fold IntOp.andi]
    show (Finset.univ.filter fun i => reducesTo_S8192_S_d0.drop i = ix0).fold IntOp.andi 1#1 (val_main_v53 (F := Ideal) x1) = 1#1 ↔ _
    rw [fold_andi_eq_one]
    constructor
    · intro h i
      have := h (ix1 i) (Finset.mem_filter.mpr ⟨Finset.mem_univ _, funext fun a => a.elim0⟩)
      rw [nvz_apply] at this
      exact (cmp_oeq_eq_one _ _).mp this
    · intro h j _
      obtain ⟨a, rfl⟩ : ∃ a : Fin 8192, j = ix1 a :=
        ⟨⟨(j 0).val, (j 0).isLt⟩, funext fun c => by match c with | ⟨0, _⟩ => rfl⟩
      rw [nvz_apply]
      exact (cmp_oeq_eq_one _ _).mpr (h _)
  by_cases h : LossSpec.refAllz (labOf x1) (Lr x1) (Ntot x1)
  · rw [if_pos h]; exact key.mpr h
  · rw [if_neg h]; exact eq_zero_of_ne_one fun e => h (key.mp e)

theorem nvs_apply (i : Fin 8192) :
    val_main_v57 (F := Ideal) x1 (ix1 i) = LossSpec.refNvs (labOf x1) (Lr x1) (Ntot x1) i := by
  rw [val_main_v57_apply, val_main_v56_apply, val_main_v55_apply, val_main_cst_9_apply, val_main_call2_v1_apply,
    val_main_call2_v0_apply, val_main_cst_10_apply, nv_apply, Ideal.ofBits_def, Ideal.ofBits_def, LossConsts.ofBits_zero,
    LossConsts.ofBits_one, Ideal.cmpf_def, select_oeq]
  rfl

theorem xq_apply (i : Fin 8192) :
    val_main_v58 (F := Ideal) x0 x1 (ix1 i)
      = Ideal.div (LossSpec.refXv (labOf x1) (Lr x1) (Stot x0 x1) i) (LossSpec.refNvs (labOf x1) (Lr x1) (Ntot x1) i) := by
  rw [val_main_v58_apply, xv_apply, nvs_apply, Ideal.hostDivf_def]

theorem xv'_apply (i : Fin 8192) :
    val_main_v59 (F := Ideal) x0 x1 (ix1 i) = LossSpec.refXv' (labOf x1) (Lr x1) (Stot x0 x1) (Ntot x1) i := by
  unfold val_main_v59
  rw [select_apply, broadcastInDim_apply _ bcast_S_S8192 _ (ix1 i) ix0 (fun a => a.elim0), allz_apply, xv_apply, xq_apply,
    LossSpec.select_ite]
  rfl

theorem lp_apply (i : Fin 8192) :
    val_main_v64 (F := Ideal) x0 x1 (ix2 i (0 : Fin 1)) = LossSpec.refLp (labOf x1) (Lr x1) (Stot x0 x1) (Ntot x1) i := by
  rw [val_main_v64_apply, val_main_v63_apply, val_main_v62_apply, val_main_v60_apply, val_main_v61_apply, val_main_cst_11_apply,
    show idx_main_v60 (ix2 i (0 : Fin 1)) = ix1 i from funext fun a => by match a with | ⟨0, _⟩ => rfl, xv'_apply,
    Ideal.hostNegf_def, Ideal.negf_def, Ideal.hostUnary_log_def, Ideal.addf_def, Ideal.ofBits_def]
  rfl

theorem maskS_apply (i j : Fin 8192) : val_main_v19 (F := Ideal) x1 (ix2 i j) = LossSpec.mask (Lr x1) i j := by
  rw [mask_apply]
  rfl

theorem msum_apply (i : Fin 8192) : val_main_v65 (F := Ideal) x1 (ix1 i) = LossSpec.refMsum (Lr x1) i := by
  rw [val_main_v65_apply, val_main_cst_12_apply, Ideal.ofBits_def, LossConsts.ofBits_zero, zero_add]
  unfold LossSpec.refMsum
  refine Finset.sum_congr rfl fun k _ => ?_
  rw [show idx_main_v65 (ix1 i) k = ix2 i k from funext fun a => by match a with | ⟨0, _⟩ => rfl | ⟨1, _⟩ => rfl, maskS_apply]

theorem msafe_apply (i : Fin 8192) :
    val_main_v68 (F := Ideal) x1 (ix1 i) = if LossSpec.refMsum (Lr x1) i = 0 then 1 else LossSpec.refMsum (Lr x1) i := by
  rw [val_main_v68_apply, val_main_v67_apply, val_main_v66_apply, val_main_cst_13_apply, val_main_call4_v1_apply,
    val_main_call4_v0_apply, val_main_cst_14_apply, msum_apply, Ideal.ofBits_def, Ideal.ofBits_def, LossConsts.ofBits_zero,
    LossConsts.ofBits_one, Ideal.cmpf_def, select_oeq]

theorem wsum_apply (i : Fin 8192) :
    val_main_v71 (F := Ideal) x0 x1 (ix1 i)
      = ∑ j : Fin 8192, LossSpec.mask (Lr x1) i j * LossSpec.refLp (labOf x1) (Lr x1) (Stot x0 x1) (Ntot x1) i := by
  rw [val_main_v71_apply, val_main_cst_15_apply, Ideal.ofBits_def, LossConsts.ofBits_zero, zero_add]
  refine Finset.sum_congr rfl fun k _ => ?_
  rw [show idx_main_v71 (ix1 i) k = ix2 i k from funext fun a => by match a with | ⟨0, _⟩ => rfl | ⟨1, _⟩ => rfl,
    val_main_v70_apply, val_main_v69_apply, maskS_apply,
    show idx_main_v69 (ix2 i k) = ix2 i (0 : Fin 1) from funext fun a => by match a with | ⟨0, _⟩ => rfl | ⟨1, _⟩ => rfl,
    lp_apply, Ideal.mulf_def]

/-- Row `i`'s term of the loss. -/
theorem row_apply (i : Fin 8192) :
    val_main_v73 (F := Ideal) x0 x1 (ix1 i) = LossSpec.refRow (labOf x1) (Lr x1) (Stot x0 x1) (Ntot x1) i := by
  rw [val_main_v73_apply, val_main_v72_apply, wsum_apply, msafe_apply, Ideal.hostDivf_def, Ideal.hostNegf_def, Ideal.negf_def]
  rfl

/-- A rank-1 index set is its coordinate range, so a sum over it is the sum over the coordinate. -/
theorem sum_idx1 {M : Type*} [AddCommMonoid M] {n : Nat} (f : (⟨1, ![n]⟩ : Shape).Idx → M) : ∑ i, f i = ∑ a : Fin n, f (ix1 a) := by
  let e : (⟨1, ![n]⟩ : Shape).Idx ≃ Fin n :=
    { toFun := fun i => i 0, invFun := fun a => ix1 a, left_inv := fun i => (eq_ix1 i).symm, right_inv := fun _ => rfl }
  rw [← Equiv.sum_comp e.symm f]
  rfl

/-- The total of the rows' terms. -/
theorem total_apply :
    (∑ j : S8192.Idx, val_main_v73 (F := Ideal) x0 x1 j)
      = ∑ i : Fin 8192, LossSpec.refRow (labOf x1) (Lr x1) (Stot x0 x1) (Ntot x1) i :=
  (sum_idx1 (n := 8192) (val_main_v73 (F := Ideal) x0 x1)).trans (Finset.sum_congr rfl fun i _ => row_apply x0 x1 i)

/-- THE REFERENCE'S RESULT: the mean over the rows of the rows' terms. -/
theorem tail_apply :
    val_main_v75 (F := Ideal) x0 x1 ix0
      = Ideal.div (∑ i : Fin 8192, LossSpec.refRow (labOf x1) (Lr x1) (Stot x0 x1) (Ntot x1) i) ((8192 : ℝ) : EReal) := by
  rw [val_main_v75_apply, val_main_v74_apply, val_main_cst_16_apply, val_main_cst_17_apply, Ideal.hostDivf_def]
  rw [Ideal.ofBits_def, Ideal.ofBits_def]
  rw [LossConsts.ofBits_zero]
  rw [LossConsts.ofBits_8192]
  rw [zero_add]
  rw [total_apply]

end Cert.ReferenceIdeal.RefValue

end
-- ==== Proof.ReferenceValue.lean ====
/-
  The reference's run with its result at the staged value.

  @main of the reference is a straight line of 106 host operations, each writing one buffer once. Read one operation at a time, the
  buffer an operation writes holds the operation's function of the contents of the buffers it reads: that is how the stages
  `val_…` are defined, each from the earlier ones. The line is cut into ten consecutive stretches; for each, from any contents that hold the
  earlier stages at the buffers the stretch or a later one reads, the contents after the stretch hold the stages at the buffers a later
  stretch reads. Chained, the result buffer ends at its stage, a function of the two arguments' launch contents.
-/
import proofs.«127721_j16621523436335_1_alg».proof.Proof.ReferenceRead
import proofs.«127721_j16621523436335_1_alg».proof.Proof.ReferenceFrame

noncomputable section

namespace Cert.ReferenceIdeal.RefFrame

open Cert.ReferenceIdeal Cert.ReferenceIdeal.Gen Cert.ReferenceIdeal.Value Cert.ReferenceIdeal.Read Idealize.ShloMosaic Idealize.ShloMosaic.TcCoe Idealize.SL.Sem Idealize.ShloMosaic.StableHlo

variable {F : FTy → Type} [FloatOps F]

/-- Two lines' contents one after the other are the contents after their concatenation. -/
theorem after_append' : ∀ (l₁ l₂ : List (HloOp τ sig (Elt F))) (V : Valuation τ sig (Elt F)), after (l₁ ++ l₂) V = after l₂ (after l₁ V)
  | [], _, _ => rfl
  | op :: l₁, l₂, V => by rw [List.cons_append, after_cons, after_cons, after_append' l₁ l₂]

/-- Operations 0 … 10 of @main, in order. -/
abbrev ops0 : List (HloOp τ sig (Elt F)) :=
  [ unary main_arg0 main_v0 ((transpose S2x4096x128 [1, 0, 2] · transposes_S4096x2x128_S2x4096x128_1_0_2) : (⟨S4096x2x128, .f32⟩ : BufTy).Contents (Elt F) → (⟨S2x4096x128, .f32⟩ : BufTy).Contents (Elt F)),
    reshape main_v0 main_v1 rfl shapeCasts_S2x4096x128_S8192x128,
    unary main_arg1 main_v2 (broadcastInDim S4096x1 ![0] bcast_S4096_S4096x1_0 : (⟨S4096, .i32⟩ : BufTy).Contents (Elt F) → (⟨S4096x1, .i32⟩ : BufTy).Contents (Elt F)),
    unary main_arg1 main_v3 (broadcastInDim S1x4096 ![1] bcast_S4096_S1x4096_1 : (⟨S4096, .i32⟩ : BufTy).Contents (Elt F) → (⟨S1x4096, .i32⟩ : BufTy).Contents (Elt F)),
    unary main_v2 main_v4 (broadcastInDim S4096x4096 ![0, 1] bcast_S4096x1_S4096x4096_0_1 : (⟨S4096x1, .i32⟩ : BufTy).Contents (Elt F) → (⟨S4096x4096, .i32⟩ : BufTy).Contents (Elt F)),
    unary main_v3 main_v5 (broadcastInDim S4096x4096 ![0, 1] bcast_S1x4096_S4096x4096_0_1 : (⟨S1x4096, .i32⟩ : BufTy).Contents (Elt F) → (⟨S4096x4096, .i32⟩ : BufTy).Contents (Elt F)),
    binary main_v4 main_v5 main_v6 (cmpi .eq : (⟨S4096x4096, .i32⟩ : BufTy).Contents (Elt F) → (⟨S4096x4096, .i32⟩ : BufTy).Contents (Elt F) → (⟨S4096x4096, .i1⟩ : BufTy).Contents (Elt F)),
    unary main_v6 main_v7 (uitofp .f32 : (⟨S4096x4096, .i1⟩ : BufTy).Contents (Elt F) → (⟨S4096x4096, .f32⟩ : BufTy).Contents (Elt F)),
    reshape main_v7 main_v8 rfl shapeCasts_S4096x4096_S1x4096x1x4096,
    unary main_v8 main_v9 (broadcastInDim S2x4096x2x4096 ![0, 1, 2, 3] bcast_S1x4096x1x4096_S2x4096x2x4096_0_1_2_3 : (⟨S1x4096x1x4096, .f32⟩ : BufTy).Contents (Elt F) → (⟨S2x4096x2x4096, .f32⟩ : BufTy).Contents (Elt F)),
    reshape main_v9 main_v10 rfl shapeCasts_S2x4096x2x4096_S8192x8192 ]

set_option maxRecDepth 8192 in
/-- After them, from any contents that hold the earlier stages at the buffers read: the stages at the buffers read later. -/
theorem stretch0 (W : Valuation τ sig (Elt F)) (x0 : (⟨S4096x2x128, .f32⟩ : BufTy).Contents (Elt F)) (x1 : (⟨S4096, .i32⟩ : BufTy).Contents (Elt F))
    (h_main_arg0 : W (Proc.devRef .tc main_arg0) = x0)
    (h_main_arg1 : W (Proc.devRef .tc main_arg1) = x1) :
    after ops0 W (Proc.devRef .tc main_arg1) = x1
    ∧ after ops0 W (Proc.devRef .tc main_v1) = val_main_v1 (F := F) x0
    ∧ after ops0 W (Proc.devRef .tc main_v10) = val_main_v10 (F := F) x1 := by
  subst h_main_arg0
  subst h_main_arg1
  refine ⟨?_, ?_, ?_⟩
  · after_results_simp
  · after_results_simp; (try simp only [val_main_v0, val_main_v1, val_main_v2, val_main_v3, val_main_v4, val_main_v5, val_main_v6, val_main_v7, val_main_v8, val_main_v9, val_main_v10]); (try rfl)
  · after_results_simp; (try simp only [val_main_v0, val_main_v1, val_main_v2, val_main_v3, val_main_v4, val_main_v5, val_main_v6, val_main_v7, val_main_v8, val_main_v9, val_main_v10]); (try rfl)

/-- Operations 11 … 21 of @main, in order. -/
abbrev ops1 : List (HloOp τ sig (Elt F)) :=
  [ nullary main_v11 (iotaInDim S8192x8192 32 0),
    nullary main_v12 (iotaInDim S8192x8192 32 1),
    nullary main_c (constantI S_ 32 0#32),
    unary main_c main_v13 (broadcastInDim S8192x8192 ![] bcast_S_S8192x8192 : (⟨S_, .i32⟩ : BufTy).Contents (Elt F) → (⟨S8192x8192, .i32⟩ : BufTy).Contents (Elt F)),
    binary main_v11 main_v13 main_v14 (addi : (⟨S8192x8192, .i32⟩ : BufTy).Contents (Elt F) → (⟨S8192x8192, .i32⟩ : BufTy).Contents (Elt F) → (⟨S8192x8192, .i32⟩ : BufTy).Contents (Elt F)),
    binary main_v14 main_v12 main_v15 (cmpi .eq : (⟨S8192x8192, .i32⟩ : BufTy).Contents (Elt F) → (⟨S8192x8192, .i32⟩ : BufTy).Contents (Elt F) → (⟨S8192x8192, .i1⟩ : BufTy).Contents (Elt F)),
    unary main_v15 main_v16 (uitofp .f32 : (⟨S8192x8192, .i1⟩ : BufTy).Contents (Elt F) → (⟨S8192x8192, .f32⟩ : BufTy).Contents (Elt F)),
    nullary main_cst (constant S_ .f32 0x3F800000#32),
    unary main_cst main_v17 (broadcastInDim S8192x8192 ![] bcast_S_S8192x8192 : (⟨S_, .f32⟩ : BufTy).Contents (Elt F) → (⟨S8192x8192, .f32⟩ : BufTy).Contents (Elt F)),
    binary main_v17 main_v16 main_v18 (subf : (⟨S8192x8192, .f32⟩ : BufTy).Contents (Elt F) → (⟨S8192x8192, .f32⟩ : BufTy).Contents (Elt F) → (⟨S8192x8192, .f32⟩ : BufTy).Contents (Elt F)),
    binary main_v10 main_v18 main_v19 (mulf : (⟨S8192x8192, .f32⟩ : BufTy).Contents (Elt F) → (⟨S8192x8192, .f32⟩ : BufTy).Contents (Elt F) → (⟨S8192x8192, .f32⟩ : BufTy).Contents (Elt F)) ]

set_option maxRecDepth 8192 in
/-- After them, from any contents that hold the earlier stages at the buffers read: the stages at the buffers read later. -/
theorem stretch1 (W : Valuation τ sig (Elt F)) (x0 : (⟨S4096x2x128, .f32⟩ : BufTy).Contents (Elt F)) (x1 : (⟨S4096, .i32⟩ : BufTy).Contents (Elt F))
    (h_main_arg1 : W (Proc.devRef .tc main_arg1) = x1)
    (h_main_v1 : W (Proc.devRef .tc main_v1) = val_main_v1 (F := F) x0)
    (h_main_v10 : W (Proc.devRef .tc main_v10) = val_main_v10 (F := F) x1) :
    after ops1 W (Proc.devRef .tc main_arg1) = x1
    ∧ after ops1 W (Proc.devRef .tc main_v1) = val_main_v1 (F := F) x0
    ∧ after ops1 W (Proc.devRef .tc main_v19) = val_main_v19 (F := F) x1 := by
  subst h_main_arg1
  refine ⟨?_, ?_, ?_⟩
  · after_results_simp
  · after_results_simp; exact h_main_v1
  · after_results_simp; (try simp only [val_main_v11, val_main_v12, val_main_c, val_main_v13, val_main_v14, val_main_v15, val_main_v16, val_main_cst, val_main_v17, val_main_v18, val_main_v19]); (try simp only [← h_main_v1, ← h_main_v10]); (try rfl)

/-- Operations 22 … 30 of @main, in order. -/
abbrev ops2 : List (HloOp τ sig (Elt F)) :=
  [ reshape main_arg1 main_v20 rfl shapeCasts_S4096_S1x4096,
    unary main_v20 main_v21 (broadcastInDim S2x4096 ![0, 1] bcast_S1x4096_S2x4096_0_1 : (⟨S1x4096, .i32⟩ : BufTy).Contents (Elt F) → (⟨S2x4096, .i32⟩ : BufTy).Contents (Elt F)),
    reshape main_v21 main_v22 rfl shapeCasts_S2x4096_S8192,
    unary main_v22 main_v23 (broadcastInDim S8192x1 ![0] bcast_S8192_S8192x1_0 : (⟨S8192, .i32⟩ : BufTy).Contents (Elt F) → (⟨S8192x1, .i32⟩ : BufTy).Contents (Elt F)),
    unary main_v22 main_v24 (broadcastInDim S1x8192 ![1] bcast_S8192_S1x8192_1 : (⟨S8192, .i32⟩ : BufTy).Contents (Elt F) → (⟨S1x8192, .i32⟩ : BufTy).Contents (Elt F)),
    unary main_v23 main_v25 (broadcastInDim S8192x8192 ![0, 1] bcast_S8192x1_S8192x8192_0_1 : (⟨S8192x1, .i32⟩ : BufTy).Contents (Elt F) → (⟨S8192x8192, .i32⟩ : BufTy).Contents (Elt F)),
    unary main_v24 main_v26 (broadcastInDim S8192x8192 ![0, 1] bcast_S1x8192_S8192x8192_0_1 : (⟨S1x8192, .i32⟩ : BufTy).Contents (Elt F) → (⟨S8192x8192, .i32⟩ : BufTy).Contents (Elt F)),
    binary main_v25 main_v26 main_v27 (cmpi .ne : (⟨S8192x8192, .i32⟩ : BufTy).Contents (Elt F) → (⟨S8192x8192, .i32⟩ : BufTy).Contents (Elt F) → (⟨S8192x8192, .i1⟩ : BufTy).Contents (Elt F)),
    unary main_v27 main_v28 (uitofp .f32 : (⟨S8192x8192, .i1⟩ : BufTy).Contents (Elt F) → (⟨S8192x8192, .f32⟩ : BufTy).Contents (Elt F)) ]

set_option maxRecDepth 8192 in
/-- After them, from any contents that hold the earlier stages at the buffers read: the stages at the buffers read later. -/
theorem stretch2 (W : Valuation τ sig (Elt F)) (x0 : (⟨S4096x2x128, .f32⟩ : BufTy).Contents (Elt F)) (x1 : (⟨S4096, .i32⟩ : BufTy).Contents (Elt F))
    (h_main_arg1 : W (Proc.devRef .tc main_arg1) = x1)
    (h_main_v1 : W (Proc.devRef .tc main_v1) = val_main_v1 (F := F) x0)
    (h_main_v19 : W (Proc.devRef .tc main_v19) = val_main_v19 (F := F) x1) :
    after ops2 W (Proc.devRef .tc main_arg1) = x1
    ∧ after ops2 W (Proc.devRef .tc main_v1) = val_main_v1 (F := F) x0
    ∧ after ops2 W (Proc.devRef .tc main_v19) = val_main_v19 (F := F) x1
    ∧ after ops2 W (Proc.devRef .tc main_v28) = val_main_v28 (F := F) x1 := by
  subst h_main_arg1
  refine ⟨?_, ?_, ?_, ?_⟩
  · after_results_simp
  · after_results_simp; exact h_main_v1
  · after_results_simp; exact h_main_v19
  · after_results_simp; (try simp only [val_main_v20, val_main_v21, val_main_v22, val_main_v23, val_main_v24, val_main_v25, val_main_v26, val_main_v27, val_main_v28]); (try simp only [← h_main_v1, ← h_main_v19]); (try rfl)

/-- Operations 31 … 36 of @main, in order. -/
abbrev ops3 : List (HloOp τ sig (Elt F)) :=
  [ unary main_v1 main_v29 ((transpose S128x8192 [1, 0] · transposes_S8192x128_S128x8192_1_0) : (⟨S8192x128, .f32⟩ : BufTy).Contents (Elt F) → (⟨S128x8192, .f32⟩ : BufTy).Contents (Elt F)),
    binary main_v1 main_v29 main_v30 ((fun l r => Host.dotGeneral dot_S8192x128_S128x8192_S8192x8192_1_0_0_1_n_n none l r) : (⟨S8192x128, .f32⟩ : BufTy).Contents (Elt F) → (⟨S128x8192, .f32⟩ : BufTy).Contents (Elt F) → (⟨S8192x8192, .f32⟩ : BufTy).Contents (Elt F)),
    nullary main_cst_0 (constant S_ .f32 0x3D4CCCCD#32),
    unary main_cst_0 main_v31 (broadcastInDim S8192x8192 ![] bcast_S_S8192x8192 : (⟨S_, .f32⟩ : BufTy).Contents (Elt F) → (⟨S8192x8192, .f32⟩ : BufTy).Contents (Elt F)),
    binary main_v30 main_v31 main_v32 (Host.divf : (⟨S8192x8192, .f32⟩ : BufTy).Contents (Elt F) → (⟨S8192x8192, .f32⟩ : BufTy).Contents (Elt F) → (⟨S8192x8192, .f32⟩ : BufTy).Contents (Elt F)),
    binary main_v32 main_v28 main_v33 (mulf : (⟨S8192x8192, .f32⟩ : BufTy).Contents (Elt F) → (⟨S8192x8192, .f32⟩ : BufTy).Contents (Elt F) → (⟨S8192x8192, .f32⟩ : BufTy).Contents (Elt F)) ]

set_option maxRecDepth 8192 in
/-- After them, from any contents that hold the earlier stages at the buffers read: the stages at the buffers read later. -/
theorem stretch3 (W : Valuation τ sig (Elt F)) (x0 : (⟨S4096x2x128, .f32⟩ : BufTy).Contents (Elt F)) (x1 : (⟨S4096, .i32⟩ : BufTy).Contents (Elt F))
    (h_main_arg1 : W (Proc.devRef .tc main_arg1) = x1)
    (h_main_v1 : W (Proc.devRef .tc main_v1) = val_main_v1 (F := F) x0)
    (h_main_v19 : W (Proc.devRef .tc main_v19) = val_main_v19 (F := F) x1)
    (h_main_v28 : W (Proc.devRef .tc main_v28) = val_main_v28 (F := F) x1) :
    after ops3 W (Proc.devRef .tc main_arg1) = x1
    ∧ after ops3 W (Proc.devRef .tc main_v19) = val_main_v19 (F := F) x1
    ∧ after ops3 W (Proc.devRef .tc main_v28) = val_main_v28 (F := F) x1
    ∧ after ops3 W (Proc.devRef .tc main_v33) = val_main_v33 (F := F) x0 x1 := by
  subst h_main_arg1
  refine ⟨?_, ?_, ?_, ?_⟩
  · after_results_simp
  · after_results_simp; exact h_main_v19
  · after_results_simp; exact h_main_v28
  · after_results_simp; (try simp only [val_main_v29, val_main_v30, val_main_cst_0, val_main_v31, val_main_v32, val_main_v33]); (try simp only [← h_main_v1, ← h_main_v19, ← h_main_v28]); (try rfl)

/-- Operations 37 … 46 of @main, in order. -/
abbrev ops4 : List (HloOp τ sig (Elt F)) :=
  [ nullary main_cst_1 (constant S_ .f32 0xFF800000#32),
    binary main_v33 main_cst_1 main_v34 ((fun x v => Host.reduce FloatOps.maximumf x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    unary main_v34 main_v35 (broadcastInDim S8192x1 ![0] bcast_S8192_S8192x1_0 : (⟨S8192, .f32⟩ : BufTy).Contents (Elt F) → (⟨S8192x1, .f32⟩ : BufTy).Contents (Elt F)),
    unary main_v35 main_v36 (broadcastInDim S8192x8192 ![0, 1] bcast_S8192x1_S8192x8192_0_1 : (⟨S8192x1, .f32⟩ : BufTy).Contents (Elt F) → (⟨S8192x8192, .f32⟩ : BufTy).Contents (Elt F)),
    binary main_v33 main_v36 main_v37 (subf : (⟨S8192x8192, .f32⟩ : BufTy).Contents (Elt F) → (⟨S8192x8192, .f32⟩ : BufTy).Contents (Elt F) → (⟨S8192x8192, .f32⟩ : BufTy).Contents (Elt F)),
    unary main_v37 main_v38 (Host.exp : (⟨S8192x8192, .f32⟩ : BufTy).Contents (Elt F) → (⟨S8192x8192, .f32⟩ : BufTy).Contents (Elt F)),
    nullary main_cst_2 (constant S_ .f32 0x00000000#32),
    binary main_v38 main_cst_2 main_v39 ((fun x v => Host.reduceAdd x v reducesTo_S8192x8192_S_d0_1 h_S_) : (⟨S8192x8192, .f32⟩ : BufTy).Contents (Elt F) → (⟨S_, .f32⟩ : BufTy).Contents (Elt F) → (⟨S_, .f32⟩ : BufTy).Contents (Elt F)),
    nullary main_cst_3 (constant S_ .f32 0x00000000#32),
    binary main_v28 main_cst_3 main_v40 ((fun x v => Host.reduceAdd x v reducesTo_S8192x8192_S_d0_1 h_S_) : (⟨S8192x8192, .f32⟩ : BufTy).Contents (Elt F) → (⟨S_, .f32⟩ : BufTy).Contents (Elt F) → (⟨S_, .f32⟩ : BufTy).Contents (Elt F)) ]

set_option maxRecDepth 8192 in
/-- After them, from any contents that hold the earlier stages at the buffers read: the stages at the buffers read later. -/
theorem stretch4 (W : Valuation τ sig (Elt F)) (x0 : (⟨S4096x2x128, .f32⟩ : BufTy).Contents (Elt F)) (x1 : (⟨S4096, .i32⟩ : BufTy).Contents (Elt F))
    (h_main_arg1 : W (Proc.devRef .tc main_arg1) = x1)
    (h_main_v19 : W (Proc.devRef .tc main_v19) = val_main_v19 (F := F) x1)
    (h_main_v28 : W (Proc.devRef .tc main_v28) = val_main_v28 (F := F) x1)
    (h_main_v33 : W (Proc.devRef .tc main_v33) = val_main_v33 (F := F) x0 x1) :
    after ops4 W (Proc.devRef .tc main_arg1) = x1
    ∧ after ops4 W (Proc.devRef .tc main_v19) = val_main_v19 (F := F) x1
    ∧ after ops4 W (Proc.devRef .tc main_v39) = val_main_v39 (F := F) x0 x1
    ∧ after ops4 W (Proc.devRef .tc main_v40) = val_main_v40 (F := F) x1 := by
  subst h_main_arg1
  refine ⟨?_, ?_, ?_, ?_⟩
  · after_results_simp
  · after_results_simp; exact h_main_v19
  · after_results_simp; (try simp only [val_main_cst_1, val_main_v34, val_main_v35, val_main_v36, val_main_v37, val_main_v38, val_main_cst_2, val_main_v39, val_main_cst_3, val_main_v40]); (try simp only [← h_main_v19, ← h_main_v28, ← h_main_v33]); (try rfl)
  · after_results_simp; (try simp only [val_main_cst_1, val_main_v34, val_main_v35, val_main_v36, val_main_v37, val_main_v38, val_main_cst_2, val_main_v39, val_main_cst_3, val_main_v40]); (try simp only [← h_main_v19, ← h_main_v28, ← h_main_v33]); (try rfl)

/-- Operations 47 … 56 of @main, in order. -/
abbrev ops5 : List (HloOp τ sig (Elt F)) :=
  [ unary main_arg1 main_v41 (broadcastInDim S1x4096 ![1] bcast_S4096_S1x4096_1 : (⟨S4096, .i32⟩ : BufTy).Contents (Elt F) → (⟨S1x4096, .i32⟩ : BufTy).Contents (Elt F)),
    unary main_arg1 main_v42 (broadcastInDim S4096x1 ![0] bcast_S4096_S4096x1_0 : (⟨S4096, .i32⟩ : BufTy).Contents (Elt F) → (⟨S4096x1, .i32⟩ : BufTy).Contents (Elt F)),
    unary main_v41 main_v43 (broadcastInDim S4096x4096 ![0, 1] bcast_S1x4096_S4096x4096_0_1 : (⟨S1x4096, .i32⟩ : BufTy).Contents (Elt F) → (⟨S4096x4096, .i32⟩ : BufTy).Contents (Elt F)),
    unary main_v42 main_v44 (broadcastInDim S4096x4096 ![0, 1] bcast_S4096x1_S4096x4096_0_1 : (⟨S4096x1, .i32⟩ : BufTy).Contents (Elt F) → (⟨S4096x4096, .i32⟩ : BufTy).Contents (Elt F)),
    binary main_v43 main_v44 main_v45 (cmpi .ne : (⟨S4096x4096, .i32⟩ : BufTy).Contents (Elt F) → (⟨S4096x4096, .i32⟩ : BufTy).Contents (Elt F) → (⟨S4096x4096, .i1⟩ : BufTy).Contents (Elt F)),
    nullary main_c_4 (constantI S_ 1 0#1),
    binary main_v45 main_c_4 main_v46 ((fun x v => Host.reduce IntOp.ori x v reducesTo_S4096x4096_S4096_d1 h_S_) : (⟨S4096x4096, .i1⟩ : BufTy).Contents (Elt F) → (⟨S_, .i1⟩ : BufTy).Contents (Elt F) → (⟨S4096, .i1⟩ : BufTy).Contents (Elt F)),
    reshape main_v46 main_v47 rfl shapeCasts_S4096_S1x4096,
    unary main_v47 main_v48 (broadcastInDim S2x4096 ![0, 1] bcast_S1x4096_S2x4096_0_1 : (⟨S1x4096, .i1⟩ : BufTy).Contents (Elt F) → (⟨S2x4096, .i1⟩ : BufTy).Contents (Elt F)),
    reshape main_v48 main_v49 rfl shapeCasts_S2x4096_S8192 ]

set_option maxRecDepth 8192 in
/-- After them, from any contents that hold the earlier stages at the buffers read: the stages at the buffers read later. -/
theorem stretch5 (W : Valuation τ sig (Elt F)) (x0 : (⟨S4096x2x128, .f32⟩ : BufTy).Contents (Elt F)) (x1 : (⟨S4096, .i32⟩ : BufTy).Contents (Elt F))
    (h_main_arg1 : W (Proc.devRef .tc main_arg1) = x1)
    (h_main_v19 : W (Proc.devRef .tc main_v19) = val_main_v19 (F := F) x1)
    (h_main_v39 : W (Proc.devRef .tc main_v39) = val_main_v39 (F := F) x0 x1)
    (h_main_v40 : W (Proc.devRef .tc main_v40) = val_main_v40 (F := F) x1) :
    after ops5 W (Proc.devRef .tc main_v19) = val_main_v19 (F := F) x1
    ∧ after ops5 W (Proc.devRef .tc main_v39) = val_main_v39 (F := F) x0 x1
    ∧ after ops5 W (Proc.devRef .tc main_v40) = val_main_v40 (F := F) x1
    ∧ after ops5 W (Proc.devRef .tc main_v49) = val_main_v49 (F := F) x1 := by
  subst h_main_arg1
  refine ⟨?_, ?_, ?_, ?_⟩
  · after_results_simp; exact h_main_v19
  · after_results_simp; exact h_main_v39
  · after_results_simp; exact h_main_v40
  · after_results_simp; (try simp only [val_main_v41, val_main_v42, val_main_v43, val_main_v44, val_main_v45, val_main_c_4, val_main_v46, val_main_v47, val_main_v48, val_main_v49]); (try simp only [← h_main_v19, ← h_main_v39, ← h_main_v40]); (try rfl)

/-- Operations 57 … 66 of @main, in order. -/
abbrev ops6 : List (HloOp τ sig (Elt F)) :=
  [ nullary main_cst_5 (constant S_ .f32 0x00000000#32),
    TRef.unary (TRef.of (T := ⟨S_, .f32⟩) main_cst_5) (TRef.of (T := ⟨S_, .f32⟩) main_call0_v0) id,
    TRef.unary (TRef.of (T := ⟨S_, .f32⟩) main_v39) (TRef.of (T := ⟨S8192, .f32⟩) main_call0_v1) (broadcastInDim S8192 ![] bcast_S_S8192),
    TRef.unary (TRef.of (T := ⟨S_, .f32⟩) main_call0_v0) (TRef.of (T := ⟨S8192, .f32⟩) main_call0_v2) (broadcastInDim S8192 ![] bcast_S_S8192),
    TRef.ternary (TRef.of (T := ⟨S8192, .i1⟩) main_v49) (TRef.of (T := ⟨S8192, .f32⟩) main_call0_v1) (TRef.of (T := ⟨S8192, .f32⟩) main_call0_v2) (TRef.of (T := ⟨S8192, .f32⟩) main_v50) select,
    nullary main_cst_6 (constant S_ .f32 0x00000000#32),
    TRef.unary (TRef.of (T := ⟨S_, .f32⟩) main_cst_6) (TRef.of (T := ⟨S_, .f32⟩) main_call1_v0) id,
    TRef.unary (TRef.of (T := ⟨S_, .f32⟩) main_v40) (TRef.of (T := ⟨S8192, .f32⟩) main_call1_v1) (broadcastInDim S8192 ![] bcast_S_S8192),
    TRef.unary (TRef.of (T := ⟨S_, .f32⟩) main_call1_v0) (TRef.of (T := ⟨S8192, .f32⟩) main_call1_v2) (broadcastInDim S8192 ![] bcast_S_S8192),
    TRef.ternary (TRef.of (T := ⟨S8192, .i1⟩) main_v49) (TRef.of (T := ⟨S8192, .f32⟩) main_call1_v1) (TRef.of (T := ⟨S8192, .f32⟩) main_call1_v2) (TRef.of (T := ⟨S8192, .f32⟩) main_v51) select ]

/-- The same operations over the plain builders: an inlined call's typed references are these buffers, the transports identities. -/
abbrev ops6p : List (HloOp τ sig (Elt F)) :=
  [ nullary main_cst_5 (constant S_ .f32 0x00000000#32),
    unary main_cst_5 main_call0_v0 ((id) : (⟨S_, .f32⟩ : BufTy).Contents (Elt F) → (⟨S_, .f32⟩ : BufTy).Contents (Elt F)),
    unary main_v39 main_call0_v1 (((broadcastInDim S8192 ![] bcast_S_S8192)) : (⟨S_, .f32⟩ : BufTy).Contents (Elt F) → (⟨S8192, .f32⟩ : BufTy).Contents (Elt F)),
    unary main_call0_v0 main_call0_v2 (((broadcastInDim S8192 ![] bcast_S_S8192)) : (⟨S_, .f32⟩ : BufTy).Contents (Elt F) → (⟨S8192, .f32⟩ : BufTy).Contents (Elt F)),
    ternary main_v49 main_call0_v1 main_call0_v2 main_v50 ((select) : (⟨S8192, .i1⟩ : BufTy).Contents (Elt F) → (⟨S8192, .f32⟩ : BufTy).Contents (Elt F) → (⟨S8192, .f32⟩ : BufTy).Contents (Elt F) → (⟨S8192, .f32⟩ : BufTy).Contents (Elt F)),
    nullary main_cst_6 (constant S_ .f32 0x00000000#32),
    unary main_cst_6 main_call1_v0 ((id) : (⟨S_, .f32⟩ : BufTy).Contents (Elt F) → (⟨S_, .f32⟩ : BufTy).Contents (Elt F)),
    unary main_v40 main_call1_v1 (((broadcastInDim S8192 ![] bcast_S_S8192)) : (⟨S_, .f32⟩ : BufTy).Contents (Elt F) → (⟨S8192, .f32⟩ : BufTy).Contents (Elt F)),
    unary main_call1_v0 main_call1_v2 (((broadcastInDim S8192 ![] bcast_S_S8192)) : (⟨S_, .f32⟩ : BufTy).Contents (Elt F) → (⟨S8192, .f32⟩ : BufTy).Contents (Elt F)),
    ternary main_v49 main_call1_v1 main_call1_v2 main_v51 ((select) : (⟨S8192, .i1⟩ : BufTy).Contents (Elt F) → (⟨S8192, .f32⟩ : BufTy).Contents (Elt F) → (⟨S8192, .f32⟩ : BufTy).Contents (Elt F) → (⟨S8192, .f32⟩ : BufTy).Contents (Elt F)) ]
theorem ops6_plain : (ops6 : List (HloOp τ sig (Elt F))) = ops6p := rfl

set_option maxRecDepth 8192 in
/-- After them, from any contents that hold the earlier stages at the buffers read: the stages at the buffers read later. -/
theorem stretch6 (W : Valuation τ sig (Elt F)) (x0 : (⟨S4096x2x128, .f32⟩ : BufTy).Contents (Elt F)) (x1 : (⟨S4096, .i32⟩ : BufTy).Contents (Elt F))
    (h_main_v19 : W (Proc.devRef .tc main_v19) = val_main_v19 (F := F) x1)
    (h_main_v39 : W (Proc.devRef .tc main_v39) = val_main_v39 (F := F) x0 x1)
    (h_main_v40 : W (Proc.devRef .tc main_v40) = val_main_v40 (F := F) x1)
    (h_main_v49 : W (Proc.devRef .tc main_v49) = val_main_v49 (F := F) x1) :
    after ops6 W (Proc.devRef .tc main_v19) = val_main_v19 (F := F) x1
    ∧ after ops6 W (Proc.devRef .tc main_v50) = val_main_v50 (F := F) x0 x1
    ∧ after ops6 W (Proc.devRef .tc main_v51) = val_main_v51 (F := F) x1 := by
  rw [ops6_plain]
  refine ⟨?_, ?_, ?_⟩
  · after_results_simp; exact h_main_v19
  · after_results_simp; (try simp only [val_main_cst_5, val_main_call0_v0, val_main_call0_v1, val_main_call0_v2, val_main_v50, val_main_cst_6, val_main_call1_v0, val_main_call1_v1, val_main_call1_v2, val_main_v51]); (try simp only [← h_main_v19, ← h_main_v39, ← h_main_v40, ← h_main_v49]); (try rfl)
  · after_results_simp; (try simp only [val_main_cst_5, val_main_call0_v0, val_main_call0_v1, val_main_call0_v2, val_main_v50, val_main_cst_6, val_main_call1_v0, val_main_call1_v1, val_main_call1_v2, val_main_v51]); (try simp only [← h_main_v19, ← h_main_v39, ← h_main_v40, ← h_main_v49]); (try rfl)

/-- Operations 67 … 80 of @main, in order. -/
abbrev ops7 : List (HloOp τ sig (Elt F)) :=
  [ nullary main_cst_7 (constant S_ .f32 0x00000000#32),
    unary main_cst_7 main_v52 (broadcastInDim S8192 ![] bcast_S_S8192 : (⟨S_, .f32⟩ : BufTy).Contents (Elt F) → (⟨S8192, .f32⟩ : BufTy).Contents (Elt F)),
    binary main_v51 main_v52 main_v53 (cmpf .oeq : (⟨S8192, .f32⟩ : BufTy).Contents (Elt F) → (⟨S8192, .f32⟩ : BufTy).Contents (Elt F) → (⟨S8192, .i1⟩ : BufTy).Contents (Elt F)),
    nullary main_c_8 (constantI S_ 1 1#1),
    binary main_v53 main_c_8 main_v54 ((fun x v => Host.reduce IntOp.andi x v reducesTo_S8192_S_d0 h_S_) : (⟨S8192, .i1⟩ : BufTy).Contents (Elt F) → (⟨S_, .i1⟩ : BufTy).Contents (Elt F) → (⟨S_, .i1⟩ : BufTy).Contents (Elt F)),
    nullary main_cst_9 (constant S_ .f32 0x00000000#32),
    unary main_cst_9 main_v55 (broadcastInDim S8192 ![] bcast_S_S8192 : (⟨S_, .f32⟩ : BufTy).Contents (Elt F) → (⟨S8192, .f32⟩ : BufTy).Contents (Elt F)),
    binary main_v51 main_v55 main_v56 (cmpf .oeq : (⟨S8192, .f32⟩ : BufTy).Contents (Elt F) → (⟨S8192, .f32⟩ : BufTy).Contents (Elt F) → (⟨S8192, .i1⟩ : BufTy).Contents (Elt F)),
    nullary main_cst_10 (constant S_ .f32 0x3F800000#32),
    TRef.unary (TRef.of (T := ⟨S_, .f32⟩) main_cst_10) (TRef.of (T := ⟨S_, .f32⟩) main_call2_v0) id,
    TRef.unary (TRef.of (T := ⟨S_, .f32⟩) main_call2_v0) (TRef.of (T := ⟨S8192, .f32⟩) main_call2_v1) (broadcastInDim S8192 ![] bcast_S_S8192),
    TRef.ternary (TRef.of (T := ⟨S8192, .i1⟩) main_v56) (TRef.of (T := ⟨S8192, .f32⟩) main_call2_v1) (TRef.of (T := ⟨S8192, .f32⟩) main_v51) (TRef.of (T := ⟨S8192, .f32⟩) main_v57) select,
    binary main_v50 main_v57 main_v58 (Host.divf : (⟨S8192, .f32⟩ : BufTy).Contents (Elt F) → (⟨S8192, .f32⟩ : BufTy).Contents (Elt F) → (⟨S8192, .f32⟩ : BufTy).Contents (Elt F)),
    TRef.ternary (TRef.of (T := ⟨S_, .i1⟩) main_v54) (TRef.of (T := ⟨S8192, .f32⟩) main_v50) (TRef.of (T := ⟨S8192, .f32⟩) main_v58) (TRef.of (T := ⟨S8192, .f32⟩) main_v59) (fun p a b => select (broadcastInDim S8192 ![] bcast_S_S8192 p) a b) ]

/-- The same operations over the plain builders: an inlined call's typed references are these buffers, the transports identities. -/
abbrev ops7p : List (HloOp τ sig (Elt F)) :=
  [ nullary main_cst_7 (constant S_ .f32 0x00000000#32),
    unary main_cst_7 main_v52 (broadcastInDim S8192 ![] bcast_S_S8192 : (⟨S_, .f32⟩ : BufTy).Contents (Elt F) → (⟨S8192, .f32⟩ : BufTy).Contents (Elt F)),
    binary main_v51 main_v52 main_v53 (cmpf .oeq : (⟨S8192, .f32⟩ : BufTy).Contents (Elt F) → (⟨S8192, .f32⟩ : BufTy).Contents (Elt F) → (⟨S8192, .i1⟩ : BufTy).Contents (Elt F)),
    nullary main_c_8 (constantI S_ 1 1#1),
    binary main_v53 main_c_8 main_v54 ((fun x v => Host.reduce IntOp.andi x v reducesTo_S8192_S_d0 h_S_) : (⟨S8192, .i1⟩ : BufTy).Contents (Elt F) → (⟨S_, .i1⟩ : BufTy).Contents (Elt F) → (⟨S_, .i1⟩ : BufTy).Contents (Elt F)),
    nullary main_cst_9 (constant S_ .f32 0x00000000#32),
    unary main_cst_9 main_v55 (broadcastInDim S8192 ![] bcast_S_S8192 : (⟨S_, .f32⟩ : BufTy).Contents (Elt F) → (⟨S8192, .f32⟩ : BufTy).Contents (Elt F)),
    binary main_v51 main_v55 main_v56 (cmpf .oeq : (⟨S8192, .f32⟩ : BufTy).Contents (Elt F) → (⟨S8192, .f32⟩ : BufTy).Contents (Elt F) → (⟨S8192, .i1⟩ : BufTy).Contents (Elt F)),
    nullary main_cst_10 (constant S_ .f32 0x3F800000#32),
    unary main_cst_10 main_call2_v0 ((id) : (⟨S_, .f32⟩ : BufTy).Contents (Elt F) → (⟨S_, .f32⟩ : BufTy).Contents (Elt F)),
    unary main_call2_v0 main_call2_v1 (((broadcastInDim S8192 ![] bcast_S_S8192)) : (⟨S_, .f32⟩ : BufTy).Contents (Elt F) → (⟨S8192, .f32⟩ : BufTy).Contents (Elt F)),
    ternary main_v56 main_call2_v1 main_v51 main_v57 ((select) : (⟨S8192, .i1⟩ : BufTy).Contents (Elt F) → (⟨S8192, .f32⟩ : BufTy).Contents (Elt F) → (⟨S8192, .f32⟩ : BufTy).Contents (Elt F) → (⟨S8192, .f32⟩ : BufTy).Contents (Elt F)),
    binary main_v50 main_v57 main_v58 (Host.divf : (⟨S8192, .f32⟩ : BufTy).Contents (Elt F) → (⟨S8192, .f32⟩ : BufTy).Contents (Elt F) → (⟨S8192, .f32⟩ : BufTy).Contents (Elt F)),
    ternary main_v54 main_v50 main_v58 main_v59 (((fun p a b => select (broadcastInDim S8192 ![] bcast_S_S8192 p) a b)) : (⟨S_, .i1⟩ : BufTy).Contents (Elt F) → (⟨S8192, .f32⟩ : BufTy).Contents (Elt F) → (⟨S8192, .f32⟩ : BufTy).Contents (Elt F) → (⟨S8192, .f32⟩ : BufTy).Contents (Elt F)) ]
theorem ops7_plain : (ops7 : List (HloOp τ sig (Elt F))) = ops7p := rfl

set_option maxRecDepth 8192 in
/-- After them, from any contents that hold the earlier stages at the buffers read: the stages at the buffers read later. -/
theorem stretch7 (W : Valuation τ sig (Elt F)) (x0 : (⟨S4096x2x128, .f32⟩ : BufTy).Contents (Elt F)) (x1 : (⟨S4096, .i32⟩ : BufTy).Contents (Elt F))
    (h_main_v19 : W (Proc.devRef .tc main_v19) = val_main_v19 (F := F) x1)
    (h_main_v50 : W (Proc.devRef .tc main_v50) = val_main_v50 (F := F) x0 x1)
    (h_main_v51 : W (Proc.devRef .tc main_v51) = val_main_v51 (F := F) x1) :
    after ops7 W (Proc.devRef .tc main_v19) = val_main_v19 (F := F) x1
    ∧ after ops7 W (Proc.devRef .tc main_v59) = val_main_v59 (F := F) x0 x1 := by
  rw [ops7_plain]
  refine ⟨?_, ?_⟩
  · after_results_simp; exact h_main_v19
  · after_results_simp; (try simp only [val_main_cst_7, val_main_v52, val_main_v53, val_main_c_8, val_main_v54, val_main_cst_9, val_main_v55, val_main_v56, val_main_cst_10, val_main_call2_v0, val_main_call2_v1, val_main_v57, val_main_v58, val_main_v59]); (try simp only [← h_main_v19, ← h_main_v50, ← h_main_v51]); (try rfl)

/-- Operations 81 … 95 of @main, in order. -/
abbrev ops8 : List (HloOp τ sig (Elt F)) :=
  [ unary main_v59 main_v60 (broadcastInDim S8192x1 ![0] bcast_S8192_S8192x1_0 : (⟨S8192, .f32⟩ : BufTy).Contents (Elt F) → (⟨S8192x1, .f32⟩ : BufTy).Contents (Elt F)),
    nullary main_cst_11 (constant S_ .f32 0x358637BD#32),
    unary main_cst_11 main_v61 (broadcastInDim S8192x1 ![] bcast_S_S8192x1 : (⟨S_, .f32⟩ : BufTy).Contents (Elt F) → (⟨S8192x1, .f32⟩ : BufTy).Contents (Elt F)),
    binary main_v60 main_v61 main_v62 (addf : (⟨S8192x1, .f32⟩ : BufTy).Contents (Elt F) → (⟨S8192x1, .f32⟩ : BufTy).Contents (Elt F) → (⟨S8192x1, .f32⟩ : BufTy).Contents (Elt F)),
    unary main_v62 main_v63 (Host.log : (⟨S8192x1, .f32⟩ : BufTy).Contents (Elt F) → (⟨S8192x1, .f32⟩ : BufTy).Contents (Elt F)),
    unary main_v63 main_v64 (Host.negf : (⟨S8192x1, .f32⟩ : BufTy).Contents (Elt F) → (⟨S8192x1, .f32⟩ : BufTy).Contents (Elt F)),
    nullary main_cst_12 (constant S_ .f32 0x00000000#32),
    binary main_v19 main_cst_12 main_v65 ((fun x v => Host.reduceAdd x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    nullary main_cst_13 (constant S_ .f32 0x00000000#32),
    unary main_cst_13 main_v66 (broadcastInDim S8192 ![] bcast_S_S8192 : (⟨S_, .f32⟩ : BufTy).Contents (Elt F) → (⟨S8192, .f32⟩ : BufTy).Contents (Elt F)),
    binary main_v65 main_v66 main_v67 (cmpf .oeq : (⟨S8192, .f32⟩ : BufTy).Contents (Elt F) → (⟨S8192, .f32⟩ : BufTy).Contents (Elt F) → (⟨S8192, .i1⟩ : BufTy).Contents (Elt F)),
    nullary main_cst_14 (constant S_ .f32 0x3F800000#32),
    TRef.unary (TRef.of (T := ⟨S_, .f32⟩) main_cst_14) (TRef.of (T := ⟨S_, .f32⟩) main_call4_v0) id,
    TRef.unary (TRef.of (T := ⟨S_, .f32⟩) main_call4_v0) (TRef.of (T := ⟨S8192, .f32⟩) main_call4_v1) (broadcastInDim S8192 ![] bcast_S_S8192),
    TRef.ternary (TRef.of (T := ⟨S8192, .i1⟩) main_v67) (TRef.of (T := ⟨S8192, .f32⟩) main_call4_v1) (TRef.of (T := ⟨S8192, .f32⟩) main_v65) (TRef.of (T := ⟨S8192, .f32⟩) main_v68) select ]

/-- The same operations over the plain builders: an inlined call's typed references are these buffers, the transports identities. -/
abbrev ops8p : List (HloOp τ sig (Elt F)) :=
  [ unary main_v59 main_v60 (broadcastInDim S8192x1 ![0] bcast_S8192_S8192x1_0 : (⟨S8192, .f32⟩ : BufTy).Contents (Elt F) → (⟨S8192x1, .f32⟩ : BufTy).Contents (Elt F)),
    nullary main_cst_11 (constant S_ .f32 0x358637BD#32),
    unary main_cst_11 main_v61 (broadcastInDim S8192x1 ![] bcast_S_S8192x1 : (⟨S_, .f32⟩ : BufTy).Contents (Elt F) → (⟨S8192x1, .f32⟩ : BufTy).Contents (Elt F)),
    binary main_v60 main_v61 main_v62 (addf : (⟨S8192x1, .f32⟩ : BufTy).Contents (Elt F) → (⟨S8192x1, .f32⟩ : BufTy).Contents (Elt F) → (⟨S8192x1, .f32⟩ : BufTy).Contents (Elt F)),
    unary main_v62 main_v63 (Host.log : (⟨S8192x1, .f32⟩ : BufTy).Contents (Elt F) → (⟨S8192x1, .f32⟩ : BufTy).Contents (Elt F)),
    unary main_v63 main_v64 (Host.negf : (⟨S8192x1, .f32⟩ : BufTy).Contents (Elt F) → (⟨S8192x1, .f32⟩ : BufTy).Contents (Elt F)),
    nullary main_cst_12 (constant S_ .f32 0x00000000#32),
    binary main_v19 main_cst_12 main_v65 ((fun x v => Host.reduceAdd x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    nullary main_cst_13 (constant S_ .f32 0x00000000#32),
    unary main_cst_13 main_v66 (broadcastInDim S8192 ![] bcast_S_S8192 : (⟨S_, .f32⟩ : BufTy).Contents (Elt F) → (⟨S8192, .f32⟩ : BufTy).Contents (Elt F)),
    binary main_v65 main_v66 main_v67 (cmpf .oeq : (⟨S8192, .f32⟩ : BufTy).Contents (Elt F) → (⟨S8192, .f32⟩ : BufTy).Contents (Elt F) → (⟨S8192, .i1⟩ : BufTy).Contents (Elt F)),
    nullary main_cst_14 (constant S_ .f32 0x3F800000#32),
    unary main_cst_14 main_call4_v0 ((id) : (⟨S_, .f32⟩ : BufTy).Contents (Elt F) → (⟨S_, .f32⟩ : BufTy).Contents (Elt F)),
    unary main_call4_v0 main_call4_v1 (((broadcastInDim S8192 ![] bcast_S_S8192)) : (⟨S_, .f32⟩ : BufTy).Contents (Elt F) → (⟨S8192, .f32⟩ : BufTy).Contents (Elt F)),
    ternary main_v67 main_call4_v1 main_v65 main_v68 ((select) : (⟨S8192, .i1⟩ : BufTy).Contents (Elt F) → (⟨S8192, .f32⟩ : BufTy).Contents (Elt F) → (⟨S8192, .f32⟩ : BufTy).Contents (Elt F) → (⟨S8192, .f32⟩ : BufTy).Contents (Elt F)) ]
theorem ops8_plain : (ops8 : List (HloOp τ sig (Elt F))) = ops8p := rfl

set_option maxRecDepth 8192 in
/-- After them, from any contents that hold the earlier stages at the buffers read: the stages at the buffers read later. -/
theorem stretch8 (W : Valuation τ sig (Elt F)) (x0 : (⟨S4096x2x128, .f32⟩ : BufTy).Contents (Elt F)) (x1 : (⟨S4096, .i32⟩ : BufTy).Contents (Elt F))
    (h_main_v19 : W (Proc.devRef .tc main_v19) = val_main_v19 (F := F) x1)
    (h_main_v59 : W (Proc.devRef .tc main_v59) = val_main_v59 (F := F) x0 x1) :
    after ops8 W (Proc.devRef .tc main_v19) = val_main_v19 (F := F) x1
    ∧ after ops8 W (Proc.devRef .tc main_v64) = val_main_v64 (F := F) x0 x1
    ∧ after ops8 W (Proc.devRef .tc main_v68) = val_main_v68 (F := F) x1 := by
  rw [ops8_plain]
  refine ⟨?_, ?_, ?_⟩
  · after_results_simp; exact h_main_v19
  · after_results_simp; (try simp only [val_main_v60, val_main_cst_11, val_main_v61, val_main_v62, val_main_v63, val_main_v64, val_main_cst_12, val_main_v65, val_main_cst_13, val_main_v66, val_main_v67, val_main_cst_14, val_main_call4_v0, val_main_call4_v1, val_main_v68]); (try simp only [← h_main_v19, ← h_main_v59]); (try rfl)
  · after_results_simp; (try simp only [val_main_v60, val_main_cst_11, val_main_v61, val_main_v62, val_main_v63, val_main_v64, val_main_cst_12, val_main_v65, val_main_cst_13, val_main_v66, val_main_v67, val_main_cst_14, val_main_call4_v0, val_main_call4_v1, val_main_v68]); (try simp only [← h_main_v19, ← h_main_v59]); (try rfl)

/-- Operations 96 … 105 of @main, in order. -/
abbrev ops9 : List (HloOp τ sig (Elt F)) :=
  [ unary main_v64 main_v69 (broadcastInDim S8192x8192 ![0, 1] bcast_S8192x1_S8192x8192_0_1 : (⟨S8192x1, .f32⟩ : BufTy).Contents (Elt F) → (⟨S8192x8192, .f32⟩ : BufTy).Contents (Elt F)),
    binary main_v19 main_v69 main_v70 (mulf : (⟨S8192x8192, .f32⟩ : BufTy).Contents (Elt F) → (⟨S8192x8192, .f32⟩ : BufTy).Contents (Elt F) → (⟨S8192x8192, .f32⟩ : BufTy).Contents (Elt F)),
    nullary main_cst_15 (constant S_ .f32 0x00000000#32),
    binary main_v70 main_cst_15 main_v71 ((fun x v => Host.reduceAdd x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    unary main_v71 main_v72 (Host.negf : (⟨S8192, .f32⟩ : BufTy).Contents (Elt F) → (⟨S8192, .f32⟩ : BufTy).Contents (Elt F)),
    binary main_v72 main_v68 main_v73 (Host.divf : (⟨S8192, .f32⟩ : BufTy).Contents (Elt F) → (⟨S8192, .f32⟩ : BufTy).Contents (Elt F) → (⟨S8192, .f32⟩ : BufTy).Contents (Elt F)),
    nullary main_cst_16 (constant S_ .f32 0x00000000#32),
    binary main_v73 main_cst_16 main_v74 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)),
    nullary main_cst_17 (constant S_ .f32 0x46000000#32),
    binary main_v74 main_cst_17 main_v75 (Host.divf : (⟨S_, .f32⟩ : BufTy).Contents (Elt F) → (⟨S_, .f32⟩ : BufTy).Contents (Elt F) → (⟨S_, .f32⟩ : BufTy).Contents (Elt F)) ]

set_option maxRecDepth 8192 in
/-- After them, from any contents that hold the earlier stages at the buffers read: the stages at the buffers read later. -/
theorem stretch9 (W : Valuation τ sig (Elt F)) (x0 : (⟨S4096x2x128, .f32⟩ : BufTy).Contents (Elt F)) (x1 : (⟨S4096, .i32⟩ : BufTy).Contents (Elt F))
    (h_main_v19 : W (Proc.devRef .tc main_v19) = val_main_v19 (F := F) x1)
    (h_main_v64 : W (Proc.devRef .tc main_v64) = val_main_v64 (F := F) x0 x1)
    (h_main_v68 : W (Proc.devRef .tc main_v68) = val_main_v68 (F := F) x1) :
    after ops9 W (Proc.devRef .tc main_v75) = val_main_v75 (F := F) x0 x1 := by
  after_results_simp; (try simp only [val_main_v69, val_main_v70, val_main_cst_15, val_main_v71, val_main_v72, val_main_v73, val_main_cst_16, val_main_v74, val_main_cst_17, val_main_v75]); (try simp only [← h_main_v19, ← h_main_v64, ← h_main_v68]); (try rfl)

set_option maxRecDepth 8192 in
/-- The line is its stretches, in order. -/
theorem ops_eq : (ops : List (HloOp τ sig (Elt F))) = ops0 ++ ops1 ++ ops2 ++ ops3 ++ ops4 ++ ops5 ++ ops6 ++ ops7 ++ ops8 ++ ops9 := rfl

set_option maxRecDepth 8192 in
/-- THE RESULT BUFFER AFTER THE LINE, from any contents with the two arguments at `x0`, `x1`: its stage. -/
theorem after_ops_v75 (W : Valuation τ sig (Elt F)) (x0 : (⟨S4096x2x128, .f32⟩ : BufTy).Contents (Elt F)) (x1 : (⟨S4096, .i32⟩ : BufTy).Contents (Elt F))
    (h_main_arg0 : W (Proc.devRef .tc main_arg0) = x0) (h_main_arg1 : W (Proc.devRef .tc main_arg1) = x1) :
    after ops W (Proc.devRef .tc main_v75) = val_main_v75 (F := F) x0 x1 := by
  rw [ops_eq]
  simp only [after_append']
  obtain ⟨h_main_arg1, h_main_v1, h_main_v10⟩ := stretch0 (W) x0 x1 h_main_arg0 h_main_arg1
  obtain ⟨h_main_arg1, h_main_v1, h_main_v19⟩ := stretch1 (after ops0 (W)) x0 x1 h_main_arg1 h_main_v1 h_main_v10
  obtain ⟨h_main_arg1, h_main_v1, h_main_v19, h_main_v28⟩ := stretch2 (after ops1 (after ops0 (W))) x0 x1 h_main_arg1 h_main_v1 h_main_v19
  obtain ⟨h_main_arg1, h_main_v19, h_main_v28, h_main_v33⟩ := stretch3 (after ops2 (after ops1 (after ops0 (W)))) x0 x1 h_main_arg1 h_main_v1 h_main_v19 h_main_v28
  obtain ⟨h_main_arg1, h_main_v19, h_main_v39, h_main_v40⟩ := stretch4 (after ops3 (after ops2 (after ops1 (after ops0 (W))))) x0 x1 h_main_arg1 h_main_v19 h_main_v28 h_main_v33
  obtain ⟨h_main_v19, h_main_v39, h_main_v40, h_main_v49⟩ := stretch5 (after ops4 (after ops3 (after ops2 (after ops1 (after ops0 (W)))))) x0 x1 h_main_arg1 h_main_v19 h_main_v39 h_main_v40
  obtain ⟨h_main_v19, h_main_v50, h_main_v51⟩ := stretch6 (after ops5 (after ops4 (after ops3 (after ops2 (after ops1 (after ops0 (W))))))) x0 x1 h_main_v19 h_main_v39 h_main_v40 h_main_v49
  obtain ⟨h_main_v19, h_main_v59⟩ := stretch7 (after ops6 (after ops5 (after ops4 (after ops3 (after ops2 (after ops1 (after ops0 (W)))))))) x0 x1 h_main_v19 h_main_v50 h_main_v51
  obtain ⟨h_main_v19, h_main_v64, h_main_v68⟩ := stretch8 (after ops7 (after ops6 (after ops5 (after ops4 (after ops3 (after ops2 (after ops1 (after ops0 (W))))))))) x0 x1 h_main_v19 h_main_v59
  exact stretch9 (after ops8 (after ops7 (after ops6 (after ops5 (after ops4 (after ops3 (after ops2 (after ops1 (after ops0 (W)))))))))) x0 x1 h_main_v19 h_main_v64 h_main_v68

set_option maxRecDepth 8192 in
/-- Every weakly fair execution of the reference terminates with the result buffer at its stage of the two arguments' launch contents and
    both argument arrays unchanged. -/
theorem run_val (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v75) = Cert.ReferenceIdeal.Read.val_main_v75 (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v75).trans (after_ops_v75 (launchContents m c) _ _ rfl rfl),
      (h c main_arg0).trans (by after_results_simp <;> rfl),
      (h c main_arg1).trans (by after_results_simp <;> rfl)⟩)
    (run_seq scopedRefs_eq scopedSems_eq defs main (fun _ => ops) main_eq (fun _ => ops_sub) m ρ)

end Cert.ReferenceIdeal.RefFrame

end
-- ==== Proof.Algebraic.lean ====
/-
  The two idealized programs end with the same result.

  The kernel program's result is the host tail's value of its two output arrays; the outputs are each row's sum of shifted
  exponentials and count of differing labels over all 8192 columns (the accumulators point by point, the running-maximum law);
  so the result is the mean over the rows of the tail's row value at the two totals and the row's count. The reference's result
  is the mean of its own row value — a masked sum of the logarithm over the row, divided by the mask's row sum — at the same two
  totals, and the two row values agree: the mask's row sum is 8191 minus the count, a row has a differing label exactly when its
  count is positive, the totals are finite, and a real number times a 0/1 mask sums to the number times the mask's sum. Both
  programs see the same stacked matrix and repeated labels; finiteness of the features is the precondition.
-/
import proofs.«127721_j16621523436335_1_alg».proof.Defs
import proofs.«127721_j16621523436335_1_alg».proof.Proof.KFrame
import proofs.«127721_j16621523436335_1_alg».proof.Proof.KRunClose
import proofs.«127721_j16621523436335_1_alg».proof.Proof.KTailRead
import proofs.«127721_j16621523436335_1_alg».proof.Proof.VLink
import proofs.«127721_j16621523436335_1_alg».proof.Proof.VBridge
import proofs.«127721_j16621523436335_1_alg».proof.Proof.RTail
import proofs.«127721_j16621523436335_1_alg».proof.Proof.ReferenceValue
import proofs.«127721_j16621523436335_1_alg».proof.Proof.Gen.Pre_finite_inputs

set_option maxRecDepth 16384
noncomputable section
namespace Cert.Proof.Alg
open Idealize.ShloMosaic Idealize.ShloMosaic.TcCoe Idealize.ShloMosaic.ValueIdx Idealize.SL.Sem

variable (m : (ℓ : Loc Cert.KernelIdeal.nD Cert.KernelIdeal.τ Cert.KernelIdeal.sig) → Buf (Elt Ideal) ℓ) (c : Dev Cert.KernelIdeal.nD)

abbrev x0 := m ((c.tc : Thread Cert.KernelIdeal.nD Cert.KernelIdeal.τ).loc Cert.KernelIdeal.main_arg0)
abbrev x1 := m ((c.tc : Thread Cert.KernelIdeal.nD Cert.KernelIdeal.τ).loc Cert.KernelIdeal.main_arg1)

/-- The kernel's result, read: the mean over the rows of the tail's row value at the totals and the row's count. -/
theorem kernel_value [Cert.Pre_finite_inputs.Facts]
    (hpre : Cert.Pre_finite_inputs.fn (F := Ideal) (x0 m c) (x1 m c) = fun _ => 1#1) (j : Cert.KernelIdeal.S_.Idx) :
    Cert.KernelIdeal.Hand.kTail (F := Ideal) ((Cert.KernelIdeal.Hand.dats m 0 c).arrAt 4 Cert.KernelIdeal.cfg0.N)
        ((Cert.KernelIdeal.Hand.dats m 0 c).arrAt 5 Cert.KernelIdeal.cfg0.N) j
      = Ideal.div (∑ k : Fin 8192, LossSpec.kTailRow
          (∑ i : Fin 8192, LossSpec.rowSum (Cert.ReferenceIdeal.RefValue.Xr (x0 m c)) (Cert.ReferenceIdeal.RefValue.Lr (x1 m c)) i)
          (∑ i : Fin 8192, LossSpec.rowCnt (Cert.ReferenceIdeal.RefValue.Lr (x1 m c)) i)
          (LossSpec.rowCnt (Cert.ReferenceIdeal.RefValue.Lr (x1 m c)) k)) 8192 := by
  have hX := Link.Xk_real m c hpre
  rw [Cert.KernelIdeal.Hand.kTail_read]
  simp only [Cert.KernelIdeal.Hand.out_sum m Link.stepLaws c hX, Cert.KernelIdeal.Hand.out_cnt m Link.stepLaws c hX]
  rw [Link.Xk_eq_Xr, Link.Lk_eq_Lr]

/-- Under the precondition the reference's stacked matrix has real entries, so the total of the row sums is a non-negative real. -/
theorem Xr_real [Cert.Pre_finite_inputs.Facts]
    (hpre : Cert.Pre_finite_inputs.fn (F := Ideal) (x0 m c) (x1 m c) = fun _ => 1#1) (R : Fin 8192) (k : Fin 128) :
    ∃ x : ℝ, Cert.ReferenceIdeal.RefValue.Xr (x0 m c) R k = (x : EReal) := by
  have h := Link.Xk_real m c hpre R k
  rw [Link.Xk_eq_Xr] at h
  exact h

theorem S_real [Cert.Pre_finite_inputs.Facts]
    (hpre : Cert.Pre_finite_inputs.fn (F := Ideal) (x0 m c) (x1 m c) = fun _ => 1#1) :
    ∃ s : ℝ, 0 ≤ s ∧ (∑ i : Fin 8192, LossSpec.rowSum (Cert.ReferenceIdeal.RefValue.Xr (x0 m c)) (Cert.ReferenceIdeal.RefValue.Lr (x1 m c)) i) = (s : EReal) :=
  LossSpec.total_real _ fun i => LossSpec.rowSum_real _ _ i fun j => LossSpec.score_real _ _ (Xr_real m c hpre) i j

/-- The reference's result, read: the same mean of the same row values. -/
theorem reference_value [Cert.Pre_finite_inputs.Facts]
    (hpre : Cert.Pre_finite_inputs.fn (F := Ideal) (x0 m c) (x1 m c) = fun _ => 1#1) (j : Cert.ReferenceIdeal.S_.Idx) :
    Cert.ReferenceIdeal.Read.val_main_v75 (F := Ideal) (x0 m c) (x1 m c) j
      = Ideal.div (∑ k : Fin 8192, LossSpec.kTailRow
          (∑ i : Fin 8192, LossSpec.rowSum (Cert.ReferenceIdeal.RefValue.Xr (x0 m c)) (Cert.ReferenceIdeal.RefValue.Lr (x1 m c)) i)
          (∑ i : Fin 8192, LossSpec.rowCnt (Cert.ReferenceIdeal.RefValue.Lr (x1 m c)) i)
          (LossSpec.rowCnt (Cert.ReferenceIdeal.RefValue.Lr (x1 m c)) k)) 8192 := by
  rw [eq_ix0 j, Cert.ReferenceIdeal.RefValue.tail_apply,
    show Cert.ReferenceIdeal.RefValue.Stot (x0 m c) (x1 m c) = _ from Cert.ReferenceIdeal.RefValue.S_apply _ _,
    show Cert.ReferenceIdeal.RefValue.Ntot (x1 m c) = _ from Cert.ReferenceIdeal.RefValue.N_apply _]
  congr 1
  · exact Finset.sum_congr rfl fun k _ =>
      LossSpec.tail_bridge _ _ (Cert.ReferenceIdeal.RefValue.Lr_eq (x1 m c)) _ _ (S_real m c hpre) rfl k

/-- Both programs, from memories agreeing on the arguments, end with the same result. -/
theorem algebraic : Cert.algebraic_KernelIdeal_ReferenceIdeal := by
  intro m ρ m' ρ' hpre hagree
  refine ⟨fun c => Cert.KernelIdeal.Hand.kTail (F := Ideal) ((Cert.KernelIdeal.Hand.dats m 0 c).arrAt 4 Cert.KernelIdeal.cfg0.N)
      ((Cert.KernelIdeal.Hand.dats m 0 c).arrAt 5 Cert.KernelIdeal.cfg0.N), ?_, ?_⟩
  · exact (θ_run Cert.KernelIdeal.defs _ _).mono (fun _ h c => ⟨(h c).1.trans (Cert.KernelIdeal.Hand.U13_main_v33 m c), (h c).2⟩)
      (Cert.KernelIdeal.Hand.run_main (F := Ideal) m Cert.KernelIdeal.Hand.run_first Cert.KernelIdeal.Hand.run_mid Cert.KernelIdeal.Hand.run_last ρ)
  · refine (θ_run Cert.ReferenceIdeal.defs _ _).mono (fun _ h c => ⟨(h c).1.trans ?_, (h c).2⟩) (Cert.ReferenceIdeal.RefFrame.run_val (F := Ideal) m' ρ')
    rw [(hagree c).1, (hagree c).2]
    funext j
    exact (reference_value m c (hpre c) j).trans (kernel_value m c (hpre c) j).symm

end Cert.Proof.Alg
end
-- ==== Proof.lean ====
/-
  The claim for the contrastive exp-sum loss kernel against its jnp reference.

  Both programs compute, from features [4096, 2, 128] and labels [4096], with cf the [8192, 128] matrix of the two views stacked,
  lab the labels repeated twice, d_ij = 1 when lab_i ≠ lab_j and 0 otherwise, and dm_ij = (cf_i · cf_j) · c · d_ij:
    S = Σ_i Σ_j exp (dm_ij − max_j dm_ij),   N = Σ_i Σ_j d_ij,   n_i = Σ_j d_ij,
    x_i = S / N when n_i > 0 (and N ≠ 0), else 0,   the result the mean over i of (log (x_i + ε) when 8191 − n_i ≠ 0, else 0).
  The scale c is the reciprocal of the reference's temperature word: the reference divides by it, the kernel multiplies by the
  constant named "inv_temp", which the certificate's table reads as exactly that reciprocal (the one ledger entry of `preserves`).
  The kernel tiles the pairs 1024 × 1024 and reaches each row's Σ_j exp (dm_ij − max_j dm_ij) by the running-maximum form
  (Proof/LibOnlineSoftmax.lean); the reference takes the row maximum first.
-/
import proofs.«127721_j16621523436335_1_alg».proof.Defs
import proofs.«127721_j16621523436335_1_alg».proof.Proof.Gen.Kernel
import proofs.«127721_j16621523436335_1_alg».proof.Proof.Gen.Kernel.Skeleton
import proofs.«127721_j16621523436335_1_alg».proof.Proof.Gen.Kernel.Launch
import proofs.«127721_j16621523436335_1_alg».proof.Proof.Gen.Kernel.Points
import proofs.«127721_j16621523436335_1_alg».proof.Proof.Gen.KernelIdeal
import proofs.«127721_j16621523436335_1_alg».proof.Proof.Gen.KernelIdeal.Skeleton
import proofs.«127721_j16621523436335_1_alg».proof.Proof.Gen.KernelIdeal.Launch
import proofs.«127721_j16621523436335_1_alg».proof.Proof.Gen.KernelIdeal.Points
import proofs.«127721_j16621523436335_1_alg».proof.Proof.Gen.ReferenceIdeal
import proofs.«127721_j16621523436335_1_alg».proof.Proof.Gen.Pre_finite_inputs
import proofs.«127721_j16621523436335_1_alg».proof.Proof.ReferenceFrame
import proofs.«127721_j16621523436335_1_alg».proof.Proof.LibOnlineSoftmax
import proofs.«127721_j16621523436335_1_alg».proof.Proof.KFrame
import proofs.«127721_j16621523436335_1_alg».proof.Proof.KRunClose
import proofs.«127721_j16621523436335_1_alg».proof.Proof.BFrame
import proofs.«127721_j16621523436335_1_alg».proof.Proof.BRunClose
import proofs.«127721_j16621523436335_1_alg».proof.Proof.Algebraic
import Idealize.ShloMosaic.Adequacy
import Idealize.ShloMosaic.Init

noncomputable section

namespace Cert.Proof

open Idealize.ShloMosaic Idealize.ShloMosaic.TcCoe Idealize.SL.Sem

/-- The reference has no kernel: its frame is its run with the result dropped. -/
theorem frame_ri : Cert.frame_ReferenceIdeal := fun m ρ _ => Cert.ReferenceIdeal.RefFrame.run_args (F := Ideal) m ρ

/-- The ledger's one entry: the table gives "inv_temp" the reciprocal of the reference's temperature word, 268435456 / 13421773. -/
theorem preserves : Cert.preserves_Kernel_KernelIdeal :=
  IdealRules.named_const.statement Cert.KernelIdeal.κ "inv_temp" .f32 0x41A00000#32 ((268435456 / 13421773 : ℝ) : EReal) rfl

/-- The kernel program at the word level: its run over the region's proof data (the three accumulators point by point, the shared
    feature array held by halves by its two windows), with the result's clause dropped. -/
theorem frame_k : Cert.frame_Kernel := fun m ρ _ =>
  (θ_run Cert.Kernel.defs _ _).mono (fun _ h c => (h c).2)
    (Cert.Kernel.Hand.run_main (F := Bits) m Cert.Kernel.Hand.run_first Cert.Kernel.Hand.run_mid Cert.Kernel.Hand.run_last ρ)

/-- The same run of the idealized kernel program, read at the extended reals. -/
theorem frame_ki : Cert.frame_KernelIdeal := fun m ρ _ =>
  (θ_run Cert.KernelIdeal.defs _ _).mono (fun _ h c => (h c).2)
    (Cert.KernelIdeal.Hand.run_main (F := Ideal) m Cert.KernelIdeal.Hand.run_first Cert.KernelIdeal.Hand.run_mid Cert.KernelIdeal.Hand.run_last ρ)

/-- At the extended reals both programs end at the mean over the rows of one row value at the same two totals
    (Proof/Algebraic.lean). -/
theorem algebraic : Cert.algebraic_KernelIdeal_ReferenceIdeal := Cert.Proof.Alg.algebraic

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
